-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x200000 : Shape := ⟨2, ![2, 200000]⟩
abbrev S200000 : Shape := ⟨1, ![200000]⟩
abbrev S4x128x128 : Shape := ⟨3, ![4, 128, 128]⟩
abbrev S128 : Shape := ⟨1, ![128]⟩
abbrev S_ : Shape := ⟨0, ![]⟩

class Facts : Prop where
  bcast_S_S200000 : S_.BroadcastsInDim S200000 (![] : Fin 0 → Fin S200000.rank)
  reducesTo_S200000_S_d0 : S200000.ReducesTo [0] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S4x128x128 .f32) (main_arg8 : FVec F S128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S4x128x128 .f32 := Host.absf main_arg7
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : IVec S2x200000 32) (main_arg1 : IVec S200000 32) (main_arg2 : FVec F S200000 .f32) (main_arg3 : FVec F S4x128x128 .f32) (main_arg4 : FVec F S128 .f32) (main_arg5 : FVec F S4x128x128 .f32) (main_arg6 : FVec F S128 .f32) (main_arg7 : FVec F S4x128x128 .f32) (main_arg8 : FVec F S128 .f32) : IVec S_ 1 :=
  let main_v0 : FVec F S200000 .f32 := Host.absf main_arg2
  let main_cst : FVec F S_ .f32 := constant S_ .f32 0x7F800000#32
  let main_v1 : FVec F S200000 .f32 := broadcastInDim S200000 ![] bcast_S_S200000 main_cst
  let main_v2 : IVec S200000 1 := cmpf .olt main_v0 main_v1
  let main_c : IVec S_ 1 := constantI S_ 1 1#1
  let main_v3 : IVec S_ 1 := (fun x v => Host.reduce IntOp.andi x v reducesTo_S200000_S_d0 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_v13 main_v16
-- ==== Kernel.lean ====
abbrev S2x200000 : Shape := ⟨2, ![2, 200000]⟩
abbrev S200000 : Shape := ⟨1, ![200000]⟩
abbrev S4x128x128 : Shape := ⟨3, ![4, 128, 128]⟩
abbrev S128 : Shape := ⟨1, ![128]⟩
abbrev S1x200000 : Shape := ⟨2, ![1, 200000]⟩
abbrev S_ : Shape := ⟨0, ![]⟩
abbrev S200000x1 : Shape := ⟨2, ![200000, 1]⟩
abbrev S4 : Shape := ⟨1, ![4]⟩
abbrev S1x4 : Shape := ⟨2, ![1, 4]⟩
abbrev S200000x4 : Shape := ⟨2, ![200000, 4]⟩
abbrev S200704 : Shape := ⟨1, ![200704]⟩
abbrev S200704x4 : Shape := ⟨2, ![200704, 4]⟩
abbrev S200000x128 : Shape := ⟨2, ![200000, 128]⟩
abbrev S200704x1 : Shape := ⟨2, ![200704, 1]⟩
abbrev S200704x128 : Shape := ⟨2, ![200704, 128]⟩
abbrev S4096x128 : Shape := ⟨2, ![4096, 128]⟩
abbrev S4096x4 : Shape := ⟨2, ![4096, 4]⟩
abbrev S1x128x128 : Shape := ⟨3, ![1, 128, 128]⟩
abbrev S128x128 : Shape := ⟨2, ![128, 128]⟩
abbrev S4096x1 : Shape := ⟨2, ![4096, 1]⟩
abbrev S1x128 : Shape := ⟨2, ![1, 128]⟩

abbrev nBuf : Space → Nat
  | .hbm => 169
  | .vmem => 21
  | .smem => 0
  | _ => 0

abbrev hbmTy0_0 (i : Nat) : BufTy := match i % 128 with
  | 0 => ⟨S2x200000, .i32⟩
  | 1 => ⟨S200000, .i32⟩
  | 2 => ⟨S200000, .f32⟩
  | 3 => ⟨S4x128x128, .f32⟩
  | 4 => ⟨S128, .f32⟩
  | 5 => ⟨S4x128x128, .f32⟩
  | 6 => ⟨S128, .f32⟩
  | 7 => ⟨S4x128x128, .f32⟩
  | 8 => ⟨S128, .f32⟩
  | 9 => ⟨S1x200000, .i32⟩
  | 10 => ⟨S200000, .i32⟩
  | 11 => ⟨S1x200000, .i32⟩
  | 12 => ⟨S200000, .i32⟩
  | 13 => ⟨S_, .f32⟩
  | 14 => ⟨S200000, .f32⟩
  | 15 => ⟨S_, .f32⟩
  | 16 => ⟨S200000, .f32⟩
  | 17 => ⟨S200000x1, .i32⟩
  | 18 => ⟨S200000, .f32⟩
  | 19 => ⟨S_, .f32⟩
  | 20 => ⟨S200000, .f32⟩
  | 21 => ⟨S200000, .i1⟩
  | 22 => ⟨S_, .f32⟩
  | 23 => ⟨S200000, .f32⟩
  | 24 => ⟨S200000, .i1⟩
  | 25 => ⟨S_, .f32⟩
  | 26 => ⟨S_, .f32⟩
  | 27 => ⟨S200000, .f32⟩
  | 28 => ⟨S200000, .f32⟩
  | 29 => ⟨S200000, .f32⟩
  | 30 => ⟨S_, .f32⟩
  | 31 => ⟨S_, .f32⟩
  | 32 => ⟨S200000, .f32⟩
  | 33 => ⟨S200000, .f32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S200000, .f32⟩
  | 43 => ⟨S_, .i32⟩
  | 44 => ⟨S200000, .i32⟩
  | 45 => ⟨S200000, .i1⟩
  | 46 => ⟨S_, .i32⟩
  | 47 => ⟨S200000, .i32⟩
  | 48 => ⟨S200000, .i32⟩
  | 49 => ⟨S200000, .i32⟩
  | 50 => ⟨S200000x1, .i32⟩
  | 51 => ⟨S200000, .f32⟩
  | 52 => ⟨S200000, .f32⟩
  | 53 => ⟨S200000, .f32⟩
  | 54 => ⟨S4, .i32⟩
  | 55 => ⟨S200000x1, .i32⟩
  | 56 => ⟨S1x4, .i32⟩
  | 57 => ⟨S200000x4, .i32⟩
  | 58 => ⟨S200000x4, .i32⟩
  | 59 => ⟨S200000x4, .i1⟩
  | 60 => ⟨S200000x1, .f32⟩
  | 61 => ⟨S_, .f32⟩
  | 62 => ⟨S_, .f32⟩
  | 63 => ⟨S200000x4, .f32⟩
  | 64 => ⟨S200000x4, .f32⟩
  | 65 => ⟨S200000x4, .f32⟩
  | 66 => ⟨S_, .i32⟩
  | 67 => ⟨S_, .i32⟩
  | 68 => ⟨S200704, .i32⟩
  | 69 => ⟨S_, .i32⟩
  | 70 => ⟨S_, .i32⟩
  | 71 => ⟨S200704, .i32⟩
  | 72 => ⟨S_, .i32⟩
  | 73 => ⟨S_, .f32⟩
  | 74 => ⟨S200704x4, .f32⟩
  | 75 => ⟨S4x128x128, .bf16⟩
  | 76 => ⟨S4x128x128, .bf16⟩
  | 77 => ⟨S4x128x128, .bf16⟩
  | 78 => ⟨S_, .f32⟩
  | 79 => ⟨S200000x128, .f32⟩
  | 80 => ⟨S_, .bf16⟩
  | 81 => ⟨S200000x128, .bf16⟩
  | 82 => ⟨S_, .i32⟩
  | 83 => ⟨S200704, .i32⟩
  | 84 => ⟨S200704, .i1⟩
  | 85 => ⟨S_, .i32⟩
  | 86 => ⟨S200704, .i32⟩
  | 87 => ⟨S200704, .i32⟩
  | 88 => ⟨S200704, .i32⟩
  | 89 => ⟨S200704x1, .i32⟩
  | 90 => ⟨S200704x128, .bf16⟩
  | 91 => ⟨S200704x128, .bf16⟩
  | 92 => ⟨S200704x128, .f32⟩
  | 93 => ⟨S_, .f32⟩
  | 94 => ⟨S200000x128, .f32⟩
  | 95 => ⟨S200704x1, .i32⟩
  | 96 => ⟨S200000x128, .f32⟩
  | 97 => ⟨S1x128, .f32⟩
  | 98 => ⟨S200000x128, .f32⟩
  | 99 => ⟨S200000x128, .f32⟩
  | 100 => ⟨S_, .f32⟩
  | 101 => ⟨S_, .f32⟩
  | 102 => ⟨S200000x128, .f32⟩
  | 103 => ⟨S200000x128, .i1⟩
  | 104 => ⟨S_, .f32⟩
  | 105 => ⟨S200000x128, .f32⟩
  | 106 => ⟨S200000x128, .f32⟩
  | 107 => ⟨S200000x128, .f32⟩
  | 108 => ⟨S200000x128, .bf16⟩
  | 109 => ⟨S_, .i32⟩
  | 110 => ⟨S200704, .i32⟩
  | 111 => ⟨S200704, .i1⟩
  | 112 => ⟨S_, .i32⟩
  | 113 => ⟨S200704, .i32⟩
  | 114 => ⟨S200704, .i32⟩
  | 115 => ⟨S200704, .i32⟩
  | 116 => ⟨S200704x1, .i32⟩
  | 117 => ⟨S200704x128, .bf16⟩
  | 118 => ⟨S200704x128, .bf16⟩
  | 119 => ⟨S200704x128, .f32⟩
  | 120 => ⟨S_, .f32⟩
  | 121 => ⟨S200000x128, .f32⟩
  | 122 => ⟨S200704x1, .i32⟩
  | 123 => ⟨S200000x128, .f32⟩
  | 124 => ⟨S1x128, .f32⟩
  | 125 => ⟨S200000x128, .f32⟩
  | 126 => ⟨S200000x128, .f32⟩
  | 127 => ⟨S_, .f32⟩
  | _ => ⟨S2x200000, .i32⟩

abbrev hbmTy0_1 (i : Nat) : BufTy := match i % 128 with
  | 0 => ⟨S_, .f32⟩
  | 1 => ⟨S200000x128, .f32⟩
  | 2 => ⟨S200000x128, .i1⟩
  | 3 => ⟨S_, .f32⟩
  | 4 => ⟨S200000x128, .f32⟩
  | 5 => ⟨S200000x128, .f32⟩
  | 6 => ⟨S200000x128, .f32⟩
  | 7 => ⟨S200000x128, .bf16⟩
  | 8 => ⟨S_, .i32⟩
  | 9 => ⟨S200704, .i32⟩
  | 10 => ⟨S200704, .i1⟩
  | 11 => ⟨S_, .i32⟩
  | 12 => ⟨S200704, .i32⟩
  | 13 => ⟨S200704, .i32⟩
  | 14 => ⟨S200704, .i32⟩
  | 15 => ⟨S200704x1, .i32⟩
  | 16 => ⟨S200704x128, .bf16⟩
  | 17 => ⟨S200704x128, .bf16⟩
  | 18 => ⟨S200704x128, .f32⟩
  | 19 => ⟨S_, .f32⟩
  | 20 => ⟨S200000x128, .f32⟩
  | 21 => ⟨S200704x1, .i32⟩
  | 22 => ⟨S200000x128, .f32⟩
  | 23 => ⟨S1x128, .f32⟩
  | 24 => ⟨S200000x128, .f32⟩
  | 25 => ⟨S200000x128, .f32⟩
  | 26 => ⟨S_, .f32⟩
  | 27 => ⟨S_, .f32⟩
  | 28 => ⟨S200000x128, .f32⟩
  | 29 => ⟨S200000x128, .i1⟩
  | 30 => ⟨S_, .f32⟩
  | 31 => ⟨S200000x128, .f32⟩
  | 32 => ⟨S200000x128, .f32⟩
  | 33 => ⟨S200000x128, .f32⟩
  | 34 => ⟨S200000x128, .bf16⟩
  | 35 => ⟨S200000x128, .f32⟩
  | 36 => ⟨S200000x128, .f32⟩
  | 37 => ⟨S200000x128, .f32⟩
  | 38 => ⟨S_, .f32⟩
  | 39 => ⟨S200000x128, .f32⟩
  | 40 => ⟨S200000x128, .f32⟩
  | _ => ⟨S2x200000, .i32⟩

abbrev hbmTy (i : Nat) : BufTy := match i / 128 with
  | 0 => hbmTy0_0 i
  | 1 => hbmTy0_1 i
  | _ => ⟨S2x200000, .i32⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S4096x4, .f32⟩
  | .local _ .vmem, ⟨3, _⟩ => ⟨S4096x4, .f32⟩
  | .local _ .vmem, ⟨4, _⟩ => ⟨S4x128x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x4, .f32⟩
  | .local _ .vmem, ⟨10, _⟩ => ⟨S4096x4, .f32⟩
  | .local _ .vmem, ⟨11, _⟩ => ⟨S4x128x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x4, .f32⟩
  | .local _ .vmem, ⟨17, _⟩ => ⟨S4096x4, .f32⟩
  | .local _ .vmem, ⟨18, _⟩ => ⟨S4x128x128, .bf16⟩
  | .local _ .vmem, ⟨19, _⟩ => ⟨S4096x128, .bf16⟩
  | .local _ .vmem, ⟨20, _⟩ => ⟨S4096x128, .bf16⟩
  | _, _ => ⟨S2x200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_v23 : Ref sig .tc := ⟨.hbm, 45, rfl⟩
abbrev main_c_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v38 : Ref sig .tc := ⟨.hbm, 65, rfl⟩
abbrev main_c_9 : Ref sig .tc := ⟨.hbm, 66, rfl⟩
abbrev main_call3_v0 : Ref sig .tc := ⟨.hbm, 67, rfl⟩
abbrev main_v39 : Ref sig .tc := ⟨.hbm, 68, rfl⟩
abbrev main_c_10 : Ref sig .tc := ⟨.hbm, 69, rfl⟩
abbrev main_call4_v0 : Ref sig .tc := ⟨.hbm, 70, rfl⟩
abbrev main_v40 : Ref sig .tc := ⟨.hbm, 71, rfl⟩
abbrev main_c_11 : Ref sig .tc := ⟨.hbm, 72, rfl⟩
abbrev main_call5_v0 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_12 : Ref sig .tc := ⟨.hbm, 78, rfl⟩
abbrev main_v45 : Ref sig .tc := ⟨.hbm, 79, rfl⟩
abbrev main_cst_13 : Ref sig .tc := ⟨.hbm, 80, rfl⟩
abbrev main_v46 : Ref sig .tc := ⟨.hbm, 81, rfl⟩
abbrev main_c_14 : Ref sig .tc := ⟨.hbm, 82, rfl⟩
abbrev main_v47 : Ref sig .tc := ⟨.hbm, 83, rfl⟩
abbrev main_v48 : Ref sig .tc := ⟨.hbm, 84, rfl⟩
abbrev main_c_15 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_16 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_17 : Ref sig .tc := ⟨.hbm, 100, rfl⟩
abbrev main_call6_cst : Ref sig .tc := ⟨.hbm, 101, rfl⟩
abbrev main_call6_v0 : Ref sig .tc := ⟨.hbm, 102, rfl⟩
abbrev main_call6_v1 : Ref sig .tc := ⟨.hbm, 103, rfl⟩
abbrev main_call6_v2 : Ref sig .tc := ⟨.hbm, 104, rfl⟩
abbrev main_call6_v3 : Ref sig .tc := ⟨.hbm, 105, rfl⟩
abbrev main_call6_v4 : Ref sig .tc := ⟨.hbm, 106, rfl⟩
abbrev main_v62 : Ref sig .tc := ⟨.hbm, 107, rfl⟩
abbrev main_v63 : Ref sig .tc := ⟨.hbm, 108, rfl⟩
abbrev main_c_18 : Ref sig .tc := ⟨.hbm, 109, rfl⟩
abbrev main_v64 : Ref sig .tc := ⟨.hbm, 110, rfl⟩
abbrev main_v65 : Ref sig .tc := ⟨.hbm, 111, rfl⟩
abbrev main_c_19 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_20 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_21 : Ref sig .tc := ⟨.hbm, 127, rfl⟩
abbrev main_call7_cst : Ref sig .tc := ⟨.hbm, 128, rfl⟩
abbrev main_call7_v0 : Ref sig .tc := ⟨.hbm, 129, rfl⟩
abbrev main_call7_v1 : Ref sig .tc := ⟨.hbm, 130, rfl⟩
abbrev main_call7_v2 : Ref sig .tc := ⟨.hbm, 131, rfl⟩
abbrev main_call7_v3 : Ref sig .tc := ⟨.hbm, 132, rfl⟩
abbrev main_call7_v4 : Ref sig .tc := ⟨.hbm, 133, rfl⟩
abbrev main_v79 : Ref sig .tc := ⟨.hbm, 134, rfl⟩
abbrev main_v80 : Ref sig .tc := ⟨.hbm, 135, rfl⟩
abbrev main_c_22 : Ref sig .tc := ⟨.hbm, 136, rfl⟩
abbrev main_v81 : Ref sig .tc := ⟨.hbm, 137, rfl⟩
abbrev main_v82 : Ref sig .tc := ⟨.hbm, 138, rfl⟩
abbrev main_c_23 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_24 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_cst_25 : Ref sig .tc := ⟨.hbm, 154, rfl⟩
abbrev main_call8_cst : Ref sig .tc := ⟨.hbm, 155, rfl⟩
abbrev main_call8_v0 : Ref sig .tc := ⟨.hbm, 156, rfl⟩
abbrev main_call8_v1 : Ref sig .tc := ⟨.hbm, 157, rfl⟩
abbrev main_call8_v2 : Ref sig .tc := ⟨.hbm, 158, rfl⟩
abbrev main_call8_v3 : Ref sig .tc := ⟨.hbm, 159, rfl⟩
abbrev main_call8_v4 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_cst_26 : Ref sig .tc := ⟨.hbm, 166, rfl⟩
abbrev main_v101 : Ref sig .tc := ⟨.hbm, 167, rfl⟩
abbrev main_v102 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S4_S1x4_1 : S4.BroadcastsInDim S1x4 (![1] : Fin 1 → Fin S1x4.rank)
  bcast_S200000x1_S200000x4_0_1 : S200000x1.BroadcastsInDim S200000x4 (![0, 1] : Fin 2 → Fin S200000x4.rank)
  bcast_S1x4_S200000x4_0_1 : S1x4.BroadcastsInDim S200000x4 (![0, 1] : Fin 2 → Fin S200000x4.rank)
  bcast_S_S200000x4 : S_.BroadcastsInDim S200000x4 (![] : Fin 0 → Fin S200000x4.rank)
  pads_S200000_S200704_07040 : S200000.Pads (![0] : Fin 1 → Nat) ![704] ![0] S200704
  h_S_ : 0 < S_.numel
  pads_S200000x4_S200704x4_07040_000 : S200000x4.Pads (![0, 0] : Fin 2 → Nat) ![704, 0] ![0, 0] S200704x4
  bitsLt_bf16_f32 : FTy.bits .bf16 < FTy.bits .f32
  bcast_S_S200000x128 : S_.BroadcastsInDim S200000x128 (![] : Fin 0 → Fin S200000x128.rank)
  bcast_S_S200704 : S_.BroadcastsInDim S200704 (![] : Fin 0 → Fin S200704.rank)
  bcast_S200704_S200704x1_0 : S200704.BroadcastsInDim S200704x1 (![0] : Fin 1 → Fin S200704x1.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4096x4_S4096x1_0_0 : ∀ a, (![0, 0] : Fin 2 → Nat) a + S4096x1.size a ≤ S4096x4.size a
  h_S4096x1 : 0 < S4096x1.numel
  shapeCasts_S4096x1_S4096x1 : S4096x1.ShapeCasts S4096x1
  broadcasts_S4096x1_S4096x128 : S4096x1.Broadcasts S4096x128
  inb_S4x128x128_S1x128x128_1_0_0 : ∀ a, (![1, 0, 0] : Fin 3 → Nat) a + S1x128x128.size a ≤ S4x128x128.size a
  inb_S4096x4_S4096x1_0_1 : ∀ a, (![0, 1] : Fin 2 → Nat) a + S4096x1.size a ≤ S4096x4.size a
  inb_S4x128x128_S1x128x128_2_0_0 : ∀ a, (![2, 0, 0] : Fin 3 → Nat) a + S1x128x128.size a ≤ S4x128x128.size a
  inb_S4096x4_S4096x1_0_2 : ∀ a, (![0, 2] : Fin 2 → Nat) a + S4096x1.size a ≤ S4096x4.size a
  inb_S4x128x128_S1x128x128_3_0_0 : ∀ a, (![3, 0, 0] : Fin 3 → Nat) a + S1x128x128.size a ≤ S4x128x128.size a
  inb_S4096x4_S4096x1_0_3 : ∀ a, (![0, 3] : Fin 2 → Nat) a + S4096x1.size a ≤ S4096x4.size a
  packedbf16_S4096x128_S4096x128_0_0 : (Rect.unit (s := S4096x128) ![0, 0] S4096x128.size inb_S4096x128_S4096x128_0_0).PackedRows (EltTy.packing .bf16)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  scatter_S200000_S200000x1_S200000_n_0_0_1_wf : ScatterDims.WF S200000 S200000x1 S200000 [] [0] [0] 1
  gather_S200000_S200000x1_S200000_n_0_n_n_0_1_1_wf : GatherDims.WF S200000 S200000x1 S200000 [] [0] [] [0] [] 1 ![1]
  gather_S200000x128_S200704x1_S200704x128_1_0_n_n_0_1_1128_wf : GatherDims.WF S200000x128 S200704x1 S200704x128 [1] [0] [] [0] [] 1 ![1, 128]
  dot_S4096x128_S128x128_S4096x128_1_0_0_1_n_n_wf : DotDims.WF S4096x128 S128x128 S4096x128 [1] [0] [0] [1] [] []
  scatter_S200000x128_S200704x1_S200704x128_1_0_0_1_wf : ScatterDims.WF S200000x128 S200704x1 S200704x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S200704x128.size a
  hwx0_0 : ∀ i : grid0.Coords, EltTy.bits .bf16 = 32 ∨ (Rect.block (s := S200704x128) S4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x4.size a ≤ S200704x4.size a
  hwx0_1 : ∀ i : grid0.Coords, EltTy.bits .f32 = 32 ∨ (Rect.block (s := S200704x4) S4096x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128x128.size a ≤ S4x128x128.size a
  hwx0_2 : ∀ i : grid0.Coords, EltTy.bits .bf16 = 32 ∨ (Rect.block (s := S4x128x128) S4x128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S200704x128.size a
  hwx0_3 : ∀ i : grid0.Coords, EltTy.bits .bf16 = 32 ∨ (Rect.block (s := S200704x128) S4096x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S200704x128.size a
  hwx1_0 : ∀ i : grid1.Coords, EltTy.bits .bf16 = 32 ∨ (Rect.block (s := S200704x128) S4096x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x4.size a ≤ S200704x4.size a
  hwx1_1 : ∀ i : grid1.Coords, EltTy.bits .f32 = 32 ∨ (Rect.block (s := S200704x4) S4096x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x128x128.size a ≤ S4x128x128.size a
  hwx1_2 : ∀ i : grid1.Coords, EltTy.bits .bf16 = 32 ∨ (Rect.block (s := S4x128x128) S4x128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S200704x128.size a
  hwx1_3 : ∀ i : grid1.Coords, EltTy.bits .bf16 = 32 ∨ (Rect.block (s := S200704x128) S4096x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S200704x128.size a
  hwx2_0 : ∀ i : grid2.Coords, EltTy.bits .bf16 = 32 ∨ (Rect.block (s := S200704x128) S4096x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x4.size a ≤ S200704x4.size a
  hwx2_1 : ∀ i : grid2.Coords, EltTy.bits .f32 = 32 ∨ (Rect.block (s := S200704x4) S4096x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x128x128.size a ≤ S4x128x128.size a
  hwx2_2 : ∀ i : grid2.Coords, EltTy.bits .bf16 = 32 ∨ (Rect.block (s := S4x128x128) S4x128x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S200704x128.size a
  hwx2_3 : ∀ i : grid2.Coords, EltTy.bits .bf16 = 32 ∨ (Rect.block (s := S200704x128) S4096x128.size (cc2_transform_3 i) (hinb2_3 i)).WholeWords (EltTy.packing .bf16)

variable [Facts₀]

def scatter_S200000_S200000x1_S200000_n_0_0_1 : ScatterDims S200000 S200000x1 S200000 where
  updateWindowDims := []
  insertedWindowDims := [0]
  scatterDimsToOperandDims := [0]
  indexVectorDim := 1
  wf := scatter_S200000_S200000x1_S200000_n_0_0_1_wf
def gather_S200000_S200000x1_S200000_n_0_n_n_0_1_1 : GatherDims S200000 S200000x1 S200000 where
  offsetDims := []
  collapsedSliceDims := [0]
  operandBatchingDims := []
  startIndicesBatchingDims := []
  startIndexMap := [0]
  indexVectorDim := 1
  sliceSizes := ![1]
  wf := gather_S200000_S200000x1_S200000_n_0_n_n_0_1_1_wf
def gather_S200000x128_S200704x1_S200704x128_1_0_n_n_0_1_1128 : GatherDims S200000x128 S200704x1 S200704x128 where
  offsetDims := [1]
  collapsedSliceDims := [0]
  operandBatchingDims := []
  startIndicesBatchingDims := []
  startIndexMap := [0]
  indexVectorDim := 1
  sliceSizes := ![1, 128]
  wf := gather_S200000x128_S200704x1_S200704x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S200000x128_S200704x1_S200704x128_1_0_0_1 : ScatterDims S200000x128 S200704x1 S200704x128 where
  updateWindowDims := [1]
  insertedWindowDims := [0]
  scatterDimsToOperandDims := [0]
  indexVectorDim := 1
  wf := scatter_S200000x128_S200704x1_S200704x128_1_0_0_1_wf

abbrev win0_0 : Pipeline.Window sig grid0 :=
  Pipeline.Window.ofSpec (Memref.whole main_v53) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S4096x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S4x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v70) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S4096x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S4x128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v71) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v87) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S4096x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S4x128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v88) S4096x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x200000 : Shape := ⟨2, ![2, 200000]⟩
abbrev S200000 : Shape := ⟨1, ![200000]⟩
abbrev S4x128x128 : Shape := ⟨3, ![4, 128, 128]⟩
abbrev S128 : Shape := ⟨1, ![128]⟩
abbrev S1x200000 : Shape := ⟨2, ![1, 200000]⟩
abbrev S_ : Shape := ⟨0, ![]⟩
abbrev S200000x128 : Shape := ⟨2, ![200000, 128]⟩
abbrev S200000x1 : Shape := ⟨2, ![200000, 1]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 387
  | .vmem => 0
  | .smem => 0
  | _ => 0

abbrev hbmTy0_0 (i : Nat) : BufTy := match i % 128 with
  | 0 => ⟨S2x200000, .i32⟩
  | 1 => ⟨S200000, .i32⟩
  | 2 => ⟨S200000, .f32⟩
  | 3 => ⟨S4x128x128, .f32⟩
  | 4 => ⟨S128, .f32⟩
  | 5 => ⟨S4x128x128, .f32⟩
  | 6 => ⟨S128, .f32⟩
  | 7 => ⟨S4x128x128, .f32⟩
  | 8 => ⟨S128, .f32⟩
  | 9 => ⟨S1x200000, .i32⟩
  | 10 => ⟨S200000, .i32⟩
  | 11 => ⟨S1x200000, .i32⟩
  | 12 => ⟨S200000, .i32⟩
  | 13 => ⟨S_, .f32⟩
  | 14 => ⟨S200000x128, .f32⟩
  | 15 => ⟨S_, .f32⟩
  | 16 => ⟨S200000, .f32⟩
  | 17 => ⟨S_, .f32⟩
  | 18 => ⟨S200000, .f32⟩
  | 19 => ⟨S200000x1, .i32⟩
  | 20 => ⟨S200000, .f32⟩
  | 21 => ⟨S_, .f32⟩
  | 22 => ⟨S200000, .f32⟩
  | 23 => ⟨S200000, .i1⟩
  | 24 => ⟨S_, .f32⟩
  | 25 => ⟨S200000, .f32⟩
  | 26 => ⟨S200000, .i1⟩
  | 27 => ⟨S_, .f32⟩
  | 28 => ⟨S_, .f32⟩
  | 29 => ⟨S200000, .f32⟩
  | 30 => ⟨S200000, .f32⟩
  | 31 => ⟨S200000, .f32⟩
  | 32 => ⟨S_, .f32⟩
  | 33 => ⟨S_, .f32⟩
  | 34 => ⟨S200000, .f32⟩
  | 35 => ⟨S200000, .f32⟩
  | 36 => ⟨S_, .i32⟩
  | 37 => ⟨S200000, .i32⟩
  | 38 => ⟨S200000, .i1⟩
  | 39 => ⟨S_, .i32⟩
  | 40 => ⟨S200000, .i32⟩
  | 41 => ⟨S200000, .i32⟩
  | 42 => ⟨S200000, .i32⟩
  | 43 => ⟨S200000x1, .i32⟩
  | 44 => ⟨S200000, .f32⟩
  | 45 => ⟨S_, .i32⟩
  | 46 => ⟨S200000, .i32⟩
  | 47 => ⟨S200000, .i1⟩
  | 48 => ⟨S_, .i32⟩
  | 49 => ⟨S200000, .i32⟩
  | 50 => ⟨S200000, .i32⟩
  | 51 => ⟨S200000, .i32⟩
  | 52 => ⟨S200000x1, .i32⟩
  | 53 => ⟨S200000, .f32⟩
  | 54 => ⟨S200000, .f32⟩
  | 55 => ⟨S_, .i32⟩
  | 56 => ⟨S200000, .i32⟩
  | 57 => ⟨S200000, .i1⟩
  | 58 => ⟨S_, .i32⟩
  | 59 => ⟨S200000, .i32⟩
  | 60 => ⟨S200000, .i32⟩
  | 61 => ⟨S200000, .i32⟩
  | 62 => ⟨S200000x1, .i32⟩
  | 63 => ⟨S200000x128, .f32⟩
  | 64 => ⟨S_, .f32⟩
  | 65 => ⟨S200000x128, .f32⟩
  | 66 => ⟨S_, .i32⟩
  | 67 => ⟨S200000, .i32⟩
  | 68 => ⟨S200000, .i1⟩
  | 69 => ⟨S200000x1, .i1⟩
  | 70 => ⟨S1x128x128, .f32⟩
  | 71 => ⟨S128x128, .f32⟩
  | 72 => ⟨S200000x128, .f32⟩
  | 73 => ⟨S_, .f32⟩
  | 74 => ⟨S_, .f32⟩
  | 75 => ⟨S200000x128, .i1⟩
  | 76 => ⟨S200000x128, .f32⟩
  | 77 => ⟨S200000x128, .f32⟩
  | 78 => ⟨S200000x128, .f32⟩
  | 79 => ⟨S_, .i32⟩
  | 80 => ⟨S200000, .i32⟩
  | 81 => ⟨S200000, .i1⟩
  | 82 => ⟨S200000x1, .i1⟩
  | 83 => ⟨S1x128x128, .f32⟩
  | 84 => ⟨S128x128, .f32⟩
  | 85 => ⟨S200000x128, .f32⟩
  | 86 => ⟨S_, .f32⟩
  | 87 => ⟨S_, .f32⟩
  | 88 => ⟨S200000x128, .i1⟩
  | 89 => ⟨S200000x128, .f32⟩
  | 90 => ⟨S200000x128, .f32⟩
  | 91 => ⟨S200000x128, .f32⟩
  | 92 => ⟨S_, .i32⟩
  | 93 => ⟨S200000, .i32⟩
  | 94 => ⟨S200000, .i1⟩
  | 95 => ⟨S200000x1, .i1⟩
  | 96 => ⟨S1x128x128, .f32⟩
  | 97 => ⟨S128x128, .f32⟩
  | 98 => ⟨S200000x128, .f32⟩
  | 99 => ⟨S_, .f32⟩
  | 100 => ⟨S_, .f32⟩
  | 101 => ⟨S200000x128, .i1⟩
  | 102 => ⟨S200000x128, .f32⟩
  | 103 => ⟨S200000x128, .f32⟩
  | 104 => ⟨S200000x128, .f32⟩
  | 105 => ⟨S_, .i32⟩
  | 106 => ⟨S200000, .i32⟩
  | 107 => ⟨S200000, .i1⟩
  | 108 => ⟨S200000x1, .i1⟩
  | 109 => ⟨S1x128x128, .f32⟩
  | 110 => ⟨S128x128, .f32⟩
  | 111 => ⟨S200000x128, .f32⟩
  | 112 => ⟨S_, .f32⟩
  | 113 => ⟨S_, .f32⟩
  | 114 => ⟨S200000x128, .i1⟩
  | 115 => ⟨S200000x128, .f32⟩
  | 116 => ⟨S200000x128, .f32⟩
  | 117 => ⟨S200000x128, .f32⟩
  | 118 => ⟨S200000, .f32⟩
  | 119 => ⟨S200000x1, .f32⟩
  | 120 => ⟨S200000x128, .f32⟩
  | 121 => ⟨S200000x128, .f32⟩
  | 122 => ⟨S_, .f32⟩
  | 123 => ⟨S200000x128, .f32⟩
  | 124 => ⟨S200000x1, .i32⟩
  | 125 => ⟨S200000x128, .f32⟩
  | 126 => ⟨S1x128, .f32⟩
  | 127 => ⟨S200000x128, .f32⟩
  | _ => ⟨S2x200000, .i32⟩

abbrev hbmTy0_1 (i : Nat) : BufTy := match i % 128 with
  | 0 => ⟨S200000x128, .f32⟩
  | 1 => ⟨S_, .f32⟩
  | 2 => ⟨S_, .f32⟩
  | 3 => ⟨S200000x128, .f32⟩
  | 4 => ⟨S200000x128, .i1⟩
  | 5 => ⟨S_, .f32⟩
  | 6 => ⟨S200000x128, .f32⟩
  | 7 => ⟨S200000x128, .f32⟩
  | 8 => ⟨S200000x128, .f32⟩
  | 9 => ⟨S_, .f32⟩
  | 10 => ⟨S200000, .f32⟩
  | 11 => ⟨S_, .f32⟩
  | 12 => ⟨S200000, .f32⟩
  | 13 => ⟨S200000x1, .i32⟩
  | 14 => ⟨S200000, .f32⟩
  | 15 => ⟨S_, .f32⟩
  | 16 => ⟨S200000, .f32⟩
  | 17 => ⟨S200000, .i1⟩
  | 18 => ⟨S_, .f32⟩
  | 19 => ⟨S200000, .f32⟩
  | 20 => ⟨S200000, .i1⟩
  | 21 => ⟨S_, .f32⟩
  | 22 => ⟨S_, .f32⟩
  | 23 => ⟨S200000, .f32⟩
  | 24 => ⟨S200000, .f32⟩
  | 25 => ⟨S200000, .f32⟩
  | 26 => ⟨S_, .f32⟩
  | 27 => ⟨S_, .f32⟩
  | 28 => ⟨S200000, .f32⟩
  | 29 => ⟨S200000, .f32⟩
  | 30 => ⟨S_, .i32⟩
  | 31 => ⟨S200000, .i32⟩
  | 32 => ⟨S200000, .i1⟩
  | 33 => ⟨S_, .i32⟩
  | 34 => ⟨S200000, .i32⟩
  | 35 => ⟨S200000, .i32⟩
  | 36 => ⟨S200000, .i32⟩
  | 37 => ⟨S200000x1, .i32⟩
  | 38 => ⟨S200000, .f32⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S200000x1, .i32⟩
  | 47 => ⟨S200000, .f32⟩
  | 48 => ⟨S200000, .f32⟩
  | 49 => ⟨S_, .i32⟩
  | 50 => ⟨S200000, .i32⟩
  | 51 => ⟨S200000, .i1⟩
  | 52 => ⟨S_, .i32⟩
  | 53 => ⟨S200000, .i32⟩
  | 54 => ⟨S200000, .i32⟩
  | 55 => ⟨S200000, .i32⟩
  | 56 => ⟨S200000x1, .i32⟩
  | 57 => ⟨S200000x128, .f32⟩
  | 58 => ⟨S_, .f32⟩
  | 59 => ⟨S200000x128, .f32⟩
  | 60 => ⟨S_, .i32⟩
  | 61 => ⟨S200000, .i32⟩
  | 62 => ⟨S200000, .i1⟩
  | 63 => ⟨S200000x1, .i1⟩
  | 64 => ⟨S1x128x128, .f32⟩
  | 65 => ⟨S128x128, .f32⟩
  | 66 => ⟨S200000x128, .f32⟩
  | 67 => ⟨S_, .f32⟩
  | 68 => ⟨S_, .f32⟩
  | 69 => ⟨S200000x128, .i1⟩
  | 70 => ⟨S200000x128, .f32⟩
  | 71 => ⟨S200000x128, .f32⟩
  | 72 => ⟨S200000x128, .f32⟩
  | 73 => ⟨S_, .i32⟩
  | 74 => ⟨S200000, .i32⟩
  | 75 => ⟨S200000, .i1⟩
  | 76 => ⟨S200000x1, .i1⟩
  | 77 => ⟨S1x128x128, .f32⟩
  | 78 => ⟨S128x128, .f32⟩
  | 79 => ⟨S200000x128, .f32⟩
  | 80 => ⟨S_, .f32⟩
  | 81 => ⟨S_, .f32⟩
  | 82 => ⟨S200000x128, .i1⟩
  | 83 => ⟨S200000x128, .f32⟩
  | 84 => ⟨S200000x128, .f32⟩
  | 85 => ⟨S200000x128, .f32⟩
  | 86 => ⟨S_, .i32⟩
  | 87 => ⟨S200000, .i32⟩
  | 88 => ⟨S200000, .i1⟩
  | 89 => ⟨S200000x1, .i1⟩
  | 90 => ⟨S1x128x128, .f32⟩
  | 91 => ⟨S128x128, .f32⟩
  | 92 => ⟨S200000x128, .f32⟩
  | 93 => ⟨S_, .f32⟩
  | 94 => ⟨S_, .f32⟩
  | 95 => ⟨S200000x128, .i1⟩
  | 96 => ⟨S200000x128, .f32⟩
  | 97 => ⟨S200000x128, .f32⟩
  | 98 => ⟨S200000x128, .f32⟩
  | 99 => ⟨S_, .i32⟩
  | 100 => ⟨S200000, .i32⟩
  | 101 => ⟨S200000, .i1⟩
  | 102 => ⟨S200000x1, .i1⟩
  | 103 => ⟨S1x128x128, .f32⟩
  | 104 => ⟨S128x128, .f32⟩
  | 105 => ⟨S200000x128, .f32⟩
  | 106 => ⟨S_, .f32⟩
  | 107 => ⟨S_, .f32⟩
  | 108 => ⟨S200000x128, .i1⟩
  | 109 => ⟨S200000x128, .f32⟩
  | 110 => ⟨S200000x128, .f32⟩
  | 111 => ⟨S200000x128, .f32⟩
  | 112 => ⟨S200000, .f32⟩
  | 113 => ⟨S200000x1, .f32⟩
  | 114 => ⟨S200000x128, .f32⟩
  | 115 => ⟨S200000x128, .f32⟩
  | 116 => ⟨S_, .f32⟩
  | 117 => ⟨S200000x128, .f32⟩
  | 118 => ⟨S200000x1, .i32⟩
  | 119 => ⟨S200000x128, .f32⟩
  | 120 => ⟨S1x128, .f32⟩
  | 121 => ⟨S200000x128, .f32⟩
  | 122 => ⟨S200000x128, .f32⟩
  | 123 => ⟨S_, .f32⟩
  | 124 => ⟨S_, .f32⟩
  | 125 => ⟨S200000x128, .f32⟩
  | 126 => ⟨S200000x128, .i1⟩
  | 127 => ⟨S_, .f32⟩
  | _ => ⟨S2x200000, .i32⟩

abbrev hbmTy0_2 (i : Nat) : BufTy := match i % 128 with
  | 0 => ⟨S200000x128, .f32⟩
  | 1 => ⟨S200000x128, .f32⟩
  | 2 => ⟨S200000x128, .f32⟩
  | 3 => ⟨S_, .f32⟩
  | 4 => ⟨S200000, .f32⟩
  | 5 => ⟨S_, .f32⟩
  | 6 => ⟨S200000, .f32⟩
  | 7 => ⟨S200000x1, .i32⟩
  | 8 => ⟨S200000, .f32⟩
  | 9 => ⟨S_, .f32⟩
  | 10 => ⟨S200000, .f32⟩
  | 11 => ⟨S200000, .i1⟩
  | 12 => ⟨S_, .f32⟩
  | 13 => ⟨S200000, .f32⟩
  | 14 => ⟨S200000, .i1⟩
  | 15 => ⟨S_, .f32⟩
  | 16 => ⟨S_, .f32⟩
  | 17 => ⟨S200000, .f32⟩
  | 18 => ⟨S200000, .f32⟩
  | 19 => ⟨S200000, .f32⟩
  | 20 => ⟨S_, .f32⟩
  | 21 => ⟨S_, .f32⟩
  | 22 => ⟨S200000, .f32⟩
  | 23 => ⟨S200000, .f32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S200000, .f32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S200000, .f32⟩
  | 42 => ⟨S200000, .f32⟩
  | 43 => ⟨S_, .i32⟩
  | 44 => ⟨S200000, .i32⟩
  | 45 => ⟨S200000, .i1⟩
  | 46 => ⟨S_, .i32⟩
  | 47 => ⟨S200000, .i32⟩
  | 48 => ⟨S200000, .i32⟩
  | 49 => ⟨S200000, .i32⟩
  | 50 => ⟨S200000x1, .i32⟩
  | 51 => ⟨S200000x128, .f32⟩
  | 52 => ⟨S_, .f32⟩
  | 53 => ⟨S200000x128, .f32⟩
  | 54 => ⟨S_, .i32⟩
  | 55 => ⟨S200000, .i32⟩
  | 56 => ⟨S200000, .i1⟩
  | 57 => ⟨S200000x1, .i1⟩
  | 58 => ⟨S1x128x128, .f32⟩
  | 59 => ⟨S128x128, .f32⟩
  | 60 => ⟨S200000x128, .f32⟩
  | 61 => ⟨S_, .f32⟩
  | 62 => ⟨S_, .f32⟩
  | 63 => ⟨S200000x128, .i1⟩
  | 64 => ⟨S200000x128, .f32⟩
  | 65 => ⟨S200000x128, .f32⟩
  | 66 => ⟨S200000x128, .f32⟩
  | 67 => ⟨S_, .i32⟩
  | 68 => ⟨S200000, .i32⟩
  | 69 => ⟨S200000, .i1⟩
  | 70 => ⟨S200000x1, .i1⟩
  | 71 => ⟨S1x128x128, .f32⟩
  | 72 => ⟨S128x128, .f32⟩
  | 73 => ⟨S200000x128, .f32⟩
  | 74 => ⟨S_, .f32⟩
  | 75 => ⟨S_, .f32⟩
  | 76 => ⟨S200000x128, .i1⟩
  | 77 => ⟨S200000x128, .f32⟩
  | 78 => ⟨S200000x128, .f32⟩
  | 79 => ⟨S200000x128, .f32⟩
  | 80 => ⟨S_, .i32⟩
  | 81 => ⟨S200000, .i32⟩
  | 82 => ⟨S200000, .i1⟩
  | 83 => ⟨S200000x1, .i1⟩
  | 84 => ⟨S1x128x128, .f32⟩
  | 85 => ⟨S128x128, .f32⟩
  | 86 => ⟨S200000x128, .f32⟩
  | 87 => ⟨S_, .f32⟩
  | 88 => ⟨S_, .f32⟩
  | 89 => ⟨S200000x128, .i1⟩
  | 90 => ⟨S200000x128, .f32⟩
  | 91 => ⟨S200000x128, .f32⟩
  | 92 => ⟨S200000x128, .f32⟩
  | 93 => ⟨S_, .i32⟩
  | 94 => ⟨S200000, .i32⟩
  | 95 => ⟨S200000, .i1⟩
  | 96 => ⟨S200000x1, .i1⟩
  | 97 => ⟨S1x128x128, .f32⟩
  | 98 => ⟨S128x128, .f32⟩
  | 99 => ⟨S200000x128, .f32⟩
  | 100 => ⟨S_, .f32⟩
  | 101 => ⟨S_, .f32⟩
  | 102 => ⟨S200000x128, .i1⟩
  | 103 => ⟨S200000x128, .f32⟩
  | 104 => ⟨S200000x128, .f32⟩
  | 105 => ⟨S200000x128, .f32⟩
  | 106 => ⟨S200000, .f32⟩
  | 107 => ⟨S200000x1, .f32⟩
  | 108 => ⟨S200000x128, .f32⟩
  | 109 => ⟨S200000x128, .f32⟩
  | 110 => ⟨S_, .f32⟩
  | 111 => ⟨S200000x128, .f32⟩
  | 112 => ⟨S200000x1, .i32⟩
  | 113 => ⟨S200000x128, .f32⟩
  | 114 => ⟨S1x128, .f32⟩
  | 115 => ⟨S200000x128, .f32⟩
  | 116 => ⟨S200000x128, .f32⟩
  | 117 => ⟨S_, .f32⟩
  | 118 => ⟨S_, .f32⟩
  | 119 => ⟨S200000x128, .f32⟩
  | 120 => ⟨S200000x128, .i1⟩
  | 121 => ⟨S_, .f32⟩
  | 122 => ⟨S200000x128, .f32⟩
  | 123 => ⟨S200000x128, .f32⟩
  | 124 => ⟨S200000x128, .f32⟩
  | 125 => ⟨S200000x128, .f32⟩
  | 126 => ⟨S200000x128, .f32⟩
  | 127 => ⟨S200000x128, .f32⟩
  | _ => ⟨S2x200000, .i32⟩

abbrev hbmTy0_3 (i : Nat) : BufTy := match i % 128 with
  | 0 => ⟨S_, .f32⟩
  | 1 => ⟨S200000x128, .f32⟩
  | 2 => ⟨S200000x128, .f32⟩
  | _ => ⟨S2x200000, .i32⟩

abbrev hbmTy (i : Nat) : BufTy := match i / 128 with
  | 0 => hbmTy0_0 i
  | 1 => hbmTy0_1 i
  | 2 => hbmTy0_2 i
  | 3 => hbmTy0_3 i
  | _ => ⟨S2x200000, .i32⟩

abbrev bufTy : (tb : Table) → Fin (tcTables nBuf tb) → BufTy
  | .hbm, ⟨i, _⟩ => hbmTy i
  | _, _ => ⟨S2x200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_v14 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_7 : Ref sig .tc := ⟨.hbm, 45, rfl⟩
abbrev main_v23 : Ref sig .tc := ⟨.hbm, 46, rfl⟩
abbrev main_v24 : Ref sig .tc := ⟨.hbm, 47, rfl⟩
abbrev main_c_8 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_9 : Ref sig .tc := ⟨.hbm, 55, rfl⟩
abbrev main_v31 : Ref sig .tc := ⟨.hbm, 56, rfl⟩
abbrev main_v32 : Ref sig .tc := ⟨.hbm, 57, rfl⟩
abbrev main_c_10 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_11 : Ref sig .tc := ⟨.hbm, 64, rfl⟩
abbrev main_v38 : Ref sig .tc := ⟨.hbm, 65, rfl⟩
abbrev main_c_12 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_13 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v45 : Ref sig .tc := ⟨.hbm, 77, rfl⟩
abbrev main_v46 : Ref sig .tc := ⟨.hbm, 78, rfl⟩
abbrev main_c_14 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_15 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v53 : Ref sig .tc := ⟨.hbm, 90, rfl⟩
abbrev main_v54 : Ref sig .tc := ⟨.hbm, 91, rfl⟩
abbrev main_c_16 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_17 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_v61 : Ref sig .tc := ⟨.hbm, 103, rfl⟩
abbrev main_v62 : Ref sig .tc := ⟨.hbm, 104, rfl⟩
abbrev main_c_18 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_19 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_20 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_21 : Ref sig .tc := ⟨.hbm, 129, rfl⟩
abbrev main_call6_cst : Ref sig .tc := ⟨.hbm, 130, rfl⟩
abbrev main_call6_v0 : Ref sig .tc := ⟨.hbm, 131, rfl⟩
abbrev main_call6_v1 : Ref sig .tc := ⟨.hbm, 132, rfl⟩
abbrev main_call6_v2 : Ref sig .tc := ⟨.hbm, 133, rfl⟩
abbrev main_call6_v3 : Ref sig .tc := ⟨.hbm, 134, rfl⟩
abbrev main_call6_v4 : Ref sig .tc := ⟨.hbm, 135, rfl⟩
abbrev main_v81 : Ref sig .tc := ⟨.hbm, 136, rfl⟩
abbrev main_cst_22 : Ref sig .tc := ⟨.hbm, 137, rfl⟩
abbrev main_v82 : Ref sig .tc := ⟨.hbm, 138, rfl⟩
abbrev main_cst_23 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_cst_24 : Ref sig .tc := ⟨.hbm, 143, rfl⟩
abbrev main_v86 : Ref sig .tc := ⟨.hbm, 144, rfl⟩
abbrev main_v87 : Ref sig .tc := ⟨.hbm, 145, rfl⟩
abbrev main_cst_25 : Ref sig .tc := ⟨.hbm, 146, rfl⟩
abbrev main_v88 : Ref sig .tc := ⟨.hbm, 147, rfl⟩
abbrev main_v89 : Ref sig .tc := ⟨.hbm, 148, rfl⟩
abbrev main_cst_26 : Ref sig .tc := ⟨.hbm, 149, rfl⟩
abbrev main_call7_v0 : Ref sig .tc := ⟨.hbm, 150, rfl⟩
abbrev main_call7_v1 : Ref sig .tc := ⟨.hbm, 151, rfl⟩
abbrev main_v90 : Ref sig .tc := ⟨.hbm, 152, rfl⟩
abbrev main_v91 : Ref sig .tc := ⟨.hbm, 153, rfl⟩
abbrev main_cst_27 : Ref sig .tc := ⟨.hbm, 154, rfl⟩
abbrev main_call8_v0 : Ref sig .tc := ⟨.hbm, 155, rfl⟩
abbrev main_call8_v1 : Ref sig .tc := ⟨.hbm, 156, rfl⟩
abbrev main_v92 : Ref sig .tc := ⟨.hbm, 157, rfl⟩
abbrev main_c_28 : Ref sig .tc := ⟨.hbm, 158, rfl⟩
abbrev main_v93 : Ref sig .tc := ⟨.hbm, 159, rfl⟩
abbrev main_v94 : Ref sig .tc := ⟨.hbm, 160, rfl⟩
abbrev main_c_29 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_c_30 : Ref sig .tc := ⟨.hbm, 167, rfl⟩
abbrev main_v100 : Ref sig .tc := ⟨.hbm, 168, rfl⟩
abbrev main_v101 : Ref sig .tc := ⟨.hbm, 169, rfl⟩
abbrev main_c_31 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_c_32 : Ref sig .tc := ⟨.hbm, 177, rfl⟩
abbrev main_v108 : Ref sig .tc := ⟨.hbm, 178, rfl⟩
abbrev main_v109 : Ref sig .tc := ⟨.hbm, 179, rfl⟩
abbrev main_c_33 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_34 : Ref sig .tc := ⟨.hbm, 186, rfl⟩
abbrev main_v115 : Ref sig .tc := ⟨.hbm, 187, rfl⟩
abbrev main_c_35 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_cst_36 : Ref sig .tc := ⟨.hbm, 195, rfl⟩
abbrev main_call9_v0 : Ref sig .tc := ⟨.hbm, 196, rfl⟩
abbrev main_call9_v1 : Ref sig .tc := ⟨.hbm, 197, rfl⟩
abbrev main_call9_v2 : Ref sig .tc := ⟨.hbm, 198, rfl⟩
abbrev main_v122 : Ref sig .tc := ⟨.hbm, 199, rfl⟩
abbrev main_v123 : Ref sig .tc := ⟨.hbm, 200, rfl⟩
abbrev main_c_37 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_cst_38 : Ref sig .tc := ⟨.hbm, 208, rfl⟩
abbrev main_call10_v0 : Ref sig .tc := ⟨.hbm, 209, rfl⟩
abbrev main_call10_v1 : Ref sig .tc := ⟨.hbm, 210, rfl⟩
abbrev main_call10_v2 : Ref sig .tc := ⟨.hbm, 211, rfl⟩
abbrev main_v130 : Ref sig .tc := ⟨.hbm, 212, rfl⟩
abbrev main_v131 : Ref sig .tc := ⟨.hbm, 213, rfl⟩
abbrev main_c_39 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_cst_40 : Ref sig .tc := ⟨.hbm, 221, rfl⟩
abbrev main_call11_v0 : Ref sig .tc := ⟨.hbm, 222, rfl⟩
abbrev main_call11_v1 : Ref sig .tc := ⟨.hbm, 223, rfl⟩
abbrev main_call11_v2 : Ref sig .tc := ⟨.hbm, 224, rfl⟩
abbrev main_v138 : Ref sig .tc := ⟨.hbm, 225, rfl⟩
abbrev main_v139 : Ref sig .tc := ⟨.hbm, 226, rfl⟩
abbrev main_c_41 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_cst_42 : Ref sig .tc := ⟨.hbm, 234, rfl⟩
abbrev main_call12_v0 : Ref sig .tc := ⟨.hbm, 235, rfl⟩
abbrev main_call12_v1 : Ref sig .tc := ⟨.hbm, 236, rfl⟩
abbrev main_call12_v2 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_cst_43 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_cst_44 : Ref sig .tc := ⟨.hbm, 251, rfl⟩
abbrev main_call13_cst : Ref sig .tc := ⟨.hbm, 252, rfl⟩
abbrev main_call13_v0 : Ref sig .tc := ⟨.hbm, 253, rfl⟩
abbrev main_call13_v1 : Ref sig .tc := ⟨.hbm, 254, rfl⟩
abbrev main_call13_v2 : Ref sig .tc := ⟨.hbm, 255, rfl⟩
abbrev main_call13_v3 : Ref sig .tc := ⟨.hbm, 256, rfl⟩
abbrev main_call13_v4 : Ref sig .tc := ⟨.hbm, 257, rfl⟩
abbrev main_v158 : Ref sig .tc := ⟨.hbm, 258, rfl⟩
abbrev main_cst_45 : Ref sig .tc := ⟨.hbm, 259, rfl⟩
abbrev main_v159 : Ref sig .tc := ⟨.hbm, 260, rfl⟩
abbrev main_cst_46 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_cst_47 : Ref sig .tc := ⟨.hbm, 265, rfl⟩
abbrev main_v163 : Ref sig .tc := ⟨.hbm, 266, rfl⟩
abbrev main_v164 : Ref sig .tc := ⟨.hbm, 267, rfl⟩
abbrev main_cst_48 : Ref sig .tc := ⟨.hbm, 268, rfl⟩
abbrev main_v165 : Ref sig .tc := ⟨.hbm, 269, rfl⟩
abbrev main_v166 : Ref sig .tc := ⟨.hbm, 270, rfl⟩
abbrev main_cst_49 : Ref sig .tc := ⟨.hbm, 271, rfl⟩
abbrev main_call14_v0 : Ref sig .tc := ⟨.hbm, 272, rfl⟩
abbrev main_call14_v1 : Ref sig .tc := ⟨.hbm, 273, rfl⟩
abbrev main_v167 : Ref sig .tc := ⟨.hbm, 274, rfl⟩
abbrev main_v168 : Ref sig .tc := ⟨.hbm, 275, rfl⟩
abbrev main_cst_50 : Ref sig .tc := ⟨.hbm, 276, rfl⟩
abbrev main_call15_v0 : Ref sig .tc := ⟨.hbm, 277, rfl⟩
abbrev main_call15_v1 : Ref sig .tc := ⟨.hbm, 278, rfl⟩
abbrev main_v169 : Ref sig .tc := ⟨.hbm, 279, rfl⟩
abbrev main_c_51 : Ref sig .tc := ⟨.hbm, 280, rfl⟩
abbrev main_v170 : Ref sig .tc := ⟨.hbm, 281, rfl⟩
abbrev main_v171 : Ref sig .tc := ⟨.hbm, 282, rfl⟩
abbrev main_c_52 : Ref sig .tc := ⟨.hbm, 283, rfl⟩
abbrev main_v172 : Ref sig .tc := ⟨.hbm, 284, rfl⟩
abbrev main_v173 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_c_53 : Ref sig .tc := ⟨.hbm, 289, rfl⟩
abbrev main_v177 : Ref sig .tc := ⟨.hbm, 290, rfl⟩
abbrev main_v178 : Ref sig .tc := ⟨.hbm, 291, rfl⟩
abbrev main_c_54 : Ref sig .tc := ⟨.hbm, 292, rfl⟩
abbrev main_v179 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_c_55 : Ref sig .tc := ⟨.hbm, 299, rfl⟩
abbrev main_v185 : Ref sig .tc := ⟨.hbm, 300, rfl⟩
abbrev main_v186 : Ref sig .tc := ⟨.hbm, 301, rfl⟩
abbrev main_c_56 : Ref sig .tc := ⟨.hbm, 302, rfl⟩
abbrev main_v187 : Ref sig .tc := ⟨.hbm, 303, rfl⟩
abbrev main_v188 : Ref sig .tc := ⟨.hbm, 304, rfl⟩
abbrev main_v189 : Ref sig .tc := ⟨.hbm, 305, rfl⟩
abbrev main_v190 : Ref sig .tc := ⟨.hbm, 306, rfl⟩
abbrev main_v191 : Ref sig .tc := ⟨.hbm, 307, rfl⟩
abbrev main_cst_57 : Ref sig .tc := ⟨.hbm, 308, rfl⟩
abbrev main_v192 : Ref sig .tc := ⟨.hbm, 309, rfl⟩
abbrev main_c_58 : Ref sig .tc := ⟨.hbm, 310, rfl⟩
abbrev main_v193 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_cst_59 : Ref sig .tc := ⟨.hbm, 317, rfl⟩
abbrev main_call16_v0 : Ref sig .tc := ⟨.hbm, 318, rfl⟩
abbrev main_call16_v1 : Ref sig .tc := ⟨.hbm, 319, rfl⟩
abbrev main_call16_v2 : Ref sig .tc := ⟨.hbm, 320, rfl⟩
abbrev main_v199 : Ref sig .tc := ⟨.hbm, 321, rfl⟩
abbrev main_v200 : Ref sig .tc := ⟨.hbm, 322, rfl⟩
abbrev main_c_60 : Ref sig .tc := ⟨.hbm, 323, rfl⟩
abbrev main_v201 : Ref sig .tc := ⟨.hbm, 324, rfl⟩
abbrev main_v202 : Ref sig .tc := ⟨.hbm, 325, rfl⟩
abbrev main_v203 : Ref sig .tc := ⟨.hbm, 326, rfl⟩
abbrev main_v204 : Ref sig .tc := ⟨.hbm, 327, rfl⟩
abbrev main_v205 : Ref sig .tc := ⟨.hbm, 328, rfl⟩
abbrev main_v206 : Ref sig .tc := ⟨.hbm, 329, rfl⟩
abbrev main_cst_61 : Ref sig .tc := ⟨.hbm, 330, rfl⟩
abbrev main_call17_v0 : Ref sig .tc := ⟨.hbm, 331, rfl⟩
abbrev main_call17_v1 : Ref sig .tc := ⟨.hbm, 332, rfl⟩
abbrev main_call17_v2 : Ref sig .tc := ⟨.hbm, 333, rfl⟩
abbrev main_v207 : Ref sig .tc := ⟨.hbm, 334, rfl⟩
abbrev main_v208 : Ref sig .tc := ⟨.hbm, 335, rfl⟩
abbrev main_c_62 : Ref sig .tc := ⟨.hbm, 336, rfl⟩
abbrev main_v209 : Ref sig .tc := ⟨.hbm, 337, rfl⟩
abbrev main_v210 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_v214 : Ref sig .tc := ⟨.hbm, 342, rfl⟩
abbrev main_cst_63 : Ref sig .tc := ⟨.hbm, 343, rfl⟩
abbrev main_call18_v0 : Ref sig .tc := ⟨.hbm, 344, rfl⟩
abbrev main_call18_v1 : Ref sig .tc := ⟨.hbm, 345, rfl⟩
abbrev main_call18_v2 : Ref sig .tc := ⟨.hbm, 346, rfl⟩
abbrev main_v215 : Ref sig .tc := ⟨.hbm, 347, rfl⟩
abbrev main_v216 : Ref sig .tc := ⟨.hbm, 348, rfl⟩
abbrev main_c_64 : Ref sig .tc := ⟨.hbm, 349, rfl⟩
abbrev main_v217 : Ref sig .tc := ⟨.hbm, 350, rfl⟩
abbrev main_v218 : Ref sig .tc := ⟨.hbm, 351, rfl⟩
abbrev main_v219 : Ref sig .tc := ⟨.hbm, 352, rfl⟩
abbrev main_v220 : Ref sig .tc := ⟨.hbm, 353, rfl⟩
abbrev main_v221 : Ref sig .tc := ⟨.hbm, 354, rfl⟩
abbrev main_v222 : Ref sig .tc := ⟨.hbm, 355, rfl⟩
abbrev main_cst_65 : Ref sig .tc := ⟨.hbm, 356, rfl⟩
abbrev main_call19_v0 : Ref sig .tc := ⟨.hbm, 357, rfl⟩
abbrev main_call19_v1 : Ref sig .tc := ⟨.hbm, 358, rfl⟩
abbrev main_call19_v2 : Ref sig .tc := ⟨.hbm, 359, rfl⟩
abbrev main_v223 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_v227 : Ref sig .tc := ⟨.hbm, 364, rfl⟩
abbrev main_v228 : Ref sig .tc := ⟨.hbm, 365, rfl⟩
abbrev main_cst_66 : Ref sig .tc := ⟨.hbm, 366, rfl⟩
abbrev main_v229 : Ref sig .tc := ⟨.hbm, 367, rfl⟩
abbrev main_v230 : Ref sig .tc := ⟨.hbm, 368, rfl⟩
abbrev main_v231 : Ref sig .tc := ⟨.hbm, 369, rfl⟩
abbrev main_v232 : Ref sig .tc := ⟨.hbm, 370, rfl⟩
abbrev main_v233 : Ref sig .tc := ⟨.hbm, 371, rfl⟩
abbrev main_v234 : Ref sig .tc := ⟨.hbm, 372, rfl⟩
abbrev main_cst_67 : Ref sig .tc := ⟨.hbm, 373, rfl⟩
abbrev main_call20_cst : Ref sig .tc := ⟨.hbm, 374, rfl⟩
abbrev main_call20_v0 : Ref sig .tc := ⟨.hbm, 375, rfl⟩
abbrev main_call20_v1 : Ref sig .tc := ⟨.hbm, 376, rfl⟩
abbrev main_call20_v2 : Ref sig .tc := ⟨.hbm, 377, rfl⟩
abbrev main_call20_v3 : Ref sig .tc := ⟨.hbm, 378, rfl⟩
abbrev main_call20_v4 : Ref sig .tc := ⟨.hbm, 379, rfl⟩
abbrev main_v235 : Ref sig .tc := ⟨.hbm, 380, rfl⟩
abbrev main_v236 : Ref sig .tc := ⟨.hbm, 381, rfl⟩
abbrev main_v237 : Ref sig .tc := ⟨.hbm, 382, rfl⟩
abbrev main_v238 : Ref sig .tc := ⟨.hbm, 383, rfl⟩
abbrev main_cst_68 : Ref sig .tc := ⟨.hbm, 384, rfl⟩
abbrev main_v239 : Ref sig .tc := ⟨.hbm, 385, rfl⟩
abbrev main_v240 : Ref sig .tc := ⟨.hbm, 386, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  slices_S4x128x128_S1x128x128_0_0_0 : S4x128x128.Slices ![0, 0, 0] S1x128x128
  shapeCasts_S1x128x128_S128x128 : S1x128x128.ShapeCasts S128x128
  bcast_S200000x1_S200000x128_0_1 : S200000x1.BroadcastsInDim S200000x128 (![0, 1] : Fin 2 → Fin S200000x128.rank)
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  scatter_S200000_S200000x1_S200000_n_0_0_1_wf : ScatterDims.WF S200000 S200000x1 S200000 [] [0] [0] 1
  gather_S200000_S200000x1_S200000_n_0_n_n_0_1_1_wf : GatherDims.WF S200000 S200000x1 S200000 [] [0] [] [0] [] 1 ![1]
  gather_S200000x128_S200000x1_S200000x128_1_0_n_n_0_1_1128_wf : GatherDims.WF S200000x128 S200000x1 S200000x128 [1] [0] [] [0] [] 1 ![1, 128]
  dot_S200000x128_S128x128_S200000x128_1_0_0_1_n_n_wf : DotDims.WF S200000x128 S128x128 S200000x128 [1] [0] [0] [1] [] []
  scatter_S200000x128_S200000x1_S200000x128_1_0_0_1_wf : ScatterDims.WF S200000x128 S200000x1 S200000x128 [1] [0] [0] 1

variable [Facts₀]

def scatter_S200000_S200000x1_S200000_n_0_0_1 : ScatterDims S200000 S200000x1 S200000 where
  updateWindowDims := []
  insertedWindowDims := [0]
  scatterDimsToOperandDims := [0]
  indexVectorDim := 1
  wf := scatter_S200000_S200000x1_S200000_n_0_0_1_wf
def gather_S200000_S200000x1_S200000_n_0_n_n_0_1_1 : GatherDims S200000 S200000x1 S200000 where
  offsetDims := []
  collapsedSliceDims := [0]
  operandBatchingDims := []
  startIndicesBatchingDims := []
  startIndexMap := [0]
  indexVectorDim := 1
  sliceSizes := ![1]
  wf := gather_S200000_S200000x1_S200000_n_0_n_n_0_1_1_wf
def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S200000x128_S200000x1_S200000x128_1_0_0_1 : ScatterDims S200000x128 S200000x1 S200000x128 where
  updateWindowDims := [1]
  insertedWindowDims := [0]
  scatterDimsToOperandDims := [0]
  indexVectorDim := 1
  wf := scatter_S200000x128_S200000x1_S200000x128_1_0_0_1_wf

class Facts : Prop extends Facts₀ where

variable [Facts]
-- ==== Proof.KerRun.lean ====
import proofs.«120788_j77403900608956_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run with its result kept: at the compiled mesh, from any memory with zero counters, every weakly
    fair execution of @main on the TensorCores terminates, nothing faulting; in every final state the result buffer
    holds the last boundary's contents of the fold through @main, and the nine argument arrays are as launched. -/
theorem run : θ_run defs (onTc (τ := τ) (main (F := F))) ⟨m, fun _ => 0, ρ⟩ (fun r => ∀ c : Dev nD,
      r.2.mem ((c.tc : Thread nD τ).loc main_v102) = Gen.W25 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v102 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c)⟩)

end Cert.KernelIdeal.Hand

end
-- ==== Proof.RefOps.lean ====
/-
  THE REFERENCE PROGRAM AS ONE STRAIGHT LINE. Its entry function runs 378 host operations: its own, and at each call
  of a module-local function (a select against a broadcast scalar; the leaky rectifier, which itself calls a select)
  the callee's operations over that call's own buffers, the nested call's included. Every operation writes the next
  buffer in program order: buffers 0 … 8 are the arguments, operation number j (from 0) writes buffer 9 + j.
  The line is listed window by window, as the program is printed, and the program is shown equal to the run of the
  listed line: each window by unfolding (the calls unfold to their bodies, sequencing reassociates by computation),
  the whole by concatenation.
-/
import proofs.«120788_j77403900608956_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of the entry function, calls inlined: they write buffers 9 … 72. -/
abbrev ops0 : List (HloOp τ sig (Elt F)) :=
  [ StableHlo.unary main_arg0 main_v0 ((extractStridedSlice S1x200000 ![0, 0] · slices_S2x200000_S1x200000_0_0) : (⟨S2x200000, .i32⟩ : BufTy).Contents (Elt F) → (⟨S1x200000, .i32⟩ : BufTy).Contents (Elt F)),
    StableHlo.reshape main_v0 main_v1 rfl shapeCasts_S1x200000_S200000,
    StableHlo.unary main_arg0 main_v2 ((extractStridedSlice S1x200000 ![1, 0] · slices_S2x200000_S1x200000_1_0) : (⟨S2x200000, .i32⟩ : BufTy).Contents (Elt F) → (⟨S1x200000, .i32⟩ : BufTy).Contents (Elt F)),
    StableHlo.reshape main_v2 main_v3 rfl shapeCasts_S1x200000_S200000,
    StableHlo.nullary main_cst (constant S_ .f32 0x3F800000#32),
    StableHlo.unary main_cst main_v4 (broadcastInDim S200000x128 ![] bcast_S_S200000x128 : (⟨S_, .f32⟩ : BufTy).Contents (Elt F) → (⟨S200000x128, .f32⟩ : BufTy).Contents (Elt F)),
    StableHlo.nullary main_cst_0 (constant S_ .f32 0x3F800000#32),
    StableHlo.unary main_cst_0 main_v5 (broadcastInDim S200000 ![] bcast_S_S200000 : (⟨S_, .f32⟩ : BufTy).Contents (Elt F) → (⟨S200000, .f32⟩ : BufTy).Contents (Elt F)),
    StableHlo.nullary main_cst_1 (constant S_ .f32 0x00000000#32),
    StableHlo.unary main_cst_1 main_v6 (broadcastInDim S200000 ![] bcast_S_S200000 : (⟨S_, .f32⟩ : BufTy).Contents (Elt F) → (⟨S200000, .f32⟩ : BufTy).Contents (Elt F)),
    StableHlo.unary main_v3 main_v7 (broadcastInDim S200000x1 ![0] bcast_S200000_S200000x1_0 : (⟨S200000, .i32⟩ : BufTy).Contents (Elt F) → (⟨S200000x1, .i32⟩ : BufTy).Contents (Elt F)),
    StableHlo.ternary main_v6 main_v7 main_v5 main_v8 ((fun x i u => Host.scatterAdd scatter_S200000_S200000x1_S200000_n_0_0_1 x i u) : (⟨S200000, .f32⟩ : BufTy).Contents (Elt F) → (⟨S200000x1, .i32⟩ : BufTy).Contents (Elt F) → (⟨S200000, .f32⟩ : BufTy).Contents (Elt F) → (⟨S200000, .f32⟩ : BufTy).Contents (Elt F)),
    StableHlo.nullary main_cst_2 (constant S_ .f32 0x00000000#32),
    StableHlo.unary main_cst_2 main_v9 (broadcastInDim S200000 ![] bcast_S_S200000 : (⟨S_, .f32⟩ : BufTy).Contents (Elt F) → (⟨S200000, .f32⟩ : BufTy).Contents (Elt F)),
    StableHlo.binary main_v8 main_v9 main_v10 (cmpf .ogt : (⟨S200000, .f32⟩ : BufTy).Contents (Elt F) → (⟨S200000, .f32⟩ : BufTy).Contents (Elt F) → (⟨S200000, .i1⟩ : BufTy).Contents (Elt F)),
    StableHlo.nullary main_cst_3 (constant S_ .f32 0x00000000#32),
    StableHlo.unary main_cst_3 main_v11 (broadcastInDim S200000 ![] bcast_S_S200000 : (⟨S_, .f32⟩ : BufTy).Contents (Elt F) → (⟨S200000, .f32⟩ : BufTy).Contents (Elt F)),
    StableHlo.binary main_v8 main_v11 main_v12 (cmpf .ogt : (⟨S200000, .f32⟩ : BufTy).Contents (Elt F) → (⟨S200000, .f32⟩ : BufTy).Contents (Elt F) → (⟨S200000, .i1⟩ : BufTy).Contents (Elt F)),
    StableHlo.nullary main_cst_4 (constant S_ .f32 0x3F800000#32),
    StableHlo.TRef.unary (.of main_cst_4 : StableHlo.TRef sig ⟨S_, .f32⟩) main_call0.v0 id,
    StableHlo.TRef.unary main_call0.v0 main_call0.v1 (broadcastInDim S200000 ![] bcast_S_S200000),
    StableHlo.TRef.ternary (.of main_v12 : StableHlo.TRef sig ⟨S200000, .i1⟩) (.of main_v8 : StableHlo.TRef sig ⟨S200000, .f32⟩) main_call0.v1 main_call0.v2 select,
    StableHlo.unary main_v13 main_v14 (Host.rsqrt : (⟨S200000, .f32⟩ : BufTy).Contents (Elt F) → (⟨S200000, .f32⟩ : BufTy).Contents (Elt F)),
    StableHlo.nullary main_cst_5 (constant S_ .f32 0x00000000#32),
    StableHlo.TRef.unary (.of main_cst_5 : StableHlo.TRef sig ⟨S_, .f32⟩) main_call1.v0 id,
    StableHlo.TRef.unary main_call1.v0 main_call1.v1 (broadcastInDim S200000 ![] bcast_S_S200000),
    StableHlo.TRef.ternary (.of main_v10 : StableHlo.TRef sig ⟨S200000, .i1⟩) (.of main_v14 : StableHlo.TRef sig ⟨S200000, .f32⟩) main_call1.v1 main_call1.v2 select,
    StableHlo.nullary main_c (constantI S_ 32 0#32),
    StableHlo.unary main_c main_v16 (broadcastInDim S200000 ![] bcast_S_S200000 : (⟨S_, .i32⟩ : BufTy).Contents (Elt F) → (⟨S200000, .i32⟩ : BufTy).Contents (Elt F)),
    StableHlo.binary main_v1 main_v16 main_v17 (cmpi .slt : (⟨S200000, .i32⟩ : BufTy).Contents (Elt F) → (⟨S200000, .i32⟩ : BufTy).Contents (Elt F) → (⟨S200000, .i1⟩ : BufTy).Contents (Elt F)),
    StableHlo.nullary main_c_6 (constantI S_ 32 200000#32),
    StableHlo.unary main_c_6 main_v18 (broadcastInDim S200000 ![] bcast_S_S200000 : (⟨S_, .i32⟩ : BufTy).Contents (Elt F) → (⟨S200000, .i32⟩ : BufTy).Contents (Elt F)),
    StableHlo.binary main_v1 main_v18 main_v19 (addi : (⟨S200000, .i32⟩ : BufTy).Contents (Elt F) → (⟨S200000, .i32⟩ : BufTy).Contents (Elt F) → (⟨S200000, .i32⟩ : BufTy).Contents (Elt F)),
    StableHlo.ternary main_v17 main_v19 main_v1 main_v20 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v20 main_v21 (broadcastInDim S200000x1 ![0] bcast_S200000_S200000x1_0 : (⟨S200000, .i32⟩ : BufTy).Contents (Elt F) → (⟨S200000x1, .i32⟩ : BufTy).Contents (Elt F)),
    StableHlo.binary main_v15 main_v21 main_v22 ((fun x i => Host.gather gather_S200000_S200000x1_S200000_n_0_n_n_0_1_1 x i) : (⟨S200000, .f32⟩ : BufTy).Contents (Elt F) → (⟨S200000x1, .i32⟩ : BufTy).Contents (Elt F) → (⟨S200000, .f32⟩ : BufTy).Contents (Elt F)),
    StableHlo.nullary main_c_7 (constantI S_ 32 0#32),
    StableHlo.unary main_c_7 main_v23 (broadcastInDim S200000 ![] bcast_S_S200000 : (⟨S_, .i32⟩ : BufTy).Contents (Elt F) → (⟨S200000, .i32⟩ : BufTy).Contents (Elt F)),
    StableHlo.binary main_v3 main_v23 main_v24 (cmpi .slt : (⟨S200000, .i32⟩ : BufTy).Contents (Elt F) → (⟨S200000, .i32⟩ : BufTy).Contents (Elt F) → (⟨S200000, .i1⟩ : BufTy).Contents (Elt F)),
    StableHlo.nullary main_c_8 (constantI S_ 32 200000#32),
    StableHlo.unary main_c_8 main_v25 (broadcastInDim S200000 ![] bcast_S_S200000 : (⟨S_, .i32⟩ : BufTy).Contents (Elt F) → (⟨S200000, .i32⟩ : BufTy).Contents (Elt F)),
    StableHlo.binary main_v3 main_v25 main_v26 (addi : (⟨S200000, .i32⟩ : BufTy).Contents (Elt F) → (⟨S200000, .i32⟩ : BufTy).Contents (Elt F) → (⟨S200000, .i32⟩ : BufTy).Contents (Elt F)),
    StableHlo.ternary main_v24 main_v26 main_v3 main_v27 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v27 main_v28 (broadcastInDim S200000x1 ![0] bcast_S200000_S200000x1_0 : (⟨S200000, .i32⟩ : BufTy).Contents (Elt F) → (⟨S200000x1, .i32⟩ : BufTy).Contents (Elt F)),
    StableHlo.binary main_v15 main_v28 main_v29 ((fun x i => Host.gather gather_S200000_S200000x1_S200000_n_0_n_n_0_1_1 x i) : (⟨S200000, .f32⟩ : BufTy).Contents (Elt F) → (⟨S200000x1, .i32⟩ : BufTy).Contents (Elt F) → (⟨S200000, .f32⟩ : BufTy).Contents (Elt F)),
    StableHlo.binary main_v22 main_v29 main_v30 (mulf : (⟨S200000, .f32⟩ : BufTy).Contents (Elt F) → (⟨S200000, .f32⟩ : BufTy).Contents (Elt F) → (⟨S200000, .f32⟩ : BufTy).Contents (Elt F)),
    StableHlo.nullary main_c_9 (constantI S_ 32 0#32),
    StableHlo.unary main_c_9 main_v31 (broadcastInDim S200000 ![] bcast_S_S200000 : (⟨S_, .i32⟩ : BufTy).Contents (Elt F) → (⟨S200000, .i32⟩ : BufTy).Contents (Elt F)),
    StableHlo.binary main_v1 main_v31 main_v32 (cmpi .slt : (⟨S200000, .i32⟩ : BufTy).Contents (Elt F) → (⟨S200000, .i32⟩ : BufTy).Contents (Elt F) → (⟨S200000, .i1⟩ : BufTy).Contents (Elt F)),
    StableHlo.nullary main_c_10 (constantI S_ 32 200000#32),
    StableHlo.unary main_c_10 main_v33 (broadcastInDim S200000 ![] bcast_S_S200000 : (⟨S_, .i32⟩ : BufTy).Contents (Elt F) → (⟨S200000, .i32⟩ : BufTy).Contents (Elt F)),
    StableHlo.binary main_v1 main_v33 main_v34 (addi : (⟨S200000, .i32⟩ : BufTy).Contents (Elt F) → (⟨S200000, .i32⟩ : BufTy).Contents (Elt F) → (⟨S200000, .i32⟩ : BufTy).Contents (Elt F)),
    StableHlo.ternary main_v32 main_v34 main_v1 main_v35 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v35 main_v36 (broadcastInDim S200000x1 ![0] bcast_S200000_S200000x1_0 : (⟨S200000, .i32⟩ : BufTy).Contents (Elt F) → (⟨S200000x1, .i32⟩ : BufTy).Contents (Elt F)),
    StableHlo.binary main_v4 main_v36 main_v37 ((fun x i => Host.gather gather_S200000x128_S200000x1_S200000x128_1_0_n_n_0_1_1128 x i) : (⟨S200000x128, .f32⟩ : BufTy).Contents (Elt F) → (⟨S200000x1, .i32⟩ : BufTy).Contents (Elt F) → (⟨S200000x128, .f32⟩ : BufTy).Contents (Elt F)),
    StableHlo.nullary main_cst_11 (constant S_ .f32 0x00000000#32),
    StableHlo.unary main_cst_11 main_v38 (broadcastInDim S200000x128 ![] bcast_S_S200000x128 : (⟨S_, .f32⟩ : BufTy).Contents (Elt F) → (⟨S200000x128, .f32⟩ : BufTy).Contents (Elt F)),
    StableHlo.nullary main_c_12 (constantI S_ 32 0#32),
    StableHlo.unary main_c_12 main_v39 (broadcastInDim S200000 ![] bcast_S_S200000 : (⟨S_, .i32⟩ : BufTy).Contents (Elt F) → (⟨S200000, .i32⟩ : BufTy).Contents (Elt F)),
    StableHlo.binary main_arg1 main_v39 main_v40 (cmpi .eq : (⟨S200000, .i32⟩ : BufTy).Contents (Elt F) → (⟨S200000, .i32⟩ : BufTy).Contents (Elt F) → (⟨S200000, .i1⟩ : BufTy).Contents (Elt F)),
    StableHlo.unary main_v40 main_v41 (broadcastInDim S200000x1 ![0] bcast_S200000_S200000x1_0 : (⟨S200000, .i1⟩ : BufTy).Contents (Elt F) → (⟨S200000x1, .i1⟩ : BufTy).Contents (Elt F)),
    StableHlo.unary main_arg3 main_v42 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v42 main_v43 rfl shapeCasts_S1x128x128_S128x128,
    StableHlo.binary main_v37 main_v43 main_v44 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)) ]

/-- The operations of window 1 of the entry function, calls inlined: they write buffers 73 … 152. -/
abbrev ops1 : List (HloOp τ sig (Elt F)) :=
  [ StableHlo.nullary main_cst_13 (constant S_ .f32 0x00000000#32),
    StableHlo.TRef.unary (.of main_cst_13 : StableHlo.TRef sig ⟨S_, .f32⟩) main_call2.v0 id,
    StableHlo.TRef.unary (.of main_v41 : StableHlo.TRef sig ⟨S200000x1, .i1⟩) main_call2.v1 (broadcastInDim S200000x128 ![0, 1] bcast_S200000x1_S200000x128_0_1),
    StableHlo.TRef.unary main_call2.v0 main_call2.v2 (broadcastInDim S200000x128 ![] bcast_S_S200000x128),
    StableHlo.TRef.ternary main_call2.v1 (.of main_v44 : StableHlo.TRef sig ⟨S200000x128, .f32⟩) main_call2.v2 main_call2.v3 select,
    StableHlo.binary main_v38 main_v45 main_v46 (addf : (⟨S200000x128, .f32⟩ : BufTy).Contents (Elt F) → (⟨S200000x128, .f32⟩ : BufTy).Contents (Elt F) → (⟨S200000x128, .f32⟩ : BufTy).Contents (Elt F)),
    StableHlo.nullary main_c_14 (constantI S_ 32 1#32),
    StableHlo.unary main_c_14 main_v47 (broadcastInDim S200000 ![] bcast_S_S200000 : (⟨S_, .i32⟩ : BufTy).Contents (Elt F) → (⟨S200000, .i32⟩ : BufTy).Contents (Elt F)),
    StableHlo.binary main_arg1 main_v47 main_v48 (cmpi .eq : (⟨S200000, .i32⟩ : BufTy).Contents (Elt F) → (⟨S200000, .i32⟩ : BufTy).Contents (Elt F) → (⟨S200000, .i1⟩ : BufTy).Contents (Elt F)),
    StableHlo.unary main_v48 main_v49 (broadcastInDim S200000x1 ![0] bcast_S200000_S200000x1_0 : (⟨S200000, .i1⟩ : BufTy).Contents (Elt F) → (⟨S200000x1, .i1⟩ : BufTy).Contents (Elt F)),
    StableHlo.unary main_arg3 main_v50 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v50 main_v51 rfl shapeCasts_S1x128x128_S128x128,
    StableHlo.binary main_v37 main_v51 main_v52 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.nullary main_cst_15 (constant S_ .f32 0x00000000#32),
    StableHlo.TRef.unary (.of main_cst_15 : StableHlo.TRef sig ⟨S_, .f32⟩) main_call3.v0 id,
    StableHlo.TRef.unary (.of main_v49 : StableHlo.TRef sig ⟨S200000x1, .i1⟩) main_call3.v1 (broadcastInDim S200000x128 ![0, 1] bcast_S200000x1_S200000x128_0_1),
    StableHlo.TRef.unary main_call3.v0 main_call3.v2 (broadcastInDim S200000x128 ![] bcast_S_S200000x128),
    StableHlo.TRef.ternary main_call3.v1 (.of main_v52 : StableHlo.TRef sig ⟨S200000x128, .f32⟩) main_call3.v2 main_call3.v3 select,
    StableHlo.binary main_v46 main_v53 main_v54 (addf : (⟨S200000x128, .f32⟩ : BufTy).Contents (Elt F) → (⟨S200000x128, .f32⟩ : BufTy).Contents (Elt F) → (⟨S200000x128, .f32⟩ : BufTy).Contents (Elt F)),
    StableHlo.nullary main_c_16 (constantI S_ 32 2#32),
    StableHlo.unary main_c_16 main_v55 (broadcastInDim S200000 ![] bcast_S_S200000 : (⟨S_, .i32⟩ : BufTy).Contents (Elt F) → (⟨S200000, .i32⟩ : BufTy).Contents (Elt F)),
    StableHlo.binary main_arg1 main_v55 main_v56 (cmpi .eq : (⟨S200000, .i32⟩ : BufTy).Contents (Elt F) → (⟨S200000, .i32⟩ : BufTy).Contents (Elt F) → (⟨S200000, .i1⟩ : BufTy).Contents (Elt F)),
    StableHlo.unary main_v56 main_v57 (broadcastInDim S200000x1 ![0] bcast_S200000_S200000x1_0 : (⟨S200000, .i1⟩ : BufTy).Contents (Elt F) → (⟨S200000x1, .i1⟩ : BufTy).Contents (Elt F)),
    StableHlo.unary main_arg3 main_v58 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v58 main_v59 rfl shapeCasts_S1x128x128_S128x128,
    StableHlo.binary main_v37 main_v59 main_v60 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.nullary main_cst_17 (constant S_ .f32 0x00000000#32),
    StableHlo.TRef.unary (.of main_cst_17 : StableHlo.TRef sig ⟨S_, .f32⟩) main_call4.v0 id,
    StableHlo.TRef.unary (.of main_v57 : StableHlo.TRef sig ⟨S200000x1, .i1⟩) main_call4.v1 (broadcastInDim S200000x128 ![0, 1] bcast_S200000x1_S200000x128_0_1),
    StableHlo.TRef.unary main_call4.v0 main_call4.v2 (broadcastInDim S200000x128 ![] bcast_S_S200000x128),
    StableHlo.TRef.ternary main_call4.v1 (.of main_v60 : StableHlo.TRef sig ⟨S200000x128, .f32⟩) main_call4.v2 main_call4.v3 select,
    StableHlo.binary main_v54 main_v61 main_v62 (addf : (⟨S200000x128, .f32⟩ : BufTy).Contents (Elt F) → (⟨S200000x128, .f32⟩ : BufTy).Contents (Elt F) → (⟨S200000x128, .f32⟩ : BufTy).Contents (Elt F)),
    StableHlo.nullary main_c_18 (constantI S_ 32 3#32),
    StableHlo.unary main_c_18 main_v63 (broadcastInDim S200000 ![] bcast_S_S200000 : (⟨S_, .i32⟩ : BufTy).Contents (Elt F) → (⟨S200000, .i32⟩ : BufTy).Contents (Elt F)),
    StableHlo.binary main_arg1 main_v63 main_v64 (cmpi .eq : (⟨S200000, .i32⟩ : BufTy).Contents (Elt F) → (⟨S200000, .i32⟩ : BufTy).Contents (Elt F) → (⟨S200000, .i1⟩ : BufTy).Contents (Elt F)),
    StableHlo.unary main_v64 main_v65 (broadcastInDim S200000x1 ![0] bcast_S200000_S200000x1_0 : (⟨S200000, .i1⟩ : BufTy).Contents (Elt F) → (⟨S200000x1, .i1⟩ : BufTy).Contents (Elt F)),
    StableHlo.unary main_arg3 main_v66 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v66 main_v67 rfl shapeCasts_S1x128x128_S128x128,
    StableHlo.binary main_v37 main_v67 main_v68 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.nullary main_cst_19 (constant S_ .f32 0x00000000#32),
    StableHlo.TRef.unary (.of main_cst_19 : StableHlo.TRef sig ⟨S_, .f32⟩) main_call5.v0 id,
    StableHlo.TRef.unary (.of main_v65 : StableHlo.TRef sig ⟨S200000x1, .i1⟩) main_call5.v1 (broadcastInDim S200000x128 ![0, 1] bcast_S200000x1_S200000x128_0_1),
    StableHlo.TRef.unary main_call5.v0 main_call5.v2 (broadcastInDim S200000x128 ![] bcast_S_S200000x128),
    StableHlo.TRef.ternary main_call5.v1 (.of main_v68 : StableHlo.TRef sig ⟨S200000x128, .f32⟩) main_call5.v2 main_call5.v3 select,
    StableHlo.binary main_v62 main_v69 main_v70 (addf : (⟨S200000x128, .f32⟩ : BufTy).Contents (Elt F) → (⟨S200000x128, .f32⟩ : BufTy).Contents (Elt F) → (⟨S200000x128, .f32⟩ : BufTy).Contents (Elt F)),
    StableHlo.binary main_arg2 main_v30 main_v71 (mulf : (⟨S200000, .f32⟩ : BufTy).Contents (Elt F) → (⟨S200000, .f32⟩ : BufTy).Contents (Elt F) → (⟨S200000, .f32⟩ : BufTy).Contents (Elt F)),
    StableHlo.unary main_v71 main_v72 (broadcastInDim S200000x1 ![0] bcast_S200000_S200000x1_0 : (⟨S200000, .f32⟩ : BufTy).Contents (Elt F) → (⟨S200000x1, .f32⟩ : BufTy).Contents (Elt F)),
    StableHlo.unary main_v72 main_v73 (broadcastInDim S200000x128 ![0, 1] bcast_S200000x1_S200000x128_0_1 : (⟨S200000x1, .f32⟩ : BufTy).Contents (Elt F) → (⟨S200000x128, .f32⟩ : BufTy).Contents (Elt F)),
    StableHlo.binary main_v70 main_v73 main_v74 (mulf : (⟨S200000x128, .f32⟩ : BufTy).Contents (Elt F) → (⟨S200000x128, .f32⟩ : BufTy).Contents (Elt F) → (⟨S200000x128, .f32⟩ : BufTy).Contents (Elt F)),
    StableHlo.nullary main_cst_20 (constant S_ .f32 0x00000000#32),
    StableHlo.unary main_cst_20 main_v75 (broadcastInDim S200000x128 ![] bcast_S_S200000x128 : (⟨S_, .f32⟩ : BufTy).Contents (Elt F) → (⟨S200000x128, .f32⟩ : BufTy).Contents (Elt F)),
    StableHlo.unary main_v3 main_v76 (broadcastInDim S200000x1 ![0] bcast_S200000_S200000x1_0 : (⟨S200000, .i32⟩ : BufTy).Contents (Elt F) → (⟨S200000x1, .i32⟩ : BufTy).Contents (Elt F)),
    StableHlo.ternary main_v75 main_v76 main_v74 main_v77 ((fun x i u => Host.scatterAdd scatter_S200000x128_S200000x1_S200000x128_1_0_0_1 x i u) : (⟨S200000x128, .f32⟩ : BufTy).Contents (Elt F) → (⟨S200000x1, .i32⟩ : BufTy).Contents (Elt F) → (⟨S200000x128, .f32⟩ : BufTy).Contents (Elt F) → (⟨S200000x128, .f32⟩ : BufTy).Contents (Elt F)),
    StableHlo.unary main_arg4 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S200000x128 ![0, 1] bcast_S1x128_S200000x128_0_1 : (⟨S1x128, .f32⟩ : BufTy).Contents (Elt F) → (⟨S200000x128, .f32⟩ : BufTy).Contents (Elt F)),
    StableHlo.binary main_v77 main_v79 main_v80 (addf : (⟨S200000x128, .f32⟩ : BufTy).Contents (Elt F) → (⟨S200000x128, .f32⟩ : BufTy).Contents (Elt F) → (⟨S200000x128, .f32⟩ : BufTy).Contents (Elt F)),
    StableHlo.nullary main_cst_21 (constant S_ .f32 0x3C23D70A#32),
    StableHlo.TRef.nullary main_call6.cst (constant S_ .f32 0x00000000#32),
    StableHlo.TRef.unary main_call6.cst main_call6.v0 (broadcastInDim S200000x128 ![] bcast_S_S200000x128),
    StableHlo.TRef.binary (.of main_v80 : StableHlo.TRef sig ⟨S200000x128, .f32⟩) main_call6.v0 main_call6.v1 (cmpf .oge),
    StableHlo.TRef.unary (.of main_cst_21 : StableHlo.TRef sig ⟨S_, .f32⟩) main_call6.v2 id,
    StableHlo.TRef.unary main_call6.v2 main_call6.v3 (broadcastInDim S200000x128 ![] bcast_S_S200000x128),
    StableHlo.TRef.binary main_call6.v3 (.of main_v80 : StableHlo.TRef sig ⟨S200000x128, .f32⟩) main_call6.v4 mulf,
    StableHlo.TRef.ternary main_call6.v1 (.of main_v80 : StableHlo.TRef sig ⟨S200000x128, .f32⟩) main_call6.v4 main_call6.call0.v0 select,
    StableHlo.nullary main_cst_22 (constant S_ .f32 0x3F800000#32),
    StableHlo.unary main_cst_22 main_v82 (broadcastInDim S200000 ![] bcast_S_S200000 : (⟨S_, .f32⟩ : BufTy).Contents (Elt F) → (⟨S200000, .f32⟩ : BufTy).Contents (Elt F)),
    StableHlo.nullary main_cst_23 (constant S_ .f32 0x00000000#32),
    StableHlo.unary main_cst_23 main_v83 (broadcastInDim S200000 ![] bcast_S_S200000 : (⟨S_, .f32⟩ : BufTy).Contents (Elt F) → (⟨S200000, .f32⟩ : BufTy).Contents (Elt F)),
    StableHlo.unary main_v3 main_v84 (broadcastInDim S200000x1 ![0] bcast_S200000_S200000x1_0 : (⟨S200000, .i32⟩ : BufTy).Contents (Elt F) → (⟨S200000x1, .i32⟩ : BufTy).Contents (Elt F)),
    StableHlo.ternary main_v83 main_v84 main_v82 main_v85 ((fun x i u => Host.scatterAdd scatter_S200000_S200000x1_S200000_n_0_0_1 x i u) : (⟨S200000, .f32⟩ : BufTy).Contents (Elt F) → (⟨S200000x1, .i32⟩ : BufTy).Contents (Elt F) → (⟨S200000, .f32⟩ : BufTy).Contents (Elt F) → (⟨S200000, .f32⟩ : BufTy).Contents (Elt F)),
    StableHlo.nullary main_cst_24 (constant S_ .f32 0x00000000#32),
    StableHlo.unary main_cst_24 main_v86 (broadcastInDim S200000 ![] bcast_S_S200000 : (⟨S_, .f32⟩ : BufTy).Contents (Elt F) → (⟨S200000, .f32⟩ : BufTy).Contents (Elt F)),
    StableHlo.binary main_v85 main_v86 main_v87 (cmpf .ogt : (⟨S200000, .f32⟩ : BufTy).Contents (Elt F) → (⟨S200000, .f32⟩ : BufTy).Contents (Elt F) → (⟨S200000, .i1⟩ : BufTy).Contents (Elt F)),
    StableHlo.nullary main_cst_25 (constant S_ .f32 0x00000000#32),
    StableHlo.unary main_cst_25 main_v88 (broadcastInDim S200000 ![] bcast_S_S200000 : (⟨S_, .f32⟩ : BufTy).Contents (Elt F) → (⟨S200000, .f32⟩ : BufTy).Contents (Elt F)),
    StableHlo.binary main_v85 main_v88 main_v89 (cmpf .ogt : (⟨S200000, .f32⟩ : BufTy).Contents (Elt F) → (⟨S200000, .f32⟩ : BufTy).Contents (Elt F) → (⟨S200000, .i1⟩ : BufTy).Contents (Elt F)),
    StableHlo.nullary main_cst_26 (constant S_ .f32 0x3F800000#32),
    StableHlo.TRef.unary (.of main_cst_26 : StableHlo.TRef sig ⟨S_, .f32⟩) main_call7.v0 id,
    StableHlo.TRef.unary main_call7.v0 main_call7.v1 (broadcastInDim S200000 ![] bcast_S_S200000),
    StableHlo.TRef.ternary (.of main_v89 : StableHlo.TRef sig ⟨S200000, .i1⟩) (.of main_v85 : StableHlo.TRef sig ⟨S200000, .f32⟩) main_call7.v1 main_call7.v2 select ]

/-- The operations of window 2 of the entry function, calls inlined: they write buffers 153 … 220. -/
abbrev ops2 : List (HloOp τ sig (Elt F)) :=
  [ StableHlo.unary main_v90 main_v91 (Host.rsqrt : (⟨S200000, .f32⟩ : BufTy).Contents (Elt F) → (⟨S200000, .f32⟩ : BufTy).Contents (Elt F)),
    StableHlo.nullary main_cst_27 (constant S_ .f32 0x00000000#32),
    StableHlo.TRef.unary (.of main_cst_27 : StableHlo.TRef sig ⟨S_, .f32⟩) main_call8.v0 id,
    StableHlo.TRef.unary main_call8.v0 main_call8.v1 (broadcastInDim S200000 ![] bcast_S_S200000),
    StableHlo.TRef.ternary (.of main_v87 : StableHlo.TRef sig ⟨S200000, .i1⟩) (.of main_v91 : StableHlo.TRef sig ⟨S200000, .f32⟩) main_call8.v1 main_call8.v2 select,
    StableHlo.nullary main_c_28 (constantI S_ 32 0#32),
    StableHlo.unary main_c_28 main_v93 (broadcastInDim S200000 ![] bcast_S_S200000 : (⟨S_, .i32⟩ : BufTy).Contents (Elt F) → (⟨S200000, .i32⟩ : BufTy).Contents (Elt F)),
    StableHlo.binary main_v1 main_v93 main_v94 (cmpi .slt : (⟨S200000, .i32⟩ : BufTy).Contents (Elt F) → (⟨S200000, .i32⟩ : BufTy).Contents (Elt F) → (⟨S200000, .i1⟩ : BufTy).Contents (Elt F)),
    StableHlo.nullary main_c_29 (constantI S_ 32 200000#32),
    StableHlo.unary main_c_29 main_v95 (broadcastInDim S200000 ![] bcast_S_S200000 : (⟨S_, .i32⟩ : BufTy).Contents (Elt F) → (⟨S200000, .i32⟩ : BufTy).Contents (Elt F)),
    StableHlo.binary main_v1 main_v95 main_v96 (addi : (⟨S200000, .i32⟩ : BufTy).Contents (Elt F) → (⟨S200000, .i32⟩ : BufTy).Contents (Elt F) → (⟨S200000, .i32⟩ : BufTy).Contents (Elt F)),
    StableHlo.ternary main_v94 main_v96 main_v1 main_v97 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v97 main_v98 (broadcastInDim S200000x1 ![0] bcast_S200000_S200000x1_0 : (⟨S200000, .i32⟩ : BufTy).Contents (Elt F) → (⟨S200000x1, .i32⟩ : BufTy).Contents (Elt F)),
    StableHlo.binary main_v92 main_v98 main_v99 ((fun x i => Host.gather gather_S200000_S200000x1_S200000_n_0_n_n_0_1_1 x i) : (⟨S200000, .f32⟩ : BufTy).Contents (Elt F) → (⟨S200000x1, .i32⟩ : BufTy).Contents (Elt F) → (⟨S200000, .f32⟩ : BufTy).Contents (Elt F)),
    StableHlo.nullary main_c_30 (constantI S_ 32 0#32),
    StableHlo.unary main_c_30 main_v100 (broadcastInDim S200000 ![] bcast_S_S200000 : (⟨S_, .i32⟩ : BufTy).Contents (Elt F) → (⟨S200000, .i32⟩ : BufTy).Contents (Elt F)),
    StableHlo.binary main_v3 main_v100 main_v101 (cmpi .slt : (⟨S200000, .i32⟩ : BufTy).Contents (Elt F) → (⟨S200000, .i32⟩ : BufTy).Contents (Elt F) → (⟨S200000, .i1⟩ : BufTy).Contents (Elt F)),
    StableHlo.nullary main_c_31 (constantI S_ 32 200000#32),
    StableHlo.unary main_c_31 main_v102 (broadcastInDim S200000 ![] bcast_S_S200000 : (⟨S_, .i32⟩ : BufTy).Contents (Elt F) → (⟨S200000, .i32⟩ : BufTy).Contents (Elt F)),
    StableHlo.binary main_v3 main_v102 main_v103 (addi : (⟨S200000, .i32⟩ : BufTy).Contents (Elt F) → (⟨S200000, .i32⟩ : BufTy).Contents (Elt F) → (⟨S200000, .i32⟩ : BufTy).Contents (Elt F)),
    StableHlo.ternary main_v101 main_v103 main_v3 main_v104 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v104 main_v105 (broadcastInDim S200000x1 ![0] bcast_S200000_S200000x1_0 : (⟨S200000, .i32⟩ : BufTy).Contents (Elt F) → (⟨S200000x1, .i32⟩ : BufTy).Contents (Elt F)),
    StableHlo.binary main_v92 main_v105 main_v106 ((fun x i => Host.gather gather_S200000_S200000x1_S200000_n_0_n_n_0_1_1 x i) : (⟨S200000, .f32⟩ : BufTy).Contents (Elt F) → (⟨S200000x1, .i32⟩ : BufTy).Contents (Elt F) → (⟨S200000, .f32⟩ : BufTy).Contents (Elt F)),
    StableHlo.binary main_v99 main_v106 main_v107 (mulf : (⟨S200000, .f32⟩ : BufTy).Contents (Elt F) → (⟨S200000, .f32⟩ : BufTy).Contents (Elt F) → (⟨S200000, .f32⟩ : BufTy).Contents (Elt F)),
    StableHlo.nullary main_c_32 (constantI S_ 32 0#32),
    StableHlo.unary main_c_32 main_v108 (broadcastInDim S200000 ![] bcast_S_S200000 : (⟨S_, .i32⟩ : BufTy).Contents (Elt F) → (⟨S200000, .i32⟩ : BufTy).Contents (Elt F)),
    StableHlo.binary main_v1 main_v108 main_v109 (cmpi .slt : (⟨S200000, .i32⟩ : BufTy).Contents (Elt F) → (⟨S200000, .i32⟩ : BufTy).Contents (Elt F) → (⟨S200000, .i1⟩ : BufTy).Contents (Elt F)),
    StableHlo.nullary main_c_33 (constantI S_ 32 200000#32),
    StableHlo.unary main_c_33 main_v110 (broadcastInDim S200000 ![] bcast_S_S200000 : (⟨S_, .i32⟩ : BufTy).Contents (Elt F) → (⟨S200000, .i32⟩ : BufTy).Contents (Elt F)),
    StableHlo.binary main_v1 main_v110 main_v111 (addi : (⟨S200000, .i32⟩ : BufTy).Contents (Elt F) → (⟨S200000, .i32⟩ : BufTy).Contents (Elt F) → (⟨S200000, .i32⟩ : BufTy).Contents (Elt F)),
    StableHlo.ternary main_v109 main_v111 main_v1 main_v112 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v112 main_v113 (broadcastInDim S200000x1 ![0] bcast_S200000_S200000x1_0 : (⟨S200000, .i32⟩ : BufTy).Contents (Elt F) → (⟨S200000x1, .i32⟩ : BufTy).Contents (Elt F)),
    StableHlo.binary main_v81 main_v113 main_v114 ((fun x i => Host.gather gather_S200000x128_S200000x1_S200000x128_1_0_n_n_0_1_1128 x i) : (⟨S200000x128, .f32⟩ : BufTy).Contents (Elt F) → (⟨S200000x1, .i32⟩ : BufTy).Contents (Elt F) → (⟨S200000x128, .f32⟩ : BufTy).Contents (Elt F)),
    StableHlo.nullary main_cst_34 (constant S_ .f32 0x00000000#32),
    StableHlo.unary main_cst_34 main_v115 (broadcastInDim S200000x128 ![] bcast_S_S200000x128 : (⟨S_, .f32⟩ : BufTy).Contents (Elt F) → (⟨S200000x128, .f32⟩ : BufTy).Contents (Elt F)),
    StableHlo.nullary main_c_35 (constantI S_ 32 0#32),
    StableHlo.unary main_c_35 main_v116 (broadcastInDim S200000 ![] bcast_S_S200000 : (⟨S_, .i32⟩ : BufTy).Contents (Elt F) → (⟨S200000, .i32⟩ : BufTy).Contents (Elt F)),
    StableHlo.binary main_arg1 main_v116 main_v117 (cmpi .eq : (⟨S200000, .i32⟩ : BufTy).Contents (Elt F) → (⟨S200000, .i32⟩ : BufTy).Contents (Elt F) → (⟨S200000, .i1⟩ : BufTy).Contents (Elt F)),
    StableHlo.unary main_v117 main_v118 (broadcastInDim S200000x1 ![0] bcast_S200000_S200000x1_0 : (⟨S200000, .i1⟩ : BufTy).Contents (Elt F) → (⟨S200000x1, .i1⟩ : BufTy).Contents (Elt F)),
    StableHlo.unary main_arg5 main_v119 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v119 main_v120 rfl shapeCasts_S1x128x128_S128x128,
    StableHlo.binary main_v114 main_v120 main_v121 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.nullary main_cst_36 (constant S_ .f32 0x00000000#32),
    StableHlo.TRef.unary (.of main_cst_36 : StableHlo.TRef sig ⟨S_, .f32⟩) main_call9.v0 id,
    StableHlo.TRef.unary (.of main_v118 : StableHlo.TRef sig ⟨S200000x1, .i1⟩) main_call9.v1 (broadcastInDim S200000x128 ![0, 1] bcast_S200000x1_S200000x128_0_1),
    StableHlo.TRef.unary main_call9.v0 main_call9.v2 (broadcastInDim S200000x128 ![] bcast_S_S200000x128),
    StableHlo.TRef.ternary main_call9.v1 (.of main_v121 : StableHlo.TRef sig ⟨S200000x128, .f32⟩) main_call9.v2 main_call9.v3 select,
    StableHlo.binary main_v115 main_v122 main_v123 (addf : (⟨S200000x128, .f32⟩ : BufTy).Contents (Elt F) → (⟨S200000x128, .f32⟩ : BufTy).Contents (Elt F) → (⟨S200000x128, .f32⟩ : BufTy).Contents (Elt F)),
    StableHlo.nullary main_c_37 (constantI S_ 32 1#32),
    StableHlo.unary main_c_37 main_v124 (broadcastInDim S200000 ![] bcast_S_S200000 : (⟨S_, .i32⟩ : BufTy).Contents (Elt F) → (⟨S200000, .i32⟩ : BufTy).Contents (Elt F)),
    StableHlo.binary main_arg1 main_v124 main_v125 (cmpi .eq : (⟨S200000, .i32⟩ : BufTy).Contents (Elt F) → (⟨S200000, .i32⟩ : BufTy).Contents (Elt F) → (⟨S200000, .i1⟩ : BufTy).Contents (Elt F)),
    StableHlo.unary main_v125 main_v126 (broadcastInDim S200000x1 ![0] bcast_S200000_S200000x1_0 : (⟨S200000, .i1⟩ : BufTy).Contents (Elt F) → (⟨S200000x1, .i1⟩ : BufTy).Contents (Elt F)),
    StableHlo.unary main_arg5 main_v127 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v127 main_v128 rfl shapeCasts_S1x128x128_S128x128,
    StableHlo.binary main_v114 main_v128 main_v129 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.nullary main_cst_38 (constant S_ .f32 0x00000000#32),
    StableHlo.TRef.unary (.of main_cst_38 : StableHlo.TRef sig ⟨S_, .f32⟩) main_call10.v0 id,
    StableHlo.TRef.unary (.of main_v126 : StableHlo.TRef sig ⟨S200000x1, .i1⟩) main_call10.v1 (broadcastInDim S200000x128 ![0, 1] bcast_S200000x1_S200000x128_0_1),
    StableHlo.TRef.unary main_call10.v0 main_call10.v2 (broadcastInDim S200000x128 ![] bcast_S_S200000x128),
    StableHlo.TRef.ternary main_call10.v1 (.of main_v129 : StableHlo.TRef sig ⟨S200000x128, .f32⟩) main_call10.v2 main_call10.v3 select,
    StableHlo.binary main_v123 main_v130 main_v131 (addf : (⟨S200000x128, .f32⟩ : BufTy).Contents (Elt F) → (⟨S200000x128, .f32⟩ : BufTy).Contents (Elt F) → (⟨S200000x128, .f32⟩ : BufTy).Contents (Elt F)),
    StableHlo.nullary main_c_39 (constantI S_ 32 2#32),
    StableHlo.unary main_c_39 main_v132 (broadcastInDim S200000 ![] bcast_S_S200000 : (⟨S_, .i32⟩ : BufTy).Contents (Elt F) → (⟨S200000, .i32⟩ : BufTy).Contents (Elt F)),
    StableHlo.binary main_arg1 main_v132 main_v133 (cmpi .eq : (⟨S200000, .i32⟩ : BufTy).Contents (Elt F) → (⟨S200000, .i32⟩ : BufTy).Contents (Elt F) → (⟨S200000, .i1⟩ : BufTy).Contents (Elt F)),
    StableHlo.unary main_v133 main_v134 (broadcastInDim S200000x1 ![0] bcast_S200000_S200000x1_0 : (⟨S200000, .i1⟩ : BufTy).Contents (Elt F) → (⟨S200000x1, .i1⟩ : BufTy).Contents (Elt F)),
    StableHlo.unary main_arg5 main_v135 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v135 main_v136 rfl shapeCasts_S1x128x128_S128x128,
    StableHlo.binary main_v114 main_v136 main_v137 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)) ]

/-- The operations of window 3 of the entry function, calls inlined: they write buffers 221 … 296. -/
abbrev ops3 : List (HloOp τ sig (Elt F)) :=
  [ StableHlo.nullary main_cst_40 (constant S_ .f32 0x00000000#32),
    StableHlo.TRef.unary (.of main_cst_40 : StableHlo.TRef sig ⟨S_, .f32⟩) main_call11.v0 id,
    StableHlo.TRef.unary (.of main_v134 : StableHlo.TRef sig ⟨S200000x1, .i1⟩) main_call11.v1 (broadcastInDim S200000x128 ![0, 1] bcast_S200000x1_S200000x128_0_1),
    StableHlo.TRef.unary main_call11.v0 main_call11.v2 (broadcastInDim S200000x128 ![] bcast_S_S200000x128),
    StableHlo.TRef.ternary main_call11.v1 (.of main_v137 : StableHlo.TRef sig ⟨S200000x128, .f32⟩) main_call11.v2 main_call11.v3 select,
    StableHlo.binary main_v131 main_v138 main_v139 (addf : (⟨S200000x128, .f32⟩ : BufTy).Contents (Elt F) → (⟨S200000x128, .f32⟩ : BufTy).Contents (Elt F) → (⟨S200000x128, .f32⟩ : BufTy).Contents (Elt F)),
    StableHlo.nullary main_c_41 (constantI S_ 32 3#32),
    StableHlo.unary main_c_41 main_v140 (broadcastInDim S200000 ![] bcast_S_S200000 : (⟨S_, .i32⟩ : BufTy).Contents (Elt F) → (⟨S200000, .i32⟩ : BufTy).Contents (Elt F)),
    StableHlo.binary main_arg1 main_v140 main_v141 (cmpi .eq : (⟨S200000, .i32⟩ : BufTy).Contents (Elt F) → (⟨S200000, .i32⟩ : BufTy).Contents (Elt F) → (⟨S200000, .i1⟩ : BufTy).Contents (Elt F)),
    StableHlo.unary main_v141 main_v142 (broadcastInDim S200000x1 ![0] bcast_S200000_S200000x1_0 : (⟨S200000, .i1⟩ : BufTy).Contents (Elt F) → (⟨S200000x1, .i1⟩ : BufTy).Contents (Elt F)),
    StableHlo.unary main_arg5 main_v143 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v143 main_v144 rfl shapeCasts_S1x128x128_S128x128,
    StableHlo.binary main_v114 main_v144 main_v145 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.nullary main_cst_42 (constant S_ .f32 0x00000000#32),
    StableHlo.TRef.unary (.of main_cst_42 : StableHlo.TRef sig ⟨S_, .f32⟩) main_call12.v0 id,
    StableHlo.TRef.unary (.of main_v142 : StableHlo.TRef sig ⟨S200000x1, .i1⟩) main_call12.v1 (broadcastInDim S200000x128 ![0, 1] bcast_S200000x1_S200000x128_0_1),
    StableHlo.TRef.unary main_call12.v0 main_call12.v2 (broadcastInDim S200000x128 ![] bcast_S_S200000x128),
    StableHlo.TRef.ternary main_call12.v1 (.of main_v145 : StableHlo.TRef sig ⟨S200000x128, .f32⟩) main_call12.v2 main_call12.v3 select,
    StableHlo.binary main_v139 main_v146 main_v147 (addf : (⟨S200000x128, .f32⟩ : BufTy).Contents (Elt F) → (⟨S200000x128, .f32⟩ : BufTy).Contents (Elt F) → (⟨S200000x128, .f32⟩ : BufTy).Contents (Elt F)),
    StableHlo.binary main_arg2 main_v107 main_v148 (mulf : (⟨S200000, .f32⟩ : BufTy).Contents (Elt F) → (⟨S200000, .f32⟩ : BufTy).Contents (Elt F) → (⟨S200000, .f32⟩ : BufTy).Contents (Elt F)),
    StableHlo.unary main_v148 main_v149 (broadcastInDim S200000x1 ![0] bcast_S200000_S200000x1_0 : (⟨S200000, .f32⟩ : BufTy).Contents (Elt F) → (⟨S200000x1, .f32⟩ : BufTy).Contents (Elt F)),
    StableHlo.unary main_v149 main_v150 (broadcastInDim S200000x128 ![0, 1] bcast_S200000x1_S200000x128_0_1 : (⟨S200000x1, .f32⟩ : BufTy).Contents (Elt F) → (⟨S200000x128, .f32⟩ : BufTy).Contents (Elt F)),
    StableHlo.binary main_v147 main_v150 main_v151 (mulf : (⟨S200000x128, .f32⟩ : BufTy).Contents (Elt F) → (⟨S200000x128, .f32⟩ : BufTy).Contents (Elt F) → (⟨S200000x128, .f32⟩ : BufTy).Contents (Elt F)),
    StableHlo.nullary main_cst_43 (constant S_ .f32 0x00000000#32),
    StableHlo.unary main_cst_43 main_v152 (broadcastInDim S200000x128 ![] bcast_S_S200000x128 : (⟨S_, .f32⟩ : BufTy).Contents (Elt F) → (⟨S200000x128, .f32⟩ : BufTy).Contents (Elt F)),
    StableHlo.unary main_v3 main_v153 (broadcastInDim S200000x1 ![0] bcast_S200000_S200000x1_0 : (⟨S200000, .i32⟩ : BufTy).Contents (Elt F) → (⟨S200000x1, .i32⟩ : BufTy).Contents (Elt F)),
    StableHlo.ternary main_v152 main_v153 main_v151 main_v154 ((fun x i u => Host.scatterAdd scatter_S200000x128_S200000x1_S200000x128_1_0_0_1 x i u) : (⟨S200000x128, .f32⟩ : BufTy).Contents (Elt F) → (⟨S200000x1, .i32⟩ : BufTy).Contents (Elt F) → (⟨S200000x128, .f32⟩ : BufTy).Contents (Elt F) → (⟨S200000x128, .f32⟩ : BufTy).Contents (Elt F)),
    StableHlo.unary main_arg6 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S200000x128 ![0, 1] bcast_S1x128_S200000x128_0_1 : (⟨S1x128, .f32⟩ : BufTy).Contents (Elt F) → (⟨S200000x128, .f32⟩ : BufTy).Contents (Elt F)),
    StableHlo.binary main_v154 main_v156 main_v157 (addf : (⟨S200000x128, .f32⟩ : BufTy).Contents (Elt F) → (⟨S200000x128, .f32⟩ : BufTy).Contents (Elt F) → (⟨S200000x128, .f32⟩ : BufTy).Contents (Elt F)),
    StableHlo.nullary main_cst_44 (constant S_ .f32 0x3C23D70A#32),
    StableHlo.TRef.nullary main_call13.cst (constant S_ .f32 0x00000000#32),
    StableHlo.TRef.unary main_call13.cst main_call13.v0 (broadcastInDim S200000x128 ![] bcast_S_S200000x128),
    StableHlo.TRef.binary (.of main_v157 : StableHlo.TRef sig ⟨S200000x128, .f32⟩) main_call13.v0 main_call13.v1 (cmpf .oge),
    StableHlo.TRef.unary (.of main_cst_44 : StableHlo.TRef sig ⟨S_, .f32⟩) main_call13.v2 id,
    StableHlo.TRef.unary main_call13.v2 main_call13.v3 (broadcastInDim S200000x128 ![] bcast_S_S200000x128),
    StableHlo.TRef.binary main_call13.v3 (.of main_v157 : StableHlo.TRef sig ⟨S200000x128, .f32⟩) main_call13.v4 mulf,
    StableHlo.TRef.ternary main_call13.v1 (.of main_v157 : StableHlo.TRef sig ⟨S200000x128, .f32⟩) main_call13.v4 main_call13.call0.v0 select,
    StableHlo.nullary main_cst_45 (constant S_ .f32 0x3F800000#32),
    StableHlo.unary main_cst_45 main_v159 (broadcastInDim S200000 ![] bcast_S_S200000 : (⟨S_, .f32⟩ : BufTy).Contents (Elt F) → (⟨S200000, .f32⟩ : BufTy).Contents (Elt F)),
    StableHlo.nullary main_cst_46 (constant S_ .f32 0x00000000#32),
    StableHlo.unary main_cst_46 main_v160 (broadcastInDim S200000 ![] bcast_S_S200000 : (⟨S_, .f32⟩ : BufTy).Contents (Elt F) → (⟨S200000, .f32⟩ : BufTy).Contents (Elt F)),
    StableHlo.unary main_v3 main_v161 (broadcastInDim S200000x1 ![0] bcast_S200000_S200000x1_0 : (⟨S200000, .i32⟩ : BufTy).Contents (Elt F) → (⟨S200000x1, .i32⟩ : BufTy).Contents (Elt F)),
    StableHlo.ternary main_v160 main_v161 main_v159 main_v162 ((fun x i u => Host.scatterAdd scatter_S200000_S200000x1_S200000_n_0_0_1 x i u) : (⟨S200000, .f32⟩ : BufTy).Contents (Elt F) → (⟨S200000x1, .i32⟩ : BufTy).Contents (Elt F) → (⟨S200000, .f32⟩ : BufTy).Contents (Elt F) → (⟨S200000, .f32⟩ : BufTy).Contents (Elt F)),
    StableHlo.nullary main_cst_47 (constant S_ .f32 0x00000000#32),
    StableHlo.unary main_cst_47 main_v163 (broadcastInDim S200000 ![] bcast_S_S200000 : (⟨S_, .f32⟩ : BufTy).Contents (Elt F) → (⟨S200000, .f32⟩ : BufTy).Contents (Elt F)),
    StableHlo.binary main_v162 main_v163 main_v164 (cmpf .ogt : (⟨S200000, .f32⟩ : BufTy).Contents (Elt F) → (⟨S200000, .f32⟩ : BufTy).Contents (Elt F) → (⟨S200000, .i1⟩ : BufTy).Contents (Elt F)),
    StableHlo.nullary main_cst_48 (constant S_ .f32 0x00000000#32),
    StableHlo.unary main_cst_48 main_v165 (broadcastInDim S200000 ![] bcast_S_S200000 : (⟨S_, .f32⟩ : BufTy).Contents (Elt F) → (⟨S200000, .f32⟩ : BufTy).Contents (Elt F)),
    StableHlo.binary main_v162 main_v165 main_v166 (cmpf .ogt : (⟨S200000, .f32⟩ : BufTy).Contents (Elt F) → (⟨S200000, .f32⟩ : BufTy).Contents (Elt F) → (⟨S200000, .i1⟩ : BufTy).Contents (Elt F)),
    StableHlo.nullary main_cst_49 (constant S_ .f32 0x3F800000#32),
    StableHlo.TRef.unary (.of main_cst_49 : StableHlo.TRef sig ⟨S_, .f32⟩) main_call14.v0 id,
    StableHlo.TRef.unary main_call14.v0 main_call14.v1 (broadcastInDim S200000 ![] bcast_S_S200000),
    StableHlo.TRef.ternary (.of main_v166 : StableHlo.TRef sig ⟨S200000, .i1⟩) (.of main_v162 : StableHlo.TRef sig ⟨S200000, .f32⟩) main_call14.v1 main_call14.v2 select,
    StableHlo.unary main_v167 main_v168 (Host.rsqrt : (⟨S200000, .f32⟩ : BufTy).Contents (Elt F) → (⟨S200000, .f32⟩ : BufTy).Contents (Elt F)),
    StableHlo.nullary main_cst_50 (constant S_ .f32 0x00000000#32),
    StableHlo.TRef.unary (.of main_cst_50 : StableHlo.TRef sig ⟨S_, .f32⟩) main_call15.v0 id,
    StableHlo.TRef.unary main_call15.v0 main_call15.v1 (broadcastInDim S200000 ![] bcast_S_S200000),
    StableHlo.TRef.ternary (.of main_v164 : StableHlo.TRef sig ⟨S200000, .i1⟩) (.of main_v168 : StableHlo.TRef sig ⟨S200000, .f32⟩) main_call15.v1 main_call15.v2 select,
    StableHlo.nullary main_c_51 (constantI S_ 32 0#32),
    StableHlo.unary main_c_51 main_v170 (broadcastInDim S200000 ![] bcast_S_S200000 : (⟨S_, .i32⟩ : BufTy).Contents (Elt F) → (⟨S200000, .i32⟩ : BufTy).Contents (Elt F)),
    StableHlo.binary main_v1 main_v170 main_v171 (cmpi .slt : (⟨S200000, .i32⟩ : BufTy).Contents (Elt F) → (⟨S200000, .i32⟩ : BufTy).Contents (Elt F) → (⟨S200000, .i1⟩ : BufTy).Contents (Elt F)),
    StableHlo.nullary main_c_52 (constantI S_ 32 200000#32),
    StableHlo.unary main_c_52 main_v172 (broadcastInDim S200000 ![] bcast_S_S200000 : (⟨S_, .i32⟩ : BufTy).Contents (Elt F) → (⟨S200000, .i32⟩ : BufTy).Contents (Elt F)),
    StableHlo.binary main_v1 main_v172 main_v173 (addi : (⟨S200000, .i32⟩ : BufTy).Contents (Elt F) → (⟨S200000, .i32⟩ : BufTy).Contents (Elt F) → (⟨S200000, .i32⟩ : BufTy).Contents (Elt F)),
    StableHlo.ternary main_v171 main_v173 main_v1 main_v174 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v174 main_v175 (broadcastInDim S200000x1 ![0] bcast_S200000_S200000x1_0 : (⟨S200000, .i32⟩ : BufTy).Contents (Elt F) → (⟨S200000x1, .i32⟩ : BufTy).Contents (Elt F)),
    StableHlo.binary main_v169 main_v175 main_v176 ((fun x i => Host.gather gather_S200000_S200000x1_S200000_n_0_n_n_0_1_1 x i) : (⟨S200000, .f32⟩ : BufTy).Contents (Elt F) → (⟨S200000x1, .i32⟩ : BufTy).Contents (Elt F) → (⟨S200000, .f32⟩ : BufTy).Contents (Elt F)),
    StableHlo.nullary main_c_53 (constantI S_ 32 0#32),
    StableHlo.unary main_c_53 main_v177 (broadcastInDim S200000 ![] bcast_S_S200000 : (⟨S_, .i32⟩ : BufTy).Contents (Elt F) → (⟨S200000, .i32⟩ : BufTy).Contents (Elt F)),
    StableHlo.binary main_v3 main_v177 main_v178 (cmpi .slt : (⟨S200000, .i32⟩ : BufTy).Contents (Elt F) → (⟨S200000, .i32⟩ : BufTy).Contents (Elt F) → (⟨S200000, .i1⟩ : BufTy).Contents (Elt F)),
    StableHlo.nullary main_c_54 (constantI S_ 32 200000#32),
    StableHlo.unary main_c_54 main_v179 (broadcastInDim S200000 ![] bcast_S_S200000 : (⟨S_, .i32⟩ : BufTy).Contents (Elt F) → (⟨S200000, .i32⟩ : BufTy).Contents (Elt F)),
    StableHlo.binary main_v3 main_v179 main_v180 (addi : (⟨S200000, .i32⟩ : BufTy).Contents (Elt F) → (⟨S200000, .i32⟩ : BufTy).Contents (Elt F) → (⟨S200000, .i32⟩ : BufTy).Contents (Elt F)),
    StableHlo.ternary main_v178 main_v180 main_v3 main_v181 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v181 main_v182 (broadcastInDim S200000x1 ![0] bcast_S200000_S200000x1_0 : (⟨S200000, .i32⟩ : BufTy).Contents (Elt F) → (⟨S200000x1, .i32⟩ : BufTy).Contents (Elt F)) ]

/-- The operations of window 4 of the entry function, calls inlined: they write buffers 297 … 368. -/
abbrev ops4 : List (HloOp τ sig (Elt F)) :=
  [ StableHlo.binary main_v169 main_v182 main_v183 ((fun x i => Host.gather gather_S200000_S200000x1_S200000_n_0_n_n_0_1_1 x i) : (⟨S200000, .f32⟩ : BufTy).Contents (Elt F) → (⟨S200000x1, .i32⟩ : BufTy).Contents (Elt F) → (⟨S200000, .f32⟩ : BufTy).Contents (Elt F)),
    StableHlo.binary main_v176 main_v183 main_v184 (mulf : (⟨S200000, .f32⟩ : BufTy).Contents (Elt F) → (⟨S200000, .f32⟩ : BufTy).Contents (Elt F) → (⟨S200000, .f32⟩ : BufTy).Contents (Elt F)),
    StableHlo.nullary main_c_55 (constantI S_ 32 0#32),
    StableHlo.unary main_c_55 main_v185 (broadcastInDim S200000 ![] bcast_S_S200000 : (⟨S_, .i32⟩ : BufTy).Contents (Elt F) → (⟨S200000, .i32⟩ : BufTy).Contents (Elt F)),
    StableHlo.binary main_v1 main_v185 main_v186 (cmpi .slt : (⟨S200000, .i32⟩ : BufTy).Contents (Elt F) → (⟨S200000, .i32⟩ : BufTy).Contents (Elt F) → (⟨S200000, .i1⟩ : BufTy).Contents (Elt F)),
    StableHlo.nullary main_c_56 (constantI S_ 32 200000#32),
    StableHlo.unary main_c_56 main_v187 (broadcastInDim S200000 ![] bcast_S_S200000 : (⟨S_, .i32⟩ : BufTy).Contents (Elt F) → (⟨S200000, .i32⟩ : BufTy).Contents (Elt F)),
    StableHlo.binary main_v1 main_v187 main_v188 (addi : (⟨S200000, .i32⟩ : BufTy).Contents (Elt F) → (⟨S200000, .i32⟩ : BufTy).Contents (Elt F) → (⟨S200000, .i32⟩ : BufTy).Contents (Elt F)),
    StableHlo.ternary main_v186 main_v188 main_v1 main_v189 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v189 main_v190 (broadcastInDim S200000x1 ![0] bcast_S200000_S200000x1_0 : (⟨S200000, .i32⟩ : BufTy).Contents (Elt F) → (⟨S200000x1, .i32⟩ : BufTy).Contents (Elt F)),
    StableHlo.binary main_v158 main_v190 main_v191 ((fun x i => Host.gather gather_S200000x128_S200000x1_S200000x128_1_0_n_n_0_1_1128 x i) : (⟨S200000x128, .f32⟩ : BufTy).Contents (Elt F) → (⟨S200000x1, .i32⟩ : BufTy).Contents (Elt F) → (⟨S200000x128, .f32⟩ : BufTy).Contents (Elt F)),
    StableHlo.nullary main_cst_57 (constant S_ .f32 0x00000000#32),
    StableHlo.unary main_cst_57 main_v192 (broadcastInDim S200000x128 ![] bcast_S_S200000x128 : (⟨S_, .f32⟩ : BufTy).Contents (Elt F) → (⟨S200000x128, .f32⟩ : BufTy).Contents (Elt F)),
    StableHlo.nullary main_c_58 (constantI S_ 32 0#32),
    StableHlo.unary main_c_58 main_v193 (broadcastInDim S200000 ![] bcast_S_S200000 : (⟨S_, .i32⟩ : BufTy).Contents (Elt F) → (⟨S200000, .i32⟩ : BufTy).Contents (Elt F)),
    StableHlo.binary main_arg1 main_v193 main_v194 (cmpi .eq : (⟨S200000, .i32⟩ : BufTy).Contents (Elt F) → (⟨S200000, .i32⟩ : BufTy).Contents (Elt F) → (⟨S200000, .i1⟩ : BufTy).Contents (Elt F)),
    StableHlo.unary main_v194 main_v195 (broadcastInDim S200000x1 ![0] bcast_S200000_S200000x1_0 : (⟨S200000, .i1⟩ : BufTy).Contents (Elt F) → (⟨S200000x1, .i1⟩ : BufTy).Contents (Elt F)),
    StableHlo.unary main_arg7 main_v196 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v196 main_v197 rfl shapeCasts_S1x128x128_S128x128,
    StableHlo.binary main_v191 main_v197 main_v198 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.nullary main_cst_59 (constant S_ .f32 0x00000000#32),
    StableHlo.TRef.unary (.of main_cst_59 : StableHlo.TRef sig ⟨S_, .f32⟩) main_call16.v0 id,
    StableHlo.TRef.unary (.of main_v195 : StableHlo.TRef sig ⟨S200000x1, .i1⟩) main_call16.v1 (broadcastInDim S200000x128 ![0, 1] bcast_S200000x1_S200000x128_0_1),
    StableHlo.TRef.unary main_call16.v0 main_call16.v2 (broadcastInDim S200000x128 ![] bcast_S_S200000x128),
    StableHlo.TRef.ternary main_call16.v1 (.of main_v198 : StableHlo.TRef sig ⟨S200000x128, .f32⟩) main_call16.v2 main_call16.v3 select,
    StableHlo.binary main_v192 main_v199 main_v200 (addf : (⟨S200000x128, .f32⟩ : BufTy).Contents (Elt F) → (⟨S200000x128, .f32⟩ : BufTy).Contents (Elt F) → (⟨S200000x128, .f32⟩ : BufTy).Contents (Elt F)),
    StableHlo.nullary main_c_60 (constantI S_ 32 1#32),
    StableHlo.unary main_c_60 main_v201 (broadcastInDim S200000 ![] bcast_S_S200000 : (⟨S_, .i32⟩ : BufTy).Contents (Elt F) → (⟨S200000, .i32⟩ : BufTy).Contents (Elt F)),
    StableHlo.binary main_arg1 main_v201 main_v202 (cmpi .eq : (⟨S200000, .i32⟩ : BufTy).Contents (Elt F) → (⟨S200000, .i32⟩ : BufTy).Contents (Elt F) → (⟨S200000, .i1⟩ : BufTy).Contents (Elt F)),
    StableHlo.unary main_v202 main_v203 (broadcastInDim S200000x1 ![0] bcast_S200000_S200000x1_0 : (⟨S200000, .i1⟩ : BufTy).Contents (Elt F) → (⟨S200000x1, .i1⟩ : BufTy).Contents (Elt F)),
    StableHlo.unary main_arg7 main_v204 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v204 main_v205 rfl shapeCasts_S1x128x128_S128x128,
    StableHlo.binary main_v191 main_v205 main_v206 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.nullary main_cst_61 (constant S_ .f32 0x00000000#32),
    StableHlo.TRef.unary (.of main_cst_61 : StableHlo.TRef sig ⟨S_, .f32⟩) main_call17.v0 id,
    StableHlo.TRef.unary (.of main_v203 : StableHlo.TRef sig ⟨S200000x1, .i1⟩) main_call17.v1 (broadcastInDim S200000x128 ![0, 1] bcast_S200000x1_S200000x128_0_1),
    StableHlo.TRef.unary main_call17.v0 main_call17.v2 (broadcastInDim S200000x128 ![] bcast_S_S200000x128),
    StableHlo.TRef.ternary main_call17.v1 (.of main_v206 : StableHlo.TRef sig ⟨S200000x128, .f32⟩) main_call17.v2 main_call17.v3 select,
    StableHlo.binary main_v200 main_v207 main_v208 (addf : (⟨S200000x128, .f32⟩ : BufTy).Contents (Elt F) → (⟨S200000x128, .f32⟩ : BufTy).Contents (Elt F) → (⟨S200000x128, .f32⟩ : BufTy).Contents (Elt F)),
    StableHlo.nullary main_c_62 (constantI S_ 32 2#32),
    StableHlo.unary main_c_62 main_v209 (broadcastInDim S200000 ![] bcast_S_S200000 : (⟨S_, .i32⟩ : BufTy).Contents (Elt F) → (⟨S200000, .i32⟩ : BufTy).Contents (Elt F)),
    StableHlo.binary main_arg1 main_v209 main_v210 (cmpi .eq : (⟨S200000, .i32⟩ : BufTy).Contents (Elt F) → (⟨S200000, .i32⟩ : BufTy).Contents (Elt F) → (⟨S200000, .i1⟩ : BufTy).Contents (Elt F)),
    StableHlo.unary main_v210 main_v211 (broadcastInDim S200000x1 ![0] bcast_S200000_S200000x1_0 : (⟨S200000, .i1⟩ : BufTy).Contents (Elt F) → (⟨S200000x1, .i1⟩ : BufTy).Contents (Elt F)),
    StableHlo.unary main_arg7 main_v212 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v212 main_v213 rfl shapeCasts_S1x128x128_S128x128,
    StableHlo.binary main_v191 main_v213 main_v214 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.nullary main_cst_63 (constant S_ .f32 0x00000000#32),
    StableHlo.TRef.unary (.of main_cst_63 : StableHlo.TRef sig ⟨S_, .f32⟩) main_call18.v0 id,
    StableHlo.TRef.unary (.of main_v211 : StableHlo.TRef sig ⟨S200000x1, .i1⟩) main_call18.v1 (broadcastInDim S200000x128 ![0, 1] bcast_S200000x1_S200000x128_0_1),
    StableHlo.TRef.unary main_call18.v0 main_call18.v2 (broadcastInDim S200000x128 ![] bcast_S_S200000x128),
    StableHlo.TRef.ternary main_call18.v1 (.of main_v214 : StableHlo.TRef sig ⟨S200000x128, .f32⟩) main_call18.v2 main_call18.v3 select,
    StableHlo.binary main_v208 main_v215 main_v216 (addf : (⟨S200000x128, .f32⟩ : BufTy).Contents (Elt F) → (⟨S200000x128, .f32⟩ : BufTy).Contents (Elt F) → (⟨S200000x128, .f32⟩ : BufTy).Contents (Elt F)),
    StableHlo.nullary main_c_64 (constantI S_ 32 3#32),
    StableHlo.unary main_c_64 main_v217 (broadcastInDim S200000 ![] bcast_S_S200000 : (⟨S_, .i32⟩ : BufTy).Contents (Elt F) → (⟨S200000, .i32⟩ : BufTy).Contents (Elt F)),
    StableHlo.binary main_arg1 main_v217 main_v218 (cmpi .eq : (⟨S200000, .i32⟩ : BufTy).Contents (Elt F) → (⟨S200000, .i32⟩ : BufTy).Contents (Elt F) → (⟨S200000, .i1⟩ : BufTy).Contents (Elt F)),
    StableHlo.unary main_v218 main_v219 (broadcastInDim S200000x1 ![0] bcast_S200000_S200000x1_0 : (⟨S200000, .i1⟩ : BufTy).Contents (Elt F) → (⟨S200000x1, .i1⟩ : BufTy).Contents (Elt F)),
    StableHlo.unary main_arg7 main_v220 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v220 main_v221 rfl shapeCasts_S1x128x128_S128x128,
    StableHlo.binary main_v191 main_v221 main_v222 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.nullary main_cst_65 (constant S_ .f32 0x00000000#32),
    StableHlo.TRef.unary (.of main_cst_65 : StableHlo.TRef sig ⟨S_, .f32⟩) main_call19.v0 id,
    StableHlo.TRef.unary (.of main_v219 : StableHlo.TRef sig ⟨S200000x1, .i1⟩) main_call19.v1 (broadcastInDim S200000x128 ![0, 1] bcast_S200000x1_S200000x128_0_1),
    StableHlo.TRef.unary main_call19.v0 main_call19.v2 (broadcastInDim S200000x128 ![] bcast_S_S200000x128),
    StableHlo.TRef.ternary main_call19.v1 (.of main_v222 : StableHlo.TRef sig ⟨S200000x128, .f32⟩) main_call19.v2 main_call19.v3 select,
    StableHlo.binary main_v216 main_v223 main_v224 (addf : (⟨S200000x128, .f32⟩ : BufTy).Contents (Elt F) → (⟨S200000x128, .f32⟩ : BufTy).Contents (Elt F) → (⟨S200000x128, .f32⟩ : BufTy).Contents (Elt F)),
    StableHlo.binary main_arg2 main_v184 main_v225 (mulf : (⟨S200000, .f32⟩ : BufTy).Contents (Elt F) → (⟨S200000, .f32⟩ : BufTy).Contents (Elt F) → (⟨S200000, .f32⟩ : BufTy).Contents (Elt F)),
    StableHlo.unary main_v225 main_v226 (broadcastInDim S200000x1 ![0] bcast_S200000_S200000x1_0 : (⟨S200000, .f32⟩ : BufTy).Contents (Elt F) → (⟨S200000x1, .f32⟩ : BufTy).Contents (Elt F)),
    StableHlo.unary main_v226 main_v227 (broadcastInDim S200000x128 ![0, 1] bcast_S200000x1_S200000x128_0_1 : (⟨S200000x1, .f32⟩ : BufTy).Contents (Elt F) → (⟨S200000x128, .f32⟩ : BufTy).Contents (Elt F)),
    StableHlo.binary main_v224 main_v227 main_v228 (mulf : (⟨S200000x128, .f32⟩ : BufTy).Contents (Elt F) → (⟨S200000x128, .f32⟩ : BufTy).Contents (Elt F) → (⟨S200000x128, .f32⟩ : BufTy).Contents (Elt F)),
    StableHlo.nullary main_cst_66 (constant S_ .f32 0x00000000#32),
    StableHlo.unary main_cst_66 main_v229 (broadcastInDim S200000x128 ![] bcast_S_S200000x128 : (⟨S_, .f32⟩ : BufTy).Contents (Elt F) → (⟨S200000x128, .f32⟩ : BufTy).Contents (Elt F)),
    StableHlo.unary main_v3 main_v230 (broadcastInDim S200000x1 ![0] bcast_S200000_S200000x1_0 : (⟨S200000, .i32⟩ : BufTy).Contents (Elt F) → (⟨S200000x1, .i32⟩ : BufTy).Contents (Elt F)) ]

/-- The operations of window 5 of the entry function, calls inlined: they write buffers 369 … 386. -/
abbrev ops5 : List (HloOp τ sig (Elt F)) :=
  [ StableHlo.ternary main_v229 main_v230 main_v228 main_v231 ((fun x i u => Host.scatterAdd scatter_S200000x128_S200000x1_S200000x128_1_0_0_1 x i u) : (⟨S200000x128, .f32⟩ : BufTy).Contents (Elt F) → (⟨S200000x1, .i32⟩ : BufTy).Contents (Elt F) → (⟨S200000x128, .f32⟩ : BufTy).Contents (Elt F) → (⟨S200000x128, .f32⟩ : BufTy).Contents (Elt F)),
    StableHlo.unary main_arg8 main_v232 (broadcastInDim S1x128 ![1] bcast_S128_S1x128_1 : (⟨S128, .f32⟩ : BufTy).Contents (Elt F) → (⟨S1x128, .f32⟩ : BufTy).Contents (Elt F)),
    StableHlo.unary main_v232 main_v233 (broadcastInDim S200000x128 ![0, 1] bcast_S1x128_S200000x128_0_1 : (⟨S1x128, .f32⟩ : BufTy).Contents (Elt F) → (⟨S200000x128, .f32⟩ : BufTy).Contents (Elt F)),
    StableHlo.binary main_v231 main_v233 main_v234 (addf : (⟨S200000x128, .f32⟩ : BufTy).Contents (Elt F) → (⟨S200000x128, .f32⟩ : BufTy).Contents (Elt F) → (⟨S200000x128, .f32⟩ : BufTy).Contents (Elt F)),
    StableHlo.nullary main_cst_67 (constant S_ .f32 0x3C23D70A#32),
    StableHlo.TRef.nullary main_call20.cst (constant S_ .f32 0x00000000#32),
    StableHlo.TRef.unary main_call20.cst main_call20.v0 (broadcastInDim S200000x128 ![] bcast_S_S200000x128),
    StableHlo.TRef.binary (.of main_v234 : StableHlo.TRef sig ⟨S200000x128, .f32⟩) main_call20.v0 main_call20.v1 (cmpf .oge),
    StableHlo.TRef.unary (.of main_cst_67 : StableHlo.TRef sig ⟨S_, .f32⟩) main_call20.v2 id,
    StableHlo.TRef.unary main_call20.v2 main_call20.v3 (broadcastInDim S200000x128 ![] bcast_S_S200000x128),
    StableHlo.TRef.binary main_call20.v3 (.of main_v234 : StableHlo.TRef sig ⟨S200000x128, .f32⟩) main_call20.v4 mulf,
    StableHlo.TRef.ternary main_call20.v1 (.of main_v234 : StableHlo.TRef sig ⟨S200000x128, .f32⟩) main_call20.v4 main_call20.call0.v0 select,
    StableHlo.binary main_v4 main_v81 main_v236 (addf : (⟨S200000x128, .f32⟩ : BufTy).Contents (Elt F) → (⟨S200000x128, .f32⟩ : BufTy).Contents (Elt F) → (⟨S200000x128, .f32⟩ : BufTy).Contents (Elt F)),
    StableHlo.binary main_v236 main_v158 main_v237 (addf : (⟨S200000x128, .f32⟩ : BufTy).Contents (Elt F) → (⟨S200000x128, .f32⟩ : BufTy).Contents (Elt F) → (⟨S200000x128, .f32⟩ : BufTy).Contents (Elt F)),
    StableHlo.binary main_v237 main_v235 main_v238 (addf : (⟨S200000x128, .f32⟩ : BufTy).Contents (Elt F) → (⟨S200000x128, .f32⟩ : BufTy).Contents (Elt F) → (⟨S200000x128, .f32⟩ : BufTy).Contents (Elt F)),
    StableHlo.nullary main_cst_68 (constant S_ .f32 0x40800000#32),
    StableHlo.unary main_cst_68 main_v239 (broadcastInDim S200000x128 ![] bcast_S_S200000x128 : (⟨S_, .f32⟩ : BufTy).Contents (Elt F) → (⟨S200000x128, .f32⟩ : BufTy).Contents (Elt F)),
    StableHlo.binary main_v238 main_v239 main_v240 (Host.divf : (⟨S200000x128, .f32⟩ : BufTy).Contents (Elt F) → (⟨S200000x128, .f32⟩ : BufTy).Contents (Elt F) → (⟨S200000x128, .f32⟩ : BufTy).Contents (Elt F)) ]

/-- Every operation of the entry function, in program order, calls inlined. -/
abbrev ops : List (HloOp τ sig (Elt F)) :=
  ops0 ++ (ops1 ++ (ops2 ++ (ops3 ++ (ops4 ++ ops5))))

set_option maxRecDepth 8192 in
/-- Window 0 is the run of its listed operations: the callees unfold at their calls, and sequencing a finished
    step with the rest is the rest. -/
theorem main_part0_eq (c : Dev nD) : main_part0 (F := F) c = seq ops0 := rfl

set_option maxRecDepth 8192 in
/-- Window 1 is the run of its listed operations: the callees unfold at their calls, and sequencing a finished
    step with the rest is the rest. -/
theorem main_part1_eq (c : Dev nD) : main_part1 (F := F) c = seq ops1 := rfl

set_option maxRecDepth 8192 in
/-- Window 2 is the run of its listed operations: the callees unfold at their calls, and sequencing a finished
    step with the rest is the rest. -/
theorem main_part2_eq (c : Dev nD) : main_part2 (F := F) c = seq ops2 := rfl

set_option maxRecDepth 8192 in
/-- Window 3 is the run of its listed operations: the callees unfold at their calls, and sequencing a finished
    step with the rest is the rest. -/
theorem main_part3_eq (c : Dev nD) : main_part3 (F := F) c = seq ops3 := rfl

set_option maxRecDepth 8192 in
/-- Window 4 is the run of its listed operations: the callees unfold at their calls, and sequencing a finished
    step with the rest is the rest. -/
theorem main_part4_eq (c : Dev nD) : main_part4 (F := F) c = seq ops4 := rfl

set_option maxRecDepth 8192 in
/-- Window 5 is the run of its listed operations: the callees unfold at their calls, and sequencing a finished
    step with the rest is the rest. -/
theorem main_part5_eq (c : Dev nD) : main_part5 (F := F) c = seq ops5 := rfl

/-- The entry function is the run of the whole line: its windows in order, and two lines run one after the other
    are their concatenation run as one. -/
theorem main_eq (c : Dev nD) : main (F := F) c = seq ops := by
  simp only [ops, seq_append, ← main_part0_eq c, ← main_part1_eq c, ← main_part2_eq c, ← main_part3_eq c, ← main_part4_eq c, ← main_part5_eq c]
  rfl

end Cert.ReferenceIdeal.Hand

end
-- ==== Proof.RefRun.lean ====
/-
  THE REFERENCE PROGRAM'S RUN. Every operation of the line touches only buffers of the tensor unit and determines
  all it writes, and the program scopes no buffer and no semaphore; so every weakly fair execution of the entry
  function terminates, and leaves each buffer at the fold of the operations' results over what the launch dealt.
-/
import proofs.«120788_j77403900608956_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., binary_bufs_sub .., unary_bufs_sub .., unary_bufs_sub .., reshape_bufs_sub .., binary_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_sub : (ops1 : List (HloOp τ sig (Elt F))).Forall fun op => op.bufs ⊆ tcRefs τ sig :=
  ⟨nullary_bufs_sub .., unary_bufs_sub .., unary_bufs_sub .., unary_bufs_sub .., ternary_bufs_sub .., binary_bufs_sub .., nullary_bufs_sub .., unary_bufs_sub .., binary_bufs_sub .., unary_bufs_sub .., unary_bufs_sub .., reshape_bufs_sub .., binary_bufs_sub .., nullary_bufs_sub .., unary_bufs_sub .., unary_bufs_sub .., unary_bufs_sub .., ternary_bufs_sub .., binary_bufs_sub .., nullary_bufs_sub .., unary_bufs_sub .., binary_bufs_sub .., unary_bufs_sub .., unary_bufs_sub .., reshape_bufs_sub .., binary_bufs_sub .., nullary_bufs_sub .., unary_bufs_sub .., unary_bufs_sub .., unary_bufs_sub .., ternary_bufs_sub .., binary_bufs_sub .., nullary_bufs_sub .., unary_bufs_sub .., binary_bufs_sub .., unary_bufs_sub .., unary_bufs_sub .., reshape_bufs_sub .., binary_bufs_sub .., nullary_bufs_sub .., unary_bufs_sub .., unary_bufs_sub .., unary_bufs_sub .., ternary_bufs_sub .., binary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_sub : (ops2 : List (HloOp τ sig (Elt F))).Forall fun op => op.bufs ⊆ tcRefs τ sig :=
  ⟨unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., binary_bufs_sub .., unary_bufs_sub .., unary_bufs_sub .., reshape_bufs_sub .., binary_bufs_sub .., nullary_bufs_sub .., unary_bufs_sub .., unary_bufs_sub .., unary_bufs_sub .., ternary_bufs_sub .., binary_bufs_sub .., nullary_bufs_sub .., unary_bufs_sub .., binary_bufs_sub .., unary_bufs_sub .., unary_bufs_sub .., reshape_bufs_sub .., binary_bufs_sub .., nullary_bufs_sub .., unary_bufs_sub .., unary_bufs_sub .., unary_bufs_sub .., ternary_bufs_sub .., binary_bufs_sub .., nullary_bufs_sub .., unary_bufs_sub .., binary_bufs_sub .., unary_bufs_sub .., unary_bufs_sub .., reshape_bufs_sub .., binary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops3_sub : (ops3 : List (HloOp τ sig (Elt F))).Forall fun op => op.bufs ⊆ tcRefs τ sig :=
  ⟨nullary_bufs_sub .., unary_bufs_sub .., unary_bufs_sub .., unary_bufs_sub .., ternary_bufs_sub .., binary_bufs_sub .., nullary_bufs_sub .., unary_bufs_sub .., binary_bufs_sub .., unary_bufs_sub .., unary_bufs_sub .., reshape_bufs_sub .., binary_bufs_sub .., nullary_bufs_sub .., unary_bufs_sub .., unary_bufs_sub .., unary_bufs_sub .., ternary_bufs_sub .., binary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops4_sub : (ops4 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., binary_bufs_sub .., unary_bufs_sub .., unary_bufs_sub .., reshape_bufs_sub .., binary_bufs_sub .., nullary_bufs_sub .., unary_bufs_sub .., unary_bufs_sub .., unary_bufs_sub .., ternary_bufs_sub .., binary_bufs_sub .., nullary_bufs_sub .., unary_bufs_sub .., binary_bufs_sub .., unary_bufs_sub .., unary_bufs_sub .., reshape_bufs_sub .., binary_bufs_sub .., nullary_bufs_sub .., unary_bufs_sub .., unary_bufs_sub .., unary_bufs_sub .., ternary_bufs_sub .., binary_bufs_sub .., nullary_bufs_sub .., unary_bufs_sub .., binary_bufs_sub .., unary_bufs_sub .., unary_bufs_sub .., reshape_bufs_sub .., binary_bufs_sub .., nullary_bufs_sub .., unary_bufs_sub .., unary_bufs_sub .., unary_bufs_sub .., ternary_bufs_sub .., binary_bufs_sub .., nullary_bufs_sub .., unary_bufs_sub .., binary_bufs_sub .., unary_bufs_sub .., unary_bufs_sub .., reshape_bufs_sub .., binary_bufs_sub .., nullary_bufs_sub .., unary_bufs_sub .., unary_bufs_sub .., unary_bufs_sub .., ternary_bufs_sub .., binary_bufs_sub .., binary_bufs_sub .., unary_bufs_sub .., unary_bufs_sub .., binary_bufs_sub .., nullary_bufs_sub .., unary_bufs_sub .., unary_bufs_sub ..⟩

set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops5_sub : (ops5 : List (HloOp τ sig (Elt F))).Forall fun op => op.bufs ⊆ tcRefs τ sig :=
  ⟨ternary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., binary_bufs_sub .., nullary_bufs_sub .., unary_bufs_sub .., binary_bufs_sub ..⟩

set_option maxRecDepth 8192 in
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl⟩

/-- Every operation of the line touches only buffers of the tensor unit. -/
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h]

/-- Every operation of the line determines everything it writes. -/
theorem ops_fresh : ∀ op ∈ (ops : List (HloOp τ sig (Elt F))), op.fresh = ∅ := fun op h => by
  simp only [ops, List.mem_append] at h
  rcases h with h | h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of the
    entry function terminates, and every final state has each buffer of the tensor unit at the fold of the line's
    operations over the launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Hand

end
-- ==== Proof.LibSsa.lean ====
/-
  SINGLE ASSIGNMENT, READ BACK. A straight line of host operations in which every operation writes buffers that no
  earlier operation touches, and in which no operation's result depends on what its own result buffers held, leaves
  the buffers at a FIXED POINT of each of its operations: what the line leaves in an operation's result buffer is
  that operation's function of what the line leaves in its operands' buffers (`after_eqs`). A program that names a
  fresh buffer for every value is such a line, and the fixed-point equations are then the program's own lines read as
  equations between the final contents: one per operation, each usable by itself.

  The side condition is checked in ONE pass by a rank function `key` on buffers under which the line RISES: each
  operation writes only above a bound on everything touched before it (`Ssa`); buffers numbered in program order,
  each operation reading lower numbers than the one it writes, are the case in point. Per builder of an operation a
  lemma puts one more operation in front of such a line (`ssa_nullary` …), and one reads its equation off the front
  (`eqs_nullary` …).
-/
import Idealize.ShloMosaic.Lib.StableHlo.Run

noncomputable section

namespace Cert.Ssa

open Idealize.ShloMosaic Idealize.ShloMosaic.StableHlo

variable {τ : Topo} {sig : RefSig} {Val : EltTy → Type}

/-- What the operation writes does not depend on what the buffers it writes held before it. -/
def Indep (op : HloOp τ sig Val) : Prop :=
  ∀ F G : Valuation τ sig Val, (∀ x ∈ op.bufs, x ∉ op.writes → F x = G x) → ∀ b ∈ op.writes, op.result F b = op.result G b

/-- The contents `R` are a fixed point of every operation of the list, at the buffers it writes. -/
def Eqs (R : Valuation τ sig Val) : List (HloOp τ sig Val) → Prop
  | [] => True
  | op :: rest => (∀ b ∈ op.writes, R b = op.result R b) ∧ Eqs R rest

theorem eqs_nil (R : Valuation τ sig Val) : Eqs R [] ↔ True := Iff.rfl

theorem eqs_append (R : Valuation τ sig Val) : ∀ l₁ l₂ : List (HloOp τ sig Val), Eqs R (l₁ ++ l₂) ↔ Eqs R l₁ ∧ Eqs R l₂
  | [], l₂ => by rw [List.nil_append]; exact ⟨fun h => ⟨trivial, h⟩, fun h => h.2⟩
  | op :: l₁, l₂ => by
    rw [List.cons_append]
    show (_ ∧ Eqs R (l₁ ++ l₂)) ↔ (_ ∧ Eqs R l₁) ∧ Eqs R l₂
    rw [eqs_append R l₁ l₂, and_assoc]

/-- Under the rank `key` the line rises from `lo`: each operation is independent of its result buffers' old
    contents, writes only buffers ranked above `lo`, and `lo` for the rest of the line bounds everything it
    touches. -/
def Ssa (key : DevRef τ sig → Nat) : Nat → List (HloOp τ sig Val) → Prop
  | _, [] => True
  | lo, op :: rest => Indep op ∧ ∃ m, (∀ w ∈ op.writes, lo < key w) ∧ lo ≤ m ∧ (∀ x ∈ op.bufs, key x ≤ m) ∧ Ssa key m rest

variable {key : DevRef τ sig → Nat}

/-- Every buffer a rising line writes is ranked above its bound. -/
theorem Ssa.lt_writes : ∀ {lo : Nat} {ops : List (HloOp τ sig Val)}, Ssa key lo ops → ∀ o ∈ ops, ∀ w ∈ o.writes, lo < key w
  | _, [], _, _, ho, _, _ => absurd ho List.not_mem_nil
  | _, _ :: _, ⟨_, _, hw, hlm, _, hr⟩, o, ho, w, hwo => by
    rcases List.mem_cons.mp ho with rfl | ho
    · exact hw w hwo
    · exact lt_of_le_of_lt hlm (Ssa.lt_writes hr o ho w hwo)

/-- A buffer ranked at or below the bound is not written: the line leaves it as it found it. -/
theorem Ssa.after_low {lo : Nat} {ops : List (HloOp τ sig Val)} (h : Ssa key lo ops) (V : Valuation τ sig Val)
    {x : DevRef τ sig} (hx : key x ≤ lo) : after ops V x = V x :=
  after_of_forall_not_mem ops V fun o ho hxo => absurd (h.lt_writes o ho x hxo) (not_lt.mpr hx)

/-- **The fixed point.** What a rising line leaves is, at every operation's result buffers, that operation's function
    of what the line leaves. -/
theorem after_eqs : ∀ {lo : Nat} (ops : List (HloOp τ sig Val)) (V : Valuation τ sig Val), Ssa key lo ops → Eqs (after ops V) ops
  | _, [], _, _ => trivial
  | _, op :: rest, V, ⟨hI, _, _, _, hb, hr⟩ => by
    -- the rest of the line writes nothing the first operation touches
    have e1 : ∀ x ∈ op.bufs, after rest (op.result V) x = op.result V x := fun x hx =>
      after_of_forall_not_mem rest _ fun o ho hxo => absurd (hr.lt_writes o ho x hxo) (not_lt.mpr (hb x hx))
    refine ⟨fun b hbw => ?_, after_eqs rest (op.result V) hr⟩
    show after rest (op.result V) b = op.result (after rest (op.result V)) b
    rw [e1 b (op.writes_sub hbw)]
    exact hI V _ (fun x hx hxw => by rw [e1 x hx, op.result_of_not_mem V hxw]) b hbw

/-! ## The builders, one more operation in front -/

section Builders

variable {lo : Nat} {rest : List (HloOp τ sig Val)} {R : Valuation τ sig Val}
variable (x a b c y : Ref sig .tc)

theorem ne_of_key_lt {u v : Ref sig .tc} (h : key (Proc.devRef (τ := τ) .tc u) < key (Proc.devRef (τ := τ) .tc v)) : (Proc.devRef (τ := τ) .tc u) ≠ (Proc.devRef (τ := τ) .tc v) :=
  fun e => absurd (congrArg key e) (Nat.ne_of_lt h)

theorem ssa_nullary (v : y.ty.Contents Val) (hy) (h : lo < key (Proc.devRef (τ := τ) .tc y)) (hr : Ssa key (key (Proc.devRef (τ := τ) .tc y)) rest) :
    Ssa key lo (nullary (τ := τ) y v hy :: rest) :=
  ⟨fun F G _ w hw => by
      rw [nullary_writes, Finset.mem_singleton] at hw; subst hw; rw [nullary_result, nullary_result],
    key (Proc.devRef (τ := τ) .tc y), fun w hw => by rw [nullary_writes, Finset.mem_singleton] at hw; subst hw; exact h, h.le,
    fun z hz => by rw [nullary_bufs, Finset.mem_singleton] at hz; subst hz; exact le_rfl, hr⟩

theorem ssa_unary (f : x.ty.Contents Val → y.ty.Contents Val) (hx hy) (h : lo < key (Proc.devRef (τ := τ) .tc y)) (h1 : key (Proc.devRef (τ := τ) .tc x) < key (Proc.devRef (τ := τ) .tc y))
    (hr : Ssa key (key (Proc.devRef (τ := τ) .tc y)) rest) : Ssa key lo (unary (τ := τ) x y f hx hy :: rest) :=
  ⟨fun F G hFG w hw => by
      rw [unary_writes, Finset.mem_singleton] at hw; subst hw
      rw [unary_result, unary_result, hFG _ (by rw [unary_bufs]; exact Finset.mem_insert_self _ _)
        (by rw [unary_writes, Finset.mem_singleton]; exact ne_of_key_lt h1)],
    key (Proc.devRef (τ := τ) .tc y), fun w hw => by rw [unary_writes, Finset.mem_singleton] at hw; subst hw; exact h, h.le,
    fun z hz => by
      rw [unary_bufs, Finset.mem_insert, Finset.mem_singleton] at hz
      rcases hz with rfl | rfl
      · exact h1.le
      · exact le_rfl, hr⟩

theorem ssa_reshape (he hn hx hy) (h : lo < key (Proc.devRef (τ := τ) .tc y)) (h1 : key (Proc.devRef (τ := τ) .tc x) < key (Proc.devRef (τ := τ) .tc y))
    (hr : Ssa key (key (Proc.devRef (τ := τ) .tc y)) rest) : Ssa key lo (reshape (τ := τ) (Val := Val) x y he hn hx hy :: rest) :=
  ⟨fun F G hFG w hw => by
      rw [reshape_writes, Finset.mem_singleton] at hw; subst hw
      rw [reshape_result, reshape_result, hFG _ (by rw [reshape_bufs]; exact Finset.mem_insert_self _ _)
        (by rw [reshape_writes, Finset.mem_singleton]; exact ne_of_key_lt h1)],
    key (Proc.devRef (τ := τ) .tc y), fun w hw => by rw [reshape_writes, Finset.mem_singleton] at hw; subst hw; exact h, h.le,
    fun z hz => by
      rw [reshape_bufs, Finset.mem_insert, Finset.mem_singleton] at hz
      rcases hz with rfl | rfl
      · exact h1.le
      · exact le_rfl, hr⟩

theorem ssa_binary (f : a.ty.Contents Val → b.ty.Contents Val → y.ty.Contents Val) (ha hb hy) (h : lo < key (Proc.devRef (τ := τ) .tc y))
    (h1 : key (Proc.devRef (τ := τ) .tc a) < key (Proc.devRef (τ := τ) .tc y)) (h2 : key (Proc.devRef (τ := τ) .tc b) < key (Proc.devRef (τ := τ) .tc y))
    (hr : Ssa key (key (Proc.devRef (τ := τ) .tc y)) rest) : Ssa key lo (binary (τ := τ) a b y f ha hb hy :: rest) :=
  ⟨fun F G hFG w hw => by
      rw [binary_writes, Finset.mem_singleton] at hw; subst hw
      rw [binary_result, binary_result,
        hFG (Proc.devRef (τ := τ) .tc a) (by rw [binary_bufs]; exact Finset.mem_insert_self _ _)
          (by rw [binary_writes, Finset.mem_singleton]; exact ne_of_key_lt h1),
        hFG (Proc.devRef (τ := τ) .tc b) (by rw [binary_bufs]; exact Finset.mem_insert_of_mem (Finset.mem_insert_self _ _))
          (by rw [binary_writes, Finset.mem_singleton]; exact ne_of_key_lt h2)],
    key (Proc.devRef (τ := τ) .tc y), fun w hw => by rw [binary_writes, Finset.mem_singleton] at hw; subst hw; exact h, h.le,
    fun z hz => by
      rw [binary_bufs, Finset.mem_insert, Finset.mem_insert, Finset.mem_singleton] at hz
      rcases hz with rfl | rfl | rfl
      · exact h1.le
      · exact h2.le
      · exact le_rfl, hr⟩

theorem ssa_ternary (f : c.ty.Contents Val → a.ty.Contents Val → b.ty.Contents Val → y.ty.Contents Val) (hc ha hb hy)
    (h : lo < key (Proc.devRef (τ := τ) .tc y)) (h0 : key (Proc.devRef (τ := τ) .tc c) < key (Proc.devRef (τ := τ) .tc y)) (h1 : key (Proc.devRef (τ := τ) .tc a) < key (Proc.devRef (τ := τ) .tc y)) (h2 : key (Proc.devRef (τ := τ) .tc b) < key (Proc.devRef (τ := τ) .tc y))
    (hr : Ssa key (key (Proc.devRef (τ := τ) .tc y)) rest) : Ssa key lo (ternary (τ := τ) c a b y f hc ha hb hy :: rest) :=
  ⟨fun F G hFG w hw => by
      rw [ternary_writes, Finset.mem_singleton] at hw; subst hw
      rw [ternary_result, ternary_result,
        hFG (Proc.devRef (τ := τ) .tc c) (by rw [ternary_bufs]; exact Finset.mem_insert_self _ _)
          (by rw [ternary_writes, Finset.mem_singleton]; exact ne_of_key_lt h0),
        hFG (Proc.devRef (τ := τ) .tc a) (by rw [ternary_bufs]; exact Finset.mem_insert_of_mem (Finset.mem_insert_self _ _))
          (by rw [ternary_writes, Finset.mem_singleton]; exact ne_of_key_lt h1),
        hFG (Proc.devRef (τ := τ) .tc b) (by rw [ternary_bufs]; exact Finset.mem_insert_of_mem (Finset.mem_insert_of_mem (Finset.mem_insert_self _ _)))
          (by rw [ternary_writes, Finset.mem_singleton]; exact ne_of_key_lt h2)],
    key (Proc.devRef (τ := τ) .tc y), fun w hw => by rw [ternary_writes, Finset.mem_singleton] at hw; subst hw; exact h, h.le,
    fun z hz => by
      rw [ternary_bufs, Finset.mem_insert, Finset.mem_insert, Finset.mem_insert, Finset.mem_singleton] at hz
      rcases hz with rfl | rfl | rfl | rfl
      · exact h0.le
      · exact h1.le
      · exact h2.le
      · exact le_rfl, hr⟩

theorem ssa_nary {n : Nat} (xs : Fin n → Ref sig .tc) (f : ((k : Fin n) → (xs k).ty.Contents Val) → y.ty.Contents Val) (hxs hy)
    (h : lo < key (Proc.devRef (τ := τ) .tc y)) (h1 : ∀ k, key (Proc.devRef (τ := τ) .tc (xs k)) < key (Proc.devRef (τ := τ) .tc y))
    (hr : Ssa key (key (Proc.devRef (τ := τ) .tc y)) rest) : Ssa key lo (nary (τ := τ) xs y f hxs hy :: rest) :=
  ⟨fun F G hFG w hw => by
      rw [nary_writes, Finset.mem_singleton] at hw; subst hw
      rw [nary_result, nary_result]
      congr 1
      funext k
      exact hFG (Proc.devRef (τ := τ) .tc (xs k))
        (show (Proc.devRef (τ := τ) .tc (xs k)) ∈ insert (Proc.devRef (τ := τ) .tc y) (Finset.univ.image fun j => (Proc.devRef (τ := τ) .tc (xs j))) from
          Finset.mem_insert_of_mem (Finset.mem_image_of_mem _ (Finset.mem_univ k)))
        (by rw [nary_writes, Finset.mem_singleton]; exact ne_of_key_lt (h1 k)),
    key (Proc.devRef (τ := τ) .tc y), fun w hw => by rw [nary_writes, Finset.mem_singleton] at hw; subst hw; exact h, h.le,
    fun z hz => by
      rcases Finset.mem_insert.mp (show z ∈ insert (Proc.devRef (τ := τ) .tc y) (Finset.univ.image fun j => (Proc.devRef (τ := τ) .tc (xs j))) from hz) with rfl | hz
      · exact le_rfl
      · obtain ⟨k, -, rfl⟩ := Finset.mem_image.mp hz
        exact (h1 k).le, hr⟩

/-! ## … and its equation read off the front -/

theorem eqs_nullary (v : y.ty.Contents Val) (hy) :
    Eqs R (nullary (τ := τ) y v hy :: rest) ↔ R (Proc.devRef (τ := τ) .tc y) = v ∧ Eqs R rest := by
  show (∀ w ∈ (nullary (τ := τ) y v hy).writes, _) ∧ _ ↔ _
  rw [nullary_writes]; simp only [Finset.mem_singleton, forall_eq]; rw [nullary_result]

theorem eqs_unary (f : x.ty.Contents Val → y.ty.Contents Val) (hx hy) :
    Eqs R (unary (τ := τ) x y f hx hy :: rest) ↔ R (Proc.devRef (τ := τ) .tc y) = f (R (Proc.devRef (τ := τ) .tc x)) ∧ Eqs R rest := by
  show (∀ w ∈ (unary (τ := τ) x y f hx hy).writes, _) ∧ _ ↔ _
  rw [unary_writes]; simp only [Finset.mem_singleton, forall_eq]; rw [unary_result]

theorem eqs_reshape (he hn hx hy) :
    Eqs R (reshape (τ := τ) (Val := Val) x y he hn hx hy :: rest)
      ↔ R (Proc.devRef (τ := τ) .tc y) = (fun i => he ▸ shapeCast y.ty.shape (R (Proc.devRef (τ := τ) .tc x)) hn i) ∧ Eqs R rest := by
  show (∀ w ∈ (reshape (τ := τ) (Val := Val) x y he hn hx hy).writes, _) ∧ _ ↔ _
  rw [reshape_writes]; simp only [Finset.mem_singleton, forall_eq]; rw [reshape_result]

theorem eqs_binary (f : a.ty.Contents Val → b.ty.Contents Val → y.ty.Contents Val) (ha hb hy) :
    Eqs R (binary (τ := τ) a b y f ha hb hy :: rest) ↔ R (Proc.devRef (τ := τ) .tc y) = f (R (Proc.devRef (τ := τ) .tc a)) (R (Proc.devRef (τ := τ) .tc b)) ∧ Eqs R rest := by
  show (∀ w ∈ (binary (τ := τ) a b y f ha hb hy).writes, _) ∧ _ ↔ _
  rw [binary_writes]; simp only [Finset.mem_singleton, forall_eq]; rw [binary_result]

theorem eqs_ternary (f : c.ty.Contents Val → a.ty.Contents Val → b.ty.Contents Val → y.ty.Contents Val) (hc ha hb hy) :
    Eqs R (ternary (τ := τ) c a b y f hc ha hb hy :: rest)
      ↔ R (Proc.devRef (τ := τ) .tc y) = f (R (Proc.devRef (τ := τ) .tc c)) (R (Proc.devRef (τ := τ) .tc a)) (R (Proc.devRef (τ := τ) .tc b)) ∧ Eqs R rest := by
  show (∀ w ∈ (ternary (τ := τ) c a b y f hc ha hb hy).writes, _) ∧ _ ↔ _
  rw [ternary_writes]; simp only [Finset.mem_singleton, forall_eq]; rw [ternary_result]

theorem eqs_nary {n : Nat} (xs : Fin n → Ref sig .tc) (f : ((k : Fin n) → (xs k).ty.Contents Val) → y.ty.Contents Val) (hxs hy) :
    Eqs R (nary (τ := τ) xs y f hxs hy :: rest) ↔ R (Proc.devRef (τ := τ) .tc y) = f (fun k => R (Proc.devRef (τ := τ) .tc (xs k))) ∧ Eqs R rest := by
  show (∀ w ∈ (nary (τ := τ) xs y f hxs hy).writes, _) ∧ _ ↔ _
  rw [nary_writes]; simp only [Finset.mem_singleton, forall_eq]; rw [nary_result]

end Builders

end Cert.Ssa

end
-- ==== Proof.RefSsa.lean ====
/-
  THE REFERENCE PROGRAM IS IN SINGLE-ASSIGNMENT FORM. Rank a buffer by its number. Operation j of the line writes
  buffer 9 + j and reads only lower-numbered buffers, so the line rises from 8, the last argument's number. Hence
  what the line leaves is a fixed point of each of its operations — each printed line holds as an equation between
  final contents — and the arguments are left as found.
-/
import proofs.«120788_j77403900608956_2_alg».proof.Proof.RefOps
import proofs.«120788_j77403900608956_2_alg».proof.Proof.LibSsa

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A buffer's rank: its number. -/
def key : DevRef τ sig → Nat := fun b => b.idx.val

set_option maxRecDepth 8192 in
/-- Window 0 in front of a line rising from its last buffer's rank rises from the rank before its first. -/
theorem ssa0 {rest : List (HloOp τ sig (Elt F))} (h : Cert.Ssa.Ssa key (key (Proc.devRef (τ := τ) .tc main_v44)) rest) :
    Cert.Ssa.Ssa key (8) (ops0 ++ rest) := by
  show Cert.Ssa.Ssa key _ (_ :: _)
  refine Cert.Ssa.ssa_unary _ _ _ _ _ (by decide) (by decide) ?_
  refine Cert.Ssa.ssa_reshape _ _ _ _ _ _ (by decide) (by decide) ?_
  refine Cert.Ssa.ssa_unary _ _ _ _ _ (by decide) (by decide) ?_
  refine Cert.Ssa.ssa_reshape _ _ _ _ _ _ (by decide) (by decide) ?_
  refine Cert.Ssa.ssa_nullary _ _ _ (by decide) ?_
  refine Cert.Ssa.ssa_unary _ _ _ _ _ (by decide) (by decide) ?_
  refine Cert.Ssa.ssa_nullary _ _ _ (by decide) ?_
  refine Cert.Ssa.ssa_unary _ _ _ _ _ (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_unary _ _ _ _ _ (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_ternary _ _ _ _ _ _ _ _ _ (by decide) (by decide) (by decide) (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_ternary _ _ _ _ _ _ _ _ _ (by decide) (by decide) (by decide) (by decide) ?_
  refine Cert.Ssa.ssa_unary _ _ _ _ _ (by decide) (by decide) ?_
  refine Cert.Ssa.ssa_binary _ _ _ _ _ _ _ (by decide) (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_ternary _ _ _ _ _ _ _ _ _ (by decide) (by decide) (by decide) (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_reshape _ _ _ _ _ _ (by decide) (by decide) ?_
  refine Cert.Ssa.ssa_binary _ _ _ _ _ _ _ (by decide) (by decide) (by decide) ?_
  exact h

set_option maxRecDepth 8192 in
/-- Window 1 in front of a line rising from its last buffer's rank rises from the rank before its first. -/
theorem ssa1 {rest : List (HloOp τ sig (Elt F))} (h : Cert.Ssa.Ssa key (key (Proc.devRef (τ := τ) .tc main_v90)) rest) :
    Cert.Ssa.Ssa key (key (Proc.devRef (τ := τ) .tc main_v44)) (ops1 ++ rest) := by
  show Cert.Ssa.Ssa key _ (_ :: _)
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_reshape _ _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_reshape _ _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_reshape _ _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_binary _ _ _ _ _ _ _ (by decide) (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_unary _ _ _ _ _ (by decide) (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_binary _ _ _ _ _ _ _ (by decide) (by decide) (by decide) ?_
  refine Cert.Ssa.ssa_ternary _ _ _ _ _ _ _ _ _ (by decide) (by decide) (by decide) (by decide) ?_
  refine Cert.Ssa.ssa_nullary _ _ _ (by decide) ?_
  refine Cert.Ssa.ssa_unary _ _ _ _ _ (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  exact h

set_option maxRecDepth 8192 in
/-- Window 2 in front of a line rising from its last buffer's rank rises from the rank before its first. -/
theorem ssa2 {rest : List (HloOp τ sig (Elt F))} (h : Cert.Ssa.Ssa key (key (Proc.devRef (τ := τ) .tc main_v137)) rest) :
    Cert.Ssa.Ssa key (key (Proc.devRef (τ := τ) .tc main_v90)) (ops2 ++ rest) := by
  show Cert.Ssa.Ssa key _ (_ :: _)
  refine Cert.Ssa.ssa_unary _ _ _ _ _ (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_ternary _ _ _ _ _ _ _ _ _ (by decide) (by decide) (by decide) (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_ternary _ _ _ _ _ _ _ _ _ (by decide) (by decide) (by decide) (by decide) ?_
  refine Cert.Ssa.ssa_unary _ _ _ _ _ (by decide) (by decide) ?_
  refine Cert.Ssa.ssa_binary _ _ _ _ _ _ _ (by decide) (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_ternary _ _ _ _ _ _ _ _ _ (by decide) (by decide) (by decide) (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_reshape _ _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_reshape _ _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_reshape _ _ _ _ _ _ (by decide) (by decide) ?_
  refine Cert.Ssa.ssa_binary _ _ _ _ _ _ _ (by decide) (by decide) (by decide) ?_
  exact h

set_option maxRecDepth 8192 in
/-- Window 3 in front of a line rising from its last buffer's rank rises from the rank before its first. -/
theorem ssa3 {rest : List (HloOp τ sig (Elt F))} (h : Cert.Ssa.Ssa key (key (Proc.devRef (τ := τ) .tc main_v182)) rest) :
    Cert.Ssa.Ssa key (key (Proc.devRef (τ := τ) .tc main_v137)) (ops3 ++ rest) := by
  show Cert.Ssa.Ssa key _ (_ :: _)
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_reshape _ _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_binary _ _ _ _ _ _ _ (by decide) (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_unary _ _ _ _ _ (by decide) (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_binary _ _ _ _ _ _ _ (by decide) (by decide) (by decide) ?_
  refine Cert.Ssa.ssa_ternary _ _ _ _ _ _ _ _ _ (by decide) (by decide) (by decide) (by decide) ?_
  refine Cert.Ssa.ssa_nullary _ _ _ (by decide) ?_
  refine Cert.Ssa.ssa_unary _ _ _ _ _ (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_unary _ _ _ _ _ (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_ternary _ _ _ _ _ _ _ _ _ (by decide) (by decide) (by decide) (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_ternary _ _ _ _ _ _ _ _ _ (by decide) (by decide) (by decide) (by decide) ?_
  refine Cert.Ssa.ssa_unary _ _ _ _ _ (by decide) (by decide) ?_
  exact h

set_option maxRecDepth 8192 in
/-- Window 4 in front of a line rising from its last buffer's rank rises from the rank before its first. -/
theorem ssa4 {rest : List (HloOp τ sig (Elt F))} (h : Cert.Ssa.Ssa key (key (Proc.devRef (τ := τ) .tc main_v230)) rest) :
    Cert.Ssa.Ssa key (key (Proc.devRef (τ := τ) .tc main_v182)) (ops4 ++ rest) := by
  show Cert.Ssa.Ssa key _ (_ :: _)
  refine Cert.Ssa.ssa_binary _ _ _ _ _ _ _ (by decide) (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_ternary _ _ _ _ _ _ _ _ _ (by decide) (by decide) (by decide) (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_reshape _ _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_reshape _ _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_reshape _ _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_reshape _ _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  refine Cert.Ssa.ssa_unary _ _ _ _ _ (by decide) (by decide) ?_
  refine Cert.Ssa.ssa_ternary _ _ _ _ _ _ _ _ _ (by decide) (by decide) (by decide) (by decide) ?_
  refine Cert.Ssa.ssa_binary _ _ _ _ _ _ _ (by decide) (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_unary _ _ _ _ _ (by decide) (by decide) ?_
  exact h

set_option maxRecDepth 8192 in
/-- The last window rises from the rank before its first buffer. -/
theorem ssa5 : Cert.Ssa.Ssa key (key (Proc.devRef (τ := τ) .tc main_v230)) (ops5 : List (HloOp τ sig (Elt F))) := by
  refine Cert.Ssa.ssa_ternary _ _ _ _ _ _ _ _ _ (by decide) (by decide) (by decide) (by decide) ?_
  refine Cert.Ssa.ssa_unary _ _ _ _ _ (by decide) (by decide) ?_
  refine Cert.Ssa.ssa_unary _ _ _ _ _ (by decide) (by decide) ?_
  refine Cert.Ssa.ssa_binary _ _ _ _ _ _ _ (by decide) (by decide) (by decide) ?_
  refine Cert.Ssa.ssa_nullary _ _ _ (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  refine Cert.Ssa.ssa_unary _ _ _ _ _ (by decide) (by decide) ?_
  refine Cert.Ssa.ssa_unary _ _ _ _ _ (by decide) (by decide) ?_
  refine Cert.Ssa.ssa_binary _ _ _ _ _ _ _ (by decide) (by decide) (by decide) ?_
  refine Cert.Ssa.ssa_ternary _ _ _ _ _ _ _ _ _ (by decide) (by decide) (by decide) (by decide) ?_
  refine Cert.Ssa.ssa_binary _ _ _ _ _ _ _ (by decide) (by decide) (by decide) ?_
  refine Cert.Ssa.ssa_binary _ _ _ _ _ _ _ (by decide) (by decide) (by decide) ?_
  refine Cert.Ssa.ssa_binary _ _ _ _ _ _ _ (by decide) (by decide) (by decide) ?_
  refine Cert.Ssa.ssa_nullary _ _ _ (by decide) ?_
  refine Cert.Ssa.ssa_unary _ _ _ _ _ (by decide) (by decide) ?_
  refine Cert.Ssa.ssa_binary _ _ _ _ _ _ _ (by decide) (by decide) (by decide) ?_
  exact trivial

/-- The whole line rises from 8. -/
theorem ssa : Cert.Ssa.Ssa key 8 (ops (F := F)) := ssa0 (ssa1 (ssa2 (ssa3 (ssa4 ssa5))))

/-- What the line leaves is a fixed point of each of its operations. -/
theorem eqs (V : Valuation τ sig (Elt F)) : Cert.Ssa.Eqs (after ops V) ops := Cert.Ssa.after_eqs ops V ssa

/-- The line leaves the arguments as it found them. -/
theorem kept (V : Valuation τ sig (Elt F)) (b : Ref sig .tc) (hb : key (Proc.devRef (τ := τ) .tc b) ≤ 8) :
    after ops V (Proc.devRef .tc b) = V (Proc.devRef .tc b) := ssa.after_low V hb

end Cert.ReferenceIdeal.Hand

end
-- ==== Proof.Spec.lean ====
/-
  The message of one relation-indexed graph-convolution layer, as a function of coordinates over the extended reals.

  An edge e carries a source feature row x e (128 numbers). Relation r has a 128 x 128 matrix w r, and the edge's
  contribution under relation r is the row-times-matrix product `part x w r e d = sum over k of x e k * w r k d`.

  Two ways of combining the four relations are stated here and proved equal.
  * `relMsg`: each relation's product is multiplied by that relation's own weight `ws e r` and the four are added to a
    zero accumulator, in order. This is what an edge tile's body computes when the weights are a one-hot row times the
    edge's scale.
  * `selMsg`: each relation's product is kept when the edge has that relation and replaced by zero otherwise, the four
    are added to zero in order, and the total is multiplied by the edge's scale once.
  When the weight row is `if t e r then sc e else 0` and at most one relation holds of an edge, the two agree: the
  only term that survives is the edge's own relation's product times the scale, every other term being a product with
  zero (zero times anything is zero on the extended reals, infinities included) or a kept zero; no distributivity is
  used, so nothing has to be finite.
-/
import Idealize.ShloMosaic.PureOps.Ideal
import Idealize.ShloMosaic.Lib.ValueIdx

noncomputable section

namespace Cert.Spec

open scoped BigOperators

/-- Row e of x against relation r's matrix, at column d. -/
def part {n : Nat} (x : Fin n → Fin 128 → EReal) (w : Fin 4 → Fin 128 → Fin 128 → EReal) (r : Fin 4) (e : Fin n)
    (d : Fin 128) : EReal :=
  ∑ k : Fin 128, x e k * w r k d

/-- The four relations' products, each times its own weight, added to zero in order. -/
def relMsg {n : Nat} (x : Fin n → Fin 128 → EReal) (ws : Fin n → Fin 4 → EReal) (w : Fin 4 → Fin 128 → Fin 128 → EReal)
    (e : Fin n) (d : Fin 128) : EReal :=
  (((0 + part x w 0 e d * ws e 0) + part x w 1 e d * ws e 1) + part x w 2 e d * ws e 2) + part x w 3 e d * ws e 3

/-- The four relations' products, each kept only for an edge of that relation, added to zero in order, then scaled. -/
def selMsg {n : Nat} (x : Fin n → Fin 128 → EReal) (t : Fin n → Fin 4 → Prop) [∀ e r, Decidable (t e r)]
    (sc : Fin n → EReal) (w : Fin 4 → Fin 128 → Fin 128 → EReal) (e : Fin n) (d : Fin 128) : EReal :=
  ((((0 + (if t e 0 then part x w 0 e d else 0)) + (if t e 1 then part x w 1 e d else 0))
    + (if t e 2 then part x w 2 e d else 0)) + (if t e 3 then part x w 3 e d else 0)) * sc e

/-- With one-hot weights the two combinations agree. -/
theorem relMsg_onehot {n : Nat} (x : Fin n → Fin 128 → EReal) (t : Fin n → Fin 4 → Prop) [∀ e r, Decidable (t e r)]
    (hone : ∀ e r r', t e r → t e r' → r = r') (sc : Fin n → EReal) (w : Fin 4 → Fin 128 → Fin 128 → EReal)
    (e : Fin n) (d : Fin 128) :
    relMsg x (fun e r => if t e r then sc e else 0) w e d = selMsg x t sc w e d := by
  unfold relMsg selMsg
  by_cases h0 : t e 0 <;> by_cases h1 : t e 1 <;> by_cases h2 : t e 2 <;> by_cases h3 : t e 3 <;>
    first
    | (exfalso; first
        | exact absurd (hone e _ _ h0 h1) (by decide)
        | exact absurd (hone e _ _ h0 h2) (by decide)
        | exact absurd (hone e _ _ h0 h3) (by decide)
        | exact absurd (hone e _ _ h1 h2) (by decide)
        | exact absurd (hone e _ _ h1 h3) (by decide)
        | exact absurd (hone e _ _ h2 h3) (by decide))
    | simp only [h0, h1, h2, h3, if_true, if_false, mul_zero, zero_mul, add_zero, zero_add]

/-- With every weight zero the accumulated message is zero. -/
theorem relMsg_zero {n : Nat} (x : Fin n → Fin 128 → EReal) (ws : Fin n → Fin 4 → EReal)
    (w : Fin 4 → Fin 128 → Fin 128 → EReal) (e : Fin n) (hz : ∀ r, ws e r = 0) (d : Fin 128) :
    relMsg x ws w e d = 0 := by
  unfold relMsg
  simp only [hz, mul_zero, add_zero]

end Cert.Spec

end
-- ==== Proof.RefStage.lean ====
/-
  The reference program's operations, grouped into the stages of one graph-convolution layer and named: the edge
  list's two rows, the degree factor and the edge scale, the gathered source rows, the four relations' dense products
  each kept only on the edges of its relation, their sum times the edge scale, the sum by target node plus the bias,
  and the leaky rectifier. Each definition is the program's own chain of operations on whole arrays; what an element
  of it is, coordinate by coordinate, is proved elsewhere.
-/
import proofs.«120788_j77403900608956_2_alg».proof.Proof.Gen.ReferenceIdeal
import proofs.«120788_j77403900608956_2_alg».proof.Proof.Spec
import Idealize.ShloMosaic.PureOps.Ideal
import Idealize.ShloMosaic.Lib.ValueIdx

noncomputable section

namespace Cert.ReferenceIdeal.Stage

open Cert.ReferenceIdeal Cert.ReferenceIdeal.Facts₀ Idealize.ShloMosaic Idealize.ShloMosaic.ValueIdx

/-- A vector over the edges (equally: over the nodes). -/
abbrev EVec := FVec Ideal S200000 .f32
/-- A table of one feature row per node. -/
abbrev NMat := FVec Ideal S200000x128 .f32

/-- The first row of the edge list: each edge's source node number. -/
def row (ei : IVec S2x200000 32) : IVec S200000 32 :=
  shapeCast S200000 (extractStridedSlice S1x200000 ![0, 0] ei slices_S2x200000_S1x200000_0_0) shapeCasts_S1x200000_S200000
/-- The second row of the edge list: each edge's target node number. -/
def col (ei : IVec S2x200000 32) : IVec S200000 32 :=
  shapeCast S200000 (extractStridedSlice S1x200000 ![1, 0] ei slices_S2x200000_S1x200000_1_0) shapeCasts_S1x200000_S200000

def zeroF : FVec Ideal S_ .f32 := constant (F := Ideal) S_ .f32 0x00000000#32
def oneF : FVec Ideal S_ .f32 := constant (F := Ideal) S_ .f32 0x3F800000#32

/-- A negative node number counted from the end: w + 200000 where w < 0, w itself otherwise. -/
def wrap (v : IVec S200000 32) : IVec S200000 32 :=
  select (cmpi .slt v (broadcastInDim S200000 ![] bcast_S_S200000 (constantI S_ 32 0#32)))
    (addi v (broadcastInDim S200000 ![] bcast_S_S200000 (constantI S_ 32 200000#32))) v
/-- A vector of node numbers as a one-column table of indices. -/
def colIdx (v : IVec S200000 32) : IVec S200000x1 32 := broadcastInDim S200000x1 ![0] bcast_S200000_S200000x1_0 v

/-- The in-degree of every node: ones summed by target node. -/
def deg (ei : IVec S2x200000 32) : EVec :=
  Host.scatterAdd scatter_S200000_S200000x1_S200000_n_0_0_1 (broadcastInDim S200000 ![] bcast_S_S200000 zeroF) (colIdx (col ei))
    (broadcastInDim S200000 ![] bcast_S_S200000 oneF)
/-- a where the mask holds, the scalar s elsewhere. -/
def whereV (c : IVec S200000 1) (a : EVec) (s : FVec Ideal S_ .f32) : EVec :=
  select c a (broadcastInDim S200000 ![] bcast_S_S200000 (id s))
/-- One over the square root of the degree, and zero at a node of degree zero. -/
def dinv (ei : IVec S2x200000 32) : EVec :=
  whereV (cmpf .ogt (deg ei) (broadcastInDim S200000 ![] bcast_S_S200000 zeroF))
    (Host.rsqrt (whereV (cmpf .ogt (deg ei) (broadcastInDim S200000 ![] bcast_S_S200000 zeroF)) (deg ei) oneF)) zeroF
/-- The symmetric degree factor of an edge: the factor of its source times the factor of its target. -/
def norm (ei : IVec S2x200000 32) : EVec :=
  mulf (Host.gather gather_S200000_S200000x1_S200000_n_0_n_n_0_1_1 (dinv ei) (colIdx (wrap (row ei))))
    (Host.gather gather_S200000_S200000x1_S200000_n_0_n_n_0_1_1 (dinv ei) (colIdx (wrap (col ei))))
/-- The scale of an edge: its attribute times its degree factor. -/
def scale (ei : IVec S2x200000 32) (ea : EVec) : EVec := mulf ea (norm ei)

def zeros2 : NMat := broadcastInDim S200000x128 ![] bcast_S_S200000x128 zeroF
/-- The bias laid along every row. -/
def bias (b : FVec Ideal S128 .f32) : NMat :=
  broadcastInDim S200000x128 ![0, 1] bcast_S1x128_S200000x128_0_1 (broadcastInDim S1x128 ![1] bcast_S128_S1x128_1 b)
/-- y where y is at least zero, the small slope times y elsewhere. -/
def leaky (y : NMat) : NMat :=
  select (cmpf .oge y (broadcastInDim S200000x128 ![] bcast_S_S200000x128 zeroF)) y
    (mulf (broadcastInDim S200000x128 ![] bcast_S_S200000x128 (id (constant (F := Ideal) S_ .f32 0x3C23D70A#32))) y)
/-- The all-ones feature table the first layer starts from. -/
def x0 : NMat := broadcastInDim S200000x128 ![] bcast_S_S200000x128 oneF
/-- The mean of the starting table and the three layers' outputs. -/
def out (z1 z2 z3 : NMat) : NMat :=
  Host.divf (addf (addf (addf x0 z1) z2) z3)
    (broadcastInDim S200000x128 ![] bcast_S_S200000x128 (constant (F := Ideal) S_ .f32 0x40800000#32))

/-- The source node's feature row of every edge. -/
def xr (x : NMat) (ei : IVec S2x200000 32) : NMat :=
  Host.gather gather_S200000x128_S200000x1_S200000x128_1_0_n_n_0_1_1128 x (colIdx (wrap (row ei)))
/-- The edges of relation r, as a mask. -/
def isRel (et : IVec S200000 32) (r : BitVec 32) : IVec S200000 1 :=
  cmpi .eq et (broadcastInDim S200000 ![] bcast_S_S200000 (constantI S_ 32 r))
/-- p on the masked edges' rows, zero on the others. -/
def sel (m : IVec S200000 1) (p : NMat) : NMat :=
  select (broadcastInDim S200000x128 ![0, 1] bcast_S200000x1_S200000x128_0_1 (broadcastInDim S200000x1 ![0] bcast_S200000_S200000x1_0 m)) p
    (broadcastInDim S200000x128 ![] bcast_S_S200000x128 (id zeroF))
def relW0 (W : FVec Ideal S4x128x128 .f32) : FVec Ideal S128x128 .f32 :=
  shapeCast S128x128 (extractStridedSlice S1x128x128 ![0, 0, 0] W slices_S4x128x128_S1x128x128_0_0_0) shapeCasts_S1x128x128_S128x128
def relW1 (W : FVec Ideal S4x128x128 .f32) : FVec Ideal S128x128 .f32 :=
  shapeCast S128x128 (extractStridedSlice S1x128x128 ![1, 0, 0] W slices_S4x128x128_S1x128x128_1_0_0) shapeCasts_S1x128x128_S128x128
def relW2 (W : FVec Ideal S4x128x128 .f32) : FVec Ideal S128x128 .f32 :=
  shapeCast S128x128 (extractStridedSlice S1x128x128 ![2, 0, 0] W slices_S4x128x128_S1x128x128_2_0_0) shapeCasts_S1x128x128_S128x128
def relW3 (W : FVec Ideal S4x128x128 .f32) : FVec Ideal S128x128 .f32 :=
  shapeCast S128x128 (extractStridedSlice S1x128x128 ![3, 0, 0] W slices_S4x128x128_S1x128x128_3_0_0) shapeCasts_S1x128x128_S128x128
/-- Every row times one relation's matrix. -/
def prod (x : NMat) (w : FVec Ideal S128x128 .f32) : NMat :=
  Host.dotGeneral dot_S200000x128_S128x128_S200000x128_1_0_0_1_n_n none x w
/-- The message of every edge before scaling: its own relation's product. -/
def msg (x : NMat) (ei : IVec S2x200000 32) (et : IVec S200000 32) (W : FVec Ideal S4x128x128 .f32) : NMat :=
  addf (addf (addf (addf zeros2 (sel (isRel et 0#32) (prod (xr x ei) (relW0 W)))) (sel (isRel et 1#32) (prod (xr x ei) (relW1 W))))
    (sel (isRel et 2#32) (prod (xr x ei) (relW2 W)))) (sel (isRel et 3#32) (prod (xr x ei) (relW3 W)))
/-- One layer before the rectifier: the scaled messages summed by target node, plus the bias. -/
def pre (x : NMat) (ei : IVec S2x200000 32) (et : IVec S200000 32) (ea : EVec) (W : FVec Ideal S4x128x128 .f32)
    (b : FVec Ideal S128 .f32) : NMat :=
  addf (Host.scatterAdd scatter_S200000x128_S200000x1_S200000x128_1_0_0_1 zeros2 (colIdx (col ei))
      (mulf (msg x ei et W) (broadcastInDim S200000x128 ![0, 1] bcast_S200000x1_S200000x128_0_1
        (broadcastInDim S200000x1 ![0] bcast_S200000_S200000x1_0 (scale ei ea))))) (bias b)
/-- One layer. -/
def layer (x : NMat) (ei : IVec S2x200000 32) (et : IVec S200000 32) (ea : EVec) (W : FVec Ideal S4x128x128 .f32)
    (b : FVec Ideal S128 .f32) : NMat := leaky (pre x ei et ea W b)

end Cert.ReferenceIdeal.Stage

end
-- ==== Proof.KerStage.lean ====
/-
  The kernel program's host operations, grouped into the stages of one graph-convolution layer and named: the edge
  list's two rows and their copies padded with 704 zeros to 200704 = 49 x 4096 rows, the degree factor and the edge
  scale, the table of per-relation weights (the edge's scale in the column of its own relation, zero in the other
  three) padded with zero rows, the gathered source rows, the message table an edge-tiled region leaves as a function
  of its three input arrays, the sum by target node plus the bias, and the leaky rectifier. Each definition is the
  program's own chain of operations on whole arrays.
-/
import proofs.«120788_j77403900608956_2_alg».proof.Proof.Gen.KernelIdeal
import proofs.«120788_j77403900608956_2_alg».proof.Proof.Spec
import Idealize.ShloMosaic.PureOps.Ideal
import Idealize.ShloMosaic.Lib.ValueIdx

noncomputable section

namespace Cert.KernelIdeal.Stage

open Cert.KernelIdeal Cert.KernelIdeal.Facts₀ Idealize.ShloMosaic Idealize.ShloMosaic.ValueIdx

/-- A vector over the edges (equally: over the nodes). -/
abbrev EVec := FVec Ideal S200000 .f32
/-- A table of one feature row per node. -/
abbrev NMat := FVec Ideal S200000x128 .f32

/-- The first row of the edge list: each edge's source node number. -/
def row (ei : IVec S2x200000 32) : IVec S200000 32 :=
  shapeCast S200000 (extractStridedSlice S1x200000 ![0, 0] ei slices_S2x200000_S1x200000_0_0) shapeCasts_S1x200000_S200000
/-- The second row of the edge list: each edge's target node number. -/
def col (ei : IVec S2x200000 32) : IVec S200000 32 :=
  shapeCast S200000 (extractStridedSlice S1x200000 ![1, 0] ei slices_S2x200000_S1x200000_1_0) shapeCasts_S1x200000_S200000

def zeroF : FVec Ideal S_ .f32 := constant (F := Ideal) S_ .f32 0x00000000#32
def oneF : FVec Ideal S_ .f32 := constant (F := Ideal) S_ .f32 0x3F800000#32

/-- A negative node number counted from the end: w + 200000 where w < 0, w itself otherwise. -/
def wrap (v : IVec S200000 32) : IVec S200000 32 :=
  select (cmpi .slt v (broadcastInDim S200000 ![] bcast_S_S200000 (constantI S_ 32 0#32)))
    (addi v (broadcastInDim S200000 ![] bcast_S_S200000 (constantI S_ 32 200000#32))) v
/-- A vector of node numbers as a one-column table of indices. -/
def colIdx (v : IVec S200000 32) : IVec S200000x1 32 := broadcastInDim S200000x1 ![0] bcast_S200000_S200000x1_0 v

/-- The in-degree of every node: ones summed by target node. -/
def deg (ei : IVec S2x200000 32) : EVec :=
  Host.scatterAdd scatter_S200000_S200000x1_S200000_n_0_0_1 (broadcastInDim S200000 ![] bcast_S_S200000 zeroF) (colIdx (col ei))
    (broadcastInDim S200000 ![] bcast_S_S200000 oneF)
/-- a where the mask holds, the scalar s elsewhere. -/
def whereV (c : IVec S200000 1) (a : EVec) (s : FVec Ideal S_ .f32) : EVec :=
  select c a (broadcastInDim S200000 ![] bcast_S_S200000 (id s))
/-- One over the square root of the degree, and zero at a node of degree zero. -/
def dinv (ei : IVec S2x200000 32) : EVec :=
  whereV (cmpf .ogt (deg ei) (broadcastInDim S200000 ![] bcast_S_S200000 zeroF))
    (Host.rsqrt (whereV (cmpf .ogt (deg ei) (broadcastInDim S200000 ![] bcast_S_S200000 zeroF)) (deg ei) oneF)) zeroF
/-- The symmetric degree factor of an edge: the factor of its source times the factor of its target. -/
def norm (ei : IVec S2x200000 32) : EVec :=
  mulf (Host.gather gather_S200000_S200000x1_S200000_n_0_n_n_0_1_1 (dinv ei) (colIdx (wrap (row ei))))
    (Host.gather gather_S200000_S200000x1_S200000_n_0_n_n_0_1_1 (dinv ei) (colIdx (wrap (col ei))))
/-- The scale of an edge: its attribute times its degree factor. -/
def scale (ei : IVec S2x200000 32) (ea : EVec) : EVec := mulf ea (norm ei)

def zeros2 : NMat := broadcastInDim S200000x128 ![] bcast_S_S200000x128 zeroF
/-- The bias laid along every row. -/
def bias (b : FVec Ideal S128 .f32) : NMat :=
  broadcastInDim S200000x128 ![0, 1] bcast_S1x128_S200000x128_0_1 (broadcastInDim S1x128 ![1] bcast_S128_S1x128_1 b)
/-- y where y is at least zero, the small slope times y elsewhere. -/
def leaky (y : NMat) : NMat :=
  select (cmpf .oge y (broadcastInDim S200000x128 ![] bcast_S_S200000x128 zeroF)) y
    (mulf (broadcastInDim S200000x128 ![] bcast_S_S200000x128 (id (constant (F := Ideal) S_ .f32 0x3C23D70A#32))) y)
/-- The all-ones feature table the first layer starts from. -/
def x0 : NMat := broadcastInDim S200000x128 ![] bcast_S_S200000x128 oneF
/-- The mean of the starting table and the three layers' outputs. -/
def out (z1 z2 z3 : NMat) : NMat :=
  Host.divf (addf (addf (addf x0 z1) z2) z3)
    (broadcastInDim S200000x128 ![] bcast_S_S200000x128 (constant (F := Ideal) S_ .f32 0x40800000#32))

/-- A table of one feature row per node, at the narrow format (the same extended reals). -/
abbrev NMatB := FVec Ideal S200000x128 .bf16

/-- A vector of 200000 node numbers followed by 704 zeros. -/
def padI (v : IVec S200000 32) : IVec S200704 32 :=
  pad S200704 ![0] ![704] ![0] v (id (constantI S_ 32 0#32)) pads_S200000_S200704_07040 h_S_
def wrapP (v : IVec S200704 32) : IVec S200704 32 :=
  select (cmpi .slt v (broadcastInDim S200704 ![] bcast_S_S200704 (constantI S_ 32 0#32)))
    (addi v (broadcastInDim S200704 ![] bcast_S_S200704 (constantI S_ 32 200000#32))) v
def colIdxP (v : IVec S200704 32) : IVec S200704x1 32 := broadcastInDim S200704x1 ![0] bcast_S200704_S200704x1_0 v
/-- The per-relation weights of every edge: its scale in the column of its own relation, zero elsewhere. -/
def wscale (et : IVec S200000 32) (sc : EVec) : FVec Ideal S200000x4 .f32 :=
  select (cmpi .eq (broadcastInDim S200000x4 ![0, 1] bcast_S200000x1_S200000x4_0_1 (broadcastInDim S200000x1 ![0] bcast_S200000_S200000x1_0 et))
      (broadcastInDim S200000x4 ![0, 1] bcast_S1x4_S200000x4_0_1 (broadcastInDim S1x4 ![1] bcast_S4_S1x4_1 (iotaInDim S4 32 0))))
    (broadcastInDim S200000x4 ![0, 1] bcast_S200000x1_S200000x4_0_1 (broadcastInDim S200000x1 ![0] bcast_S200000_S200000x1_0 sc))
    (broadcastInDim S200000x4 ![] bcast_S_S200000x4 (id zeroF))
/-- The weights table followed by 704 zero rows. -/
def wsP (et : IVec S200000 32) (sc : EVec) : FVec Ideal S200704x4 .f32 :=
  pad S200704x4 ![0, 0] ![704, 0] ![0, 0] (wscale et sc) (sitofp .f32 (constantI S_ 32 0#32) : FVec Ideal S_ .f32)
    pads_S200000x4_S200704x4_07040_000 h_S_
/-- The relations' matrices at the narrow format. -/
def Wb (W : FVec Ideal S4x128x128 .f32) : FVec Ideal S4x128x128 .bf16 := truncf .bf16 W bitsLt_bf16_f32
/-- The source node's feature row of every padded edge row. -/
def xrP (xb : NMatB) (ei : IVec S2x200000 32) : FVec Ideal S200704x128 .bf16 :=
  Host.gather gather_S200000x128_S200704x1_S200704x128_1_0_n_n_0_1_1128 xb (colIdxP (wrapP (padI (row ei))))
/-- What an edge-tiled region leaves in its output array, as a function of its three input arrays: at row e and
    column d the four relations' products of row e, each times that relation's weight of row e, added to zero. -/
def regionFn (xr : FVec Ideal S200704x128 .bf16) (ws : FVec Ideal S200704x4 .f32) (w : FVec Ideal S4x128x128 .bf16) :
    FVec Ideal S200704x128 .bf16 :=
  fun j => Cert.Spec.relMsg (fun e k => xr (ix2 e k)) (fun e r => ws (ix2 e r)) (fun r k d => w (ix3 r k d))
    (idxEquiv2 j).1 (idxEquiv2 j).2
/-- One layer before the rectifier: the region's messages summed by target node, plus the bias. -/
def pre (ei : IVec S2x200000 32) (b : FVec Ideal S128 .f32) (msgs : FVec Ideal S200704x128 .bf16) : NMat :=
  addf (Host.scatterAdd scatter_S200000x128_S200704x1_S200704x128_1_0_0_1 zeros2 (colIdxP (padI (col ei)))
      (extf .f32 msgs bitsLt_bf16_f32)) (bias b)
/-- One layer. -/
def layer (xb : NMatB) (ei : IVec S2x200000 32) (et : IVec S200000 32) (ea : EVec) (W : FVec Ideal S4x128x128 .f32)
    (b : FVec Ideal S128 .f32) : NMat :=
  leaky (pre ei b (regionFn (xrP xb ei) (wsP et (scale ei ea)) (Wb W)))
/-- The all-ones table at the narrow format. -/
def xb0 : NMatB := broadcastInDim S200000x128 ![] bcast_S_S200000x128 (constant (F := Ideal) S_ .bf16 0x3F80#16)
/-- A layer's output handed to the next layer at the narrow format. -/
def next (z : NMat) : NMatB := truncf .bf16 z bitsLt_bf16_f32

end Cert.KernelIdeal.Stage

end
-- ==== Proof.LibGatherRows.lean ====
/-
  The host's gather of whole rows, read at an index given by coordinates: what `x[idx]` lowers to for a matrix
  `x : [N, C]` (or a vector `x : [N]`) and a column of M row numbers `idx : [M, 1]` (the index vector along the
  second axis). Row e of the result is row `idx[e, 0]` of the operand, the row number read as a signed integer and
  clamped into `[0, N − 1]` — a gather clamps every start index so that the slice fits, and the slice is one row.
  The clamped row depends on the row number's word alone (`clampRow`), so a matrix and a vector gathered at the same
  column of row numbers are read at the same rows.
-/
import Idealize.ShloMosaic.Lib.ValueIdx

noncomputable section

namespace Cert.GatherRows

open Idealize.ShloMosaic Idealize.ShloMosaic.ValueIdx

/-- A row number's word read signed and clamped into the rows `[0, N − 1]` of an operand with `N > 0` rows. -/
def clampRow (N : Nat) (hN : 0 < N) {w : Nat} (v : BitVec w) : Fin N := ⟨min v.toInt.toNat (N - 1), by omega⟩

/-- A word whose signed value is the row `n` clamps to `n`. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  have := n.isLt
  rw [h]; omega

variable {α : Type}

/-! ## Rows of a matrix: operand [N, C], row numbers [M, 1], result [M, C] -/

/-- The dimension numbers of `x[idx]` for a matrix: the result's second axis is the slice's (offset axis 1), operand
    axis 0 is collapsed and is the one the start index addresses, the slice is one whole row. Their conditions `wf`
    are decided on a program's literal shapes. -/
abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]` (signed, clamped) and column `c`. -/
theorem gather_rows_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowDims N C M wf) x idx (ix2 e c) = x (ix2 (clampRow N hN (idx (ix2 e (0 : Fin 1)))) c) := by
  have h0 : (rowDims N C M wf).start (ix2 e c) idx (0 : Fin 2) + (rowDims N C M wf).batchCoord (ix2 e c) (0 : Fin 2)
      + (rowDims N C M wf).offCoord (ix2 e c) (0 : Fin 2) = (clampRow N hN (idx (ix2 e (0 : Fin 1)))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C M wf).startIndexMap from List.mem_singleton.mpr rfl)]
    have hsi : (rowDims N C M wf).siIdx (ix2 e c) ⟨List.idxOf (0 : Fin 2) (rowDims N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowDims N C M wf).start (ix2 e c) idx (1 : Fin 2) + (rowDims N C M wf).batchCoord (ix2 e c) (1 : Fin 2)
      + (rowDims N C M wf).offCoord (ix2 e c) (1 : Fin 2) = c.val := by
    rw [GatherDims.batchCoord_eq_zero _ _ _ List.not_mem_nil]
    simp only [Nat.add_zero]
    unfold GatherDims.start
    rw [dif_neg (show (1 : Fin 2) ∉ (rowDims N C M wf).startIndexMap from
      fun h => absurd (show (1 : Nat) = 0 from congrArg Fin.val (List.mem_singleton.mp h)) (by decide)), Nat.zero_add]
    rfl
  unfold Host.gather
  congr 1
  funext a
  refine Fin.ext ?_
  match a with
  | ⟨0, _⟩ => exact h0
  | ⟨1, _⟩ => exact h1

/-! ## Elements of a vector: operand [N], row numbers [M, 1], result [M] -/

/-- The dimension numbers of `x[idx]` for a vector: no offset axis, the operand's one axis collapsed and addressed by
    the start index, the slice one element. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at element `idx[e, 0]` (signed, clamped) — the same row the matrix
    gather reads. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN (idx (ix2 e (0 : Fin 1))))) := by
  unfold Host.gather
  congr 1
  funext a
  obtain rfl : a = 0 := Subsingleton.elim _ _
  refine Fin.ext ?_
  show (vecDims N M wf).start (ix1 e) idx 0 + (vecDims N M wf).batchCoord (ix1 e) 0
    + (vecDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 e) ⟨List.idxOf (0 : Fin 1) (vecDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.GatherRows
-- ==== Proof.LibSegmentSum.lean ====
/-
  The host's accumulating scatter, read at an index given by coordinates, at the ideal values, for the dimension
  numbers of a SEGMENT SUM: the scatter indices are a column of N row numbers (shape [N, 1], the index vector along
  the second axis), update row i is added into operand row idx[i] (the scatter axis goes to operand axis 0, which is
  the one inserted window axis), and the update's remaining axis, if any, runs along the operand's columns. An element
  of the result is then the operand's element plus the sum of the update elements in the same column whose row number
  is that element's row: a sum over a filter of Fin N. A row number read signed that is negative or not below the
  operand's row count lands outside and adds nothing, which the filter says by itself, the wanted row being a row.
-/
import Idealize.ShloMosaic.Lib.ValueIdx
import Idealize.ShloMosaic.PureOps.Ideal.Laws

noncomputable section

namespace Cert.SegmentSum

open Idealize.ShloMosaic Idealize.ShloMosaic.ValueIdx
open scoped BigOperators

/-! ## Updates of rows: operand [S, C], updates [N, C] -/

/-- Update element (i, b) lands on operand element (s, c) exactly when row number i, read signed, is s and b = c:
    the start is (row number, 0) and the window coordinate is (0, b), so the landing place is (row number, b), inside
    the operand exactly when the row number is one of its rows. -/
theorem resultIdx?_rows_eq_some_iff {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (idx : IVec ⟨2, ![N, 1]⟩ w) (i : Fin N) (b : Fin C) (s : Fin S) (c : Fin C) :
    d.resultIdx? (ix2 i b) idx = some (ix2 s c) ↔ (idx (ix2 i (0 : Fin 1))).toInt = (s.val : Int) ∧ b = c := by
  unfold ScatterDims.resultIdx?
  constructor
  · intro h
    split_ifs at h with hr
    have h' := Option.some.inj h
    have h0 : (d.start (ix2 i b) idx (0 : Fin 2) + (d.window (ix2 i b) (0 : Fin 2) : Int)).toNat = s.val :=
      congrArg (fun f : (⟨2, ![S, C]⟩ : Shape).Idx => (f (0 : Fin 2)).val) h'
    have h1 : (d.start (ix2 i b) idx (1 : Fin 2) + (d.window (ix2 i b) (1 : Fin 2) : Int)).toNat = c.val :=
      congrArg (fun f : (⟨2, ![S, C]⟩ : Shape).Idx => (f (1 : Fin 2)).val) h'
    have hr0 := (hr (0 : Fin 2)).1
    rw [hs0, hw0] at h0 hr0
    rw [hs1, hw1] at h1
    refine ⟨by omega, Fin.ext (by omega)⟩
  · rintro ⟨hrow, rfl⟩
    have hr : ∀ a : Fin 2, 0 ≤ d.start (ix2 i b) idx a + (d.window (ix2 i b) a : Int) ∧
        d.start (ix2 i b) idx a + (d.window (ix2 i b) a : Int) < ((⟨2, ![S, C]⟩ : Shape).size a : Int) := by
      intro a
      match a with
      | ⟨0, _⟩ =>
        have e1 := hs0 i b idx
        have e2 := hw0 i b
        have hS : (s.val : Int) < (S : Int) := by exact_mod_cast s.isLt
        show 0 ≤ d.start (ix2 i b) idx (0 : Fin 2) + (d.window (ix2 i b) (0 : Fin 2) : Int) ∧
          d.start (ix2 i b) idx (0 : Fin 2) + (d.window (ix2 i b) (0 : Fin 2) : Int) < (S : Int)
        rw [e1, e2]; omega
      | ⟨1, _⟩ =>
        have e1 := hs1 i b idx
        have e2 := hw1 i b
        have hC : (b.val : Int) < (C : Int) := by exact_mod_cast b.isLt
        show 0 ≤ d.start (ix2 i b) idx (1 : Fin 2) + (d.window (ix2 i b) (1 : Fin 2) : Int) ∧
          d.start (ix2 i b) idx (1 : Fin 2) + (d.window (ix2 i b) (1 : Fin 2) : Int) < (C : Int)
        rw [e1, e2]; omega
    rw [dif_pos hr]
    congr 1
    funext a
    apply Fin.ext
    match a with
    | ⟨0, _⟩ =>
      show (d.start (ix2 i b) idx (0 : Fin 2) + (d.window (ix2 i b) (0 : Fin 2) : Int)).toNat = s.val
      rw [hs0, hw0]; omega
    | ⟨1, _⟩ =>
      show (d.start (ix2 i b) idx (1 : Fin 2) + (d.window (ix2 i b) (1 : Fin 2) : Int)).toNat = b.val
      rw [hs1, hw1]; omega

/-- The accumulating scatter of N update rows into an operand of S rows, at row s and column c: the operand's element
    plus the sum, over the update rows i whose row number (read signed) is s, of the update at (i, c). The hypotheses say
    what the dimension numbers mean: the start is (row number, 0), the window coordinate is (0, update column). The sum
    over the update indices that land on (s, c) is split by coordinates; the column must be c and the row's number s. -/
theorem scatterAdd_rows_apply {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (x : FVec Ideal ⟨2, ![S, C]⟩ .f32) (idx : IVec ⟨2, ![N, 1]⟩ w) (upd : FVec Ideal ⟨2, ![N, C]⟩ .f32)
    (s : Fin S) (c : Fin C) :
    Host.scatterAdd d x idx upd (ix2 s c) = x (ix2 s c) +
      ∑ i ∈ Finset.univ.filter (fun i : Fin N => (idx (ix2 i (0 : Fin 1))).toInt = (s.val : Int)), upd (ix2 i c) := by
  show x (ix2 s c) + ∑ j ∈ Finset.univ.filter (fun j => d.resultIdx? j idx = some (ix2 s c)), upd j = _
  congr 1
  rw [Finset.sum_filter, Finset.sum_filter, sum_idx2]
  refine Finset.sum_congr rfl fun i _ => ?_
  simp only [resultIdx?_rows_eq_some_iff d hs0 hs1 hw0 hw1]
  by_cases h : (idx (ix2 i (0 : Fin 1))).toInt = (s.val : Int)
  · simp only [h, true_and, if_true]
    rw [Finset.sum_ite_eq' Finset.univ c (fun b => upd (ix2 i b))]
    simp
  · simp only [h, false_and, if_false, Finset.sum_const_zero]

/-! ## Updates of single elements: operand [S], updates [N] -/

/-- A rank-1 index set is its one coordinate range … -/
def idxEquiv1 {n : ℕ} : (⟨1, ![n]⟩ : Shape).Idx ≃ Fin n where
  toFun j := j 0
  invFun i := ix1 i
  left_inv j := (eq_ix1 j).symm
  right_inv _ := rfl

/-- … so a sum over it is the sum over the coordinate. -/
theorem sum_idx1 {M : Type*} [AddCommMonoid M] {n : ℕ} (f : (⟨1, ![n]⟩ : Shape).Idx → M) :
    ∑ j, f j = ∑ i : Fin n, f (ix1 i) := by
  rw [← Equiv.sum_comp (idxEquiv1 (n := n)).symm f]
  rfl

/-- Update element i lands on operand element s exactly when row number i, read signed, is s: the start is the row
    number and there is no window, so the landing place is the row number, inside the operand exactly when it is one of
    its elements. -/
theorem resultIdx?_vec_eq_some_iff {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (idx : IVec ⟨2, ![N, 1]⟩ w) (i : Fin N) (s : Fin S) :
    d.resultIdx? (ix1 i) idx = some (ix1 s) ↔ (idx (ix2 i (0 : Fin 1))).toInt = (s.val : Int) := by
  unfold ScatterDims.resultIdx?
  constructor
  · intro h
    split_ifs at h with hr
    have h' := Option.some.inj h
    have h0 : (d.start (ix1 i) idx (0 : Fin 1) + (d.window (ix1 i) (0 : Fin 1) : Int)).toNat = s.val :=
      congrArg (fun f : (⟨1, ![S]⟩ : Shape).Idx => (f (0 : Fin 1)).val) h'
    have hr0 := (hr (0 : Fin 1)).1
    rw [hs0, hw0] at h0 hr0
    omega
  · intro hrow
    have hr : ∀ a : Fin 1, 0 ≤ d.start (ix1 i) idx a + (d.window (ix1 i) a : Int) ∧
        d.start (ix1 i) idx a + (d.window (ix1 i) a : Int) < ((⟨1, ![S]⟩ : Shape).size a : Int) := by
      intro a
      match a with
      | ⟨0, _⟩ =>
        have e1 := hs0 i idx
        have e2 := hw0 i
        have hS : (s.val : Int) < (S : Int) := by exact_mod_cast s.isLt
        show 0 ≤ d.start (ix1 i) idx (0 : Fin 1) + (d.window (ix1 i) (0 : Fin 1) : Int) ∧
          d.start (ix1 i) idx (0 : Fin 1) + (d.window (ix1 i) (0 : Fin 1) : Int) < (S : Int)
        rw [e1, e2]; omega
    rw [dif_pos hr]
    congr 1
    funext a
    apply Fin.ext
    match a with
    | ⟨0, _⟩ =>
      show (d.start (ix1 i) idx (0 : Fin 1) + (d.window (ix1 i) (0 : Fin 1) : Int)).toNat = s.val
      rw [hs0, hw0]; omega

/-- The accumulating scatter of N update elements into an operand of S elements, at element s: the operand's element
    plus the sum, over the update elements i whose row number (read signed) is s, of the update at i. The hypotheses say
    what the dimension numbers mean: the start is the row number, and there is no window. -/
theorem scatterAdd_vec_apply {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (x : FVec Ideal ⟨1, ![S]⟩ .f32) (idx : IVec ⟨2, ![N, 1]⟩ w) (upd : FVec Ideal ⟨1, ![N]⟩ .f32) (s : Fin S) :
    Host.scatterAdd d x idx upd (ix1 s) = x (ix1 s) +
      ∑ i ∈ Finset.univ.filter (fun i : Fin N => (idx (ix2 i (0 : Fin 1))).toInt = (s.val : Int)), upd (ix1 i) := by
  show x (ix1 s) + ∑ j ∈ Finset.univ.filter (fun j => d.resultIdx? j idx = some (ix1 s)), upd j = _
  congr 1
  rw [Finset.sum_filter, Finset.sum_filter, sum_idx1]
  refine Finset.sum_congr rfl fun i _ => ?_
  simp only [resultIdx?_vec_eq_some_iff d hs0 hw0]

end Cert.SegmentSum
-- ==== Proof.LibSegmentDims.lean ====
/-
  The dimension numbers of a segment sum, and what they mean: scatter indices [N, 1] with the index vector along the
  second axis, the one index component addressing operand axis 0, which is also the one inserted window axis; for a
  matrix of updates [N, C] the update's second axis is its window axis and runs along the operand's columns, for a
  vector of updates [N] there is no window. So update element (i, b) starts at (row number i, 0) with window coordinate
  (0, b), and update element i of a vector starts at row number i with no window.
-/
import Idealize.ShloMosaic.Lib.ValueIdx

noncomputable section

namespace Cert.SegmentDims

open Idealize.ShloMosaic Idealize.ShloMosaic.ValueIdx

/-! ## Rows: operand [S, C], indices [N, 1], updates [N, C] -/

abbrev rowsDims (S C N : Nat)
    (wf : ScatterDims.WF ⟨2, ![S, C]⟩ ⟨2, ![N, 1]⟩ ⟨2, ![N, C]⟩ [1] [0] [0] 1) :
    ScatterDims ⟨2, ![S, C]⟩ ⟨2, ![N, 1]⟩ ⟨2, ![N, C]⟩ where
  updateWindowDims := [1]
  insertedWindowDims := [0]
  scatterDimsToOperandDims := [0]
  indexVectorDim := 1
  wf := wf

variable {S C N w : Nat}

theorem rows_start0 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (0 : Fin 2) = (idx (ix2 i (0 : Fin 1))).toInt := by
  unfold ScatterDims.start
  rw [dif_pos (show (0 : Fin 2) ∈ (rowsDims S C N wf).scatterDimsToOperandDims from List.mem_singleton.mpr rfl)]
  have hsi : (rowsDims S C N wf).siIdx (ix2 i b) ⟨List.idxOf (0 : Fin 2) (rowsDims S C N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem rows_start1 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (1 : Fin 2) = 0 := by
  unfold ScatterDims.start
  rw [dif_neg (show (1 : Fin 2) ∉ (rowsDims S C N wf).scatterDimsToOperandDims from
    fun h => absurd (show (1 : Nat) = 0 from congrArg Fin.val (List.mem_singleton.mp h)) (by decide))]

theorem rows_window0 (wf : ScatterDims.WF ⟨2, ![S, C]⟩ ⟨2, ![N, 1]⟩ ⟨2, ![N, C]⟩ [1] [0] [0] 1)
    (i : Fin N) (b : Fin C) : (rowsDims S C N wf).window (ix2 i b) (0 : Fin 2) = 0 := by
  unfold ScatterDims.window
  rw [dif_neg]
  intro h
  have : (0 : Fin 2) ∉ (rowsDims S C N wf).insertedWindowDims := by
    simpa [ScatterDims.sKept, Shape.kept, List.mem_filter] using h
  exact this (List.mem_singleton.mpr rfl)

theorem rows_window1 (wf : ScatterDims.WF ⟨2, ![S, C]⟩ ⟨2, ![N, 1]⟩ ⟨2, ![N, C]⟩ [1] [0] [0] 1)
    (i : Fin N) (b : Fin C) : (rowsDims S C N wf).window (ix2 i b) (1 : Fin 2) = b.val := by
  unfold ScatterDims.window
  have h1 : (1 : Fin 2) ∈ (rowsDims S C N wf).sKept := by
    simp [ScatterDims.sKept, Shape.kept, List.mem_filter, List.mem_finRange]
  rw [dif_pos h1]
  rfl

/-! ## Elements: operand [S], indices [N, 1], updates [N] -/

abbrev vecDims (S N : Nat) (wf : ScatterDims.WF ⟨1, ![S]⟩ ⟨2, ![N, 1]⟩ ⟨1, ![N]⟩ [] [0] [0] 1) :
    ScatterDims ⟨1, ![S]⟩ ⟨2, ![N, 1]⟩ ⟨1, ![N]⟩ where
  updateWindowDims := []
  insertedWindowDims := [0]
  scatterDimsToOperandDims := [0]
  indexVectorDim := 1
  wf := wf

theorem vec_start0 (wf : ScatterDims.WF ⟨1, ![S]⟩ ⟨2, ![N, 1]⟩ ⟨1, ![N]⟩ [] [0] [0] 1)
    (i : Fin N) (idx : IVec ⟨2, ![N, 1]⟩ w) :
    (vecDims S N wf).start (ix1 i) idx (0 : Fin 1) = (idx (ix2 i (0 : Fin 1))).toInt := by
  unfold ScatterDims.start
  rw [dif_pos (show (0 : Fin 1) ∈ (vecDims S N wf).scatterDimsToOperandDims from List.mem_singleton.mpr rfl)]
  have hsi : (vecDims S N wf).siIdx (ix1 i) ⟨List.idxOf (0 : Fin 1) (vecDims S N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem vec_window0 (wf : ScatterDims.WF ⟨1, ![S]⟩ ⟨2, ![N, 1]⟩ ⟨1, ![N]⟩ [] [0] [0] 1) (i : Fin N) :
    (vecDims S N wf).window (ix1 i) (0 : Fin 1) = 0 := by
  unfold ScatterDims.window
  rw [dif_neg]
  intro h
  have : (0 : Fin 1) ∉ (vecDims S N wf).insertedWindowDims := by
    simpa [ScatterDims.sKept, Shape.kept, List.mem_filter] using h
  exact this (List.mem_singleton.mpr rfl)

end Cert.SegmentDims
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.KerRead.lean ====
/-
  The kernel program's host operations read at an index given by coordinates, over arbitrary operands: the padding
  of the edge arrays from 200000 to 200704 rows (a padded row reads the padding value, which is zero), the table of
  per-relation edge weights (row e holds the edge's scale in the column of the edge's relation and zero elsewhere),
  the gather of feature rows by source node, and the segment sum of message rows by target node. A last fact says
  that rows whose summand is zero from row 200000 on can be dropped from a filtered sum over the padded rows.
-/
import proofs.«120788_j77403900608956_2_alg».proof.KernelIdeal
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws
import proofs.«120788_j77403900608956_2_alg».proof.Proof.LibGatherRows
import proofs.«120788_j77403900608956_2_alg».proof.Proof.LibSegmentSum
import proofs.«120788_j77403900608956_2_alg».proof.Proof.LibSegmentDims
import proofs.«120788_j77403900608956_2_alg».proof.Proof.LibDenseRows

noncomputable section

namespace Cert.KernelIdeal.Read

open Idealize.ShloMosaic Idealize.ShloMosaic.ValueIdx
open Cert.KernelIdeal Cert.KernelIdeal.Facts₀
open scoped BigOperators

variable [Cert.KernelIdeal.Facts₀]

/-- A vector of 200000 words padded with 704 more: a row below 200000 reads the operand, a later row the padding value. -/
theorem pad_vec_apply (x : IVec S200000 32) (v : IVec S_ 32) (e : Fin 200704) :
    pad S200704 ![0] ![704] ![0] x v pads_S200000_S200704_07040 h_S_ (ix1 e)
      = if h : e.val < 200000 then x (ix1 ⟨e.val, h⟩) else v ix0 := by
  split
  · rename_i h
    refine pad_apply_of_inside _ _ _ x v _ _ (ix1 e) (ix1 ⟨e.val, h⟩) fun a => ?_
    match a with
    | ⟨0, _⟩ => show e.val = 0 + e.val * (0 + 1); omega
  · rename_i h
    refine (pad_apply_of_not_inside _ _ _ x v _ _ (ix1 e) (0 : Fin 1) ?_).trans (congrArg v (Subsingleton.elim _ _))
    intro hin
    have h3 := hin.2.2
    change (e.val - 0) / (0 + 1) < 200000 at h3
    omega

/-- A table of 200000 rows of 4 padded with 704 more rows: the same, column by column. -/
theorem pad_tab_apply (x : FVec Ideal S200000x4 .f32) (v : FVec Ideal S_ .f32) (e : Fin 200704) (r : Fin 4) :
    pad S200704x4 ![0, 0] ![704, 0] ![0, 0] x v pads_S200000x4_S200704x4_07040_000 h_S_ (ix2 e r)
      = if h : e.val < 200000 then x (ix2 ⟨e.val, h⟩ r) else v ix0 := by
  split
  · rename_i h
    refine pad_apply_of_inside _ _ _ x v _ _ (ix2 e r) (ix2 ⟨e.val, h⟩ r) fun a => ?_
    match a with
    | ⟨0, _⟩ => show e.val = 0 + e.val * (0 + 1); omega
    | ⟨1, _⟩ => show r.val = 0 + r.val * (0 + 1); omega
  · rename_i h
    refine (pad_apply_of_not_inside _ _ _ x v _ _ (ix2 e r) (0 : Fin 2) ?_).trans (congrArg v (Subsingleton.elim _ _))
    intro hin
    have h3 := hin.2.2
    change (e.val - 0) / (0 + 1) < 200000 at h3
    omega

/-- The padding value, the integer zero converted to a float, is zero. -/
theorem padValue_sitofp : (sitofp .f32 (constantI S_ 32 0#32) : FVec Ideal S_ .f32) ix0 = 0 := by
  show (((0#32 : BitVec 32).toInt : ℝ) : EReal) = 0
  simp

/-- The zero word as a float constant is zero. -/
theorem padValue_constant : constant (F := Ideal) S_ .f32 0x00000000#32 ix0 = 0 :=
  (constant_apply _ _).trans Ideal.ofBits_zero_f32

/-- A select on an equality comparison of two words, at an index: the `if` on the equality of the elements. -/
theorem select_cmpi_eq_apply {s : Shape} {w : Nat} {α : Type} (a b : IVec s w) (x y : s.Idx → α) (i : s.Idx) :
    select (cmpi .eq a b) x y i = if a i = b i then x i else y i := by
  show (if IntOp.cmpi .eq (a i) (b i) = 1 then x i else y i) = _
  by_cases h : a i = b i
  · simp [IntOp.cmpi, h]
  · have hb : (a i == b i) = false := by simpa using h
    simp [IntOp.cmpi, hb, h]

/-- The edge-weight table at `(e, r)`: the edge's scale when the edge's relation is r, else the fill value. -/
theorem oneHot_apply (et : IVec S200000 32) (sc : FVec Ideal S200000 .f32) (z : FVec Ideal S_ .f32) (e : Fin 200000) (r : Fin 4) :
    select (cmpi .eq (broadcastInDim S200000x4 ![0, 1] bcast_S200000x1_S200000x4_0_1 (broadcastInDim S200000x1 ![0] bcast_S200000_S200000x1_0 et)) (broadcastInDim S200000x4 ![0, 1] bcast_S1x4_S200000x4_0_1 (broadcastInDim S1x4 ![1] bcast_S4_S1x4_1 (iotaInDim S4 32 0))))
      (broadcastInDim S200000x4 ![0, 1] bcast_S200000x1_S200000x4_0_1 (broadcastInDim S200000x1 ![0] bcast_S200000_S200000x1_0 sc)) (broadcastInDim S200000x4 ![] bcast_S_S200000x4 z) (ix2 e r)
      = if et (ix1 e) = BitVec.ofNat 32 r.val then sc (ix1 e) else z ix0 := by
  have hA : broadcastInDim S200000x4 ![0, 1] bcast_S200000x1_S200000x4_0_1 (broadcastInDim S200000x1 ![0] bcast_S200000_S200000x1_0 et) (ix2 e r) = et (ix1 e) :=
    (Cert.DenseRows.broadcastInDim_a1_ab_apply _ _ e r).trans (Cert.DenseRows.broadcastInDim_a_a1_apply et _ e 0)
  have hS : broadcastInDim S200000x4 ![0, 1] bcast_S200000x1_S200000x4_0_1 (broadcastInDim S200000x1 ![0] bcast_S200000_S200000x1_0 sc) (ix2 e r) = sc (ix1 e) :=
    (Cert.DenseRows.broadcastInDim_a1_ab_apply _ _ e r).trans (Cert.DenseRows.broadcastInDim_a_a1_apply sc _ e 0)
  have hB : broadcastInDim S200000x4 ![0, 1] bcast_S1x4_S200000x4_0_1 (broadcastInDim S1x4 ![1] bcast_S4_S1x4_1 (iotaInDim S4 32 0)) (ix2 e r) = BitVec.ofNat 32 r.val :=
    Cert.DenseRows.rowBias_inDim_apply (iotaInDim S4 32 0) _ _ e r
  have hZ : broadcastInDim S200000x4 ![] bcast_S_S200000x4 z (ix2 e r) = z ix0 := broadcastInDim_scalar_apply _ z _
  rw [select_cmpi_eq_apply, hA, hB, hS, hZ]

/-- The row gather at a column of row numbers, read at `(e, k)`: row `idx[e, 0]` (signed, clamped) of the operand. -/
theorem gather_rows_col_at {α : Type} (x : S200000x128.Idx → α) (idx : IVec S200704x1 32) (e : Fin 200704) (k : Fin 128) :
    Host.gather gather_S200000x128_S200704x1_S200704x128_1_0_n_n_0_1_1128 x idx (ix2 e k)
      = x (ix2 (Cert.GatherRows.clampRow 200000 (by norm_num) (idx (ix2 e (0 : Fin 1)))) k) :=
  Cert.GatherRows.gather_rows_apply (N := 200000) (C := 128) (M := 200704) (by norm_num)
    gather_S200000x128_S200704x1_S200704x128_1_0_n_n_0_1_1128_wf x idx e k

/-- The row gather by a vector of row numbers laid out as a column: row e of the result is row `idx[e]` of the operand. -/
theorem gather_rows_at {α : Type} (x : S200000x128.Idx → α) (idx : IVec S200704 32) (e : Fin 200704) (k : Fin 128) :
    Host.gather gather_S200000x128_S200704x1_S200704x128_1_0_n_n_0_1_1128 x (broadcastInDim S200704x1 ![0] bcast_S200704_S200704x1_0 idx) (ix2 e k)
      = x (ix2 (Cert.GatherRows.clampRow 200000 (by norm_num) (idx (ix1 e))) k) :=
  (gather_rows_col_at x _ e k).trans (by rw [Cert.DenseRows.broadcastInDim_a_a1_apply])

/-- The segment sum at `(s, c)`: the operand's element plus the sum of column c of the update rows whose target is s. -/
theorem scatterAdd_rows_at (x : FVec Ideal S200000x128 .f32) (idx : IVec S200704 32) (upd : FVec Ideal S200704x128 .f32) (s : Fin 200000) (c : Fin 128) :
    Host.scatterAdd scatter_S200000x128_S200704x1_S200704x128_1_0_0_1 x (broadcastInDim S200704x1 ![0] bcast_S200704_S200704x1_0 idx) upd (ix2 s c)
      = x (ix2 s c) + ∑ i ∈ Finset.univ.filter (fun i : Fin 200704 => (idx (ix1 i)).toInt = (s.val : Int)), upd (ix2 i c) := by
  have h := Cert.SegmentSum.scatterAdd_rows_apply (S := 200000) (C := 128) (N := 200704) (w := 32)
    scatter_S200000x128_S200704x1_S200704x128_1_0_0_1
    (Cert.SegmentDims.rows_start0 scatter_S200000x128_S200704x1_S200704x128_1_0_0_1_wf)
    (Cert.SegmentDims.rows_start1 scatter_S200000x128_S200704x1_S200704x128_1_0_0_1_wf)
    (Cert.SegmentDims.rows_window0 scatter_S200000x128_S200704x1_S200704x128_1_0_0_1_wf)
    (Cert.SegmentDims.rows_window1 scatter_S200000x128_S200704x1_S200704x128_1_0_0_1_wf)
    x (broadcastInDim S200704x1 ![0] bcast_S200704_S200704x1_0 idx) upd s c
  have hidx : ∀ i : Fin 200704, (broadcastInDim S200704x1 ![0] bcast_S200704_S200704x1_0 idx) (ix2 i (0 : Fin 1)) = idx (ix1 i) :=
    fun i => Cert.DenseRows.broadcastInDim_a_a1_apply idx _ i 0
  refine h.trans (congrArg (x (ix2 s c) + ·) (Finset.sum_congr (Finset.filter_congr fun i _ => ?_) fun _ _ => rfl))
  rw [hidx i]

/-- Rows from 200000 on whose summand is zero add nothing to a filtered sum over the 200704 padded rows. -/
theorem sum_filter_padded (P : Fin 200704 → Prop) [DecidablePred P] (f : Fin 200704 → EReal)
    (hz : ∀ i, 200000 ≤ i.val → f i = 0) :
    ∑ i ∈ Finset.univ.filter P, f i
      = ∑ i ∈ Finset.univ.filter (fun i : Fin 200000 => P (Fin.castLE (by decide) i)), f (Fin.castLE (by decide) i) := by
  have hle : 200000 ≤ 200704 := by decide
  have e1 : ∑ i ∈ Finset.univ.filter (fun i : Fin 200000 => P (Fin.castLE hle i)), f (Fin.castLE hle i)
      = ∑ x ∈ (Finset.univ.filter (fun i : Fin 200000 => P (Fin.castLE hle i))).map (Fin.castLEEmb hle), f x :=
    (Finset.sum_map _ (Fin.castLEEmb hle) f).symm
  refine Eq.trans ?_ e1.symm
  symm
  apply Finset.sum_subset
  · intro x hx
    obtain ⟨i, hi, rfl⟩ := Finset.mem_map.mp hx
    exact Finset.mem_filter.mpr ⟨Finset.mem_univ _, (Finset.mem_filter.mp hi).2⟩
  · intro x hx hnx
    apply hz
    by_contra hlt
    have hlt' : x.val < 200000 := by omega
    apply hnx
    refine Finset.mem_map.mpr ⟨⟨x.val, hlt'⟩, ?_, Fin.ext rfl⟩
    refine Finset.mem_filter.mpr ⟨Finset.mem_univ _, ?_⟩
    have hx2 := (Finset.mem_filter.mp hx).2
    rwa [show Fin.castLE hle ⟨x.val, hlt'⟩ = x from Fin.ext rfl]

end Cert.KernelIdeal.Read

end
-- ==== Proof.RefRead.lean ====
/-
  The reference program's host operations read at an index given by coordinates, over arbitrary operands: the gather
  of feature rows by source node, the segment sum of message rows by target node, a per-edge vector (the edge scale,
  or a relation's mask) laid along the 128 feature columns, one relation's 128 x 128 matrix cut out of the stack of
  four, and the dense product of the gathered rows with such a matrix.
-/
import proofs.«120788_j77403900608956_2_alg».proof.ReferenceIdeal
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws
import proofs.«120788_j77403900608956_2_alg».proof.Proof.LibGatherRows
import proofs.«120788_j77403900608956_2_alg».proof.Proof.LibSegmentSum
import proofs.«120788_j77403900608956_2_alg».proof.Proof.LibSegmentDims
import proofs.«120788_j77403900608956_2_alg».proof.Proof.LibDenseRows

noncomputable section

namespace Cert.ReferenceIdeal.Read

open Idealize.ShloMosaic Idealize.ShloMosaic.ValueIdx
open Cert.ReferenceIdeal Cert.ReferenceIdeal.Facts₀
open scoped BigOperators

variable [Cert.ReferenceIdeal.Facts₀]

/-- The row gather at a column of row numbers, read at `(e, k)`: row `idx[e, 0]` (signed, clamped) of the operand. -/
theorem gather_rows_col_at {α : Type} (x : S200000x128.Idx → α) (idx : IVec S200000x1 32) (e : Fin 200000) (k : Fin 128) :
    Host.gather gather_S200000x128_S200000x1_S200000x128_1_0_n_n_0_1_1128 x idx (ix2 e k)
      = x (ix2 (Cert.GatherRows.clampRow 200000 (by norm_num) (idx (ix2 e (0 : Fin 1)))) k) :=
  Cert.GatherRows.gather_rows_apply (N := 200000) (C := 128) (M := 200000) (by norm_num)
    gather_S200000x128_S200000x1_S200000x128_1_0_n_n_0_1_1128_wf x idx e k

/-- The row gather by a vector of row numbers laid out as a column: row e of the result is row `idx[e]` of the operand. -/
theorem gather_rows_at {α : Type} (x : S200000x128.Idx → α) (idx : IVec S200000 32) (e : Fin 200000) (k : Fin 128) :
    Host.gather gather_S200000x128_S200000x1_S200000x128_1_0_n_n_0_1_1128 x (broadcastInDim S200000x1 ![0] bcast_S200000_S200000x1_0 idx) (ix2 e k)
      = x (ix2 (Cert.GatherRows.clampRow 200000 (by norm_num) (idx (ix1 e))) k) :=
  (gather_rows_col_at x _ e k).trans (by rw [Cert.DenseRows.broadcastInDim_a_a1_apply])

/-- The segment sum at `(s, c)`: the operand's element plus the sum of column c of the update rows whose target is s. -/
theorem scatterAdd_rows_at (x : FVec Ideal S200000x128 .f32) (idx : IVec S200000 32) (upd : FVec Ideal S200000x128 .f32) (s : Fin 200000) (c : Fin 128) :
    Host.scatterAdd scatter_S200000x128_S200000x1_S200000x128_1_0_0_1 x (broadcastInDim S200000x1 ![0] bcast_S200000_S200000x1_0 idx) upd (ix2 s c)
      = x (ix2 s c) + ∑ i ∈ Finset.univ.filter (fun i : Fin 200000 => (idx (ix1 i)).toInt = (s.val : Int)), upd (ix2 i c) := by
  have h := Cert.SegmentSum.scatterAdd_rows_apply (S := 200000) (C := 128) (N := 200000) (w := 32)
    scatter_S200000x128_S200000x1_S200000x128_1_0_0_1
    (Cert.SegmentDims.rows_start0 scatter_S200000x128_S200000x1_S200000x128_1_0_0_1_wf)
    (Cert.SegmentDims.rows_start1 scatter_S200000x128_S200000x1_S200000x128_1_0_0_1_wf)
    (Cert.SegmentDims.rows_window0 scatter_S200000x128_S200000x1_S200000x128_1_0_0_1_wf)
    (Cert.SegmentDims.rows_window1 scatter_S200000x128_S200000x1_S200000x128_1_0_0_1_wf)
    x (broadcastInDim S200000x1 ![0] bcast_S200000_S200000x1_0 idx) upd s c
  have hidx : ∀ i : Fin 200000, (broadcastInDim S200000x1 ![0] bcast_S200000_S200000x1_0 idx) (ix2 i (0 : Fin 1)) = idx (ix1 i) :=
    fun i => Cert.DenseRows.broadcastInDim_a_a1_apply idx _ i 0
  refine h.trans (congrArg (x (ix2 s c) + ·) (Finset.sum_congr (Finset.filter_congr fun i _ => ?_) fun _ _ => rfl))
  rw [hidx i]

/-- A per-edge vector laid out as a column and then along the 128 feature columns reads, at `(e, d)`, the vector at e. -/
theorem column_apply {α : Type} (v : S200000.Idx → α) (e : Fin 200000) (d : Fin 128) :
    broadcastInDim S200000x128 ![0, 1] bcast_S200000x1_S200000x128_0_1 (broadcastInDim S200000x1 ![0] bcast_S200000_S200000x1_0 v) (ix2 e d)
      = v (ix1 e) :=
  (Cert.DenseRows.broadcastInDim_a1_ab_apply _ _ e d).trans (Cert.DenseRows.broadcastInDim_a_a1_apply v _ e 0)

/-- The edge scale along the feature columns. -/
theorem columnScale_apply (sc : FVec Ideal S200000 .f32) (e : Fin 200000) (d : Fin 128) :
    broadcastInDim S200000x128 ![0, 1] bcast_S200000x1_S200000x128_0_1 (broadcastInDim S200000x1 ![0] bcast_S200000_S200000x1_0 sc) (ix2 e d)
      = sc (ix1 e) := column_apply sc e d

/-- A relation's mask along the feature columns. -/
theorem relationMask_apply (b : IVec S200000 1) (e : Fin 200000) (d : Fin 128) :
    broadcastInDim S200000x128 ![0, 1] bcast_S200000x1_S200000x128_0_1 (broadcastInDim S200000x1 ![0] bcast_S200000_S200000x1_0 b) (ix2 e d)
      = b (ix1 e) := column_apply b e d

/-- Relation 0's matrix, cut out of the stack and with the unit axis dropped, at `(k, d)`: the stack at `(0, k, d)`. -/
theorem relMatrix0_apply (W : FVec Ideal S4x128x128 .f32) (k d : Fin 128) :
    shapeCast S128x128 (extractStridedSlice S1x128x128 ![0, 0, 0] W slices_S4x128x128_S1x128x128_0_0_0) shapeCasts_S1x128x128_S128x128 (ix2 k d)
      = W (ix3 (0 : Fin 4) k d) :=
  (shapeCast_1ab_ab_apply _ _ k d).trans (extractStridedSlice_apply _ W _ _ (ix3 (0 : Fin 4) k d) fun a => by
    match a with
    | ⟨0, _⟩ => rfl
    | ⟨1, _⟩ => exact (Nat.zero_add _).symm
    | ⟨2, _⟩ => exact (Nat.zero_add _).symm)

/-- Relation 1's matrix, cut out of the stack and with the unit axis dropped, at `(k, d)`: the stack at `(1, k, d)`. -/
theorem relMatrix1_apply (W : FVec Ideal S4x128x128 .f32) (k d : Fin 128) :
    shapeCast S128x128 (extractStridedSlice S1x128x128 ![1, 0, 0] W slices_S4x128x128_S1x128x128_1_0_0) shapeCasts_S1x128x128_S128x128 (ix2 k d)
      = W (ix3 (1 : Fin 4) k d) :=
  (shapeCast_1ab_ab_apply _ _ k d).trans (extractStridedSlice_apply _ W _ _ (ix3 (1 : Fin 4) k d) fun a => by
    match a with
    | ⟨0, _⟩ => rfl
    | ⟨1, _⟩ => exact (Nat.zero_add _).symm
    | ⟨2, _⟩ => exact (Nat.zero_add _).symm)

/-- Relation 2's matrix, cut out of the stack and with the unit axis dropped, at `(k, d)`: the stack at `(2, k, d)`. -/
theorem relMatrix2_apply (W : FVec Ideal S4x128x128 .f32) (k d : Fin 128) :
    shapeCast S128x128 (extractStridedSlice S1x128x128 ![2, 0, 0] W slices_S4x128x128_S1x128x128_2_0_0) shapeCasts_S1x128x128_S128x128 (ix2 k d)
      = W (ix3 (2 : Fin 4) k d) :=
  (shapeCast_1ab_ab_apply _ _ k d).trans (extractStridedSlice_apply _ W _ _ (ix3 (2 : Fin 4) k d) fun a => by
    match a with
    | ⟨0, _⟩ => rfl
    | ⟨1, _⟩ => exact (Nat.zero_add _).symm
    | ⟨2, _⟩ => exact (Nat.zero_add _).symm)

/-- Relation 3's matrix, cut out of the stack and with the unit axis dropped, at `(k, d)`: the stack at `(3, k, d)`. -/
theorem relMatrix3_apply (W : FVec Ideal S4x128x128 .f32) (k d : Fin 128) :
    shapeCast S128x128 (extractStridedSlice S1x128x128 ![3, 0, 0] W slices_S4x128x128_S1x128x128_3_0_0) shapeCasts_S1x128x128_S128x128 (ix2 k d)
      = W (ix3 (3 : Fin 4) k d) :=
  (shapeCast_1ab_ab_apply _ _ k d).trans (extractStridedSlice_apply _ W _ _ (ix3 (3 : Fin 4) k d) fun a => by
    match a with
    | ⟨0, _⟩ => rfl
    | ⟨1, _⟩ => exact (Nat.zero_add _).symm
    | ⟨2, _⟩ => exact (Nat.zero_add _).symm)

/-- The dense product at `(e, d)`: the sum over k of the left operand's row e times the right operand's column d. -/
theorem dense_apply (x : FVec Ideal S200000x128 .f32) (w : FVec Ideal S128x128 .f32) (e : Fin 200000) (d : Fin 128) :
    Host.dotGeneral dot_S200000x128_S128x128_S200000x128_1_0_0_1_n_n none x w (ix2 e d) = ∑ k : Fin 128, x (ix2 e k) * w (ix2 k d) :=
  Cert.DenseRows.dotGeneral_plain_apply (M := 200000) (K := 128) (N := 128) dot_S200000x128_S128x128_S200000x128_1_0_0_1_n_n rfl rfl rfl rfl
    (fun j k => by simp [DotDims.lhsIdx, dot_S200000x128_S128x128_S200000x128_1_0_0_1_n_n]; rfl)
    (fun j k => by simp [DotDims.rhsIdx, dot_S200000x128_S128x128_S200000x128_1_0_0_1_n_n]; rfl)
    x w e d

end Cert.ReferenceIdeal.Read

end
-- ==== Proof.Law.lean ====
/-
  THE LAYER LAW. One relation-indexed graph-convolution layer written the kernel's way equals the layer written the
  reference's way, as functions of the feature table, the edge list, the edge types, the edge attributes, the four
  relation matrices and the bias — at the ideal values, index by index.

  Both ways end in the same bias and the same rectifier, so the two sums by target node are compared. The kernel
  sums 200704 message rows, the reference 200000. Below row 200000 the kernel's weight row is the padding zero, so the
  message row is a sum of products with zero and adds nothing to any node (and the padded target number is node 0,
  inside the table, so nothing faults). On a true edge row the padded source and target numbers are the edge's own,
  the kernel's gathered feature row is the reference's, and the weight row is the edge's scale in the column of the
  edge's relation and zero elsewhere; the kernel's message, each relation's product times that relation's weight
  added in order to zero, is then the reference's, the edge's own relation's product kept among zeros and scaled once
  (Spec.lean `relMsg_onehot`). Nothing is distributed over a sum and nothing is cancelled, so no entry has to be
  finite: a zero weight annihilates even an infinite product on the extended reals.

  Three layers chained (the narrow-format copy handed to the next layer is the same extended reals) and the mean of
  the starting table and the three outputs give the whole result.
-/
import proofs.«120788_j77403900608956_2_alg».proof.Proof.RefStage
import proofs.«120788_j77403900608956_2_alg».proof.Proof.KerStage
import proofs.«120788_j77403900608956_2_alg».proof.Proof.LibGatherRows
import proofs.«120788_j77403900608956_2_alg».proof.Proof.KerRead
import proofs.«120788_j77403900608956_2_alg».proof.Proof.RefRead
import Idealize.ShloMosaic.Lib.ValueIdx
import Idealize.ShloMosaic.Lib.IdealHost
import Idealize.ShloMosaic.Lib.Affine
import Idealize.ShloMosaic.PureOps.Ideal.Laws

noncomputable section
open Idealize.ShloMosaic Idealize.ShloMosaic.ValueIdx
open scoped BigOperators

namespace Cert.Law

open Cert.Spec Cert.GatherRows

/-- The accumulated message reads only row e of the features and of the weights. -/
theorem relMsg_congr {n n' : Nat} (x : Fin n → Fin 128 → EReal) (x' : Fin n' → Fin 128 → EReal) (ws : Fin n → Fin 4 → EReal)
    (ws' : Fin n' → Fin 4 → EReal) (w : Fin 4 → Fin 128 → Fin 128 → EReal) (e : Fin n) (e' : Fin n')
    (hx : ∀ k, x e k = x' e' k) (hws : ∀ r, ws e r = ws' e' r) (d : Fin 128) :
    relMsg x ws w e d = relMsg x' ws' w e' d := by
  unfold relMsg part
  simp only [hx, hws]

/-- The word of relation r for r = 0, 1, 2, 3 determines r. -/
theorem rel_word_inj : ∀ r r' : Fin 4, BitVec.ofNat 32 r.val = BitVec.ofNat 32 r'.val → r = r' := by decide

section Reference
open Cert.ReferenceIdeal Cert.ReferenceIdeal.Facts₀ Cert.ReferenceIdeal.Stage Cert.ReferenceIdeal.Read

/-- A kept-or-zeroed product at (e, d): the product where the edge's relation word is r, zero otherwise. -/
theorem sel_apply (et : IVec S200000 32) (r : BitVec 32) (p : NMat) (e : Fin 200000) (d : Fin 128) :
    sel (isRel et r) p (ix2 e d) = if et (ix1 e) = r then p (ix2 e d) else 0 := by
  unfold sel isRel
  rw [select_apply, column_apply, broadcastInDim_scalar_apply]
  show Scalar.select (IntOp.cmpi .eq (et (ix1 e)) r) _ _ = _
  by_cases h : et (ix1 e) = r
  · rw [if_pos h, IntOp.cmpi_eq.mpr h, select_one]
  · rw [if_neg h, eq_zero_of_ne_one (fun hh => h (IntOp.cmpi_eq.mp hh)), select_zero]
    exact Ideal.ofBits_zero_f32

/-- The reference's scaled message at (e, d), as the kept-and-scaled combination of the four relations' products of
    the edge's source row. -/
theorem scaled_msg_apply (x : NMat) (ei : IVec S2x200000 32) (et : IVec S200000 32) (W : FVec Ideal S4x128x128 .f32)
    (sc : EVec) (e : Fin 200000) (d : Fin 128) :
    mulf (msg x ei et W) (broadcastInDim S200000x128 ![0, 1] bcast_S200000x1_S200000x128_0_1
        (broadcastInDim S200000x1 ![0] bcast_S200000_S200000x1_0 sc)) (ix2 e d)
      = selMsg (fun i k => x (ix2 (clampRow 200000 (by decide) (wrap (row ei) (ix1 i))) k))
          (fun i r => et (ix1 i) = BitVec.ofNat 32 r.val) (fun i => sc (ix1 i)) (fun r k d => W (ix3 r k d)) e d := by
  rw [mulf_apply, column_apply]
  unfold selMsg msg
  simp only [addf_apply, sel_apply]
  congr 1
  have hz : zeros2 (ix2 e d) = 0 := by
    unfold zeros2 zeroF; rw [broadcastInDim_scalar_apply]; exact Ideal.ofBits_zero_f32
  rw [hz]
  have hp0 : prod (xr x ei) (relW0 W) (ix2 e d) = part (fun i k => x (ix2 (clampRow 200000 (by decide) (wrap (row ei) (ix1 i))) k)) (fun r k d => W (ix3 r k d)) 0 e d := by
    unfold prod xr relW0 part colIdx; rw [dense_apply]; refine Finset.sum_congr rfl fun k _ => ?_; rw [Cert.ReferenceIdeal.Read.gather_rows_at, relMatrix0_apply]
  have hp1 : prod (xr x ei) (relW1 W) (ix2 e d) = part (fun i k => x (ix2 (clampRow 200000 (by decide) (wrap (row ei) (ix1 i))) k)) (fun r k d => W (ix3 r k d)) 1 e d := by
    unfold prod xr relW1 part colIdx; rw [dense_apply]; refine Finset.sum_congr rfl fun k _ => ?_; rw [Cert.ReferenceIdeal.Read.gather_rows_at, relMatrix1_apply]
  have hp2 : prod (xr x ei) (relW2 W) (ix2 e d) = part (fun i k => x (ix2 (clampRow 200000 (by decide) (wrap (row ei) (ix1 i))) k)) (fun r k d => W (ix3 r k d)) 2 e d := by
    unfold prod xr relW2 part colIdx; rw [dense_apply]; refine Finset.sum_congr rfl fun k _ => ?_; rw [Cert.ReferenceIdeal.Read.gather_rows_at, relMatrix2_apply]
  have hp3 : prod (xr x ei) (relW3 W) (ix2 e d) = part (fun i k => x (ix2 (clampRow 200000 (by decide) (wrap (row ei) (ix1 i))) k)) (fun r k d => W (ix3 r k d)) 3 e d := by
    unfold prod xr relW3 part colIdx; rw [dense_apply]; refine Finset.sum_congr rfl fun k _ => ?_; rw [Cert.ReferenceIdeal.Read.gather_rows_at, relMatrix3_apply]
  rw [hp0, hp1, hp2, hp3]
  rfl

end Reference

section Kernel
open Cert.KernelIdeal Cert.KernelIdeal.Facts₀ Cert.KernelIdeal.Stage Cert.KernelIdeal.Read

/-- The adjustment of one node number's word. -/
def wrapW (w : BitVec 32) : BitVec 32 := Scalar.select (IntOp.cmpi .slt w 0#32) (IntOp.addi w 200000#32) w

theorem wrapP_apply (v : IVec S200704 32) (j : S200704.Idx) : wrapP v j = wrapW (v j) := rfl
theorem wrap_apply (v : IVec S200000 32) (j : S200000.Idx) : wrap v j = wrapW (v j) := rfl

/-- A padded vector of node numbers agrees with the vector on the first 200000 rows … -/
theorem padI_lt (v : IVec S200000 32) (i : Fin 200000) : padI v (ix1 (Fin.castLE (by decide) i)) = v (ix1 i) := by
  unfold padI
  rw [pad_vec_apply, dif_pos (show (Fin.castLE (by decide : 200000 ≤ 200704) i).val < 200000 from i.isLt)]
  rfl
/-- … and is zero below them. -/
theorem padI_ge (v : IVec S200000 32) (i : Fin 200704) (h : 200000 ≤ i.val) : padI v (ix1 i) = 0#32 := by
  unfold padI
  rw [pad_vec_apply, dif_neg (by omega)]
  rfl
/-- The padded weight table agrees with the one-hot table on the first 200000 rows … -/
theorem wsP_lt (et : IVec S200000 32) (sc : EVec) (i : Fin 200000) (r : Fin 4) :
    wsP et sc (ix2 (Fin.castLE (by decide) i) r) = if et (ix1 i) = BitVec.ofNat 32 r.val then sc (ix1 i) else 0 := by
  unfold wsP
  rw [pad_tab_apply, dif_pos (show (Fin.castLE (by decide : 200000 ≤ 200704) i).val < 200000 from i.isLt)]
  unfold wscale
  rw [show (⟨(Fin.castLE (by decide : 200000 ≤ 200704) i).val, i.isLt⟩ : Fin 200000) = i from rfl, oneHot_apply]
  show (if _ then _ else zeroF ix0) = _
  unfold zeroF; rw [padValue_constant]
/-- … and is zero below them. -/
theorem wsP_ge (et : IVec S200000 32) (sc : EVec) (i : Fin 200704) (h : 200000 ≤ i.val) (r : Fin 4) : wsP et sc (ix2 i r) = 0 := by
  unfold wsP
  rw [pad_tab_apply, dif_neg (by omega), padValue_sitofp]

end Kernel

section Layer
open Cert.KernelIdeal.Read

theorem leaky_eq (y : Cert.KernelIdeal.Stage.NMat) : Cert.KernelIdeal.Stage.leaky y = Cert.ReferenceIdeal.Stage.leaky y := rfl
theorem bias_eq (b : FVec Ideal Cert.KernelIdeal.S128 .f32) : Cert.KernelIdeal.Stage.bias b = Cert.ReferenceIdeal.Stage.bias b := rfl
theorem out_eq (z1 z2 z3 : Cert.KernelIdeal.Stage.NMat) : Cert.KernelIdeal.Stage.out z1 z2 z3 = Cert.ReferenceIdeal.Stage.out z1 z2 z3 := rfl
theorem scale_eq (ei : IVec Cert.KernelIdeal.S2x200000 32) (ea : Cert.KernelIdeal.Stage.EVec) :
    Cert.KernelIdeal.Stage.scale ei ea = Cert.ReferenceIdeal.Stage.scale ei ea := rfl
theorem col_eq (ei : IVec Cert.KernelIdeal.S2x200000 32) : Cert.KernelIdeal.Stage.col ei = Cert.ReferenceIdeal.Stage.col ei := rfl
theorem row_eq (ei : IVec Cert.KernelIdeal.S2x200000 32) : Cert.KernelIdeal.Stage.row ei = Cert.ReferenceIdeal.Stage.row ei := rfl

/-- ONE LAYER: the kernel's layer on a feature table equals the reference's layer on the same table. -/
theorem layer_eq (xb : Cert.KernelIdeal.Stage.NMatB) (x : Cert.ReferenceIdeal.Stage.NMat) (hx : ∀ j, xb j = x j)
    (ei : IVec Cert.KernelIdeal.S2x200000 32) (et : IVec Cert.KernelIdeal.S200000 32) (ea : Cert.KernelIdeal.Stage.EVec)
    (W : FVec Ideal Cert.KernelIdeal.S4x128x128 .f32) (b : FVec Ideal Cert.KernelIdeal.S128 .f32) :
    Cert.KernelIdeal.Stage.layer xb ei et ea W b = Cert.ReferenceIdeal.Stage.layer x ei et ea W b := by
  unfold Cert.KernelIdeal.Stage.layer Cert.ReferenceIdeal.Stage.layer
  rw [leaky_eq]
  refine congrArg Cert.ReferenceIdeal.Stage.leaky ?_
  funext j
  obtain ⟨s, c, rfl⟩ : ∃ (s : Fin 200000) (c : Fin 128), j = ix2 s c := ⟨j 0, j 1, eq_ix2 j⟩
  unfold Cert.KernelIdeal.Stage.pre Cert.ReferenceIdeal.Stage.pre Cert.KernelIdeal.Stage.colIdxP Cert.ReferenceIdeal.Stage.colIdx
  rw [addf_apply, addf_apply, bias_eq, Cert.KernelIdeal.Read.scatterAdd_rows_at, Cert.ReferenceIdeal.Read.scatterAdd_rows_at]
  refine congrArg₂ (· + ·) (congrArg₂ (· + ·) rfl ?_) rfl
  rw [sum_filter_padded _ _ (fun i hi => by
    rw [extf_apply]
    show relMsg _ _ _ (idxEquiv2 (ix2 i c)).1 (idxEquiv2 (ix2 i c)).2 = 0
    exact relMsg_zero _ _ _ _ (fun r => wsP_ge et _ i hi r) _)]
  refine Finset.sum_congr (Finset.filter_congr fun i _ => by rw [padI_lt, col_eq]) fun i _ => ?_
  rw [extf_apply, scaled_msg_apply, ← relMsg_onehot _ _ (fun e r r' h h' => rel_word_inj r r' (h.symm.trans h'))]
  show relMsg _ _ _ (idxEquiv2 (ix2 (Fin.castLE (by decide) i) c)).1 (idxEquiv2 (ix2 (Fin.castLE (by decide) i) c)).2 = _
  refine relMsg_congr _ _ _ _ _ _ _ (fun k => ?_) (fun r => ?_) c
  · show Cert.KernelIdeal.Stage.xrP xb ei (ix2 (Fin.castLE (by decide) i) k) = _
    unfold Cert.KernelIdeal.Stage.xrP Cert.KernelIdeal.Stage.colIdxP
    rw [Cert.KernelIdeal.Read.gather_rows_at, wrapP_apply, padI_lt, hx, row_eq]
    rfl
  · show Cert.KernelIdeal.Stage.wsP et _ (ix2 (Fin.castLE (by decide) i) r) = _
    rw [wsP_lt, scale_eq]

end Layer

section Result

/-- One at the narrow format and one at the wide format are the same extended real. -/
theorem one_bf16_eq_f32 : Ideal.ofBits .bf16 0x3F80#16 = Ideal.ofBits .f32 0x3F800000#32 := by
  rw [Ideal.ofBits_one_bf16, Ideal.ofBits_one_f32]

theorem xb0_eq (j : Cert.KernelIdeal.S200000x128.Idx) : Cert.KernelIdeal.Stage.xb0 j = Cert.ReferenceIdeal.Stage.x0 j := by
  unfold Cert.KernelIdeal.Stage.xb0 Cert.ReferenceIdeal.Stage.x0 Cert.ReferenceIdeal.Stage.oneF
  rw [broadcastInDim_scalar_apply, broadcastInDim_scalar_apply]
  exact one_bf16_eq_f32

theorem next_apply (z : Cert.KernelIdeal.Stage.NMat) (j : Cert.KernelIdeal.S200000x128.Idx) : Cert.KernelIdeal.Stage.next z j = z j := rfl

/-- THE THREE LAYERS AND THE MEAN: the kernel's result, as a function of the nine arguments, is the reference's. -/
theorem result_eq (a0 : IVec Cert.KernelIdeal.S2x200000 32) (a1 : IVec Cert.KernelIdeal.S200000 32) (a2 : Cert.KernelIdeal.Stage.EVec)
    (a3 : FVec Ideal Cert.KernelIdeal.S4x128x128 .f32) (a4 : FVec Ideal Cert.KernelIdeal.S128 .f32)
    (a5 : FVec Ideal Cert.KernelIdeal.S4x128x128 .f32) (a6 : FVec Ideal Cert.KernelIdeal.S128 .f32)
    (a7 : FVec Ideal Cert.KernelIdeal.S4x128x128 .f32) (a8 : FVec Ideal Cert.KernelIdeal.S128 .f32) :
    Cert.KernelIdeal.Stage.out (Cert.KernelIdeal.Stage.layer Cert.KernelIdeal.Stage.xb0 a0 a1 a2 a3 a4)
        (Cert.KernelIdeal.Stage.layer (Cert.KernelIdeal.Stage.next (Cert.KernelIdeal.Stage.layer Cert.KernelIdeal.Stage.xb0 a0 a1 a2 a3 a4)) a0 a1 a2 a5 a6)
        (Cert.KernelIdeal.Stage.layer (Cert.KernelIdeal.Stage.next (Cert.KernelIdeal.Stage.layer (Cert.KernelIdeal.Stage.next (Cert.KernelIdeal.Stage.layer Cert.KernelIdeal.Stage.xb0 a0 a1 a2 a3 a4)) a0 a1 a2 a5 a6)) a0 a1 a2 a7 a8)
      = Cert.ReferenceIdeal.Stage.out (Cert.ReferenceIdeal.Stage.layer Cert.ReferenceIdeal.Stage.x0 a0 a1 a2 a3 a4)
        (Cert.ReferenceIdeal.Stage.layer (Cert.ReferenceIdeal.Stage.layer Cert.ReferenceIdeal.Stage.x0 a0 a1 a2 a3 a4) a0 a1 a2 a5 a6)
        (Cert.ReferenceIdeal.Stage.layer (Cert.ReferenceIdeal.Stage.layer (Cert.ReferenceIdeal.Stage.layer Cert.ReferenceIdeal.Stage.x0 a0 a1 a2 a3 a4) a0 a1 a2 a5 a6) a0 a1 a2 a7 a8) := by
  have h1 := layer_eq Cert.KernelIdeal.Stage.xb0 Cert.ReferenceIdeal.Stage.x0 xb0_eq a0 a1 a2 a3 a4
  have h2 := layer_eq (Cert.KernelIdeal.Stage.next (Cert.KernelIdeal.Stage.layer Cert.KernelIdeal.Stage.xb0 a0 a1 a2 a3 a4))
    (Cert.ReferenceIdeal.Stage.layer Cert.ReferenceIdeal.Stage.x0 a0 a1 a2 a3 a4) (fun j => by rw [next_apply, h1]) a0 a1 a2 a5 a6
  have h3 := layer_eq (Cert.KernelIdeal.Stage.next (Cert.KernelIdeal.Stage.layer (Cert.KernelIdeal.Stage.next (Cert.KernelIdeal.Stage.layer Cert.KernelIdeal.Stage.xb0 a0 a1 a2 a3 a4)) a0 a1 a2 a5 a6))
    (Cert.ReferenceIdeal.Stage.layer (Cert.ReferenceIdeal.Stage.layer Cert.ReferenceIdeal.Stage.x0 a0 a1 a2 a3 a4) a0 a1 a2 a5 a6) (fun j => by rw [next_apply, h2]) a0 a1 a2 a7 a8
  rw [out_eq, h3, h2, h1]

end Result

end Cert.Law
-- ==== Proof.KerSsa.lean ====
import proofs.«120788_j77403900608956_2_alg».proof.Proof.Gen.KernelIdeal.Launch
import proofs.«120788_j77403900608956_2_alg».proof.Proof.LibSsa

noncomputable section

namespace Cert.KernelIdeal.Hand

open Idealize.ShloMosaic Idealize.ShloMosaic.TcCoe
open Cert.KernelIdeal.Gen

/-! ## Lines that rise and stay below a bound

  Beside rising from `lo` (every operation writes above everything touched before it), a line is BOUNDED by `hi` when
  every buffer it touches is ranked at most `hi`. Two contents that agree on the buffers ranked at most `hi` then
  satisfy the same equations of the line: an operation's result at a buffer it touches is decided by the contents of
  the buffers it touches. -/

section General

variable {τ : Topo} {sig : RefSig} {Val : EltTy → Type} {key : DevRef τ sig → Nat}

/-- Every buffer the line touches is ranked at most `hi`. -/
def Bnd (key : DevRef τ sig → Nat) (hi : Nat) : List (HloOp τ sig Val) → Prop
  | [] => True
  | op :: rest => (∀ x ∈ op.bufs, key x ≤ hi) ∧ Bnd key hi rest

/-- Contents agreeing on every buffer ranked at most `hi` satisfy the same equations of a line bounded by `hi`. -/
theorem eqs_of_agree {R R' : Valuation τ sig Val} {hi : Nat} :
    ∀ {ops : List (HloOp τ sig Val)}, Bnd key hi ops → (∀ x, key x ≤ hi → R' x = R x) → Cert.Ssa.Eqs R ops → Cert.Ssa.Eqs R' ops
  | [], _, _, _ => trivial
  | op :: rest, ⟨hb, hr⟩, h, ⟨he, hE⟩ =>
    ⟨fun b hbw => (h b (hb b (op.writes_sub hbw))).trans ((he b hbw).trans
        (op.result_congr (fun x hx => (h x (hb x hx)).symm) b (op.writes_sub hbw))),
      eqs_of_agree hr h hE⟩

/-- The line rises from `lo` and is bounded by `hi`. -/
def Line (key : DevRef τ sig → Nat) (lo hi : Nat) (ops : List (HloOp τ sig Val)) : Prop :=
  Cert.Ssa.Ssa key lo ops ∧ Bnd key hi ops

variable {lo hi : Nat} {rest : List (HloOp τ sig Val)}
variable (x a b c y : Ref sig .tc)

theorem line_nil : Line key lo hi ([] : List (HloOp τ sig Val)) := ⟨trivial, trivial⟩

theorem line_nullary (v : y.ty.Contents Val) (hy) (h : lo < key (Proc.devRef (τ := τ) .tc y)) (hh : key (Proc.devRef (τ := τ) .tc y) ≤ hi)
    (hr : Line key (key (Proc.devRef (τ := τ) .tc y)) hi rest) : Line key lo hi (StableHlo.nullary (τ := τ) y v hy :: rest) :=
  ⟨Cert.Ssa.ssa_nullary y v hy h hr.1,
    fun z hz => by rw [StableHlo.nullary_bufs, Finset.mem_singleton] at hz; subst hz; exact hh, hr.2⟩

theorem line_unary (f : x.ty.Contents Val → y.ty.Contents Val) (hx hy) (h : lo < key (Proc.devRef (τ := τ) .tc y))
    (h1 : key (Proc.devRef (τ := τ) .tc x) < key (Proc.devRef (τ := τ) .tc y)) (hh : key (Proc.devRef (τ := τ) .tc y) ≤ hi)
    (hr : Line key (key (Proc.devRef (τ := τ) .tc y)) hi rest) : Line key lo hi (StableHlo.unary (τ := τ) x y f hx hy :: rest) :=
  ⟨Cert.Ssa.ssa_unary x y f hx hy h h1 hr.1,
    fun z hz => by
      rw [StableHlo.unary_bufs, Finset.mem_insert, Finset.mem_singleton] at hz
      rcases hz with rfl | rfl
      · exact h1.le.trans hh
      · exact hh, hr.2⟩

theorem line_reshape (he hn hx hy) (h : lo < key (Proc.devRef (τ := τ) .tc y))
    (h1 : key (Proc.devRef (τ := τ) .tc x) < key (Proc.devRef (τ := τ) .tc y)) (hh : key (Proc.devRef (τ := τ) .tc y) ≤ hi)
    (hr : Line key (key (Proc.devRef (τ := τ) .tc y)) hi rest) :
    Line key lo hi (StableHlo.reshape (τ := τ) (Val := Val) x y he hn hx hy :: rest) :=
  ⟨Cert.Ssa.ssa_reshape x y he hn hx hy h h1 hr.1,
    fun z hz => by
      rw [StableHlo.reshape_bufs, Finset.mem_insert, Finset.mem_singleton] at hz
      rcases hz with rfl | rfl
      · exact h1.le.trans hh
      · exact hh, hr.2⟩

theorem line_binary (f : a.ty.Contents Val → b.ty.Contents Val → y.ty.Contents Val) (ha hb hy)
    (h : lo < key (Proc.devRef (τ := τ) .tc y)) (h1 : key (Proc.devRef (τ := τ) .tc a) < key (Proc.devRef (τ := τ) .tc y))
    (h2 : key (Proc.devRef (τ := τ) .tc b) < key (Proc.devRef (τ := τ) .tc y)) (hh : key (Proc.devRef (τ := τ) .tc y) ≤ hi)
    (hr : Line key (key (Proc.devRef (τ := τ) .tc y)) hi rest) : Line key lo hi (StableHlo.binary (τ := τ) a b y f ha hb hy :: rest) :=
  ⟨Cert.Ssa.ssa_binary a b y f ha hb hy h h1 h2 hr.1,
    fun z hz => by
      rw [StableHlo.binary_bufs, Finset.mem_insert, Finset.mem_insert, Finset.mem_singleton] at hz
      rcases hz with rfl | rfl | rfl
      · exact h1.le.trans hh
      · exact h2.le.trans hh
      · exact hh, hr.2⟩

theorem line_ternary (f : c.ty.Contents Val → a.ty.Contents Val → b.ty.Contents Val → y.ty.Contents Val) (hc ha hb hy)
    (h : lo < key (Proc.devRef (τ := τ) .tc y)) (h0 : key (Proc.devRef (τ := τ) .tc c) < key (Proc.devRef (τ := τ) .tc y))
    (h1 : key (Proc.devRef (τ := τ) .tc a) < key (Proc.devRef (τ := τ) .tc y))
    (h2 : key (Proc.devRef (τ := τ) .tc b) < key (Proc.devRef (τ := τ) .tc y)) (hh : key (Proc.devRef (τ := τ) .tc y) ≤ hi)
    (hr : Line key (key (Proc.devRef (τ := τ) .tc y)) hi rest) :
    Line key lo hi (StableHlo.ternary (τ := τ) c a b y f hc ha hb hy :: rest) :=
  ⟨Cert.Ssa.ssa_ternary a b c y f hc ha hb hy h h0 h1 h2 hr.1,
    fun z hz => by
      rw [StableHlo.ternary_bufs, Finset.mem_insert, Finset.mem_insert, Finset.mem_insert, Finset.mem_singleton] at hz
      rcases hz with rfl | rfl | rfl | rfl
      · exact h0.le.trans hh
      · exact h1.le.trans hh
      · exact h2.le.trans hh
      · exact hh, hr.2⟩

end General

/-! ## The program's buffers in program order -/

/-- A buffer's number in its table: @main names its buffers in the order its lines define them, so along the
    program every line writes a higher number than every line before it, and reads lower numbers than it writes. -/
def key (b : DevRef τ sig) : Nat := b.idx.val

variable {F : FTy → Type} [FloatOps F]

/-! ## Each stretch of @main rises from the last number written before it and stays below its own last number -/

theorem line_hostOps0 : Line (Val := Elt F) key 8 25 hostOps0 := by
  refine line_unary _ _ _ _ _ (by decide) (by decide) (by decide) ?_
  refine line_reshape _ _ _ _ _ _ (by decide) (by decide) (by decide) ?_
  refine line_unary _ _ _ _ _ (by decide) (by decide) (by decide) ?_
  refine line_reshape _ _ _ _ _ _ (by decide) (by decide) (by decide) ?_
  refine line_nullary _ _ _ (by decide) (by decide) ?_
  refine line_unary _ _ _ _ _ (by decide) (by decide) (by decide) ?_
  refine line_nullary _ _ _ (by decide) (by decide) ?_
  refine line_unary _ _ _ _ _ (by decide) (by decide) (by decide) ?_
  refine line_unary _ _ _ _ _ (by decide) (by decide) (by decide) ?_
  refine line_ternary _ _ _ _ _ _ _ _ _ (by decide) (by decide) (by decide) (by decide) (by decide) ?_
  refine line_nullary _ _ _ (by decide) (by decide) ?_
  refine line_unary _ _ _ _ _ (by decide) (by decide) (by decide) ?_
  refine line_binary _ _ _ _ _ _ _ (by decide) (by decide) (by decide) (by decide) ?_
  refine line_nullary _ _ _ (by decide) (by decide) ?_
  refine line_unary _ _ _ _ _ (by decide) (by decide) (by decide) ?_
  refine line_binary _ _ _ _ _ _ _ (by decide) (by decide) (by decide) (by decide) ?_
  refine line_nullary _ _ _ (by decide) (by decide) ?_
  exact line_nil

theorem line_hostOps0_1 : Line (Val := Elt F) key 25 28 hostOps0_1 := by
  refine line_unary _ _ _ _ _ (by decide) (by decide) (by decide) ?_
  refine line_unary _ _ _ _ _ (by decide) (by decide) (by decide) ?_
  refine line_ternary _ _ _ _ _ _ _ _ _ (by decide) (by decide) (by decide) (by decide) (by decide) ?_
  exact line_nil

theorem line_hostOps0_2 : Line (Val := Elt F) key 28 30 hostOps0_2 := by
  refine line_unary _ _ _ _ _ (by decide) (by decide) (by decide) ?_
  refine line_nullary _ _ _ (by decide) (by decide) ?_
  exact line_nil

theorem line_hostOps0_3 : Line (Val := Elt F) key 30 33 hostOps0_3 := by
  refine line_unary _ _ _ _ _ (by decide) (by decide) (by decide) ?_
  refine line_unary _ _ _ _ _ (by decide) (by decide) (by decide) ?_
  refine line_ternary _ _ _ _ _ _ _ _ _ (by decide) (by decide) (by decide) (by decide) (by decide) ?_
  exact line_nil

theorem line_hostOps0_4 : Line (Val := Elt F) key 33 61 hostOps0_4 := by
  refine line_nullary _ _ _ (by decide) (by decide) ?_
  refine line_unary _ _ _ _ _ (by decide) (by decide) (by decide) ?_
  refine line_binary _ _ _ _ _ _ _ (by decide) (by decide) (by decide) (by decide) ?_
  refine line_nullary _ _ _ (by decide) (by decide) ?_
  refine line_unary _ _ _ _ _ (by decide) (by decide) (by decide) ?_
  refine line_binary _ _ _ _ _ _ _ (by decide) (by decide) (by decide) (by decide) ?_
  refine line_ternary _ _ _ _ _ _ _ _ _ (by decide) (by decide) (by decide) (by decide) (by decide) ?_
  refine line_unary _ _ _ _ _ (by decide) (by decide) (by decide) ?_
  refine line_binary _ _ _ _ _ _ _ (by decide) (by decide) (by decide) (by decide) ?_
  refine line_nullary _ _ _ (by decide) (by decide) ?_
  refine line_unary _ _ _ _ _ (by decide) (by decide) (by decide) ?_
  refine line_binary _ _ _ _ _ _ _ (by decide) (by decide) (by decide) (by decide) ?_
  refine line_nullary _ _ _ (by decide) (by decide) ?_
  refine line_unary _ _ _ _ _ (by decide) (by decide) (by decide) ?_
  refine line_binary _ _ _ _ _ _ _ (by decide) (by decide) (by decide) (by decide) ?_
  refine line_ternary _ _ _ _ _ _ _ _ _ (by decide) (by decide) (by decide) (by decide) (by decide) ?_
  refine line_unary _ _ _ _ _ (by decide) (by decide) (by decide) ?_
  refine line_binary _ _ _ _ _ _ _ (by decide) (by decide) (by decide) (by decide) ?_
  refine line_binary _ _ _ _ _ _ _ (by decide) (by decide) (by decide) (by decide) ?_
  refine line_binary _ _ _ _ _ _ _ (by decide) (by decide) (by decide) (by decide) ?_
  refine line_nullary _ _ _ (by decide) (by decide) ?_
  refine line_unary _ _ _ _ _ (by decide) (by decide) (by decide) ?_
  refine line_unary _ _ _ _ _ (by decide) (by decide) (by decide) ?_
  refine line_unary _ _ _ _ _ (by decide) (by decide) (by decide) ?_
  refine line_unary _ _ _ _ _ (by decide) (by decide) (by decide) ?_
  refine line_binary _ _ _ _ _ _ _ (by decide) (by decide) (by decide) (by decide) ?_
  refine line_unary _ _ _ _ _ (by decide) (by decide) (by decide) ?_
  refine line_nullary _ _ _ (by decide) (by decide) ?_
  exact line_nil

theorem line_hostOps0_5 : Line (Val := Elt F) key 61 65 hostOps0_5 := by
  refine line_unary _ _ _ _ _ (by decide) (by decide) (by decide) ?_
  refine line_unary _ _ _ _ _ (by decide) (by decide) (by decide) ?_
  refine line_unary _ _ _ _ _ (by decide) (by decide) (by decide) ?_
  refine line_ternary _ _ _ _ _ _ _ _ _ (by decide) (by decide) (by decide) (by decide) (by decide) ?_
  exact line_nil

theorem line_hostOps0_6 : Line (Val := Elt F) key 65 66 hostOps0_6 := by
  refine line_nullary _ _ _ (by decide) (by decide) ?_
  exact line_nil

theorem line_hostOps0_7 : Line (Val := Elt F) key 66 68 hostOps0_7 := by
  refine line_unary _ _ _ _ _ (by decide) (by decide) (by decide) ?_
  refine line_binary _ _ _ _ _ _ _ (by decide) (by decide) (by decide) (by decide) ?_
  exact line_nil

theorem line_hostOps0_8 : Line (Val := Elt F) key 68 69 hostOps0_8 := by
  refine line_nullary _ _ _ (by decide) (by decide) ?_
  exact line_nil

theorem line_hostOps0_9 : Line (Val := Elt F) key 69 71 hostOps0_9 := by
  refine line_unary _ _ _ _ _ (by decide) (by decide) (by decide) ?_
  refine line_binary _ _ _ _ _ _ _ (by decide) (by decide) (by decide) (by decide) ?_
  exact line_nil

theorem line_hostOps0_10 : Line (Val := Elt F) key 71 72 hostOps0_10 := by
  refine line_nullary _ _ _ (by decide) (by decide) ?_
  exact line_nil

theorem line_hostOps0_11 : Line (Val := Elt F) key 72 74 hostOps0_11 := by
  refine line_unary _ _ _ _ _ (by decide) (by decide) (by decide) ?_
  refine line_binary _ _ _ _ _ _ _ (by decide) (by decide) (by decide) (by decide) ?_
  exact line_nil

theorem line_hostOps0_12 : Line (Val := Elt F) key 74 90 hostOps0_12 := by
  refine line_unary _ _ _ _ _ (by decide) (by decide) (by decide) ?_
  refine line_unary _ _ _ _ _ (by decide) (by decide) (by decide) ?_
  refine line_unary _ _ _ _ _ (by decide) (by decide) (by decide) ?_
  refine line_nullary _ _ _ (by decide) (by decide) ?_
  refine line_unary _ _ _ _ _ (by decide) (by decide) (by decide) ?_
  refine line_nullary _ _ _ (by decide) (by decide) ?_
  refine line_unary _ _ _ _ _ (by decide) (by decide) (by decide) ?_
  refine line_nullary _ _ _ (by decide) (by decide) ?_
  refine line_unary _ _ _ _ _ (by decide) (by decide) (by decide) ?_
  refine line_binary _ _ _ _ _ _ _ (by decide) (by decide) (by decide) (by decide) ?_
  refine line_nullary _ _ _ (by decide) (by decide) ?_
  refine line_unary _ _ _ _ _ (by decide) (by decide) (by decide) ?_
  refine line_binary _ _ _ _ _ _ _ (by decide) (by decide) (by decide) (by decide) ?_
  refine line_ternary _ _ _ _ _ _ _ _ _ (by decide) (by decide) (by decide) (by decide) (by decide) ?_
  refine line_unary _ _ _ _ _ (by decide) (by decide) (by decide) ?_
  refine line_binary _ _ _ _ _ _ _ (by decide) (by decide) (by decide) (by decide) ?_
  exact line_nil

theorem line_hostOps1 : Line (Val := Elt F) key 91 100 hostOps1 := by
  refine line_unary _ _ _ _ _ (by decide) (by decide) (by decide) ?_
  refine line_nullary _ _ _ (by decide) (by decide) ?_
  refine line_unary _ _ _ _ _ (by decide) (by decide) (by decide) ?_
  refine line_unary _ _ _ _ _ (by decide) (by decide) (by decide) ?_
  refine line_ternary _ _ _ _ _ _ _ _ _ (by decide) (by decide) (by decide) (by decide) (by decide) ?_
  refine line_unary _ _ _ _ _ (by decide) (by decide) (by decide) ?_
  refine line_unary _ _ _ _ _ (by decide) (by decide) (by decide) ?_
  refine line_binary _ _ _ _ _ _ _ (by decide) (by decide) (by decide) (by decide) ?_
  refine line_nullary _ _ _ (by decide) (by decide) ?_
  exact line_nil

theorem line_hostOps1_1 : Line (Val := Elt F) key 100 107 hostOps1_1 := by
  refine line_nullary _ _ _ (by decide) (by decide) ?_
  refine line_unary _ _ _ _ _ (by decide) (by decide) (by decide) ?_
  refine line_binary _ _ _ _ _ _ _ (by decide) (by decide) (by decide) (by decide) ?_
  refine line_unary _ _ _ _ _ (by decide) (by decide) (by decide) ?_
  refine line_unary _ _ _ _ _ (by decide) (by decide) (by decide) ?_
  refine line_binary _ _ _ _ _ _ _ (by decide) (by decide) (by decide) (by decide) ?_
  refine line_ternary _ _ _ _ _ _ _ _ _ (by decide) (by decide) (by decide) (by decide) (by decide) ?_
  exact line_nil

theorem line_hostOps1_2 : Line (Val := Elt F) key 107 117 hostOps1_2 := by
  refine line_unary _ _ _ _ _ (by decide) (by decide) (by decide) ?_
  refine line_nullary _ _ _ (by decide) (by decide) ?_
  refine line_unary _ _ _ _ _ (by decide) (by decide) (by decide) ?_
  refine line_binary _ _ _ _ _ _ _ (by decide) (by decide) (by decide) (by decide) ?_
  refine line_nullary _ _ _ (by decide) (by decide) ?_
  refine line_unary _ _ _ _ _ (by decide) (by decide) (by decide) ?_
  refine line_binary _ _ _ _ _ _ _ (by decide) (by decide) (by decide) (by decide) ?_
  refine line_ternary _ _ _ _ _ _ _ _ _ (by decide) (by decide) (by decide) (by decide) (by decide) ?_
  refine line_unary _ _ _ _ _ (by decide) (by decide) (by decide) ?_
  refine line_binary _ _ _ _ _ _ _ (by decide) (by decide) (by decide) (by decide) ?_
  exact line_nil

theorem line_hostOps2 : Line (Val := Elt F) key 118 127 hostOps2 := by
  refine line_unary _ _ _ _ _ (by decide) (by decide) (by decide) ?_
  refine line_nullary _ _ _ (by decide) (by decide) ?_
  refine line_unary _ _ _ _ _ (by decide) (by decide) (by decide) ?_
  refine line_unary _ _ _ _ _ (by decide) (by decide) (by decide) ?_
  refine line_ternary _ _ _ _ _ _ _ _ _ (by decide) (by decide) (by decide) (by decide) (by decide) ?_
  refine line_unary _ _ _ _ _ (by decide) (by decide) (by decide) ?_
  refine line_unary _ _ _ _ _ (by decide) (by decide) (by decide) ?_
  refine line_binary _ _ _ _ _ _ _ (by decide) (by decide) (by decide) (by decide) ?_
  refine line_nullary _ _ _ (by decide) (by decide) ?_
  exact line_nil

theorem line_hostOps2_1 : Line (Val := Elt F) key 127 134 hostOps2_1 := by
  refine line_nullary _ _ _ (by decide) (by decide) ?_
  refine line_unary _ _ _ _ _ (by decide) (by decide) (by decide) ?_
  refine line_binary _ _ _ _ _ _ _ (by decide) (by decide) (by decide) (by decide) ?_
  refine line_unary _ _ _ _ _ (by decide) (by decide) (by decide) ?_
  refine line_unary _ _ _ _ _ (by decide) (by decide) (by decide) ?_
  refine line_binary _ _ _ _ _ _ _ (by decide) (by decide) (by decide) (by decide) ?_
  refine line_ternary _ _ _ _ _ _ _ _ _ (by decide) (by decide) (by decide) (by decide) (by decide) ?_
  exact line_nil

theorem line_hostOps2_2 : Line (Val := Elt F) key 134 144 hostOps2_2 := by
  refine line_unary _ _ _ _ _ (by decide) (by decide) (by decide) ?_
  refine line_nullary _ _ _ (by decide) (by decide) ?_
  refine line_unary _ _ _ _ _ (by decide) (by decide) (by decide) ?_
  refine line_binary _ _ _ _ _ _ _ (by decide) (by decide) (by decide) (by decide) ?_
  refine line_nullary _ _ _ (by decide) (by decide) ?_
  refine line_unary _ _ _ _ _ (by decide) (by decide) (by decide) ?_
  refine line_binary _ _ _ _ _ _ _ (by decide) (by decide) (by decide) (by decide) ?_
  refine line_ternary _ _ _ _ _ _ _ _ _ (by decide) (by decide) (by decide) (by decide) (by decide) ?_
  refine line_unary _ _ _ _ _ (by decide) (by decide) (by decide) ?_
  refine line_binary _ _ _ _ _ _ _ (by decide) (by decide) (by decide) (by decide) ?_
  exact line_nil

theorem line_hostOps3 : Line (Val := Elt F) key 145 154 hostOps3 := by
  refine line_unary _ _ _ _ _ (by decide) (by decide) (by decide) ?_
  refine line_nullary _ _ _ (by decide) (by decide) ?_
  refine line_unary _ _ _ _ _ (by decide) (by decide) (by decide) ?_
  refine line_unary _ _ _ _ _ (by decide) (by decide) (by decide) ?_
  refine line_ternary _ _ _ _ _ _ _ _ _ (by decide) (by decide) (by decide) (by decide) (by decide) ?_
  refine line_unary _ _ _ _ _ (by decide) (by decide) (by decide) ?_
  refine line_unary _ _ _ _ _ (by decide) (by decide) (by decide) ?_
  refine line_binary _ _ _ _ _ _ _ (by decide) (by decide) (by decide) (by decide) ?_
  refine line_nullary _ _ _ (by decide) (by decide) ?_
  exact line_nil

theorem line_hostOps3_1 : Line (Val := Elt F) key 154 161 hostOps3_1 := by
  refine line_nullary _ _ _ (by decide) (by decide) ?_
  refine line_unary _ _ _ _ _ (by decide) (by decide) (by decide) ?_
  refine line_binary _ _ _ _ _ _ _ (by decide) (by decide) (by decide) (by decide) ?_
  refine line_unary _ _ _ _ _ (by decide) (by decide) (by decide) ?_
  refine line_unary _ _ _ _ _ (by decide) (by decide) (by decide) ?_
  refine line_binary _ _ _ _ _ _ _ (by decide) (by decide) (by decide) (by decide) ?_
  refine line_ternary _ _ _ _ _ _ _ _ _ (by decide) (by decide) (by decide) (by decide) (by decide) ?_
  exact line_nil

theorem line_hostOps3_2 : Line (Val := Elt F) key 161 168 hostOps3_2 := by
  refine line_unary _ _ _ _ _ (by decide) (by decide) (by decide) ?_
  refine line_binary _ _ _ _ _ _ _ (by decide) (by decide) (by decide) (by decide) ?_
  refine line_binary _ _ _ _ _ _ _ (by decide) (by decide) (by decide) (by decide) ?_
  refine line_binary _ _ _ _ _ _ _ (by decide) (by decide) (by decide) (by decide) ?_
  refine line_nullary _ _ _ (by decide) (by decide) ?_
  refine line_unary _ _ _ _ _ (by decide) (by decide) (by decide) ?_
  refine line_binary _ _ _ _ _ _ _ (by decide) (by decide) (by decide) (by decide) ?_
  exact line_nil

end Cert.KernelIdeal.Hand

end
-- ==== Proof.KerLines.lean ====
import proofs.«120788_j77403900608956_2_alg».proof.Proof.Gen.KernelIdeal.Frame
import proofs.«120788_j77403900608956_2_alg».proof.Proof.KerSsa

set_option maxRecDepth 16384

noncomputable section

namespace Cert.KernelIdeal.Hand

open Idealize.ShloMosaic Idealize.ShloMosaic.TcCoe

variable {F : FTy → Type} [FloatOps F]
variable (m : (ℓ : Loc nD τ sig) → Buf (Elt F) ℓ) (ρ : Dev nD → PrngReg) (c : Dev nD)

/-! ## What each later segment leaves alone

  The buffer contents at the segment boundaries are a fold through @main. A host stretch that rises from `lo` leaves
  every buffer numbered at most `lo` as it found it; a kernel region rewrites its output array and nothing else (an
  input array is never written back, every other buffer bypasses the region). So the final contents agree with the
  contents at boundary `j` on every buffer numbered at most the last number written before that boundary. -/

theorem ne_of_key_lt {x y : DevRef τ sig} (h : key x < key y) : x ≠ y :=
  fun e => absurd (congrArg key e) (Nat.ne_of_lt h)

/-- Outside a pipeline's arrays the contents a region leaves are those it was entered with. -/
theorem withArrays_of_not_arr {gr W : Nat} (win : Fin W → Pipeline.WinSpec sig gr) (V : Valuation τ sig (Elt F))
    (A : (w : Fin W) → Buf (Elt F) ((win w).arr.view.loc (c.tc : Thread nD τ))) (x : DevRef τ sig)
    (hx : ¬ ∃ w, Proc.devRef .tc (Pipeline.arrRef win w) = x) : Pipeline.withArrays win c V A x = V x := by
  unfold Pipeline.withArrays; exact dif_neg hx

/-- Region 0 rewrites its output array only: an input array is never written back, and every other buffer leaves the
    region as it entered. -/
theorem W14_keep (x : DevRef τ sig) (hx : x ≠ Proc.devRef .tc main_v54) : Gen.W14 m ρ c x = Gen.W13 m ρ c x := by
  by_cases h : ∃ w, Proc.devRef .tc (Pipeline.arrRef spec0 w) = x
  · obtain ⟨w, rfl⟩ := h
    have hw : (cfg0.win w).isOut = false :=
      (by decide : ∀ w : Fin 4, Proc.devRef (τ := τ) .tc (Pipeline.arrRef spec0 w) ≠ Proc.devRef .tc main_v54 → (cfg0.win w).isOut = false) w hx
    exact (Gen.W14_arr m ρ c w).trans
      (((Gen.dat0 (Gen.V13 m ρ) c).arrAt_in w hw _).trans (Gen.A_eq0 (Gen.V13 m ρ) c w))
  · unfold Gen.W14; exact withArrays_of_not_arr c spec0 _ _ x h

/-- Region 1 rewrites its output array only: an input array is never written back, and every other buffer leaves the
    region as it entered. -/
theorem W18_keep (x : DevRef τ sig) (hx : x ≠ Proc.devRef .tc main_v71) : Gen.W18 m ρ c x = Gen.W17 m ρ c x := by
  by_cases h : ∃ w, Proc.devRef .tc (Pipeline.arrRef spec1 w) = x
  · obtain ⟨w, rfl⟩ := h
    have hw : (cfg1.win w).isOut = false :=
      (by decide : ∀ w : Fin 4, Proc.devRef (τ := τ) .tc (Pipeline.arrRef spec1 w) ≠ Proc.devRef .tc main_v71 → (cfg1.win w).isOut = false) w hx
    exact (Gen.W18_arr m ρ c w).trans
      (((Gen.dat1 (Gen.V17 m ρ) c).arrAt_in w hw _).trans (Gen.A_eq1 (Gen.V17 m ρ) c w))
  · unfold Gen.W18; exact withArrays_of_not_arr c spec1 _ _ x h

/-- Region 2 rewrites its output array only: an input array is never written back, and every other buffer leaves the
    region as it entered. -/
theorem W22_keep (x : DevRef τ sig) (hx : x ≠ Proc.devRef .tc main_v88) : Gen.W22 m ρ c x = Gen.W21 m ρ c x := by
  by_cases h : ∃ w, Proc.devRef .tc (Pipeline.arrRef spec2 w) = x
  · obtain ⟨w, rfl⟩ := h
    have hw : (cfg2.win w).isOut = false :=
      (by decide : ∀ w : Fin 4, Proc.devRef (τ := τ) .tc (Pipeline.arrRef spec2 w) ≠ Proc.devRef .tc main_v88 → (cfg2.win w).isOut = false) w hx
    exact (Gen.W22_arr m ρ c w).trans
      (((Gen.dat2 (Gen.V21 m ρ) c).arrAt_in w hw _).trans (Gen.A_eq2 (Gen.V21 m ρ) c w))
  · unfold Gen.W22; exact withArrays_of_not_arr c spec2 _ _ x h

theorem keep24 (x : DevRef τ sig) (h : key x ≤ 161) : Gen.W25 m ρ c x = Gen.W24 m ρ c x :=
  ((line_hostOps3_2 (F := F)).1.after_low (Gen.W24 m ρ c) h)
theorem keep23 (x : DevRef τ sig) (h : key x ≤ 154) : Gen.W25 m ρ c x = Gen.W23 m ρ c x :=
  (keep24 m ρ c x (h.trans (by decide))).trans ((line_hostOps3_1 (F := F)).1.after_low (Gen.W23 m ρ c) h)
theorem keep22 (x : DevRef τ sig) (h : key x ≤ 145) : Gen.W25 m ρ c x = Gen.W22 m ρ c x :=
  (keep23 m ρ c x (h.trans (by decide))).trans ((line_hostOps3 (F := F)).1.after_low (Gen.W22 m ρ c) h)
theorem keep21 (x : DevRef τ sig) (h : key x ≤ 144) : Gen.W25 m ρ c x = Gen.W21 m ρ c x :=
  (keep22 m ρ c x (h.trans (by decide))).trans (W22_keep m ρ c x (ne_of_key_lt (Nat.lt_of_le_of_lt h (by decide))))
theorem keep20 (x : DevRef τ sig) (h : key x ≤ 134) : Gen.W25 m ρ c x = Gen.W20 m ρ c x :=
  (keep21 m ρ c x (h.trans (by decide))).trans ((line_hostOps2_2 (F := F)).1.after_low (Gen.W20 m ρ c) h)
theorem keep19 (x : DevRef τ sig) (h : key x ≤ 127) : Gen.W25 m ρ c x = Gen.W19 m ρ c x :=
  (keep20 m ρ c x (h.trans (by decide))).trans ((line_hostOps2_1 (F := F)).1.after_low (Gen.W19 m ρ c) h)
theorem keep18 (x : DevRef τ sig) (h : key x ≤ 118) : Gen.W25 m ρ c x = Gen.W18 m ρ c x :=
  (keep19 m ρ c x (h.trans (by decide))).trans ((line_hostOps2 (F := F)).1.after_low (Gen.W18 m ρ c) h)
theorem keep17 (x : DevRef τ sig) (h : key x ≤ 117) : Gen.W25 m ρ c x = Gen.W17 m ρ c x :=
  (keep18 m ρ c x (h.trans (by decide))).trans (W18_keep m ρ c x (ne_of_key_lt (Nat.lt_of_le_of_lt h (by decide))))
theorem keep16 (x : DevRef τ sig) (h : key x ≤ 107) : Gen.W25 m ρ c x = Gen.W16 m ρ c x :=
  (keep17 m ρ c x (h.trans (by decide))).trans ((line_hostOps1_2 (F := F)).1.after_low (Gen.W16 m ρ c) h)
theorem keep15 (x : DevRef τ sig) (h : key x ≤ 100) : Gen.W25 m ρ c x = Gen.W15 m ρ c x :=
  (keep16 m ρ c x (h.trans (by decide))).trans ((line_hostOps1_1 (F := F)).1.after_low (Gen.W15 m ρ c) h)
theorem keep14 (x : DevRef τ sig) (h : key x ≤ 91) : Gen.W25 m ρ c x = Gen.W14 m ρ c x :=
  (keep15 m ρ c x (h.trans (by decide))).trans ((line_hostOps1 (F := F)).1.after_low (Gen.W14 m ρ c) h)
theorem keep13 (x : DevRef τ sig) (h : key x ≤ 90) : Gen.W25 m ρ c x = Gen.W13 m ρ c x :=
  (keep14 m ρ c x (h.trans (by decide))).trans (W14_keep m ρ c x (ne_of_key_lt (Nat.lt_of_le_of_lt h (by decide))))
theorem keep12 (x : DevRef τ sig) (h : key x ≤ 74) : Gen.W25 m ρ c x = Gen.W12 m ρ c x :=
  (keep13 m ρ c x (h.trans (by decide))).trans ((line_hostOps0_12 (F := F)).1.after_low (Gen.W12 m ρ c) h)
theorem keep11 (x : DevRef τ sig) (h : key x ≤ 72) : Gen.W25 m ρ c x = Gen.W11 m ρ c x :=
  (keep12 m ρ c x (h.trans (by decide))).trans ((line_hostOps0_11 (F := F)).1.after_low (Gen.W11 m ρ c) h)
theorem keep10 (x : DevRef τ sig) (h : key x ≤ 71) : Gen.W25 m ρ c x = Gen.W10 m ρ c x :=
  (keep11 m ρ c x (h.trans (by decide))).trans ((line_hostOps0_10 (F := F)).1.after_low (Gen.W10 m ρ c) h)
theorem keep9 (x : DevRef τ sig) (h : key x ≤ 69) : Gen.W25 m ρ c x = Gen.W9 m ρ c x :=
  (keep10 m ρ c x (h.trans (by decide))).trans ((line_hostOps0_9 (F := F)).1.after_low (Gen.W9 m ρ c) h)
theorem keep8 (x : DevRef τ sig) (h : key x ≤ 68) : Gen.W25 m ρ c x = Gen.W8 m ρ c x :=
  (keep9 m ρ c x (h.trans (by decide))).trans ((line_hostOps0_8 (F := F)).1.after_low (Gen.W8 m ρ c) h)
theorem keep7 (x : DevRef τ sig) (h : key x ≤ 66) : Gen.W25 m ρ c x = Gen.W7 m ρ c x :=
  (keep8 m ρ c x (h.trans (by decide))).trans ((line_hostOps0_7 (F := F)).1.after_low (Gen.W7 m ρ c) h)
theorem keep6 (x : DevRef τ sig) (h : key x ≤ 65) : Gen.W25 m ρ c x = Gen.W6 m ρ c x :=
  (keep7 m ρ c x (h.trans (by decide))).trans ((line_hostOps0_6 (F := F)).1.after_low (Gen.W6 m ρ c) h)
theorem keep5 (x : DevRef τ sig) (h : key x ≤ 61) : Gen.W25 m ρ c x = Gen.W5 m ρ c x :=
  (keep6 m ρ c x (h.trans (by decide))).trans ((line_hostOps0_5 (F := F)).1.after_low (Gen.W5 m ρ c) h)
theorem keep4 (x : DevRef τ sig) (h : key x ≤ 33) : Gen.W25 m ρ c x = Gen.W4 m ρ c x :=
  (keep5 m ρ c x (h.trans (by decide))).trans ((line_hostOps0_4 (F := F)).1.after_low (Gen.W4 m ρ c) h)
theorem keep3 (x : DevRef τ sig) (h : key x ≤ 30) : Gen.W25 m ρ c x = Gen.W3 m ρ c x :=
  (keep4 m ρ c x (h.trans (by decide))).trans ((line_hostOps0_3 (F := F)).1.after_low (Gen.W3 m ρ c) h)
theorem keep2 (x : DevRef τ sig) (h : key x ≤ 28) : Gen.W25 m ρ c x = Gen.W2 m ρ c x :=
  (keep3 m ρ c x (h.trans (by decide))).trans ((line_hostOps0_2 (F := F)).1.after_low (Gen.W2 m ρ c) h)
theorem keep1 (x : DevRef τ sig) (h : key x ≤ 25) : Gen.W25 m ρ c x = Gen.W1 m ρ c x :=
  (keep2 m ρ c x (h.trans (by decide))).trans ((line_hostOps0_1 (F := F)).1.after_low (Gen.W1 m ρ c) h)

/-! ## The three regions' links: what each region's output array holds at the end, and that its input arrays were
    entered with what they hold at the end -/

theorem out0 : Gen.W25 m ρ c (Proc.devRef .tc main_v54) = (Gen.dat0 (Gen.V13 m ρ) c).arrAt 3 cfg0.N :=
  (keep14 m ρ c _ (by decide)).trans (Gen.W14_arr m ρ c 3)
theorem in0_53 : Gen.V13 m ρ c main_v53 = Gen.W25 m ρ c (Proc.devRef .tc main_v53) :=
  (keep13 m ρ c _ (by decide)).symm
theorem in0_41 : Gen.V13 m ρ c main_v41 = Gen.W25 m ρ c (Proc.devRef .tc main_v41) :=
  (keep13 m ρ c _ (by decide)).symm
theorem in0_42 : Gen.V13 m ρ c main_v42 = Gen.W25 m ρ c (Proc.devRef .tc main_v42) :=
  (keep13 m ρ c _ (by decide)).symm
theorem out1 : Gen.W25 m ρ c (Proc.devRef .tc main_v71) = (Gen.dat1 (Gen.V17 m ρ) c).arrAt 3 cfg1.N :=
  (keep18 m ρ c _ (by decide)).trans (Gen.W18_arr m ρ c 3)
theorem in1_70 : Gen.V17 m ρ c main_v70 = Gen.W25 m ρ c (Proc.devRef .tc main_v70) :=
  (keep17 m ρ c _ (by decide)).symm
theorem in1_41 : Gen.V17 m ρ c main_v41 = Gen.W25 m ρ c (Proc.devRef .tc main_v41) :=
  (keep17 m ρ c _ (by decide)).symm
theorem in1_43 : Gen.V17 m ρ c main_v43 = Gen.W25 m ρ c (Proc.devRef .tc main_v43) :=
  (keep17 m ρ c _ (by decide)).symm
theorem out2 : Gen.W25 m ρ c (Proc.devRef .tc main_v88) = (Gen.dat2 (Gen.V21 m ρ) c).arrAt 3 cfg2.N :=
  (keep22 m ρ c _ (by decide)).trans (Gen.W22_arr m ρ c 3)
theorem in2_87 : Gen.V21 m ρ c main_v87 = Gen.W25 m ρ c (Proc.devRef .tc main_v87) :=
  (keep21 m ρ c _ (by decide)).symm
theorem in2_41 : Gen.V21 m ρ c main_v41 = Gen.W25 m ρ c (Proc.devRef .tc main_v41) :=
  (keep21 m ρ c _ (by decide)).symm
theorem in2_44 : Gen.V21 m ρ c main_v44 = Gen.W25 m ρ c (Proc.devRef .tc main_v44) :=
  (keep21 m ρ c _ (by decide)).symm

/-! ## Every host line of @main as an equation between the final contents

  A rising stretch leaves its own lines' equations true of the contents right after it; the final contents agree with
  those on every buffer the stretch touches, so the same equations hold of the final contents. -/

theorem eqs_hostOps0 : Cert.Ssa.Eqs (Gen.W25 m ρ c) (Gen.hostOps0 : List (HloOp τ sig (Elt F))) :=
  eqs_of_agree (line_hostOps0 (F := F)).2 (keep1 m ρ c) (Cert.Ssa.after_eqs Gen.hostOps0 (Gen.W0 m ρ c) (line_hostOps0 (F := F)).1)
theorem eqs_hostOps0_1 : Cert.Ssa.Eqs (Gen.W25 m ρ c) (Gen.hostOps0_1 : List (HloOp τ sig (Elt F))) :=
  eqs_of_agree (line_hostOps0_1 (F := F)).2 (keep2 m ρ c) (Cert.Ssa.after_eqs Gen.hostOps0_1 (Gen.W1 m ρ c) (line_hostOps0_1 (F := F)).1)
theorem eqs_hostOps0_2 : Cert.Ssa.Eqs (Gen.W25 m ρ c) (Gen.hostOps0_2 : List (HloOp τ sig (Elt F))) :=
  eqs_of_agree (line_hostOps0_2 (F := F)).2 (keep3 m ρ c) (Cert.Ssa.after_eqs Gen.hostOps0_2 (Gen.W2 m ρ c) (line_hostOps0_2 (F := F)).1)
theorem eqs_hostOps0_3 : Cert.Ssa.Eqs (Gen.W25 m ρ c) (Gen.hostOps0_3 : List (HloOp τ sig (Elt F))) :=
  eqs_of_agree (line_hostOps0_3 (F := F)).2 (keep4 m ρ c) (Cert.Ssa.after_eqs Gen.hostOps0_3 (Gen.W3 m ρ c) (line_hostOps0_3 (F := F)).1)
theorem eqs_hostOps0_4 : Cert.Ssa.Eqs (Gen.W25 m ρ c) (Gen.hostOps0_4 : List (HloOp τ sig (Elt F))) :=
  eqs_of_agree (line_hostOps0_4 (F := F)).2 (keep5 m ρ c) (Cert.Ssa.after_eqs Gen.hostOps0_4 (Gen.W4 m ρ c) (line_hostOps0_4 (F := F)).1)
theorem eqs_hostOps0_5 : Cert.Ssa.Eqs (Gen.W25 m ρ c) (Gen.hostOps0_5 : List (HloOp τ sig (Elt F))) :=
  eqs_of_agree (line_hostOps0_5 (F := F)).2 (keep6 m ρ c) (Cert.Ssa.after_eqs Gen.hostOps0_5 (Gen.W5 m ρ c) (line_hostOps0_5 (F := F)).1)
theorem eqs_hostOps0_6 : Cert.Ssa.Eqs (Gen.W25 m ρ c) (Gen.hostOps0_6 : List (HloOp τ sig (Elt F))) :=
  eqs_of_agree (line_hostOps0_6 (F := F)).2 (keep7 m ρ c) (Cert.Ssa.after_eqs Gen.hostOps0_6 (Gen.W6 m ρ c) (line_hostOps0_6 (F := F)).1)
theorem eqs_hostOps0_7 : Cert.Ssa.Eqs (Gen.W25 m ρ c) (Gen.hostOps0_7 : List (HloOp τ sig (Elt F))) :=
  eqs_of_agree (line_hostOps0_7 (F := F)).2 (keep8 m ρ c) (Cert.Ssa.after_eqs Gen.hostOps0_7 (Gen.W7 m ρ c) (line_hostOps0_7 (F := F)).1)
theorem eqs_hostOps0_8 : Cert.Ssa.Eqs (Gen.W25 m ρ c) (Gen.hostOps0_8 : List (HloOp τ sig (Elt F))) :=
  eqs_of_agree (line_hostOps0_8 (F := F)).2 (keep9 m ρ c) (Cert.Ssa.after_eqs Gen.hostOps0_8 (Gen.W8 m ρ c) (line_hostOps0_8 (F := F)).1)
theorem eqs_hostOps0_9 : Cert.Ssa.Eqs (Gen.W25 m ρ c) (Gen.hostOps0_9 : List (HloOp τ sig (Elt F))) :=
  eqs_of_agree (line_hostOps0_9 (F := F)).2 (keep10 m ρ c) (Cert.Ssa.after_eqs Gen.hostOps0_9 (Gen.W9 m ρ c) (line_hostOps0_9 (F := F)).1)
theorem eqs_hostOps0_10 : Cert.Ssa.Eqs (Gen.W25 m ρ c) (Gen.hostOps0_10 : List (HloOp τ sig (Elt F))) :=
  eqs_of_agree (line_hostOps0_10 (F := F)).2 (keep11 m ρ c) (Cert.Ssa.after_eqs Gen.hostOps0_10 (Gen.W10 m ρ c) (line_hostOps0_10 (F := F)).1)
theorem eqs_hostOps0_11 : Cert.Ssa.Eqs (Gen.W25 m ρ c) (Gen.hostOps0_11 : List (HloOp τ sig (Elt F))) :=
  eqs_of_agree (line_hostOps0_11 (F := F)).2 (keep12 m ρ c) (Cert.Ssa.after_eqs Gen.hostOps0_11 (Gen.W11 m ρ c) (line_hostOps0_11 (F := F)).1)
theorem eqs_hostOps0_12 : Cert.Ssa.Eqs (Gen.W25 m ρ c) (Gen.hostOps0_12 : List (HloOp τ sig (Elt F))) :=
  eqs_of_agree (line_hostOps0_12 (F := F)).2 (keep13 m ρ c) (Cert.Ssa.after_eqs Gen.hostOps0_12 (Gen.W12 m ρ c) (line_hostOps0_12 (F := F)).1)
theorem eqs_hostOps1 : Cert.Ssa.Eqs (Gen.W25 m ρ c) (Gen.hostOps1 : List (HloOp τ sig (Elt F))) :=
  eqs_of_agree (line_hostOps1 (F := F)).2 (keep15 m ρ c) (Cert.Ssa.after_eqs Gen.hostOps1 (Gen.W14 m ρ c) (line_hostOps1 (F := F)).1)
theorem eqs_hostOps1_1 : Cert.Ssa.Eqs (Gen.W25 m ρ c) (Gen.hostOps1_1 : List (HloOp τ sig (Elt F))) :=
  eqs_of_agree (line_hostOps1_1 (F := F)).2 (keep16 m ρ c) (Cert.Ssa.after_eqs Gen.hostOps1_1 (Gen.W15 m ρ c) (line_hostOps1_1 (F := F)).1)
theorem eqs_hostOps1_2 : Cert.Ssa.Eqs (Gen.W25 m ρ c) (Gen.hostOps1_2 : List (HloOp τ sig (Elt F))) :=
  eqs_of_agree (line_hostOps1_2 (F := F)).2 (keep17 m ρ c) (Cert.Ssa.after_eqs Gen.hostOps1_2 (Gen.W16 m ρ c) (line_hostOps1_2 (F := F)).1)
theorem eqs_hostOps2 : Cert.Ssa.Eqs (Gen.W25 m ρ c) (Gen.hostOps2 : List (HloOp τ sig (Elt F))) :=
  eqs_of_agree (line_hostOps2 (F := F)).2 (keep19 m ρ c) (Cert.Ssa.after_eqs Gen.hostOps2 (Gen.W18 m ρ c) (line_hostOps2 (F := F)).1)
theorem eqs_hostOps2_1 : Cert.Ssa.Eqs (Gen.W25 m ρ c) (Gen.hostOps2_1 : List (HloOp τ sig (Elt F))) :=
  eqs_of_agree (line_hostOps2_1 (F := F)).2 (keep20 m ρ c) (Cert.Ssa.after_eqs Gen.hostOps2_1 (Gen.W19 m ρ c) (line_hostOps2_1 (F := F)).1)
theorem eqs_hostOps2_2 : Cert.Ssa.Eqs (Gen.W25 m ρ c) (Gen.hostOps2_2 : List (HloOp τ sig (Elt F))) :=
  eqs_of_agree (line_hostOps2_2 (F := F)).2 (keep21 m ρ c) (Cert.Ssa.after_eqs Gen.hostOps2_2 (Gen.W20 m ρ c) (line_hostOps2_2 (F := F)).1)
theorem eqs_hostOps3 : Cert.Ssa.Eqs (Gen.W25 m ρ c) (Gen.hostOps3 : List (HloOp τ sig (Elt F))) :=
  eqs_of_agree (line_hostOps3 (F := F)).2 (keep23 m ρ c) (Cert.Ssa.after_eqs Gen.hostOps3 (Gen.W22 m ρ c) (line_hostOps3 (F := F)).1)
theorem eqs_hostOps3_1 : Cert.Ssa.Eqs (Gen.W25 m ρ c) (Gen.hostOps3_1 : List (HloOp τ sig (Elt F))) :=
  eqs_of_agree (line_hostOps3_1 (F := F)).2 (keep24 m ρ c) (Cert.Ssa.after_eqs Gen.hostOps3_1 (Gen.W23 m ρ c) (line_hostOps3_1 (F := F)).1)
theorem eqs_hostOps3_2 : Cert.Ssa.Eqs (Gen.W25 m ρ c) (Gen.hostOps3_2 : List (HloOp τ sig (Elt F))) :=
  (Cert.Ssa.after_eqs Gen.hostOps3_2 (Gen.W24 m ρ c) (line_hostOps3_2 (F := F)).1)

end Cert.KernelIdeal.Hand

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.RegionBody.lean ====
/-
  One relation's share of an edge tile's message, read at a row and a column.

  A tile holds 4096 edge rows. Its body has the tile of gathered feature rows (4096 x 128), a block of per-relation
  weights (4096 x 4) and the four relations' matrices (4 x 128 x 128). For relation r it takes the matrix out of the slab
  loaded at offset r, multiplies the feature tile by it into a zero accumulator, takes column r of the weight block as a
  4096 x 1 column, lays that column across the 128 columns and multiplies entry by entry. At row p and column d this is
  (sum over k of feature(p, k) * matrix_r(k, d)) * weight(p, r). When the tile's rows are rows of larger arrays (row p of
  the tile being row e of the arrays), that is relation r's product for edge e at column d times edge e's weight for r.
-/
import proofs.«120788_j77403900608956_2_alg».proof.Proof.Gen.KernelIdeal
import proofs.«120788_j77403900608956_2_alg».proof.Proof.Spec
import proofs.«120788_j77403900608956_2_alg».proof.Proof.LibDenseRows
import proofs.«120788_j77403900608956_2_alg».proof.Proof.LibColumnLayout
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem

namespace Cert.KernelIdeal.Hand

open Cert.KernelIdeal Cert.KernelIdeal.Gen
open Idealize.ShloMosaic.ValueIdx
open scoped BigOperators

/-- One relation's share of a tile of 4096 edge rows: the tile of feature rows times the relation's 128 x 128 matrix
    (given as a slab with a leading unit axis), every row then multiplied by that row's entry of a weight column. -/
def relTerm (v : FVec Ideal S4096x128 .bf16) (w : FVec Ideal S1x128x128 .bf16) (col : FVec Ideal S4096x1 .f32) :
    FVec Ideal S4096x128 .f32 :=
  mulf (matmul (φ₁ := .bf16) (φ₂ := .bf16) dot_S4096x128_S128x128_S4096x128_1_0_0_1_n_n none (shapeCast S4096x128 v shapeCasts_S4096x128_S4096x128)
      (shapeCast S128x128 w shapeCasts_S1x128x128_S128x128) (constant S4096x128 .f32 0x00000000#32))
    (broadcastTo S4096x128 (shapeCast S4096x1 col shapeCasts_S4096x1_S4096x1) broadcasts_S4096x1_S4096x128)

set_option maxHeartbeats 400000 in
/-- At row p and column d it is the row-times-matrix sum times the row's weight. -/
theorem relTerm_apply (v : FVec Ideal S4096x128 .bf16) (w : FVec Ideal S1x128x128 .bf16) (col : FVec Ideal S4096x1 .f32)
    (p : Fin 4096) (d : Fin 128) :
    relTerm v w col (ix2 p d) = (∑ k : Fin 128, v (ix2 p k) * w (ix3 (0 : Fin 1) k d)) * col (ix2 p (0 : Fin 1)) := by
  unfold relTerm
  rw [mulf_apply, shapeCast_self, shapeCast_self, Cert.ColumnLayout.broadcastTo_a1_ab_apply]
  rw [Cert.DenseRows.matmul_zero_plain_apply dot_S4096x128_S128x128_S4096x128_1_0_0_1_n_n rfl rfl rfl rfl (fun _ _ => rfl) (fun _ _ => rfl)]
  refine congrArg (· * col (ix2 p (0 : Fin 1))) (Finset.sum_congr rfl fun k _ => ?_)
  rw [shapeCast_1ab_ab_apply]

/-- The slab of the four matrices loaded at offset o along the first axis is matrix o. -/
theorem ld_slab_apply (x2 : Vec Ideal S4x128x128 .bf16) (o : Nat)
    (inb : ∀ a, (![o, 0, 0] : Fin 3 → Nat) a + S1x128x128.size a ≤ S4x128x128.size a) (r : Fin 4) (hr : r.val = o)
    (k d : Fin 128) :
    View.ld x2 (Rect.unit (s := S4x128x128) ![o, 0, 0] S1x128x128.size inb) (ix3 (0 : Fin 1) k d) = x2 (ix3 r k d) := by
  refine congrArg x2 (funext fun a => Fin.ext ?_)
  match a with
  | ⟨0, _⟩ => show o + 1 * 0 = r.val; omega
  | ⟨1, _⟩ => show 0 + 1 * k.val = k.val; omega
  | ⟨2, _⟩ => show 0 + 1 * d.val = d.val; omega

/-- The column of the weight block loaded at offset o along the second axis is column o. -/
theorem ld_col_apply (x1 : Vec Ideal S4096x4 .f32) (o : Nat)
    (inb : ∀ a, (![0, o] : Fin 2 → Nat) a + S4096x1.size a ≤ S4096x4.size a) (r : Fin 4) (hr : r.val = o) (p : Fin 4096) :
    View.ld x1 (Rect.unit (s := S4096x4) ![0, o] S4096x1.size inb) (ix2 p (0 : Fin 1)) = x1 (ix2 p r) := by
  refine congrArg x1 (funext fun a => Fin.ext ?_)
  match a with
  | ⟨0, _⟩ => show 0 + 1 * p.val = p.val; omega
  | ⟨1, _⟩ => show o + 1 * 0 = r.val; omega

set_option maxHeartbeats 400000 in
/-- One relation's share computed from the loaded slab and column, at row p of a tile whose rows are rows of the
    arrays X and WS (row p being row e) and whose matrices are W: relation r's product for edge e times its weight. -/
theorem relTerm_ld_apply {n : Nat} (X : Fin n → Fin 128 → EReal) (WS : Fin n → Fin 4 → EReal)
    (W : Fin 4 → Fin 128 → Fin 128 → EReal) (x0 : Vec Ideal S4096x128 .bf16) (x1 : Vec Ideal S4096x4 .f32)
    (x2 : Vec Ideal S4x128x128 .bf16) (o : Nat)
    (inbw : ∀ a, (![o, 0, 0] : Fin 3 → Nat) a + S1x128x128.size a ≤ S4x128x128.size a)
    (inbc : ∀ a, (![0, o] : Fin 2 → Nat) a + S4096x1.size a ≤ S4096x4.size a) (r : Fin 4) (hr : r.val = o)
    (e : Fin n) (p : Fin 4096) (h0 : ∀ k, x0 (ix2 p k) = X e k) (h1 : ∀ r, x1 (ix2 p r) = WS e r)
    (h2 : ∀ r k d, x2 (ix3 r k d) = W r k d) (d : Fin 128) :
    relTerm x0 (View.ld x2 (Rect.unit (s := S4x128x128) ![o, 0, 0] S1x128x128.size inbw))
        (View.ld x1 (Rect.unit (s := S4096x4) ![0, o] S4096x1.size inbc)) (ix2 p d)
      = Cert.Spec.part X W r e d * WS e r := by
  rw [relTerm_apply]
  unfold Cert.Spec.part
  refine congrArg₂ (· * ·) (Finset.sum_congr rfl fun k _ => ?_) ((ld_col_apply x1 o inbc r hr p).trans (h1 r))
  rw [h0 k]
  exact congrArg (X e k * ·) ((ld_slab_apply x2 o inbw r hr k d).trans (h2 r k d))

end Cert.KernelIdeal.Hand
end
-- ==== Proof.Region0.lean ====
/-
  What layer 1's edge-tile region leaves in its output array, as one function of the arrays it reads.

  The region runs over 49 row blocks of 4096 edge rows (49 x 4096 = 200704). At block t its body sees rows
  4096 t … 4096 t + 4095 of the gathered feature array main_v53 and of the per-relation weight array main_v41, and the
  whole array main_v42 of the four relations' 128 x 128 matrices, and writes rows 4096 t … 4096 t + 4095 of main_v54.
  The tile it writes is, at row p and column d, the zero accumulator plus, for relations 0, 1, 2, 3 in order, the product
  of feature row p with the relation's matrix at column d times row p's weight for that relation. Since row p of block t
  is row e = 4096 t + p of the arrays, the tile is block t of the array whose entry (e, d) is the relation-weighted
  message of edge row e; the 49 blocks cover every row, so the output array ends as that array.
-/
import proofs.«120788_j77403900608956_2_alg».proof.Proof.Gen.KernelIdeal.Frame
import proofs.«120788_j77403900608956_2_alg».proof.Proof.Spec
import proofs.«120788_j77403900608956_2_alg».proof.Proof.LibDenseRows
import proofs.«120788_j77403900608956_2_alg».proof.Proof.LibColumnLayout
import proofs.«120788_j77403900608956_2_alg».proof.Proof.RegionBody
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx
open scoped BigOperators

variable (V : (c : Dev nD) → (b : Ref sig .tc) → Buf (Elt Ideal) ((c : Thread nD τ).loc b))

theorem hz0 : (![0, 0] : Fin 2 → Nat) = fun _ => 0 := funext fun a => by fin_cases a <;> rfl

set_option maxHeartbeats 400000 in
/-- The tile the body leaves, read at row p and column d, when the tile's rows are rows of the arrays X and WS (row p
    being row e) and its matrices are W: the zero accumulator plus the four relations' shares in order, which is the
    relation-weighted message of edge e. -/
theorem out0_3_block (X : Fin 200704 → Fin 128 → EReal) (WS : Fin 200704 → Fin 4 → EReal) (W : Fin 4 → Fin 128 → Fin 128 → EReal)
    (x0 : Vec Ideal S4096x128 .bf16) (x1 : Vec Ideal S4096x4 .f32) (x2 : Vec Ideal S4x128x128 .bf16) (e : Fin 200704) (p : Fin 4096)
    (h0 : ∀ k, x0 (ix2 p k) = X e k) (h1 : ∀ r, x1 (ix2 p r) = WS e r) (h2 : ∀ r k d, x2 (ix3 r k d) = W r k d) (d : Fin 128) :
    out0_3 (F := Ideal) x0 x1 x2 (ix2 p d) = Cert.Spec.relMsg X WS W e d := by
  unfold out0_3
  rw [View.canon_unit_zero hz0]
  simp only [View.ld_unit_zero (S := S4096x128) hz0]
  show (((Ideal.ofBits .f32 0x00000000#32 + relTerm x0 (View.ld x2 r0_1) (View.ld x1 r0_2) (ix2 p d))
      + relTerm x0 (View.ld x2 r0_3) (View.ld x1 r0_4) (ix2 p d))
      + relTerm x0 (View.ld x2 r0_5) (View.ld x1 r0_6) (ix2 p d))
      + relTerm x0 (View.ld x2 r0_7) (View.ld x1 r0_8) (ix2 p d) = _
  unfold Cert.Spec.relMsg
  refine congrArg₂ (· + ·) (congrArg₂ (· + ·) (congrArg₂ (· + ·) (congrArg₂ (· + ·) Ideal.ofBits_zero_f32 ?_) ?_) ?_) ?_
  · exact relTerm_ld_apply X WS W x0 x1 x2 0 _ _ 0 rfl e p h0 h1 h2 d
  · exact relTerm_ld_apply X WS W x0 x1 x2 1 _ _ 1 rfl e p h0 h1 h2 d
  · exact relTerm_ld_apply X WS W x0 x1 x2 2 _ _ 2 rfl e p h0 h1 h2 d
  · exact relTerm_ld_apply X WS W x0 x1 x2 3 _ _ 3 rfl e p h0 h1 h2 d

/-- Where the grid's point t places each window's block: the three row-tiled windows at row block t, the weight slabs
    whole at every point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- Row p of the feature block at point t is row 4096 t + p of the feature array. -/
theorem iblk0_0_apply (c : Dev nD) (t : Fin cfg0.N) (p : Fin 4096) (k : Fin 128) (e : Fin 200704)
    (he : e.val = t.val * 4096 + p.val) :
    (iblk0 V c 0 t : Vec Ideal S4096x128 .bf16) (ix2 p k) = V c main_v53 (ix2 e k) := by
  obtain ⟨e0, e1, -⟩ := idx_facts0 t
  unfold iblk0
  rw [View.read_apply]
  show V c main_v53 _ = V c main_v53 _
  refine congrArg (V c main_v53) ?_
  funext a
  apply Fin.ext
  match a with
  | ⟨0, _⟩ => show win0_0.index t (0 : Fin 2) * 4096 + 1 * p.val = e.val; omega
  | ⟨1, _⟩ => show win0_0.index t (1 : Fin 2) * 128 + 1 * k.val = k.val; omega

/-- Row p of the weight block at point t is row 4096 t + p of the weight array. -/
theorem iblk0_1_apply (c : Dev nD) (t : Fin cfg0.N) (p : Fin 4096) (r : Fin 4) (e : Fin 200704)
    (he : e.val = t.val * 4096 + p.val) :
    (iblk0 V c 1 t : Vec Ideal S4096x4 .f32) (ix2 p r) = V c main_v41 (ix2 e r) := by
  obtain ⟨-, -, e2, e3, -⟩ := idx_facts0 t
  unfold iblk0
  rw [View.read_apply]
  show V c main_v41 _ = V c main_v41 _
  refine congrArg (V c main_v41) ?_
  funext a
  apply Fin.ext
  match a with
  | ⟨0, _⟩ => show win0_1.index t (0 : Fin 2) * 4096 + 1 * p.val = e.val; omega
  | ⟨1, _⟩ => show win0_1.index t (1 : Fin 2) * 4 + 1 * r.val = r.val; omega

/-- The matrices' block at every point is the whole array of the four matrices. -/
theorem iblk0_2_apply (c : Dev nD) (t : Fin cfg0.N) (r : Fin 4) (k d : Fin 128) :
    (iblk0 V c 2 t : Vec Ideal S4x128x128 .bf16) (ix3 r k d) = V c main_v42 (ix3 r k d) := by
  obtain ⟨-, -, -, -, e4, e5, e6, -⟩ := idx_facts0 t
  unfold iblk0
  rw [View.read_apply]
  show V c main_v42 _ = V c main_v42 _
  refine congrArg (V c main_v42) ?_
  funext a
  apply Fin.ext
  match a with
  | ⟨0, _⟩ => show win0_2.index t (0 : Fin 3) * 4 + 1 * r.val = r.val; omega
  | ⟨1, _⟩ => show win0_2.index t (1 : Fin 3) * 128 + 1 * k.val = k.val; omega
  | ⟨2, _⟩ => show win0_2.index t (2 : Fin 3) * 128 + 1 * d.val = d.val; omega

/-- The whole output array the region leaves: at row e and column d the relation-weighted message of edge row e. -/
abbrev msg0 (c : Dev nD) : S200704x128.Idx → Elt Ideal .bf16 := fun i =>
  Cert.Spec.relMsg (n := 200704) (fun e k => V c main_v53 (ix2 e k)) (fun e r => V c main_v41 (ix2 e r))
    (fun r k d => V c main_v42 (ix3 r k d)) (i 0) (i 1)

set_option maxHeartbeats 400000 in
/-- What point t writes back is block t of that array. -/
theorem flushed0_eq (c : Dev nD) (t : Fin cfg0.N) :
    (dat0 V c).flushed 3 t = ((cfg0.win 3).blk t).view.read (Elt Ideal) (msg0 V c) := by
  have hN : t.val < 49 := Nat.lt_of_lt_of_eq t.isLt N_0
  obtain ⟨-, -, -, -, -, -, -, e7, e8⟩ := idx_facts0 t
  show (cfg0.win 3).cut (grid0.coords t) ((dat0 V c).after 3 t) = _
  rw [after0_3]
  funext j
  obtain ⟨p, q, rfl⟩ : ∃ (p : Fin 4096) (q : Fin 128), j = ix2 p q := ⟨j 0, j 1, eq_ix2 j⟩
  have hrow : t.val * 4096 + p.val < 200704 := by have := p.isLt; omega
  show out0_3 (iblk0 V c 0 t) (iblk0 V c 1 t) (iblk0 V c 2 t) (ix2 p q) = msg0 V c (((cfg0.win 3).blk t).view.emb (ix2 p q))
  have hemb : ((cfg0.win 3).blk t).view.emb (ix2 p q) = ix2 (⟨t.val * 4096 + p.val, hrow⟩ : Fin 200704) q := by
    funext a
    apply Fin.ext
    match a with
    | ⟨0, _⟩ => show win0_3.index t (0 : Fin 2) * 4096 + 1 * p.val = t.val * 4096 + p.val; omega
    | ⟨1, _⟩ => show win0_3.index t (1 : Fin 2) * 128 + 1 * q.val = q.val; omega
  rw [hemb]
  exact out0_3_block (fun e k => V c main_v53 (ix2 e k)) (fun e r => V c main_v41 (ix2 e r)) (fun r k d => V c main_v42 (ix3 r k d))
    (iblk0 V c 0 t) (iblk0 V c 1 t) (iblk0 V c 2 t) ⟨t.val * 4096 + p.val, hrow⟩ p
    (fun k => iblk0_0_apply V c t p k _ rfl) (fun r => iblk0_1_apply V c t p r _ rfl) (fun r k d => iblk0_2_apply V c t r k d) q

/-- An index of the output array is in point t's block iff each coordinate is in the block's range on its axis. -/
theorem mem_blk0 (t : Fin cfg0.N) (i : S200704x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v54).slice (win0_3.rect t)).set ↔ _
  rw [View.set_slice_whole, Rect.mem_set_unit]
  exact Iff.rfl

/-- Every index of the output array is in the block of the point its row falls in: 200704 = 49 x 4096. -/
theorem cover0 (i : S200704x128.Idx) :
    ∃ t : Fin cfg0.N, (cfg0.win 3).flush t = true ∧ i ∈ ((cfg0.win 3).blk t).view.set := by
  have hi0 : (i 0).val < 200704 := (i 0).isLt
  have hi1 : (i 1).val < 128 := (i 1).isLt
  have hN : cfg0.N = 49 := N_0
  have ht : (i 0).val / 4096 < cfg0.N := by rw [hN]; omega
  obtain ⟨-, -, -, -, -, -, -, e7, e8⟩ := idx_facts0 ⟨(i 0).val / 4096, ht⟩
  refine ⟨⟨(i 0).val / 4096, ht⟩, flush0_3 _, ?_⟩
  rw [mem_blk0]
  intro a
  match a with
  | ⟨0, _⟩ =>
    show win0_3.index ⟨(i 0).val / 4096, ht⟩ (0 : Fin 2) * 4096 ≤ (i 0).val ∧ (i 0).val < win0_3.index ⟨(i 0).val / 4096, ht⟩ (0 : Fin 2) * 4096 + 4096
    rw [e7]
    show (i 0).val / 4096 * 4096 ≤ (i 0).val ∧ (i 0).val < (i 0).val / 4096 * 4096 + 4096
    omega
  | ⟨1, _⟩ =>
    show win0_3.index ⟨(i 0).val / 4096, ht⟩ (1 : Fin 2) * 128 ≤ (i 1).val ∧ (i 1).val < win0_3.index ⟨(i 0).val / 4096, ht⟩ (1 : Fin 2) * 128 + 128
    rw [e8]
    omega

/-- So the output array ends holding the message array. -/
theorem final0_arr (c : Dev nD) : (dat0 V c).arrAt 3 cfg0.N = msg0 V c :=
  (dat0 V c).arrAt_eq_of_cover 3 (msg0 V c) (fun t _ => flushed0_eq V c t) (cover0)

/-- Read at row e and column d. -/
theorem final0 (c : Dev nD) (e : Fin 200704) (d : Fin 128) :
    (Gen.dat0 (F := Ideal) V c).arrAt 3 cfg0.N (ValueIdx.ix2 e d)
      = Cert.Spec.relMsg (fun e k => V c main_v53 (ValueIdx.ix2 e k)) (fun e r => V c main_v41 (ValueIdx.ix2 e r))
          (fun r k d => V c main_v42 (ValueIdx.ix3 r k d)) e d :=
  congrFun (final0_arr V c) (ix2 e d)

end Cert.KernelIdeal.Hand
end
-- ==== Proof.Region1.lean ====
/-
  What layer 2's edge-tile region leaves in its output array, as one function of the arrays it reads.

  The region runs over 49 row blocks of 4096 edge rows (49 x 4096 = 200704). At block t its body sees rows
  4096 t … 4096 t + 4095 of the gathered feature array main_v70 and of the per-relation weight array main_v41, and the
  whole array main_v43 of the four relations' 128 x 128 matrices, and writes rows 4096 t … 4096 t + 4095 of main_v71.
  The tile it writes is, at row p and column d, the zero accumulator plus, for relations 0, 1, 2, 3 in order, the product
  of feature row p with the relation's matrix at column d times row p's weight for that relation. Since row p of block t
  is row e = 4096 t + p of the arrays, the tile is block t of the array whose entry (e, d) is the relation-weighted
  message of edge row e; the 49 blocks cover every row, so the output array ends as that array.
-/
import proofs.«120788_j77403900608956_2_alg».proof.Proof.Gen.KernelIdeal.Frame
import proofs.«120788_j77403900608956_2_alg».proof.Proof.Spec
import proofs.«120788_j77403900608956_2_alg».proof.Proof.LibDenseRows
import proofs.«120788_j77403900608956_2_alg».proof.Proof.LibColumnLayout
import proofs.«120788_j77403900608956_2_alg».proof.Proof.RegionBody
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx
open scoped BigOperators

variable (V : (c : Dev nD) → (b : Ref sig .tc) → Buf (Elt Ideal) ((c : Thread nD τ).loc b))

theorem hz1 : (![0, 0] : Fin 2 → Nat) = fun _ => 0 := funext fun a => by fin_cases a <;> rfl

set_option maxHeartbeats 400000 in
/-- The tile the body leaves, read at row p and column d, when the tile's rows are rows of the arrays X and WS (row p
    being row e) and its matrices are W: the zero accumulator plus the four relations' shares in order, which is the
    relation-weighted message of edge e. -/
theorem out1_3_block (X : Fin 200704 → Fin 128 → EReal) (WS : Fin 200704 → Fin 4 → EReal) (W : Fin 4 → Fin 128 → Fin 128 → EReal)
    (x0 : Vec Ideal S4096x128 .bf16) (x1 : Vec Ideal S4096x4 .f32) (x2 : Vec Ideal S4x128x128 .bf16) (e : Fin 200704) (p : Fin 4096)
    (h0 : ∀ k, x0 (ix2 p k) = X e k) (h1 : ∀ r, x1 (ix2 p r) = WS e r) (h2 : ∀ r k d, x2 (ix3 r k d) = W r k d) (d : Fin 128) :
    out1_3 (F := Ideal) x0 x1 x2 (ix2 p d) = Cert.Spec.relMsg X WS W e d := by
  unfold out1_3
  rw [View.canon_unit_zero hz1]
  simp only [View.ld_unit_zero (S := S4096x128) hz1]
  show (((Ideal.ofBits .f32 0x00000000#32 + relTerm x0 (View.ld x2 r1_1) (View.ld x1 r1_2) (ix2 p d))
      + relTerm x0 (View.ld x2 r1_3) (View.ld x1 r1_4) (ix2 p d))
      + relTerm x0 (View.ld x2 r1_5) (View.ld x1 r1_6) (ix2 p d))
      + relTerm x0 (View.ld x2 r1_7) (View.ld x1 r1_8) (ix2 p d) = _
  unfold Cert.Spec.relMsg
  refine congrArg₂ (· + ·) (congrArg₂ (· + ·) (congrArg₂ (· + ·) (congrArg₂ (· + ·) Ideal.ofBits_zero_f32 ?_) ?_) ?_) ?_
  · exact relTerm_ld_apply X WS W x0 x1 x2 0 _ _ 0 rfl e p h0 h1 h2 d
  · exact relTerm_ld_apply X WS W x0 x1 x2 1 _ _ 1 rfl e p h0 h1 h2 d
  · exact relTerm_ld_apply X WS W x0 x1 x2 2 _ _ 2 rfl e p h0 h1 h2 d
  · exact relTerm_ld_apply X WS W x0 x1 x2 3 _ _ 3 rfl e p h0 h1 h2 d

/-- Where the grid's point t places each window's block: the three row-tiled windows at row block t, the weight slabs
    whole at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 3) = 0 ∧ win1_2.index t (1 : Fin 3) = 0 ∧ win1_2.index t (2 : Fin 3) = 0
    ∧ win1_3.index t (0 : Fin 2) = t.val ∧ win1_3.index t (1 : Fin 2) = 0 :=
  (by decide +kernel : ∀ t : Fin grid1.N, _)

/-- Row p of the feature block at point t is row 4096 t + p of the feature array. -/
theorem iblk1_0_apply (c : Dev nD) (t : Fin cfg1.N) (p : Fin 4096) (k : Fin 128) (e : Fin 200704)
    (he : e.val = t.val * 4096 + p.val) :
    (iblk1 V c 0 t : Vec Ideal S4096x128 .bf16) (ix2 p k) = V c main_v70 (ix2 e k) := by
  obtain ⟨e0, e1, -⟩ := idx_facts1 t
  unfold iblk1
  rw [View.read_apply]
  show V c main_v70 _ = V c main_v70 _
  refine congrArg (V c main_v70) ?_
  funext a
  apply Fin.ext
  match a with
  | ⟨0, _⟩ => show win1_0.index t (0 : Fin 2) * 4096 + 1 * p.val = e.val; omega
  | ⟨1, _⟩ => show win1_0.index t (1 : Fin 2) * 128 + 1 * k.val = k.val; omega

/-- Row p of the weight block at point t is row 4096 t + p of the weight array. -/
theorem iblk1_1_apply (c : Dev nD) (t : Fin cfg1.N) (p : Fin 4096) (r : Fin 4) (e : Fin 200704)
    (he : e.val = t.val * 4096 + p.val) :
    (iblk1 V c 1 t : Vec Ideal S4096x4 .f32) (ix2 p r) = V c main_v41 (ix2 e r) := by
  obtain ⟨-, -, e2, e3, -⟩ := idx_facts1 t
  unfold iblk1
  rw [View.read_apply]
  show V c main_v41 _ = V c main_v41 _
  refine congrArg (V c main_v41) ?_
  funext a
  apply Fin.ext
  match a with
  | ⟨0, _⟩ => show win1_1.index t (0 : Fin 2) * 4096 + 1 * p.val = e.val; omega
  | ⟨1, _⟩ => show win1_1.index t (1 : Fin 2) * 4 + 1 * r.val = r.val; omega

/-- The matrices' block at every point is the whole array of the four matrices. -/
theorem iblk1_2_apply (c : Dev nD) (t : Fin cfg1.N) (r : Fin 4) (k d : Fin 128) :
    (iblk1 V c 2 t : Vec Ideal S4x128x128 .bf16) (ix3 r k d) = V c main_v43 (ix3 r k d) := by
  obtain ⟨-, -, -, -, e4, e5, e6, -⟩ := idx_facts1 t
  unfold iblk1
  rw [View.read_apply]
  show V c main_v43 _ = V c main_v43 _
  refine congrArg (V c main_v43) ?_
  funext a
  apply Fin.ext
  match a with
  | ⟨0, _⟩ => show win1_2.index t (0 : Fin 3) * 4 + 1 * r.val = r.val; omega
  | ⟨1, _⟩ => show win1_2.index t (1 : Fin 3) * 128 + 1 * k.val = k.val; omega
  | ⟨2, _⟩ => show win1_2.index t (2 : Fin 3) * 128 + 1 * d.val = d.val; omega

/-- The whole output array the region leaves: at row e and column d the relation-weighted message of edge row e. -/
abbrev msg1 (c : Dev nD) : S200704x128.Idx → Elt Ideal .bf16 := fun i =>
  Cert.Spec.relMsg (n := 200704) (fun e k => V c main_v70 (ix2 e k)) (fun e r => V c main_v41 (ix2 e r))
    (fun r k d => V c main_v43 (ix3 r k d)) (i 0) (i 1)

set_option maxHeartbeats 400000 in
/-- What point t writes back is block t of that array. -/
theorem flushed1_eq (c : Dev nD) (t : Fin cfg1.N) :
    (dat1 V c).flushed 3 t = ((cfg1.win 3).blk t).view.read (Elt Ideal) (msg1 V c) := by
  have hN : t.val < 49 := Nat.lt_of_lt_of_eq t.isLt N_1
  obtain ⟨-, -, -, -, -, -, -, e7, e8⟩ := idx_facts1 t
  show (cfg1.win 3).cut (grid1.coords t) ((dat1 V c).after 3 t) = _
  rw [after1_3]
  funext j
  obtain ⟨p, q, rfl⟩ : ∃ (p : Fin 4096) (q : Fin 128), j = ix2 p q := ⟨j 0, j 1, eq_ix2 j⟩
  have hrow : t.val * 4096 + p.val < 200704 := by have := p.isLt; omega
  show out1_3 (iblk1 V c 0 t) (iblk1 V c 1 t) (iblk1 V c 2 t) (ix2 p q) = msg1 V c (((cfg1.win 3).blk t).view.emb (ix2 p q))
  have hemb : ((cfg1.win 3).blk t).view.emb (ix2 p q) = ix2 (⟨t.val * 4096 + p.val, hrow⟩ : Fin 200704) q := by
    funext a
    apply Fin.ext
    match a with
    | ⟨0, _⟩ => show win1_3.index t (0 : Fin 2) * 4096 + 1 * p.val = t.val * 4096 + p.val; omega
    | ⟨1, _⟩ => show win1_3.index t (1 : Fin 2) * 128 + 1 * q.val = q.val; omega
  rw [hemb]
  exact out1_3_block (fun e k => V c main_v70 (ix2 e k)) (fun e r => V c main_v41 (ix2 e r)) (fun r k d => V c main_v43 (ix3 r k d))
    (iblk1 V c 0 t) (iblk1 V c 1 t) (iblk1 V c 2 t) ⟨t.val * 4096 + p.val, hrow⟩ p
    (fun k => iblk1_0_apply V c t p k _ rfl) (fun r => iblk1_1_apply V c t p r _ rfl) (fun r k d => iblk1_2_apply V c t r k d) q

/-- An index of the output array is in point t's block iff each coordinate is in the block's range on its axis. -/
theorem mem_blk1 (t : Fin cfg1.N) (i : S200704x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v71).slice (win1_3.rect t)).set ↔ _
  rw [View.set_slice_whole, Rect.mem_set_unit]
  exact Iff.rfl

/-- Every index of the output array is in the block of the point its row falls in: 200704 = 49 x 4096. -/
theorem cover1 (i : S200704x128.Idx) :
    ∃ t : Fin cfg1.N, (cfg1.win 3).flush t = true ∧ i ∈ ((cfg1.win 3).blk t).view.set := by
  have hi0 : (i 0).val < 200704 := (i 0).isLt
  have hi1 : (i 1).val < 128 := (i 1).isLt
  have hN : cfg1.N = 49 := N_1
  have ht : (i 0).val / 4096 < cfg1.N := by rw [hN]; omega
  obtain ⟨-, -, -, -, -, -, -, e7, e8⟩ := idx_facts1 ⟨(i 0).val / 4096, ht⟩
  refine ⟨⟨(i 0).val / 4096, ht⟩, flush1_3 _, ?_⟩
  rw [mem_blk1]
  intro a
  match a with
  | ⟨0, _⟩ =>
    show win1_3.index ⟨(i 0).val / 4096, ht⟩ (0 : Fin 2) * 4096 ≤ (i 0).val ∧ (i 0).val < win1_3.index ⟨(i 0).val / 4096, ht⟩ (0 : Fin 2) * 4096 + 4096
    rw [e7]
    show (i 0).val / 4096 * 4096 ≤ (i 0).val ∧ (i 0).val < (i 0).val / 4096 * 4096 + 4096
    omega
  | ⟨1, _⟩ =>
    show win1_3.index ⟨(i 0).val / 4096, ht⟩ (1 : Fin 2) * 128 ≤ (i 1).val ∧ (i 1).val < win1_3.index ⟨(i 0).val / 4096, ht⟩ (1 : Fin 2) * 128 + 128
    rw [e8]
    omega

/-- So the output array ends holding the message array. -/
theorem final1_arr (c : Dev nD) : (dat1 V c).arrAt 3 cfg1.N = msg1 V c :=
  (dat1 V c).arrAt_eq_of_cover 3 (msg1 V c) (fun t _ => flushed1_eq V c t) (cover1)

/-- Read at row e and column d. -/
theorem final1 (c : Dev nD) (e : Fin 200704) (d : Fin 128) :
    (Gen.dat1 (F := Ideal) V c).arrAt 3 cfg1.N (ValueIdx.ix2 e d)
      = Cert.Spec.relMsg (fun e k => V c main_v70 (ValueIdx.ix2 e k)) (fun e r => V c main_v41 (ValueIdx.ix2 e r))
          (fun r k d => V c main_v43 (ValueIdx.ix3 r k d)) e d :=
  congrFun (final1_arr V c) (ix2 e d)

end Cert.KernelIdeal.Hand
end
-- ==== Proof.Region2.lean ====
/-
  What layer 3's edge-tile region leaves in its output array, as one function of the arrays it reads.

  The region runs over 49 row blocks of 4096 edge rows (49 x 4096 = 200704). At block t its body sees rows
  4096 t … 4096 t + 4095 of the gathered feature array main_v87 and of the per-relation weight array main_v41, and the
  whole array main_v44 of the four relations' 128 x 128 matrices, and writes rows 4096 t … 4096 t + 4095 of main_v88.
  The tile it writes is, at row p and column d, the zero accumulator plus, for relations 0, 1, 2, 3 in order, the product
  of feature row p with the relation's matrix at column d times row p's weight for that relation. Since row p of block t
  is row e = 4096 t + p of the arrays, the tile is block t of the array whose entry (e, d) is the relation-weighted
  message of edge row e; the 49 blocks cover every row, so the output array ends as that array.
-/
import proofs.«120788_j77403900608956_2_alg».proof.Proof.Gen.KernelIdeal.Frame
import proofs.«120788_j77403900608956_2_alg».proof.Proof.Spec
import proofs.«120788_j77403900608956_2_alg».proof.Proof.LibDenseRows
import proofs.«120788_j77403900608956_2_alg».proof.Proof.LibColumnLayout
import proofs.«120788_j77403900608956_2_alg».proof.Proof.RegionBody
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

set_option maxHeartbeats 400000 in
/-- The tile the body leaves, read at row p and column d, when the tile's rows are rows of the arrays X and WS (row p
    being row e) and its matrices are W: the zero accumulator plus the four relations' shares in order, which is the
    relation-weighted message of edge e. -/
theorem out2_3_block (X : Fin 200704 → Fin 128 → EReal) (WS : Fin 200704 → Fin 4 → EReal) (W : Fin 4 → Fin 128 → Fin 128 → EReal)
    (x0 : Vec Ideal S4096x128 .bf16) (x1 : Vec Ideal S4096x4 .f32) (x2 : Vec Ideal S4x128x128 .bf16) (e : Fin 200704) (p : Fin 4096)
    (h0 : ∀ k, x0 (ix2 p k) = X e k) (h1 : ∀ r, x1 (ix2 p r) = WS e r) (h2 : ∀ r k d, x2 (ix3 r k d) = W r k d) (d : Fin 128) :
    out2_3 (F := Ideal) x0 x1 x2 (ix2 p d) = Cert.Spec.relMsg X WS W e d := by
  unfold out2_3
  rw [View.canon_unit_zero hz2]
  simp only [View.ld_unit_zero (S := S4096x128) hz2]
  show (((Ideal.ofBits .f32 0x00000000#32 + relTerm x0 (View.ld x2 r2_1) (View.ld x1 r2_2) (ix2 p d))
      + relTerm x0 (View.ld x2 r2_3) (View.ld x1 r2_4) (ix2 p d))
      + relTerm x0 (View.ld x2 r2_5) (View.ld x1 r2_6) (ix2 p d))
      + relTerm x0 (View.ld x2 r2_7) (View.ld x1 r2_8) (ix2 p d) = _
  unfold Cert.Spec.relMsg
  refine congrArg₂ (· + ·) (congrArg₂ (· + ·) (congrArg₂ (· + ·) (congrArg₂ (· + ·) Ideal.ofBits_zero_f32 ?_) ?_) ?_) ?_
  · exact relTerm_ld_apply X WS W x0 x1 x2 0 _ _ 0 rfl e p h0 h1 h2 d
  · exact relTerm_ld_apply X WS W x0 x1 x2 1 _ _ 1 rfl e p h0 h1 h2 d
  · exact relTerm_ld_apply X WS W x0 x1 x2 2 _ _ 2 rfl e p h0 h1 h2 d
  · exact relTerm_ld_apply X WS W x0 x1 x2 3 _ _ 3 rfl e p h0 h1 h2 d

/-- Where the grid's point t places each window's block: the three row-tiled windows at row block t, the weight slabs
    whole at every point. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 3) = 0 ∧ win2_2.index t (1 : Fin 3) = 0 ∧ win2_2.index t (2 : Fin 3) = 0
    ∧ win2_3.index t (0 : Fin 2) = t.val ∧ win2_3.index t (1 : Fin 2) = 0 :=
  (by decide +kernel : ∀ t : Fin grid2.N, _)

/-- Row p of the feature block at point t is row 4096 t + p of the feature array. -/
theorem iblk2_0_apply (c : Dev nD) (t : Fin cfg2.N) (p : Fin 4096) (k : Fin 128) (e : Fin 200704)
    (he : e.val = t.val * 4096 + p.val) :
    (iblk2 V c 0 t : Vec Ideal S4096x128 .bf16) (ix2 p k) = V c main_v87 (ix2 e k) := by
  obtain ⟨e0, e1, -⟩ := idx_facts2 t
  unfold iblk2
  rw [View.read_apply]
  show V c main_v87 _ = V c main_v87 _
  refine congrArg (V c main_v87) ?_
  funext a
  apply Fin.ext
  match a with
  | ⟨0, _⟩ => show win2_0.index t (0 : Fin 2) * 4096 + 1 * p.val = e.val; omega
  | ⟨1, _⟩ => show win2_0.index t (1 : Fin 2) * 128 + 1 * k.val = k.val; omega

/-- Row p of the weight block at point t is row 4096 t + p of the weight array. -/
theorem iblk2_1_apply (c : Dev nD) (t : Fin cfg2.N) (p : Fin 4096) (r : Fin 4) (e : Fin 200704)
    (he : e.val = t.val * 4096 + p.val) :
    (iblk2 V c 1 t : Vec Ideal S4096x4 .f32) (ix2 p r) = V c main_v41 (ix2 e r) := by
  obtain ⟨-, -, e2, e3, -⟩ := idx_facts2 t
  unfold iblk2
  rw [View.read_apply]
  show V c main_v41 _ = V c main_v41 _
  refine congrArg (V c main_v41) ?_
  funext a
  apply Fin.ext
  match a with
  | ⟨0, _⟩ => show win2_1.index t (0 : Fin 2) * 4096 + 1 * p.val = e.val; omega
  | ⟨1, _⟩ => show win2_1.index t (1 : Fin 2) * 4 + 1 * r.val = r.val; omega

/-- The matrices' block at every point is the whole array of the four matrices. -/
theorem iblk2_2_apply (c : Dev nD) (t : Fin cfg2.N) (r : Fin 4) (k d : Fin 128) :
    (iblk2 V c 2 t : Vec Ideal S4x128x128 .bf16) (ix3 r k d) = V c main_v44 (ix3 r k d) := by
  obtain ⟨-, -, -, -, e4, e5, e6, -⟩ := idx_facts2 t
  unfold iblk2
  rw [View.read_apply]
  show V c main_v44 _ = V c main_v44 _
  refine congrArg (V c main_v44) ?_
  funext a
  apply Fin.ext
  match a with
  | ⟨0, _⟩ => show win2_2.index t (0 : Fin 3) * 4 + 1 * r.val = r.val; omega
  | ⟨1, _⟩ => show win2_2.index t (1 : Fin 3) * 128 + 1 * k.val = k.val; omega
  | ⟨2, _⟩ => show win2_2.index t (2 : Fin 3) * 128 + 1 * d.val = d.val; omega

/-- The whole output array the region leaves: at row e and column d the relation-weighted message of edge row e. -/
abbrev msg2 (c : Dev nD) : S200704x128.Idx → Elt Ideal .bf16 := fun i =>
  Cert.Spec.relMsg (n := 200704) (fun e k => V c main_v87 (ix2 e k)) (fun e r => V c main_v41 (ix2 e r))
    (fun r k d => V c main_v44 (ix3 r k d)) (i 0) (i 1)

set_option maxHeartbeats 400000 in
/-- What point t writes back is block t of that array. -/
theorem flushed2_eq (c : Dev nD) (t : Fin cfg2.N) :
    (dat2 V c).flushed 3 t = ((cfg2.win 3).blk t).view.read (Elt Ideal) (msg2 V c) := by
  have hN : t.val < 49 := Nat.lt_of_lt_of_eq t.isLt N_2
  obtain ⟨-, -, -, -, -, -, -, e7, e8⟩ := idx_facts2 t
  show (cfg2.win 3).cut (grid2.coords t) ((dat2 V c).after 3 t) = _
  rw [after2_3]
  funext j
  obtain ⟨p, q, rfl⟩ : ∃ (p : Fin 4096) (q : Fin 128), j = ix2 p q := ⟨j 0, j 1, eq_ix2 j⟩
  have hrow : t.val * 4096 + p.val < 200704 := by have := p.isLt; omega
  show out2_3 (iblk2 V c 0 t) (iblk2 V c 1 t) (iblk2 V c 2 t) (ix2 p q) = msg2 V c (((cfg2.win 3).blk t).view.emb (ix2 p q))
  have hemb : ((cfg2.win 3).blk t).view.emb (ix2 p q) = ix2 (⟨t.val * 4096 + p.val, hrow⟩ : Fin 200704) q := by
    funext a
    apply Fin.ext
    match a with
    | ⟨0, _⟩ => show win2_3.index t (0 : Fin 2) * 4096 + 1 * p.val = t.val * 4096 + p.val; omega
    | ⟨1, _⟩ => show win2_3.index t (1 : Fin 2) * 128 + 1 * q.val = q.val; omega
  rw [hemb]
  exact out2_3_block (fun e k => V c main_v87 (ix2 e k)) (fun e r => V c main_v41 (ix2 e r)) (fun r k d => V c main_v44 (ix3 r k d))
    (iblk2 V c 0 t) (iblk2 V c 1 t) (iblk2 V c 2 t) ⟨t.val * 4096 + p.val, hrow⟩ p
    (fun k => iblk2_0_apply V c t p k _ rfl) (fun r => iblk2_1_apply V c t p r _ rfl) (fun r k d => iblk2_2_apply V c t r k d) q

/-- An index of the output array is in point t's block iff each coordinate is in the block's range on its axis. -/
theorem mem_blk2 (t : Fin cfg2.N) (i : S200704x128.Idx) :
    i ∈ ((cfg2.win 3).blk t).view.set ↔ ∀ a : Fin 2, win2_3.index t a * S4096x128.size a ≤ (i a).val ∧ (i a).val < win2_3.index t a * S4096x128.size a + S4096x128.size a := by
  show i ∈ ((View.whole main_v88).slice (win2_3.rect t)).set ↔ _
  rw [View.set_slice_whole, Rect.mem_set_unit]
  exact Iff.rfl

/-- Every index of the output array is in the block of the point its row falls in: 200704 = 49 x 4096. -/
theorem cover2 (i : S200704x128.Idx) :
    ∃ t : Fin cfg2.N, (cfg2.win 3).flush t = true ∧ i ∈ ((cfg2.win 3).blk t).view.set := by
  have hi0 : (i 0).val < 200704 := (i 0).isLt
  have hi1 : (i 1).val < 128 := (i 1).isLt
  have hN : cfg2.N = 49 := N_2
  have ht : (i 0).val / 4096 < cfg2.N := by rw [hN]; omega
  obtain ⟨-, -, -, -, -, -, -, e7, e8⟩ := idx_facts2 ⟨(i 0).val / 4096, ht⟩
  refine ⟨⟨(i 0).val / 4096, ht⟩, flush2_3 _, ?_⟩
  rw [mem_blk2]
  intro a
  match a with
  | ⟨0, _⟩ =>
    show win2_3.index ⟨(i 0).val / 4096, ht⟩ (0 : Fin 2) * 4096 ≤ (i 0).val ∧ (i 0).val < win2_3.index ⟨(i 0).val / 4096, ht⟩ (0 : Fin 2) * 4096 + 4096
    rw [e7]
    show (i 0).val / 4096 * 4096 ≤ (i 0).val ∧ (i 0).val < (i 0).val / 4096 * 4096 + 4096
    omega
  | ⟨1, _⟩ =>
    show win2_3.index ⟨(i 0).val / 4096, ht⟩ (1 : Fin 2) * 128 ≤ (i 1).val ∧ (i 1).val < win2_3.index ⟨(i 0).val / 4096, ht⟩ (1 : Fin 2) * 128 + 128
    rw [e8]
    omega

/-- So the output array ends holding the message array. -/
theorem final2_arr (c : Dev nD) : (dat2 V c).arrAt 3 cfg2.N = msg2 V c :=
  (dat2 V c).arrAt_eq_of_cover 3 (msg2 V c) (fun t _ => flushed2_eq V c t) (cover2)

/-- Read at row e and column d. -/
theorem final2 (c : Dev nD) (e : Fin 200704) (d : Fin 128) :
    (Gen.dat2 (F := Ideal) V c).arrAt 3 cfg2.N (ValueIdx.ix2 e d)
      = Cert.Spec.relMsg (fun e k => V c main_v87 (ValueIdx.ix2 e k)) (fun e r => V c main_v41 (ValueIdx.ix2 e r))
          (fun r k d => V c main_v44 (ValueIdx.ix3 r k d)) e d :=
  congrFun (final2_arr V c) (ix2 e d)

end Cert.KernelIdeal.Hand
end
-- ==== Proof.KerValue.lean ====
/-
  THE KERNEL PROGRAM'S RESULT AS A FUNCTION OF ITS ARGUMENTS. The final contents of the buffers satisfy every host
  line of @main as an equation, and each region's output array is the message table of its three input arrays. Read
  in program order these equations say that every named buffer finally holds one stage of a graph-convolution layer
  applied to what earlier buffers hold: the edge list's two rows, the degree factor, the edge scale, the table of
  per-relation weights, the padded index vectors, the gathered source rows, the region's message table, the sum by
  target node plus the bias, the leaky rectifier — three layers in a row — and at the end the mean of the starting
  table and the three layers' outputs.
-/
import proofs.«120788_j77403900608956_2_alg».proof.Proof.KerLines
import proofs.«120788_j77403900608956_2_alg».proof.Proof.KerStage
import proofs.«120788_j77403900608956_2_alg».proof.Proof.Region0
import proofs.«120788_j77403900608956_2_alg».proof.Proof.Region1
import proofs.«120788_j77403900608956_2_alg».proof.Proof.Region2
import Idealize.ShloMosaic.Lib.ValueIdx

noncomputable section

namespace Cert.KernelIdeal.Hand

open Idealize.ShloMosaic Idealize.ShloMosaic.TcCoe
open Cert.KernelIdeal.Facts₀

/-! ## Lines of a module-local function

  A line of a module-local function names its buffers by references that carry the type of the value they hold; the
  line's function is stated at those types and moved to the buffers' own types along the carried equations. Read at
  the carried types — the result buffer's contents moved to the value's type — the line's equation has no transport
  around its function: only around the contents of the buffers it reads. -/

namespace Typed

open Idealize.ShloMosaic.StableHlo (TRef)

variable {τ : Topo} {sig : RefSig} {Val : EltTy → Type} {T Tx Ta Tb Tc Ty : BufTy}
variable {R : Valuation τ sig Val} {rest : List (HloOp τ sig Val)}

theorem ofBuf_toBuf (x : TRef sig T) (v : T.Contents Val) : x.ofBuf (x.toBuf v) = v := by
  unfold TRef.ofBuf TRef.toBuf; rw [cast_cast, cast_eq]

theorem toBuf_ofBuf (x : TRef sig T) (u : x.ref.ty.Contents Val) : x.toBuf (x.ofBuf u) = u := by
  unfold TRef.ofBuf TRef.toBuf; rw [cast_cast, cast_eq]

theorem iff (y : TRef sig Ty) (u : y.ref.ty.Contents Val) (v : Ty.Contents Val) : u = y.toBuf v ↔ y.ofBuf u = v :=
  ⟨fun h => by rw [h, ofBuf_toBuf], fun h => by rw [← h, toBuf_ofBuf]⟩

theorem eqs_nullary (y : TRef sig Ty) (v : Ty.Contents Val) :
    Cert.Ssa.Eqs R (TRef.nullary (τ := τ) y v :: rest)
      ↔ y.ofBuf (R (Proc.devRef (τ := τ) .tc y.ref)) = v ∧ Cert.Ssa.Eqs R rest :=
  (Cert.Ssa.eqs_nullary y.ref (y.toBuf v) (y.dev (τ := τ))).trans (and_congr_left' (iff y _ v))

theorem eqs_unary (x : TRef sig Tx) (y : TRef sig Ty) (f : Tx.Contents Val → Ty.Contents Val) :
    Cert.Ssa.Eqs R (TRef.unary (τ := τ) x y f :: rest)
      ↔ y.ofBuf (R (Proc.devRef (τ := τ) .tc y.ref)) = f (x.ofBuf (R (Proc.devRef (τ := τ) .tc x.ref))) ∧ Cert.Ssa.Eqs R rest :=
  (Cert.Ssa.eqs_unary x.ref y.ref (fun u => y.toBuf (f (x.ofBuf u))) (x.dev (τ := τ)) (y.dev (τ := τ))).trans
    (and_congr_left' (iff y _ (f (x.ofBuf (R (Proc.devRef (τ := τ) .tc x.ref))))))

theorem eqs_binary (a : TRef sig Ta) (b : TRef sig Tb) (y : TRef sig Ty) (f : Ta.Contents Val → Tb.Contents Val → Ty.Contents Val) :
    Cert.Ssa.Eqs R (TRef.binary (τ := τ) a b y f :: rest)
      ↔ y.ofBuf (R (Proc.devRef (τ := τ) .tc y.ref))
          = f (a.ofBuf (R (Proc.devRef (τ := τ) .tc a.ref))) (b.ofBuf (R (Proc.devRef (τ := τ) .tc b.ref))) ∧ Cert.Ssa.Eqs R rest :=
  (Cert.Ssa.eqs_binary a.ref b.ref y.ref (fun u v => y.toBuf (f (a.ofBuf u) (b.ofBuf v))) (a.dev (τ := τ)) (b.dev (τ := τ)) (y.dev (τ := τ))).trans
    (and_congr_left' (iff y _ (f (a.ofBuf (R (Proc.devRef (τ := τ) .tc a.ref))) (b.ofBuf (R (Proc.devRef (τ := τ) .tc b.ref))))))

theorem eqs_ternary (c : TRef sig Tc) (a : TRef sig Ta) (b : TRef sig Tb) (y : TRef sig Ty)
    (f : Tc.Contents Val → Ta.Contents Val → Tb.Contents Val → Ty.Contents Val) :
    Cert.Ssa.Eqs R (TRef.ternary (τ := τ) c a b y f :: rest)
      ↔ y.ofBuf (R (Proc.devRef (τ := τ) .tc y.ref))
          = f (c.ofBuf (R (Proc.devRef (τ := τ) .tc c.ref))) (a.ofBuf (R (Proc.devRef (τ := τ) .tc a.ref)))
              (b.ofBuf (R (Proc.devRef (τ := τ) .tc b.ref))) ∧ Cert.Ssa.Eqs R rest :=
  (Cert.Ssa.eqs_ternary a.ref b.ref c.ref y.ref (fun w u v => y.toBuf (f (c.ofBuf w) (a.ofBuf u) (b.ofBuf v)))
      (c.dev (τ := τ)) (a.dev (τ := τ)) (b.dev (τ := τ)) (y.dev (τ := τ))).trans
    (and_congr_left' (iff y _ (f (c.ofBuf (R (Proc.devRef (τ := τ) .tc c.ref))) (a.ofBuf (R (Proc.devRef (τ := τ) .tc a.ref)))
      (b.ofBuf (R (Proc.devRef (τ := τ) .tc b.ref))))))

end Typed

variable (m : (ℓ : Loc nD τ sig) → Buf (Elt Ideal) ℓ) (ρ : Dev nD → PrngReg) (c : Dev nD)

local notation "R" => Gen.W25 (F := Ideal) m ρ c

/-! ## What each named buffer finally holds -/

namespace Final

theorem r_v1 : R (Proc.devRef .tc main_v1) = Stage.row (R (Proc.devRef .tc main_arg0)) := by
  have h := eqs_hostOps0 m ρ c
  rw [Cert.Ssa.eqs_unary, Cert.Ssa.eqs_reshape] at h
  obtain ⟨h0, h1, -⟩ := h
  rw [h1, h0]
  generalize R (Proc.devRef .tc main_arg0) = x_arg0
  rfl

theorem r_v3 : R (Proc.devRef .tc main_v3) = Stage.col (R (Proc.devRef .tc main_arg0)) := by
  have h := eqs_hostOps0 m ρ c
  rw [Cert.Ssa.eqs_unary, Cert.Ssa.eqs_reshape, Cert.Ssa.eqs_unary, Cert.Ssa.eqs_reshape] at h
  obtain ⟨h0, h1, h2, h3, -⟩ := h
  rw [h3, h2]
  generalize R (Proc.devRef .tc main_arg0) = x_arg0
  rfl

theorem r_v7 : R (Proc.devRef .tc main_v7) = Stage.deg (R (Proc.devRef .tc main_arg0)) := by
  have h := eqs_hostOps0 m ρ c
  rw [Cert.Ssa.eqs_unary, Cert.Ssa.eqs_reshape, Cert.Ssa.eqs_unary, Cert.Ssa.eqs_reshape, Cert.Ssa.eqs_nullary, Cert.Ssa.eqs_unary, Cert.Ssa.eqs_nullary, Cert.Ssa.eqs_unary, Cert.Ssa.eqs_unary, Cert.Ssa.eqs_ternary] at h
  obtain ⟨h0, h1, h2, h3, h4, h5, h6, h7, h8, h9, -⟩ := h
  rw [h9, h7, h6, h8, r_v3 m ρ c, h5, h4]
  generalize R (Proc.devRef .tc main_arg0) = x_arg0
  rfl

theorem r_v9 : R (Proc.devRef .tc main_v9) = cmpf .ogt (Stage.deg (R (Proc.devRef .tc main_arg0))) (broadcastInDim S200000 ![] bcast_S_S200000 Stage.zeroF) := by
  have h := eqs_hostOps0 m ρ c
  rw [Cert.Ssa.eqs_unary, Cert.Ssa.eqs_reshape, Cert.Ssa.eqs_unary, Cert.Ssa.eqs_reshape, Cert.Ssa.eqs_nullary, Cert.Ssa.eqs_unary, Cert.Ssa.eqs_nullary, Cert.Ssa.eqs_unary, Cert.Ssa.eqs_unary, Cert.Ssa.eqs_ternary, Cert.Ssa.eqs_nullary, Cert.Ssa.eqs_unary, Cert.Ssa.eqs_binary] at h
  obtain ⟨h0, h1, h2, h3, h4, h5, h6, h7, h8, h9, h10, h11, h12, -⟩ := h
  rw [h12, r_v7 m ρ c, h11, h10]
  rfl

theorem r_v11 : R (Proc.devRef .tc main_v11) = cmpf .ogt (Stage.deg (R (Proc.devRef .tc main_arg0))) (broadcastInDim S200000 ![] bcast_S_S200000 Stage.zeroF) := by
  have h := eqs_hostOps0 m ρ c
  rw [Cert.Ssa.eqs_unary, Cert.Ssa.eqs_reshape, Cert.Ssa.eqs_unary, Cert.Ssa.eqs_reshape, Cert.Ssa.eqs_nullary, Cert.Ssa.eqs_unary, Cert.Ssa.eqs_nullary, Cert.Ssa.eqs_unary, Cert.Ssa.eqs_unary, Cert.Ssa.eqs_ternary, Cert.Ssa.eqs_nullary, Cert.Ssa.eqs_unary, Cert.Ssa.eqs_binary, Cert.Ssa.eqs_nullary, Cert.Ssa.eqs_unary, Cert.Ssa.eqs_binary] at h
  obtain ⟨h0, h1, h2, h3, h4, h5, h6, h7, h8, h9, h10, h11, h12, h13, h14, h15, -⟩ := h
  rw [h15, r_v7 m ρ c, h14, h13]
  rfl

theorem r_cst_3 : R (Proc.devRef .tc main_cst_3) = Stage.oneF := by
  have h := eqs_hostOps0 m ρ c
  rw [Cert.Ssa.eqs_unary, Cert.Ssa.eqs_reshape, Cert.Ssa.eqs_unary, Cert.Ssa.eqs_reshape, Cert.Ssa.eqs_nullary, Cert.Ssa.eqs_unary, Cert.Ssa.eqs_nullary, Cert.Ssa.eqs_unary, Cert.Ssa.eqs_unary, Cert.Ssa.eqs_ternary, Cert.Ssa.eqs_nullary, Cert.Ssa.eqs_unary, Cert.Ssa.eqs_binary, Cert.Ssa.eqs_nullary, Cert.Ssa.eqs_unary, Cert.Ssa.eqs_binary, Cert.Ssa.eqs_nullary] at h
  obtain ⟨h0, h1, h2, h3, h4, h5, h6, h7, h8, h9, h10, h11, h12, h13, h14, h15, h16, -⟩ := h
  rw [h16]
  rfl

theorem c_v12 : R (Proc.devRef .tc main_v12) = Stage.whereV (R (Proc.devRef .tc main_v11)) (R (Proc.devRef .tc main_v7)) (R (Proc.devRef .tc main_cst_3)) := by
  have h := eqs_hostOps0_1 m ρ c
  generalize Gen.W25 (F := Ideal) m ρ c = Rv at h ⊢
  rw [Typed.eqs_unary, Typed.eqs_unary, Typed.eqs_ternary] at h
  obtain ⟨g0, g1, g2, -⟩ := h
  refine Eq.trans g2 ?_
  rw [g1, g0]
  rfl

theorem r_v12 : R (Proc.devRef .tc main_v12) = Stage.whereV (cmpf .ogt (Stage.deg (R (Proc.devRef .tc main_arg0))) (broadcastInDim S200000 ![] bcast_S_S200000 Stage.zeroF)) (Stage.deg (R (Proc.devRef .tc main_arg0))) Stage.oneF := by
  rw [c_v12 m ρ c, r_v11 m ρ c, r_v7 m ρ c, r_cst_3 m ρ c]

theorem c_v14 : R (Proc.devRef .tc main_v14) = Stage.whereV (R (Proc.devRef .tc main_v9)) (R (Proc.devRef .tc main_v13)) (R (Proc.devRef .tc main_cst_4)) := by
  have h := eqs_hostOps0_3 m ρ c
  generalize Gen.W25 (F := Ideal) m ρ c = Rv at h ⊢
  rw [Typed.eqs_unary, Typed.eqs_unary, Typed.eqs_ternary] at h
  obtain ⟨g0, g1, g2, -⟩ := h
  refine Eq.trans g2 ?_
  rw [g1, g0]
  rfl

theorem r_v14 : R (Proc.devRef .tc main_v14) = Stage.dinv (R (Proc.devRef .tc main_arg0)) := by
  have h := eqs_hostOps0_2 m ρ c
  rw [Cert.Ssa.eqs_unary, Cert.Ssa.eqs_nullary] at h
  obtain ⟨k0, k1, -⟩ := h
  rw [c_v14 m ρ c, r_v9 m ρ c, k0, r_v12 m ρ c, k1]
  generalize R (Proc.devRef .tc main_arg0) = x_arg0
  rfl

theorem r_v19 : R (Proc.devRef .tc main_v19) = Stage.wrap (Stage.row (R (Proc.devRef .tc main_arg0))) := by
  have h := eqs_hostOps0_4 m ρ c
  rw [Cert.Ssa.eqs_nullary, Cert.Ssa.eqs_unary, Cert.Ssa.eqs_binary, Cert.Ssa.eqs_nullary, Cert.Ssa.eqs_unary, Cert.Ssa.eqs_binary, Cert.Ssa.eqs_ternary] at h
  obtain ⟨e0, e1, e2, e3, e4, e5, e6, -⟩ := h
  rw [e6, e2, e1, e0, e5, e4, e3, r_v1 m ρ c]
  generalize R (Proc.devRef .tc main_arg0) = x_arg0
  rfl

theorem r_v26 : R (Proc.devRef .tc main_v26) = Stage.wrap (Stage.col (R (Proc.devRef .tc main_arg0))) := by
  have h := eqs_hostOps0_4 m ρ c
  rw [Cert.Ssa.eqs_nullary, Cert.Ssa.eqs_unary, Cert.Ssa.eqs_binary, Cert.Ssa.eqs_nullary, Cert.Ssa.eqs_unary, Cert.Ssa.eqs_binary, Cert.Ssa.eqs_ternary, Cert.Ssa.eqs_unary, Cert.Ssa.eqs_binary, Cert.Ssa.eqs_nullary, Cert.Ssa.eqs_unary, Cert.Ssa.eqs_binary, Cert.Ssa.eqs_nullary, Cert.Ssa.eqs_unary, Cert.Ssa.eqs_binary, Cert.Ssa.eqs_ternary] at h
  obtain ⟨e0, e1, e2, e3, e4, e5, e6, e7, e8, e9, e10, e11, e12, e13, e14, e15, -⟩ := h
  rw [e15, e11, e10, e9, e14, e13, e12, r_v3 m ρ c]
  generalize R (Proc.devRef .tc main_arg0) = x_arg0
  rfl

theorem r_v29 : R (Proc.devRef .tc main_v29) = Stage.norm (R (Proc.devRef .tc main_arg0)) := by
  have h := eqs_hostOps0_4 m ρ c
  rw [Cert.Ssa.eqs_nullary, Cert.Ssa.eqs_unary, Cert.Ssa.eqs_binary, Cert.Ssa.eqs_nullary, Cert.Ssa.eqs_unary, Cert.Ssa.eqs_binary, Cert.Ssa.eqs_ternary, Cert.Ssa.eqs_unary, Cert.Ssa.eqs_binary, Cert.Ssa.eqs_nullary, Cert.Ssa.eqs_unary, Cert.Ssa.eqs_binary, Cert.Ssa.eqs_nullary, Cert.Ssa.eqs_unary, Cert.Ssa.eqs_binary, Cert.Ssa.eqs_ternary, Cert.Ssa.eqs_unary, Cert.Ssa.eqs_binary, Cert.Ssa.eqs_binary] at h
  obtain ⟨e0, e1, e2, e3, e4, e5, e6, e7, e8, e9, e10, e11, e12, e13, e14, e15, e16, e17, e18, -⟩ := h
  rw [e18, e8, e7, r_v19 m ρ c, e17, e16, r_v26 m ρ c, r_v14 m ρ c]
  generalize R (Proc.devRef .tc main_arg0) = x_arg0
  rfl

theorem r_v30 : R (Proc.devRef .tc main_v30) = Stage.scale (R (Proc.devRef .tc main_arg0)) (R (Proc.devRef .tc main_arg2)) := by
  have h := eqs_hostOps0_4 m ρ c
  rw [Cert.Ssa.eqs_nullary, Cert.Ssa.eqs_unary, Cert.Ssa.eqs_binary, Cert.Ssa.eqs_nullary, Cert.Ssa.eqs_unary, Cert.Ssa.eqs_binary, Cert.Ssa.eqs_ternary, Cert.Ssa.eqs_unary, Cert.Ssa.eqs_binary, Cert.Ssa.eqs_nullary, Cert.Ssa.eqs_unary, Cert.Ssa.eqs_binary, Cert.Ssa.eqs_nullary, Cert.Ssa.eqs_unary, Cert.Ssa.eqs_binary, Cert.Ssa.eqs_ternary, Cert.Ssa.eqs_unary, Cert.Ssa.eqs_binary, Cert.Ssa.eqs_binary, Cert.Ssa.eqs_binary] at h
  obtain ⟨e0, e1, e2, e3, e4, e5, e6, e7, e8, e9, e10, e11, e12, e13, e14, e15, e16, e17, e18, e19, -⟩ := h
  rw [e19, r_v29 m ρ c]
  rfl

theorem c_v38 : R (Proc.devRef .tc main_v38)
    = select (R (Proc.devRef .tc main_v36) : IVec S200000x4 1)
        (broadcastInDim S200000x4 ![0, 1] bcast_S200000x1_S200000x4_0_1 (R (Proc.devRef .tc main_v37) : FVec Ideal S200000x1 .f32))
        (broadcastInDim S200000x4 ![] bcast_S_S200000x4 (id (R (Proc.devRef .tc main_cst_8) : FVec Ideal S_ .f32))) := by
  have h := eqs_hostOps0_5 m ρ c
  generalize Gen.W25 (F := Ideal) m ρ c = Rv at h ⊢
  rw [Typed.eqs_unary, Typed.eqs_unary, Typed.eqs_unary, Typed.eqs_ternary] at h
  obtain ⟨g0, g1, g2, g3, -⟩ := h
  refine Eq.trans g3 ?_
  rw [g1, g2, g0]
  rfl

theorem r_v38 : R (Proc.devRef .tc main_v38) = Stage.wscale (R (Proc.devRef .tc main_arg1)) (R (Proc.devRef .tc main_v30)) := by
  have h := eqs_hostOps0_4 m ρ c
  rw [Cert.Ssa.eqs_nullary, Cert.Ssa.eqs_unary, Cert.Ssa.eqs_binary, Cert.Ssa.eqs_nullary, Cert.Ssa.eqs_unary, Cert.Ssa.eqs_binary, Cert.Ssa.eqs_ternary, Cert.Ssa.eqs_unary, Cert.Ssa.eqs_binary, Cert.Ssa.eqs_nullary, Cert.Ssa.eqs_unary, Cert.Ssa.eqs_binary, Cert.Ssa.eqs_nullary, Cert.Ssa.eqs_unary, Cert.Ssa.eqs_binary, Cert.Ssa.eqs_ternary, Cert.Ssa.eqs_unary, Cert.Ssa.eqs_binary, Cert.Ssa.eqs_binary, Cert.Ssa.eqs_binary, Cert.Ssa.eqs_nullary, Cert.Ssa.eqs_unary, Cert.Ssa.eqs_unary, Cert.Ssa.eqs_unary, Cert.Ssa.eqs_unary, Cert.Ssa.eqs_binary, Cert.Ssa.eqs_unary, Cert.Ssa.eqs_nullary] at h
  obtain ⟨e0, e1, e2, e3, e4, e5, e6, e7, e8, e9, e10, e11, e12, e13, e14, e15, e16, e17, e18, e19, e20, e21, e22, e23, e24, e25, e26, e27, -⟩ := h
  rw [c_v38 m ρ c, e25, e23, e21, e24, e22, e20, e26, e27]
  generalize R (Proc.devRef .tc main_arg1) = x_arg1
  generalize R (Proc.devRef .tc main_v30) = x_v30
  rfl

theorem r_v39 : R (Proc.devRef .tc main_v39) = Stage.padI (R (Proc.devRef .tc main_v1)) := by
  have h := eqs_hostOps0_6 m ρ c
  rw [Cert.Ssa.eqs_nullary] at h
  obtain ⟨k0, -⟩ := h
  have h := eqs_hostOps0_7 m ρ c
  rw [Cert.Ssa.eqs_unary, Cert.Ssa.eqs_binary] at h
  obtain ⟨g0, g1, -⟩ := h
  rw [g1, g0, k0]
  generalize R (Proc.devRef .tc main_v1) = x_v1
  rfl

theorem r_v40 : R (Proc.devRef .tc main_v40) = Stage.padI (R (Proc.devRef .tc main_v3)) := by
  have h := eqs_hostOps0_8 m ρ c
  rw [Cert.Ssa.eqs_nullary] at h
  obtain ⟨k0, -⟩ := h
  have h := eqs_hostOps0_9 m ρ c
  rw [Cert.Ssa.eqs_unary, Cert.Ssa.eqs_binary] at h
  obtain ⟨g0, g1, -⟩ := h
  rw [g1, g0, k0]
  generalize R (Proc.devRef .tc main_v3) = x_v3
  rfl

theorem r_v41 : R (Proc.devRef .tc main_v41) = Stage.wsP (R (Proc.devRef .tc main_arg1)) (R (Proc.devRef .tc main_v30)) := by
  have h := eqs_hostOps0_10 m ρ c
  rw [Cert.Ssa.eqs_nullary] at h
  obtain ⟨k0, -⟩ := h
  have h := eqs_hostOps0_11 m ρ c
  rw [Cert.Ssa.eqs_unary, Cert.Ssa.eqs_binary] at h
  obtain ⟨g0, g1, -⟩ := h
  rw [g1, g0, k0, r_v38 m ρ c]
  generalize R (Proc.devRef .tc main_arg1) = x_arg1
  generalize R (Proc.devRef .tc main_v30) = x_v30
  rfl

theorem r_v42 : R (Proc.devRef .tc main_v42) = Stage.Wb (R (Proc.devRef .tc main_arg3)) := by
  have h := eqs_hostOps0_12 m ρ c
  rw [Cert.Ssa.eqs_unary] at h
  obtain ⟨j0, -⟩ := h
  rw [j0]
  rfl

theorem r_v43 : R (Proc.devRef .tc main_v43) = Stage.Wb (R (Proc.devRef .tc main_arg5)) := by
  have h := eqs_hostOps0_12 m ρ c
  rw [Cert.Ssa.eqs_unary, Cert.Ssa.eqs_unary] at h
  obtain ⟨j0, j1, -⟩ := h
  rw [j1]
  rfl

theorem r_v44 : R (Proc.devRef .tc main_v44) = Stage.Wb (R (Proc.devRef .tc main_arg7)) := by
  have h := eqs_hostOps0_12 m ρ c
  rw [Cert.Ssa.eqs_unary, Cert.Ssa.eqs_unary, Cert.Ssa.eqs_unary] at h
  obtain ⟨j0, j1, j2, -⟩ := h
  rw [j2]
  rfl

theorem r_v45 : R (Proc.devRef .tc main_v45) = Stage.x0 := by
  have h := eqs_hostOps0_12 m ρ c
  rw [Cert.Ssa.eqs_unary, Cert.Ssa.eqs_unary, Cert.Ssa.eqs_unary, Cert.Ssa.eqs_nullary, Cert.Ssa.eqs_unary] at h
  obtain ⟨j0, j1, j2, j3, j4, -⟩ := h
  rw [j4, j3]
  rfl

theorem r_v46 : R (Proc.devRef .tc main_v46) = Stage.xb0 := by
  have h := eqs_hostOps0_12 m ρ c
  rw [Cert.Ssa.eqs_unary, Cert.Ssa.eqs_unary, Cert.Ssa.eqs_unary, Cert.Ssa.eqs_nullary, Cert.Ssa.eqs_unary, Cert.Ssa.eqs_nullary, Cert.Ssa.eqs_unary] at h
  obtain ⟨j0, j1, j2, j3, j4, j5, j6, -⟩ := h
  rw [j6, j5]
  rfl

theorem r_v53 : R (Proc.devRef .tc main_v53) = Stage.xrP (R (Proc.devRef .tc main_v46)) (R (Proc.devRef .tc main_arg0)) := by
  have h := eqs_hostOps0_12 m ρ c
  rw [Cert.Ssa.eqs_unary, Cert.Ssa.eqs_unary, Cert.Ssa.eqs_unary, Cert.Ssa.eqs_nullary, Cert.Ssa.eqs_unary, Cert.Ssa.eqs_nullary, Cert.Ssa.eqs_unary, Cert.Ssa.eqs_nullary, Cert.Ssa.eqs_unary, Cert.Ssa.eqs_binary, Cert.Ssa.eqs_nullary, Cert.Ssa.eqs_unary, Cert.Ssa.eqs_binary, Cert.Ssa.eqs_ternary, Cert.Ssa.eqs_unary, Cert.Ssa.eqs_binary] at h
  obtain ⟨j0, j1, j2, j3, j4, j5, j6, j7, j8, j9, j10, j11, j12, j13, j14, j15, -⟩ := h
  rw [j15, j14, j13, j9, j8, j7, j12, j11, j10, r_v39 m ρ c, r_v1 m ρ c]
  generalize R (Proc.devRef .tc main_v46) = x_v46
  generalize R (Proc.devRef .tc main_arg0) = x_arg0
  rfl

theorem r_v54 : R (Proc.devRef .tc main_v54) = Stage.regionFn (R (Proc.devRef .tc main_v53)) (R (Proc.devRef .tc main_v41)) (R (Proc.devRef .tc main_v42)) := by
  funext j
  obtain ⟨e, d, rfl⟩ : ∃ (e : Fin 200704) (d : Fin 128), j = ValueIdx.ix2 e d := ⟨j 0, j 1, ValueIdx.eq_ix2 j⟩
  rw [out0 m ρ c, final0 (Gen.V13 m ρ) c e d, in0_53 m ρ c, in0_41 m ρ c, in0_42 m ρ c]
  generalize R (Proc.devRef .tc main_v53) = x_v53
  generalize R (Proc.devRef .tc main_v41) = x_v41
  generalize R (Proc.devRef .tc main_v42) = x_v42
  rfl

theorem r_v61 : R (Proc.devRef .tc main_v61) = Stage.pre (R (Proc.devRef .tc main_arg0)) (R (Proc.devRef .tc main_arg4)) (R (Proc.devRef .tc main_v54)) := by
  have h := eqs_hostOps1 m ρ c
  rw [Cert.Ssa.eqs_unary, Cert.Ssa.eqs_nullary, Cert.Ssa.eqs_unary, Cert.Ssa.eqs_unary, Cert.Ssa.eqs_ternary, Cert.Ssa.eqs_unary, Cert.Ssa.eqs_unary, Cert.Ssa.eqs_binary] at h
  obtain ⟨l0, l1, l2, l3, l4, l5, l6, l7, -⟩ := h
  rw [l7, l4, l2, l1, l3, r_v40 m ρ c, r_v3 m ρ c, l0, l6, l5]
  generalize R (Proc.devRef .tc main_arg0) = x_arg0
  generalize R (Proc.devRef .tc main_arg4) = x_arg4
  generalize R (Proc.devRef .tc main_v54) = x_v54
  rfl

theorem c_v62 : (R (Proc.devRef .tc main_v62) : Stage.NMat)
    = select (cmpf .oge (R (Proc.devRef .tc main_v61) : Stage.NMat) (broadcastInDim S200000x128 ![] bcast_S_S200000x128 (constant (F := Ideal) S_ .f32 0x00000000#32)))
        (R (Proc.devRef .tc main_v61) : Stage.NMat)
        (mulf (broadcastInDim S200000x128 ![] bcast_S_S200000x128 (id (R (Proc.devRef .tc main_cst_17) : FVec Ideal S_ .f32)) : Stage.NMat) (R (Proc.devRef .tc main_v61) : Stage.NMat)) := by
  have h := eqs_hostOps1_1 m ρ c
  generalize Gen.W25 (F := Ideal) m ρ c = Rv at h ⊢
  rw [Typed.eqs_nullary, Typed.eqs_unary, Typed.eqs_binary, Typed.eqs_unary, Typed.eqs_unary, Typed.eqs_binary, Typed.eqs_ternary] at h
  obtain ⟨g0, g1, g2, g3, g4, g5, g6, -⟩ := h
  refine Eq.trans g6 ?_
  rw [g2, g1, g0, g5, g4, g3]
  rfl

theorem r_v62 : R (Proc.devRef .tc main_v62) = Stage.leaky (R (Proc.devRef .tc main_v61)) := by
  have h := eqs_hostOps1 m ρ c
  rw [Cert.Ssa.eqs_unary, Cert.Ssa.eqs_nullary, Cert.Ssa.eqs_unary, Cert.Ssa.eqs_unary, Cert.Ssa.eqs_ternary, Cert.Ssa.eqs_unary, Cert.Ssa.eqs_unary, Cert.Ssa.eqs_binary, Cert.Ssa.eqs_nullary] at h
  obtain ⟨l0, l1, l2, l3, l4, l5, l6, l7, l8, -⟩ := h
  rw [c_v62 m ρ c, l8]
  generalize R (Proc.devRef .tc main_v61) = x_v61
  rfl

theorem r_v63 : R (Proc.devRef .tc main_v63) = Stage.next (R (Proc.devRef .tc main_v62)) := by
  have h := eqs_hostOps1_2 m ρ c
  rw [Cert.Ssa.eqs_unary] at h
  obtain ⟨n0, -⟩ := h
  rw [n0]
  rfl

theorem r_v70 : R (Proc.devRef .tc main_v70) = Stage.xrP (R (Proc.devRef .tc main_v63)) (R (Proc.devRef .tc main_arg0)) := by
  have h := eqs_hostOps1_2 m ρ c
  rw [Cert.Ssa.eqs_unary, Cert.Ssa.eqs_nullary, Cert.Ssa.eqs_unary, Cert.Ssa.eqs_binary, Cert.Ssa.eqs_nullary, Cert.Ssa.eqs_unary, Cert.Ssa.eqs_binary, Cert.Ssa.eqs_ternary, Cert.Ssa.eqs_unary, Cert.Ssa.eqs_binary] at h
  obtain ⟨n0, n1, n2, n3, n4, n5, n6, n7, n8, n9, -⟩ := h
  rw [n9, n8, n7, n3, n2, n1, n6, n5, n4, r_v39 m ρ c, r_v1 m ρ c]
  generalize R (Proc.devRef .tc main_v63) = x_v63
  generalize R (Proc.devRef .tc main_arg0) = x_arg0
  rfl

theorem r_v71 : R (Proc.devRef .tc main_v71) = Stage.regionFn (R (Proc.devRef .tc main_v70)) (R (Proc.devRef .tc main_v41)) (R (Proc.devRef .tc main_v43)) := by
  funext j
  obtain ⟨e, d, rfl⟩ : ∃ (e : Fin 200704) (d : Fin 128), j = ValueIdx.ix2 e d := ⟨j 0, j 1, ValueIdx.eq_ix2 j⟩
  rw [out1 m ρ c, final1 (Gen.V17 m ρ) c e d, in1_70 m ρ c, in1_41 m ρ c, in1_43 m ρ c]
  generalize R (Proc.devRef .tc main_v70) = x_v70
  generalize R (Proc.devRef .tc main_v41) = x_v41
  generalize R (Proc.devRef .tc main_v43) = x_v43
  rfl

theorem r_v78 : R (Proc.devRef .tc main_v78) = Stage.pre (R (Proc.devRef .tc main_arg0)) (R (Proc.devRef .tc main_arg6)) (R (Proc.devRef .tc main_v71)) := by
  have h := eqs_hostOps2 m ρ c
  rw [Cert.Ssa.eqs_unary, Cert.Ssa.eqs_nullary, Cert.Ssa.eqs_unary, Cert.Ssa.eqs_unary, Cert.Ssa.eqs_ternary, Cert.Ssa.eqs_unary, Cert.Ssa.eqs_unary, Cert.Ssa.eqs_binary] at h
  obtain ⟨l0, l1, l2, l3, l4, l5, l6, l7, -⟩ := h
  rw [l7, l4, l2, l1, l3, r_v40 m ρ c, r_v3 m ρ c, l0, l6, l5]
  generalize R (Proc.devRef .tc main_arg0) = x_arg0
  generalize R (Proc.devRef .tc main_arg6) = x_arg6
  generalize R (Proc.devRef .tc main_v71) = x_v71
  rfl

theorem c_v79 : (R (Proc.devRef .tc main_v79) : Stage.NMat)
    = select (cmpf .oge (R (Proc.devRef .tc main_v78) : Stage.NMat) (broadcastInDim S200000x128 ![] bcast_S_S200000x128 (constant (F := Ideal) S_ .f32 0x00000000#32)))
        (R (Proc.devRef .tc main_v78) : Stage.NMat)
        (mulf (broadcastInDim S200000x128 ![] bcast_S_S200000x128 (id (R (Proc.devRef .tc main_cst_21) : FVec Ideal S_ .f32)) : Stage.NMat) (R (Proc.devRef .tc main_v78) : Stage.NMat)) := by
  have h := eqs_hostOps2_1 m ρ c
  generalize Gen.W25 (F := Ideal) m ρ c = Rv at h ⊢
  rw [Typed.eqs_nullary, Typed.eqs_unary, Typed.eqs_binary, Typed.eqs_unary, Typed.eqs_unary, Typed.eqs_binary, Typed.eqs_ternary] at h
  obtain ⟨g0, g1, g2, g3, g4, g5, g6, -⟩ := h
  refine Eq.trans g6 ?_
  rw [g2, g1, g0, g5, g4, g3]
  rfl

theorem r_v79 : R (Proc.devRef .tc main_v79) = Stage.leaky (R (Proc.devRef .tc main_v78)) := by
  have h := eqs_hostOps2 m ρ c
  rw [Cert.Ssa.eqs_unary, Cert.Ssa.eqs_nullary, Cert.Ssa.eqs_unary, Cert.Ssa.eqs_unary, Cert.Ssa.eqs_ternary, Cert.Ssa.eqs_unary, Cert.Ssa.eqs_unary, Cert.Ssa.eqs_binary, Cert.Ssa.eqs_nullary] at h
  obtain ⟨l0, l1, l2, l3, l4, l5, l6, l7, l8, -⟩ := h
  rw [c_v79 m ρ c, l8]
  generalize R (Proc.devRef .tc main_v78) = x_v78
  rfl

theorem r_v80 : R (Proc.devRef .tc main_v80) = Stage.next (R (Proc.devRef .tc main_v79)) := by
  have h := eqs_hostOps2_2 m ρ c
  rw [Cert.Ssa.eqs_unary] at h
  obtain ⟨n0, -⟩ := h
  rw [n0]
  rfl

theorem r_v87 : R (Proc.devRef .tc main_v87) = Stage.xrP (R (Proc.devRef .tc main_v80)) (R (Proc.devRef .tc main_arg0)) := by
  have h := eqs_hostOps2_2 m ρ c
  rw [Cert.Ssa.eqs_unary, Cert.Ssa.eqs_nullary, Cert.Ssa.eqs_unary, Cert.Ssa.eqs_binary, Cert.Ssa.eqs_nullary, Cert.Ssa.eqs_unary, Cert.Ssa.eqs_binary, Cert.Ssa.eqs_ternary, Cert.Ssa.eqs_unary, Cert.Ssa.eqs_binary] at h
  obtain ⟨n0, n1, n2, n3, n4, n5, n6, n7, n8, n9, -⟩ := h
  rw [n9, n8, n7, n3, n2, n1, n6, n5, n4, r_v39 m ρ c, r_v1 m ρ c]
  generalize R (Proc.devRef .tc main_v80) = x_v80
  generalize R (Proc.devRef .tc main_arg0) = x_arg0
  rfl

theorem r_v88 : R (Proc.devRef .tc main_v88) = Stage.regionFn (R (Proc.devRef .tc main_v87)) (R (Proc.devRef .tc main_v41)) (R (Proc.devRef .tc main_v44)) := by
  funext j
  obtain ⟨e, d, rfl⟩ : ∃ (e : Fin 200704) (d : Fin 128), j = ValueIdx.ix2 e d := ⟨j 0, j 1, ValueIdx.eq_ix2 j⟩
  rw [out2 m ρ c, final2 (Gen.V21 m ρ) c e d, in2_87 m ρ c, in2_41 m ρ c, in2_44 m ρ c]
  generalize R (Proc.devRef .tc main_v87) = x_v87
  generalize R (Proc.devRef .tc main_v41) = x_v41
  generalize R (Proc.devRef .tc main_v44) = x_v44
  rfl

theorem r_v95 : R (Proc.devRef .tc main_v95) = Stage.pre (R (Proc.devRef .tc main_arg0)) (R (Proc.devRef .tc main_arg8)) (R (Proc.devRef .tc main_v88)) := by
  have h := eqs_hostOps3 m ρ c
  rw [Cert.Ssa.eqs_unary, Cert.Ssa.eqs_nullary, Cert.Ssa.eqs_unary, Cert.Ssa.eqs_unary, Cert.Ssa.eqs_ternary, Cert.Ssa.eqs_unary, Cert.Ssa.eqs_unary, Cert.Ssa.eqs_binary] at h
  obtain ⟨l0, l1, l2, l3, l4, l5, l6, l7, -⟩ := h
  rw [l7, l4, l2, l1, l3, r_v40 m ρ c, r_v3 m ρ c, l0, l6, l5]
  generalize R (Proc.devRef .tc main_arg0) = x_arg0
  generalize R (Proc.devRef .tc main_arg8) = x_arg8
  generalize R (Proc.devRef .tc main_v88) = x_v88
  rfl

theorem c_v96 : (R (Proc.devRef .tc main_v96) : Stage.NMat)
    = select (cmpf .oge (R (Proc.devRef .tc main_v95) : Stage.NMat) (broadcastInDim S200000x128 ![] bcast_S_S200000x128 (constant (F := Ideal) S_ .f32 0x00000000#32)))
        (R (Proc.devRef .tc main_v95) : Stage.NMat)
        (mulf (broadcastInDim S200000x128 ![] bcast_S_S200000x128 (id (R (Proc.devRef .tc main_cst_25) : FVec Ideal S_ .f32)) : Stage.NMat) (R (Proc.devRef .tc main_v95) : Stage.NMat)) := by
  have h := eqs_hostOps3_1 m ρ c
  generalize Gen.W25 (F := Ideal) m ρ c = Rv at h ⊢
  rw [Typed.eqs_nullary, Typed.eqs_unary, Typed.eqs_binary, Typed.eqs_unary, Typed.eqs_unary, Typed.eqs_binary, Typed.eqs_ternary] at h
  obtain ⟨g0, g1, g2, g3, g4, g5, g6, -⟩ := h
  refine Eq.trans g6 ?_
  rw [g2, g1, g0, g5, g4, g3]
  rfl

theorem r_v96 : R (Proc.devRef .tc main_v96) = Stage.leaky (R (Proc.devRef .tc main_v95)) := by
  have h := eqs_hostOps3 m ρ c
  rw [Cert.Ssa.eqs_unary, Cert.Ssa.eqs_nullary, Cert.Ssa.eqs_unary, Cert.Ssa.eqs_unary, Cert.Ssa.eqs_ternary, Cert.Ssa.eqs_unary, Cert.Ssa.eqs_unary, Cert.Ssa.eqs_binary, Cert.Ssa.eqs_nullary] at h
  obtain ⟨l0, l1, l2, l3, l4, l5, l6, l7, l8, -⟩ := h
  rw [c_v96 m ρ c, l8]
  generalize R (Proc.devRef .tc main_v95) = x_v95
  rfl

theorem r_v102 : R (Proc.devRef .tc main_v102) = Stage.out (R (Proc.devRef .tc main_v62)) (R (Proc.devRef .tc main_v79)) (R (Proc.devRef .tc main_v96)) := by
  have h := eqs_hostOps3_2 m ρ c
  rw [Cert.Ssa.eqs_unary, Cert.Ssa.eqs_binary, Cert.Ssa.eqs_binary, Cert.Ssa.eqs_binary, Cert.Ssa.eqs_nullary, Cert.Ssa.eqs_unary, Cert.Ssa.eqs_binary] at h
  obtain ⟨o0, o1, o2, o3, o4, o5, o6, -⟩ := h
  rw [o6, o3, o2, o1, r_v45 m ρ c, o5, o4]
  generalize R (Proc.devRef .tc main_v62) = x_v62
  generalize R (Proc.devRef .tc main_v79) = x_v79
  generalize R (Proc.devRef .tc main_v96) = x_v96
  rfl

theorem r_z1 : R (Proc.devRef .tc main_v62) = Stage.layer Stage.xb0 (R (Proc.devRef .tc main_arg0)) (R (Proc.devRef .tc main_arg1)) (R (Proc.devRef .tc main_arg2)) (R (Proc.devRef .tc main_arg3)) (R (Proc.devRef .tc main_arg4)) := by
  rw [r_v62 m ρ c, r_v61 m ρ c, r_v54 m ρ c, r_v53 m ρ c, r_v46 m ρ c, r_v41 m ρ c, r_v30 m ρ c, r_v42 m ρ c]
  rfl

theorem r_z2 : R (Proc.devRef .tc main_v79) = Stage.layer (Stage.next (R (Proc.devRef .tc main_v62))) (R (Proc.devRef .tc main_arg0)) (R (Proc.devRef .tc main_arg1)) (R (Proc.devRef .tc main_arg2)) (R (Proc.devRef .tc main_arg5)) (R (Proc.devRef .tc main_arg6)) := by
  rw [r_v79 m ρ c, r_v78 m ρ c, r_v71 m ρ c, r_v70 m ρ c, r_v63 m ρ c, r_v41 m ρ c, r_v30 m ρ c, r_v43 m ρ c]
  rfl

theorem r_z3 : R (Proc.devRef .tc main_v96) = Stage.layer (Stage.next (R (Proc.devRef .tc main_v79))) (R (Proc.devRef .tc main_arg0)) (R (Proc.devRef .tc main_arg1)) (R (Proc.devRef .tc main_arg2)) (R (Proc.devRef .tc main_arg7)) (R (Proc.devRef .tc main_arg8)) := by
  rw [r_v96 m ρ c, r_v95 m ρ c, r_v88 m ρ c, r_v87 m ρ c, r_v80 m ρ c, r_v41 m ρ c, r_v30 m ρ c, r_v44 m ρ c]
  rfl

end Final

/-- The result buffer finally holds the mean of the starting table and the three layers' outputs, each layer a function
    of the previous layer's output and the program's arguments as launched. -/
theorem value (m : (ℓ : Loc nD τ sig) → Buf (Elt Ideal) ℓ) (ρ : Dev nD → PrngReg) (c : Dev nD) :
    Gen.W25 (F := Ideal) m ρ c (Proc.devRef .tc main_v102)
      = Stage.out (Stage.layer Stage.xb0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (Stage.layer (Stage.next (Stage.layer Stage.xb0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)))
          (Stage.layer (Stage.next (Stage.layer (Stage.next (Stage.layer Stage.xb0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)))) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8))) := by
  rw [Final.r_v102 m ρ c, Final.r_z3 m ρ c, Final.r_z2 m ρ c, Final.r_z1 m ρ c, Gen.W25_main_arg0 m ρ c, Gen.W25_main_arg1 m ρ c, Gen.W25_main_arg2 m ρ c, Gen.W25_main_arg3 m ρ c, Gen.W25_main_arg4 m ρ c, Gen.W25_main_arg5 m ρ c, Gen.W25_main_arg6 m ρ c, Gen.W25_main_arg7 m ρ c, Gen.W25_main_arg8 m ρ c]

end Cert.KernelIdeal.Hand

end
-- ==== Proof.RefLines.lean ====
/-
  THE REFERENCE PROGRAM'S LINES AS EQUATIONS. Contents R of the buffers that are a fixed point of every operation
  of a window of the line satisfy, per result buffer of the window, the printed line read as an equation: R at the
  buffer is the operation's function of R at its operands' buffers. A callee's line is stated at the buffers of its
  call, its function at the types of the values it is applied to. What the whole line leaves is such a fixed point
  of every window.
-/
import proofs.«120788_j77403900608956_2_alg».proof.Proof.RefSsa

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A fixed point of every operation of a line is one of every operation of each of its tails. -/
theorem eqs_drop {R : Valuation τ sig (Elt F)} :
    ∀ (l : List (HloOp τ sig (Elt F))) (n : Nat), Cert.Ssa.Eqs R l → Cert.Ssa.Eqs R (l.drop n)
  | _, 0, h => h
  | [], _ + 1, _ => trivial
  | _ :: l, n + 1, h => eqs_drop l n h.2

theorem eqsT0 (V : Valuation τ sig (Elt F)) : Cert.Ssa.Eqs (after ops V) (ops0 ++ (ops1 ++ (ops2 ++ (ops3 ++ (ops4 ++ (ops5)))))) := eqs V
/-- What the whole line leaves is a fixed point of every operation of window 0. -/
theorem eqsW0 (V : Valuation τ sig (Elt F)) : Cert.Ssa.Eqs (after ops V) (ops0 (F := F)) :=
  ((Cert.Ssa.eqs_append _ _ _).mp (eqsT0 V)).1
theorem eqsT1 (V : Valuation τ sig (Elt F)) : Cert.Ssa.Eqs (after ops V) (ops1 ++ (ops2 ++ (ops3 ++ (ops4 ++ (ops5))))) :=
  ((Cert.Ssa.eqs_append _ _ _).mp (eqsT0 V)).2
/-- What the whole line leaves is a fixed point of every operation of window 1. -/
theorem eqsW1 (V : Valuation τ sig (Elt F)) : Cert.Ssa.Eqs (after ops V) (ops1 (F := F)) :=
  ((Cert.Ssa.eqs_append _ _ _).mp (eqsT1 V)).1
theorem eqsT2 (V : Valuation τ sig (Elt F)) : Cert.Ssa.Eqs (after ops V) (ops2 ++ (ops3 ++ (ops4 ++ (ops5)))) :=
  ((Cert.Ssa.eqs_append _ _ _).mp (eqsT1 V)).2
/-- What the whole line leaves is a fixed point of every operation of window 2. -/
theorem eqsW2 (V : Valuation τ sig (Elt F)) : Cert.Ssa.Eqs (after ops V) (ops2 (F := F)) :=
  ((Cert.Ssa.eqs_append _ _ _).mp (eqsT2 V)).1
theorem eqsT3 (V : Valuation τ sig (Elt F)) : Cert.Ssa.Eqs (after ops V) (ops3 ++ (ops4 ++ (ops5))) :=
  ((Cert.Ssa.eqs_append _ _ _).mp (eqsT2 V)).2
/-- What the whole line leaves is a fixed point of every operation of window 3. -/
theorem eqsW3 (V : Valuation τ sig (Elt F)) : Cert.Ssa.Eqs (after ops V) (ops3 (F := F)) :=
  ((Cert.Ssa.eqs_append _ _ _).mp (eqsT3 V)).1
theorem eqsT4 (V : Valuation τ sig (Elt F)) : Cert.Ssa.Eqs (after ops V) (ops4 ++ (ops5)) :=
  ((Cert.Ssa.eqs_append _ _ _).mp (eqsT3 V)).2
/-- What the whole line leaves is a fixed point of every operation of window 4. -/
theorem eqsW4 (V : Valuation τ sig (Elt F)) : Cert.Ssa.Eqs (after ops V) (ops4 (F := F)) :=
  ((Cert.Ssa.eqs_append _ _ _).mp (eqsT4 V)).1
theorem eqsT5 (V : Valuation τ sig (Elt F)) : Cert.Ssa.Eqs (after ops V) (ops5) :=
  ((Cert.Ssa.eqs_append _ _ _).mp (eqsT4 V)).2
/-- What the whole line leaves is a fixed point of every operation of window 5. -/
theorem eqsW5 (V : Valuation τ sig (Elt F)) : Cert.Ssa.Eqs (after ops V) (ops5 (F := F)) := eqsT5 V

variable {R : Valuation τ sig (Elt F)}

theorem line_main_v0 (h : Cert.Ssa.Eqs R (ops0 (F := F))) :
    R (Proc.devRef (τ := τ) .tc main_v0) = ((extractStridedSlice S1x200000 ![0, 0] · slices_S2x200000_S1x200000_0_0) : (⟨S2x200000, .i32⟩ : BufTy).Contents (Elt F) → (⟨S1x200000, .i32⟩ : BufTy).Contents (Elt F)) (R (Proc.devRef (τ := τ) .tc main_arg0)) :=
  ((Cert.Ssa.eqs_unary _ _ _ _ _).mp (eqs_drop _ 0 h)).1

theorem line_main_v1 (h : Cert.Ssa.Eqs R (ops0 (F := F))) :
    R (Proc.devRef (τ := τ) .tc main_v1) = (shapeCast S200000 (R (Proc.devRef (τ := τ) .tc main_v0) : (⟨S1x200000, .i32⟩ : BufTy).Contents (Elt F)) shapeCasts_S1x200000_S200000 : (⟨S200000, .i32⟩ : BufTy).Contents (Elt F)) :=
  ((Cert.Ssa.eqs_reshape _ _ _ _ _ _).mp (eqs_drop _ 1 h)).1

theorem line_main_v2 (h : Cert.Ssa.Eqs R (ops0 (F := F))) :
    R (Proc.devRef (τ := τ) .tc main_v2) = ((extractStridedSlice S1x200000 ![1, 0] · slices_S2x200000_S1x200000_1_0) : (⟨S2x200000, .i32⟩ : BufTy).Contents (Elt F) → (⟨S1x200000, .i32⟩ : BufTy).Contents (Elt F)) (R (Proc.devRef (τ := τ) .tc main_arg0)) :=
  ((Cert.Ssa.eqs_unary _ _ _ _ _).mp (eqs_drop _ 2 h)).1

theorem line_main_v3 (h : Cert.Ssa.Eqs R (ops0 (F := F))) :
    R (Proc.devRef (τ := τ) .tc main_v3) = (shapeCast S200000 (R (Proc.devRef (τ := τ) .tc main_v2) : (⟨S1x200000, .i32⟩ : BufTy).Contents (Elt F)) shapeCasts_S1x200000_S200000 : (⟨S200000, .i32⟩ : BufTy).Contents (Elt F)) :=
  ((Cert.Ssa.eqs_reshape _ _ _ _ _ _).mp (eqs_drop _ 3 h)).1

theorem line_main_cst (h : Cert.Ssa.Eqs R (ops0 (F := F))) :
    R (Proc.devRef (τ := τ) .tc main_cst) = (constant S_ .f32 0x3F800000#32 : (⟨S_, .f32⟩ : BufTy).Contents (Elt F)) :=
  ((Cert.Ssa.eqs_nullary _ _ _).mp (eqs_drop _ 4 h)).1

theorem line_main_v4 (h : Cert.Ssa.Eqs R (ops0 (F := F))) :
    R (Proc.devRef (τ := τ) .tc main_v4) = (broadcastInDim S200000x128 ![] bcast_S_S200000x128 : (⟨S_, .f32⟩ : BufTy).Contents (Elt F) → (⟨S200000x128, .f32⟩ : BufTy).Contents (Elt F)) (R (Proc.devRef (τ := τ) .tc main_cst)) :=
  ((Cert.Ssa.eqs_unary _ _ _ _ _).mp (eqs_drop _ 5 h)).1

theorem line_main_cst_0 (h : Cert.Ssa.Eqs R (ops0 (F := F))) :
    R (Proc.devRef (τ := τ) .tc main_cst_0) = (constant S_ .f32 0x3F800000#32 : (⟨S_, .f32⟩ : BufTy).Contents (Elt F)) :=
  ((Cert.Ssa.eqs_nullary _ _ _).mp (eqs_drop _ 6 h)).1

theorem line_main_v5 (h : Cert.Ssa.Eqs R (ops0 (F := F))) :
    R (Proc.devRef (τ := τ) .tc main_v5) = (broadcastInDim S200000 ![] bcast_S_S200000 : (⟨S_, .f32⟩ : BufTy).Contents (Elt F) → (⟨S200000, .f32⟩ : BufTy).Contents (Elt F)) (R (Proc.devRef (τ := τ) .tc main_cst_0)) :=
  ((Cert.Ssa.eqs_unary _ _ _ _ _).mp (eqs_drop _ 7 h)).1

theorem line_main_cst_1 (h : Cert.Ssa.Eqs R (ops0 (F := F))) :
    R (Proc.devRef (τ := τ) .tc main_cst_1) = (constant S_ .f32 0x00000000#32 : (⟨S_, .f32⟩ : BufTy).Contents (Elt F)) :=
  ((Cert.Ssa.eqs_nullary _ _ _).mp (eqs_drop _ 8 h)).1

theorem line_main_v6 (h : Cert.Ssa.Eqs R (ops0 (F := F))) :
    R (Proc.devRef (τ := τ) .tc main_v6) = (broadcastInDim S200000 ![] bcast_S_S200000 : (⟨S_, .f32⟩ : BufTy).Contents (Elt F) → (⟨S200000, .f32⟩ : BufTy).Contents (Elt F)) (R (Proc.devRef (τ := τ) .tc main_cst_1)) :=
  ((Cert.Ssa.eqs_unary _ _ _ _ _).mp (eqs_drop _ 9 h)).1

theorem line_main_v7 (h : Cert.Ssa.Eqs R (ops0 (F := F))) :
    R (Proc.devRef (τ := τ) .tc main_v7) = (broadcastInDim S200000x1 ![0] bcast_S200000_S200000x1_0 : (⟨S200000, .i32⟩ : BufTy).Contents (Elt F) → (⟨S200000x1, .i32⟩ : BufTy).Contents (Elt F)) (R (Proc.devRef (τ := τ) .tc main_v3)) :=
  ((Cert.Ssa.eqs_unary _ _ _ _ _).mp (eqs_drop _ 10 h)).1

theorem line_main_v8 (h : Cert.Ssa.Eqs R (ops0 (F := F))) :
    R (Proc.devRef (τ := τ) .tc main_v8) = ((fun x i u => Host.scatterAdd scatter_S200000_S200000x1_S200000_n_0_0_1 x i u) : (⟨S200000, .f32⟩ : BufTy).Contents (Elt F) → (⟨S200000x1, .i32⟩ : BufTy).Contents (Elt F) → (⟨S200000, .f32⟩ : BufTy).Contents (Elt F) → (⟨S200000, .f32⟩ : BufTy).Contents (Elt F)) (R (Proc.devRef (τ := τ) .tc main_v6)) (R (Proc.devRef (τ := τ) .tc main_v7)) (R (Proc.devRef (τ := τ) .tc main_v5)) :=
  ((Cert.Ssa.eqs_ternary _ _ _ _ _ _ _ _ _).mp (eqs_drop _ 11 h)).1

theorem line_main_cst_2 (h : Cert.Ssa.Eqs R (ops0 (F := F))) :
    R (Proc.devRef (τ := τ) .tc main_cst_2) = (constant S_ .f32 0x00000000#32 : (⟨S_, .f32⟩ : BufTy).Contents (Elt F)) :=
  ((Cert.Ssa.eqs_nullary _ _ _).mp (eqs_drop _ 12 h)).1

theorem line_main_v9 (h : Cert.Ssa.Eqs R (ops0 (F := F))) :
    R (Proc.devRef (τ := τ) .tc main_v9) = (broadcastInDim S200000 ![] bcast_S_S200000 : (⟨S_, .f32⟩ : BufTy).Contents (Elt F) → (⟨S200000, .f32⟩ : BufTy).Contents (Elt F)) (R (Proc.devRef (τ := τ) .tc main_cst_2)) :=
  ((Cert.Ssa.eqs_unary _ _ _ _ _).mp (eqs_drop _ 13 h)).1

theorem line_main_v10 (h : Cert.Ssa.Eqs R (ops0 (F := F))) :
    R (Proc.devRef (τ := τ) .tc main_v10) = (cmpf .ogt : (⟨S200000, .f32⟩ : BufTy).Contents (Elt F) → (⟨S200000, .f32⟩ : BufTy).Contents (Elt F) → (⟨S200000, .i1⟩ : BufTy).Contents (Elt F)) (R (Proc.devRef (τ := τ) .tc main_v8)) (R (Proc.devRef (τ := τ) .tc main_v9)) :=
  ((Cert.Ssa.eqs_binary _ _ _ _ _ _ _).mp (eqs_drop _ 14 h)).1

theorem line_main_cst_3 (h : Cert.Ssa.Eqs R (ops0 (F := F))) :
    R (Proc.devRef (τ := τ) .tc main_cst_3) = (constant S_ .f32 0x00000000#32 : (⟨S_, .f32⟩ : BufTy).Contents (Elt F)) :=
  ((Cert.Ssa.eqs_nullary _ _ _).mp (eqs_drop _ 15 h)).1

theorem line_main_v11 (h : Cert.Ssa.Eqs R (ops0 (F := F))) :
    R (Proc.devRef (τ := τ) .tc main_v11) = (broadcastInDim S200000 ![] bcast_S_S200000 : (⟨S_, .f32⟩ : BufTy).Contents (Elt F) → (⟨S200000, .f32⟩ : BufTy).Contents (Elt F)) (R (Proc.devRef (τ := τ) .tc main_cst_3)) :=
  ((Cert.Ssa.eqs_unary _ _ _ _ _).mp (eqs_drop _ 16 h)).1

theorem line_main_v12 (h : Cert.Ssa.Eqs R (ops0 (F := F))) :
    R (Proc.devRef (τ := τ) .tc main_v12) = (cmpf .ogt : (⟨S200000, .f32⟩ : BufTy).Contents (Elt F) → (⟨S200000, .f32⟩ : BufTy).Contents (Elt F) → (⟨S200000, .i1⟩ : BufTy).Contents (Elt F)) (R (Proc.devRef (τ := τ) .tc main_v8)) (R (Proc.devRef (τ := τ) .tc main_v11)) :=
  ((Cert.Ssa.eqs_binary _ _ _ _ _ _ _).mp (eqs_drop _ 17 h)).1

theorem line_main_cst_4 (h : Cert.Ssa.Eqs R (ops0 (F := F))) :
    R (Proc.devRef (τ := τ) .tc main_cst_4) = (constant S_ .f32 0x3F800000#32 : (⟨S_, .f32⟩ : BufTy).Contents (Elt F)) :=
  ((Cert.Ssa.eqs_nullary _ _ _).mp (eqs_drop _ 18 h)).1

theorem line_main_call0_v0 (h : Cert.Ssa.Eqs R (ops0 (F := F))) :
    R (Proc.devRef (τ := τ) .tc main_call0_v0) = (id : (⟨S_, .f32⟩ : BufTy).Contents (Elt F) → (⟨S_, .f32⟩ : BufTy).Contents (Elt F)) (R (Proc.devRef (τ := τ) .tc main_cst_4)) :=
  ((Cert.Ssa.eqs_unary _ _ _ _ _).mp (eqs_drop _ 19 h)).1

theorem line_main_call0_v1 (h : Cert.Ssa.Eqs R (ops0 (F := F))) :
    R (Proc.devRef (τ := τ) .tc main_call0_v1) = (broadcastInDim S200000 ![] bcast_S_S200000 : (⟨S_, .f32⟩ : BufTy).Contents (Elt F) → (⟨S200000, .f32⟩ : BufTy).Contents (Elt F)) (R (Proc.devRef (τ := τ) .tc main_call0_v0)) :=
  ((Cert.Ssa.eqs_unary _ _ _ _ _).mp (eqs_drop _ 20 h)).1

theorem line_main_v13 (h : Cert.Ssa.Eqs R (ops0 (F := F))) :
    R (Proc.devRef (τ := τ) .tc main_v13) = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (R (Proc.devRef (τ := τ) .tc main_v12)) (R (Proc.devRef (τ := τ) .tc main_v8)) (R (Proc.devRef (τ := τ) .tc main_call0_v1)) :=
  ((Cert.Ssa.eqs_ternary _ _ _ _ _ _ _ _ _).mp (eqs_drop _ 21 h)).1

theorem line_main_v14 (h : Cert.Ssa.Eqs R (ops0 (F := F))) :
    R (Proc.devRef (τ := τ) .tc main_v14) = (Host.rsqrt : (⟨S200000, .f32⟩ : BufTy).Contents (Elt F) → (⟨S200000, .f32⟩ : BufTy).Contents (Elt F)) (R (Proc.devRef (τ := τ) .tc main_v13)) :=
  ((Cert.Ssa.eqs_unary _ _ _ _ _).mp (eqs_drop _ 22 h)).1

theorem line_main_cst_5 (h : Cert.Ssa.Eqs R (ops0 (F := F))) :
    R (Proc.devRef (τ := τ) .tc main_cst_5) = (constant S_ .f32 0x00000000#32 : (⟨S_, .f32⟩ : BufTy).Contents (Elt F)) :=
  ((Cert.Ssa.eqs_nullary _ _ _).mp (eqs_drop _ 23 h)).1

theorem line_main_call1_v0 (h : Cert.Ssa.Eqs R (ops0 (F := F))) :
    R (Proc.devRef (τ := τ) .tc main_call1_v0) = (id : (⟨S_, .f32⟩ : BufTy).Contents (Elt F) → (⟨S_, .f32⟩ : BufTy).Contents (Elt F)) (R (Proc.devRef (τ := τ) .tc main_cst_5)) :=
  ((Cert.Ssa.eqs_unary _ _ _ _ _).mp (eqs_drop _ 24 h)).1

theorem line_main_call1_v1 (h : Cert.Ssa.Eqs R (ops0 (F := F))) :
    R (Proc.devRef (τ := τ) .tc main_call1_v1) = (broadcastInDim S200000 ![] bcast_S_S200000 : (⟨S_, .f32⟩ : BufTy).Contents (Elt F) → (⟨S200000, .f32⟩ : BufTy).Contents (Elt F)) (R (Proc.devRef (τ := τ) .tc main_call1_v0)) :=
  ((Cert.Ssa.eqs_unary _ _ _ _ _).mp (eqs_drop _ 25 h)).1

theorem line_main_v15 (h : Cert.Ssa.Eqs R (ops0 (F := F))) :
    R (Proc.devRef (τ := τ) .tc main_v15) = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (R (Proc.devRef (τ := τ) .tc main_v10)) (R (Proc.devRef (τ := τ) .tc main_v14)) (R (Proc.devRef (τ := τ) .tc main_call1_v1)) :=
  ((Cert.Ssa.eqs_ternary _ _ _ _ _ _ _ _ _).mp (eqs_drop _ 26 h)).1

theorem line_main_c (h : Cert.Ssa.Eqs R (ops0 (F := F))) :
    R (Proc.devRef (τ := τ) .tc main_c) = (constantI S_ 32 0#32 : (⟨S_, .i32⟩ : BufTy).Contents (Elt F)) :=
  ((Cert.Ssa.eqs_nullary _ _ _).mp (eqs_drop _ 27 h)).1

theorem line_main_v16 (h : Cert.Ssa.Eqs R (ops0 (F := F))) :
    R (Proc.devRef (τ := τ) .tc main_v16) = (broadcastInDim S200000 ![] bcast_S_S200000 : (⟨S_, .i32⟩ : BufTy).Contents (Elt F) → (⟨S200000, .i32⟩ : BufTy).Contents (Elt F)) (R (Proc.devRef (τ := τ) .tc main_c)) :=
  ((Cert.Ssa.eqs_unary _ _ _ _ _).mp (eqs_drop _ 28 h)).1

theorem line_main_v17 (h : Cert.Ssa.Eqs R (ops0 (F := F))) :
    R (Proc.devRef (τ := τ) .tc main_v17) = (cmpi .slt : (⟨S200000, .i32⟩ : BufTy).Contents (Elt F) → (⟨S200000, .i32⟩ : BufTy).Contents (Elt F) → (⟨S200000, .i1⟩ : BufTy).Contents (Elt F)) (R (Proc.devRef (τ := τ) .tc main_v1)) (R (Proc.devRef (τ := τ) .tc main_v16)) :=
  ((Cert.Ssa.eqs_binary _ _ _ _ _ _ _).mp (eqs_drop _ 29 h)).1

theorem line_main_c_6 (h : Cert.Ssa.Eqs R (ops0 (F := F))) :
    R (Proc.devRef (τ := τ) .tc main_c_6) = (constantI S_ 32 200000#32 : (⟨S_, .i32⟩ : BufTy).Contents (Elt F)) :=
  ((Cert.Ssa.eqs_nullary _ _ _).mp (eqs_drop _ 30 h)).1

theorem line_main_v18 (h : Cert.Ssa.Eqs R (ops0 (F := F))) :
    R (Proc.devRef (τ := τ) .tc main_v18) = (broadcastInDim S200000 ![] bcast_S_S200000 : (⟨S_, .i32⟩ : BufTy).Contents (Elt F) → (⟨S200000, .i32⟩ : BufTy).Contents (Elt F)) (R (Proc.devRef (τ := τ) .tc main_c_6)) :=
  ((Cert.Ssa.eqs_unary _ _ _ _ _).mp (eqs_drop _ 31 h)).1

theorem line_main_v19 (h : Cert.Ssa.Eqs R (ops0 (F := F))) :
    R (Proc.devRef (τ := τ) .tc main_v19) = (addi : (⟨S200000, .i32⟩ : BufTy).Contents (Elt F) → (⟨S200000, .i32⟩ : BufTy).Contents (Elt F) → (⟨S200000, .i32⟩ : BufTy).Contents (Elt F)) (R (Proc.devRef (τ := τ) .tc main_v1)) (R (Proc.devRef (τ := τ) .tc main_v18)) :=
  ((Cert.Ssa.eqs_binary _ _ _ _ _ _ _).mp (eqs_drop _ 32 h)).1

theorem line_main_v20 (h : Cert.Ssa.Eqs R (ops0 (F := F))) :
    R (Proc.devRef (τ := τ) .tc main_v20) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (R (Proc.devRef (τ := τ) .tc main_v17)) (R (Proc.devRef (τ := τ) .tc main_v19)) (R (Proc.devRef (τ := τ) .tc main_v1)) :=
  ((Cert.Ssa.eqs_ternary _ _ _ _ _ _ _ _ _).mp (eqs_drop _ 33 h)).1

theorem line_main_v21 (h : Cert.Ssa.Eqs R (ops0 (F := F))) :
    R (Proc.devRef (τ := τ) .tc main_v21) = (broadcastInDim S200000x1 ![0] bcast_S200000_S200000x1_0 : (⟨S200000, .i32⟩ : BufTy).Contents (Elt F) → (⟨S200000x1, .i32⟩ : BufTy).Contents (Elt F)) (R (Proc.devRef (τ := τ) .tc main_v20)) :=
  ((Cert.Ssa.eqs_unary _ _ _ _ _).mp (eqs_drop _ 34 h)).1

theorem line_main_v22 (h : Cert.Ssa.Eqs R (ops0 (F := F))) :
    R (Proc.devRef (τ := τ) .tc main_v22) = ((fun x i => Host.gather gather_S200000_S200000x1_S200000_n_0_n_n_0_1_1 x i) : (⟨S200000, .f32⟩ : BufTy).Contents (Elt F) → (⟨S200000x1, .i32⟩ : BufTy).Contents (Elt F) → (⟨S200000, .f32⟩ : BufTy).Contents (Elt F)) (R (Proc.devRef (τ := τ) .tc main_v15)) (R (Proc.devRef (τ := τ) .tc main_v21)) :=
  ((Cert.Ssa.eqs_binary _ _ _ _ _ _ _).mp (eqs_drop _ 35 h)).1

theorem line_main_c_7 (h : Cert.Ssa.Eqs R (ops0 (F := F))) :
    R (Proc.devRef (τ := τ) .tc main_c_7) = (constantI S_ 32 0#32 : (⟨S_, .i32⟩ : BufTy).Contents (Elt F)) :=
  ((Cert.Ssa.eqs_nullary _ _ _).mp (eqs_drop _ 36 h)).1

theorem line_main_v23 (h : Cert.Ssa.Eqs R (ops0 (F := F))) :
    R (Proc.devRef (τ := τ) .tc main_v23) = (broadcastInDim S200000 ![] bcast_S_S200000 : (⟨S_, .i32⟩ : BufTy).Contents (Elt F) → (⟨S200000, .i32⟩ : BufTy).Contents (Elt F)) (R (Proc.devRef (τ := τ) .tc main_c_7)) :=
  ((Cert.Ssa.eqs_unary _ _ _ _ _).mp (eqs_drop _ 37 h)).1

theorem line_main_v24 (h : Cert.Ssa.Eqs R (ops0 (F := F))) :
    R (Proc.devRef (τ := τ) .tc main_v24) = (cmpi .slt : (⟨S200000, .i32⟩ : BufTy).Contents (Elt F) → (⟨S200000, .i32⟩ : BufTy).Contents (Elt F) → (⟨S200000, .i1⟩ : BufTy).Contents (Elt F)) (R (Proc.devRef (τ := τ) .tc main_v3)) (R (Proc.devRef (τ := τ) .tc main_v23)) :=
  ((Cert.Ssa.eqs_binary _ _ _ _ _ _ _).mp (eqs_drop _ 38 h)).1

theorem line_main_c_8 (h : Cert.Ssa.Eqs R (ops0 (F := F))) :
    R (Proc.devRef (τ := τ) .tc main_c_8) = (constantI S_ 32 200000#32 : (⟨S_, .i32⟩ : BufTy).Contents (Elt F)) :=
  ((Cert.Ssa.eqs_nullary _ _ _).mp (eqs_drop _ 39 h)).1

theorem line_main_v25 (h : Cert.Ssa.Eqs R (ops0 (F := F))) :
    R (Proc.devRef (τ := τ) .tc main_v25) = (broadcastInDim S200000 ![] bcast_S_S200000 : (⟨S_, .i32⟩ : BufTy).Contents (Elt F) → (⟨S200000, .i32⟩ : BufTy).Contents (Elt F)) (R (Proc.devRef (τ := τ) .tc main_c_8)) :=
  ((Cert.Ssa.eqs_unary _ _ _ _ _).mp (eqs_drop _ 40 h)).1

theorem line_main_v26 (h : Cert.Ssa.Eqs R (ops0 (F := F))) :
    R (Proc.devRef (τ := τ) .tc main_v26) = (addi : (⟨S200000, .i32⟩ : BufTy).Contents (Elt F) → (⟨S200000, .i32⟩ : BufTy).Contents (Elt F) → (⟨S200000, .i32⟩ : BufTy).Contents (Elt F)) (R (Proc.devRef (τ := τ) .tc main_v3)) (R (Proc.devRef (τ := τ) .tc main_v25)) :=
  ((Cert.Ssa.eqs_binary _ _ _ _ _ _ _).mp (eqs_drop _ 41 h)).1

theorem line_main_v27 (h : Cert.Ssa.Eqs R (ops0 (F := F))) :
    R (Proc.devRef (τ := τ) .tc main_v27) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (R (Proc.devRef (τ := τ) .tc main_v24)) (R (Proc.devRef (τ := τ) .tc main_v26)) (R (Proc.devRef (τ := τ) .tc main_v3)) :=
  ((Cert.Ssa.eqs_ternary _ _ _ _ _ _ _ _ _).mp (eqs_drop _ 42 h)).1

theorem line_main_v28 (h : Cert.Ssa.Eqs R (ops0 (F := F))) :
    R (Proc.devRef (τ := τ) .tc main_v28) = (broadcastInDim S200000x1 ![0] bcast_S200000_S200000x1_0 : (⟨S200000, .i32⟩ : BufTy).Contents (Elt F) → (⟨S200000x1, .i32⟩ : BufTy).Contents (Elt F)) (R (Proc.devRef (τ := τ) .tc main_v27)) :=
  ((Cert.Ssa.eqs_unary _ _ _ _ _).mp (eqs_drop _ 43 h)).1

theorem line_main_v29 (h : Cert.Ssa.Eqs R (ops0 (F := F))) :
    R (Proc.devRef (τ := τ) .tc main_v29) = ((fun x i => Host.gather gather_S200000_S200000x1_S200000_n_0_n_n_0_1_1 x i) : (⟨S200000, .f32⟩ : BufTy).Contents (Elt F) → (⟨S200000x1, .i32⟩ : BufTy).Contents (Elt F) → (⟨S200000, .f32⟩ : BufTy).Contents (Elt F)) (R (Proc.devRef (τ := τ) .tc main_v15)) (R (Proc.devRef (τ := τ) .tc main_v28)) :=
  ((Cert.Ssa.eqs_binary _ _ _ _ _ _ _).mp (eqs_drop _ 44 h)).1

theorem line_main_v30 (h : Cert.Ssa.Eqs R (ops0 (F := F))) :
    R (Proc.devRef (τ := τ) .tc main_v30) = (mulf : (⟨S200000, .f32⟩ : BufTy).Contents (Elt F) → (⟨S200000, .f32⟩ : BufTy).Contents (Elt F) → (⟨S200000, .f32⟩ : BufTy).Contents (Elt F)) (R (Proc.devRef (τ := τ) .tc main_v22)) (R (Proc.devRef (τ := τ) .tc main_v29)) :=
  ((Cert.Ssa.eqs_binary _ _ _ _ _ _ _).mp (eqs_drop _ 45 h)).1

theorem line_main_c_9 (h : Cert.Ssa.Eqs R (ops0 (F := F))) :
    R (Proc.devRef (τ := τ) .tc main_c_9) = (constantI S_ 32 0#32 : (⟨S_, .i32⟩ : BufTy).Contents (Elt F)) :=
  ((Cert.Ssa.eqs_nullary _ _ _).mp (eqs_drop _ 46 h)).1

theorem line_main_v31 (h : Cert.Ssa.Eqs R (ops0 (F := F))) :
    R (Proc.devRef (τ := τ) .tc main_v31) = (broadcastInDim S200000 ![] bcast_S_S200000 : (⟨S_, .i32⟩ : BufTy).Contents (Elt F) → (⟨S200000, .i32⟩ : BufTy).Contents (Elt F)) (R (Proc.devRef (τ := τ) .tc main_c_9)) :=
  ((Cert.Ssa.eqs_unary _ _ _ _ _).mp (eqs_drop _ 47 h)).1

theorem line_main_v32 (h : Cert.Ssa.Eqs R (ops0 (F := F))) :
    R (Proc.devRef (τ := τ) .tc main_v32) = (cmpi .slt : (⟨S200000, .i32⟩ : BufTy).Contents (Elt F) → (⟨S200000, .i32⟩ : BufTy).Contents (Elt F) → (⟨S200000, .i1⟩ : BufTy).Contents (Elt F)) (R (Proc.devRef (τ := τ) .tc main_v1)) (R (Proc.devRef (τ := τ) .tc main_v31)) :=
  ((Cert.Ssa.eqs_binary _ _ _ _ _ _ _).mp (eqs_drop _ 48 h)).1

theorem line_main_c_10 (h : Cert.Ssa.Eqs R (ops0 (F := F))) :
    R (Proc.devRef (τ := τ) .tc main_c_10) = (constantI S_ 32 200000#32 : (⟨S_, .i32⟩ : BufTy).Contents (Elt F)) :=
  ((Cert.Ssa.eqs_nullary _ _ _).mp (eqs_drop _ 49 h)).1

theorem line_main_v33 (h : Cert.Ssa.Eqs R (ops0 (F := F))) :
    R (Proc.devRef (τ := τ) .tc main_v33) = (broadcastInDim S200000 ![] bcast_S_S200000 : (⟨S_, .i32⟩ : BufTy).Contents (Elt F) → (⟨S200000, .i32⟩ : BufTy).Contents (Elt F)) (R (Proc.devRef (τ := τ) .tc main_c_10)) :=
  ((Cert.Ssa.eqs_unary _ _ _ _ _).mp (eqs_drop _ 50 h)).1

theorem line_main_v34 (h : Cert.Ssa.Eqs R (ops0 (F := F))) :
    R (Proc.devRef (τ := τ) .tc main_v34) = (addi : (⟨S200000, .i32⟩ : BufTy).Contents (Elt F) → (⟨S200000, .i32⟩ : BufTy).Contents (Elt F) → (⟨S200000, .i32⟩ : BufTy).Contents (Elt F)) (R (Proc.devRef (τ := τ) .tc main_v1)) (R (Proc.devRef (τ := τ) .tc main_v33)) :=
  ((Cert.Ssa.eqs_binary _ _ _ _ _ _ _).mp (eqs_drop _ 51 h)).1

theorem line_main_v35 (h : Cert.Ssa.Eqs R (ops0 (F := F))) :
    R (Proc.devRef (τ := τ) .tc main_v35) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (R (Proc.devRef (τ := τ) .tc main_v32)) (R (Proc.devRef (τ := τ) .tc main_v34)) (R (Proc.devRef (τ := τ) .tc main_v1)) :=
  ((Cert.Ssa.eqs_ternary _ _ _ _ _ _ _ _ _).mp (eqs_drop _ 52 h)).1

theorem line_main_v36 (h : Cert.Ssa.Eqs R (ops0 (F := F))) :
    R (Proc.devRef (τ := τ) .tc main_v36) = (broadcastInDim S200000x1 ![0] bcast_S200000_S200000x1_0 : (⟨S200000, .i32⟩ : BufTy).Contents (Elt F) → (⟨S200000x1, .i32⟩ : BufTy).Contents (Elt F)) (R (Proc.devRef (τ := τ) .tc main_v35)) :=
  ((Cert.Ssa.eqs_unary _ _ _ _ _).mp (eqs_drop _ 53 h)).1

theorem line_main_v37 (h : Cert.Ssa.Eqs R (ops0 (F := F))) :
    R (Proc.devRef (τ := τ) .tc main_v37) = ((fun x i => Host.gather gather_S200000x128_S200000x1_S200000x128_1_0_n_n_0_1_1128 x i) : (⟨S200000x128, .f32⟩ : BufTy).Contents (Elt F) → (⟨S200000x1, .i32⟩ : BufTy).Contents (Elt F) → (⟨S200000x128, .f32⟩ : BufTy).Contents (Elt F)) (R (Proc.devRef (τ := τ) .tc main_v4)) (R (Proc.devRef (τ := τ) .tc main_v36)) :=
  ((Cert.Ssa.eqs_binary _ _ _ _ _ _ _).mp (eqs_drop _ 54 h)).1

theorem line_main_cst_11 (h : Cert.Ssa.Eqs R (ops0 (F := F))) :
    R (Proc.devRef (τ := τ) .tc main_cst_11) = (constant S_ .f32 0x00000000#32 : (⟨S_, .f32⟩ : BufTy).Contents (Elt F)) :=
  ((Cert.Ssa.eqs_nullary _ _ _).mp (eqs_drop _ 55 h)).1

theorem line_main_v38 (h : Cert.Ssa.Eqs R (ops0 (F := F))) :
    R (Proc.devRef (τ := τ) .tc main_v38) = (broadcastInDim S200000x128 ![] bcast_S_S200000x128 : (⟨S_, .f32⟩ : BufTy).Contents (Elt F) → (⟨S200000x128, .f32⟩ : BufTy).Contents (Elt F)) (R (Proc.devRef (τ := τ) .tc main_cst_11)) :=
  ((Cert.Ssa.eqs_unary _ _ _ _ _).mp (eqs_drop _ 56 h)).1

theorem line_main_c_12 (h : Cert.Ssa.Eqs R (ops0 (F := F))) :
    R (Proc.devRef (τ := τ) .tc main_c_12) = (constantI S_ 32 0#32 : (⟨S_, .i32⟩ : BufTy).Contents (Elt F)) :=
  ((Cert.Ssa.eqs_nullary _ _ _).mp (eqs_drop _ 57 h)).1

theorem line_main_v39 (h : Cert.Ssa.Eqs R (ops0 (F := F))) :
    R (Proc.devRef (τ := τ) .tc main_v39) = (broadcastInDim S200000 ![] bcast_S_S200000 : (⟨S_, .i32⟩ : BufTy).Contents (Elt F) → (⟨S200000, .i32⟩ : BufTy).Contents (Elt F)) (R (Proc.devRef (τ := τ) .tc main_c_12)) :=
  ((Cert.Ssa.eqs_unary _ _ _ _ _).mp (eqs_drop _ 58 h)).1

theorem line_main_v40 (h : Cert.Ssa.Eqs R (ops0 (F := F))) :
    R (Proc.devRef (τ := τ) .tc main_v40) = (cmpi .eq : (⟨S200000, .i32⟩ : BufTy).Contents (Elt F) → (⟨S200000, .i32⟩ : BufTy).Contents (Elt F) → (⟨S200000, .i1⟩ : BufTy).Contents (Elt F)) (R (Proc.devRef (τ := τ) .tc main_arg1)) (R (Proc.devRef (τ := τ) .tc main_v39)) :=
  ((Cert.Ssa.eqs_binary _ _ _ _ _ _ _).mp (eqs_drop _ 59 h)).1

theorem line_main_v41 (h : Cert.Ssa.Eqs R (ops0 (F := F))) :
    R (Proc.devRef (τ := τ) .tc main_v41) = (broadcastInDim S200000x1 ![0] bcast_S200000_S200000x1_0 : (⟨S200000, .i1⟩ : BufTy).Contents (Elt F) → (⟨S200000x1, .i1⟩ : BufTy).Contents (Elt F)) (R (Proc.devRef (τ := τ) .tc main_v40)) :=
  ((Cert.Ssa.eqs_unary _ _ _ _ _).mp (eqs_drop _ 60 h)).1

theorem line_main_v42 (h : Cert.Ssa.Eqs R (ops0 (F := F))) :
    R (Proc.devRef (τ := τ) .tc main_v42) = ((extractStridedSlice S1x128x128 ![0, 0, 0] · slices_S4x128x128_S1x128x128_0_0_0) : (⟨S4x128x128, .f32⟩ : BufTy).Contents (Elt F) → (⟨S1x128x128, .f32⟩ : BufTy).Contents (Elt F)) (R (Proc.devRef (τ := τ) .tc main_arg3)) :=
  ((Cert.Ssa.eqs_unary _ _ _ _ _).mp (eqs_drop _ 61 h)).1

theorem line_main_v43 (h : Cert.Ssa.Eqs R (ops0 (F := F))) :
    R (Proc.devRef (τ := τ) .tc main_v43) = (shapeCast S128x128 (R (Proc.devRef (τ := τ) .tc main_v42) : (⟨S1x128x128, .f32⟩ : BufTy).Contents (Elt F)) shapeCasts_S1x128x128_S128x128 : (⟨S128x128, .f32⟩ : BufTy).Contents (Elt F)) :=
  ((Cert.Ssa.eqs_reshape _ _ _ _ _ _).mp (eqs_drop _ 62 h)).1

theorem line_main_v44 (h : Cert.Ssa.Eqs R (ops0 (F := F))) :
    R (Proc.devRef (τ := τ) .tc main_v44) = ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)) (R (Proc.devRef (τ := τ) .tc main_v37)) (R (Proc.devRef (τ := τ) .tc main_v43)) :=
  ((Cert.Ssa.eqs_binary _ _ _ _ _ _ _).mp (eqs_drop _ 63 h)).1

theorem line_main_cst_13 (h : Cert.Ssa.Eqs R (ops1 (F := F))) :
    R (Proc.devRef (τ := τ) .tc main_cst_13) = (constant S_ .f32 0x00000000#32 : (⟨S_, .f32⟩ : BufTy).Contents (Elt F)) :=
  ((Cert.Ssa.eqs_nullary _ _ _).mp (eqs_drop _ 0 h)).1

theorem line_main_call2_v0 (h : Cert.Ssa.Eqs R (ops1 (F := F))) :
    R (Proc.devRef (τ := τ) .tc main_call2_v0) = (id : (⟨S_, .f32⟩ : BufTy).Contents (Elt F) → (⟨S_, .f32⟩ : BufTy).Contents (Elt F)) (R (Proc.devRef (τ := τ) .tc main_cst_13)) :=
  ((Cert.Ssa.eqs_unary _ _ _ _ _).mp (eqs_drop _ 1 h)).1

theorem line_main_call2_v1 (h : Cert.Ssa.Eqs R (ops1 (F := F))) :
    R (Proc.devRef (τ := τ) .tc main_call2_v1) = (broadcastInDim S200000x128 ![0, 1] bcast_S200000x1_S200000x128_0_1 : (⟨S200000x1, .i1⟩ : BufTy).Contents (Elt F) → (⟨S200000x128, .i1⟩ : BufTy).Contents (Elt F)) (R (Proc.devRef (τ := τ) .tc main_v41)) :=
  ((Cert.Ssa.eqs_unary _ _ _ _ _).mp (eqs_drop _ 2 h)).1

theorem line_main_call2_v2 (h : Cert.Ssa.Eqs R (ops1 (F := F))) :
    R (Proc.devRef (τ := τ) .tc main_call2_v2) = (broadcastInDim S200000x128 ![] bcast_S_S200000x128 : (⟨S_, .f32⟩ : BufTy).Contents (Elt F) → (⟨S200000x128, .f32⟩ : BufTy).Contents (Elt F)) (R (Proc.devRef (τ := τ) .tc main_call2_v0)) :=
  ((Cert.Ssa.eqs_unary _ _ _ _ _).mp (eqs_drop _ 3 h)).1

theorem line_main_v45 (h : Cert.Ssa.Eqs R (ops1 (F := F))) :
    R (Proc.devRef (τ := τ) .tc main_v45) = (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)) (R (Proc.devRef (τ := τ) .tc main_call2_v1)) (R (Proc.devRef (τ := τ) .tc main_v44)) (R (Proc.devRef (τ := τ) .tc main_call2_v2)) :=
  ((Cert.Ssa.eqs_ternary _ _ _ _ _ _ _ _ _).mp (eqs_drop _ 4 h)).1

theorem line_main_v46 (h : Cert.Ssa.Eqs R (ops1 (F := F))) :
    R (Proc.devRef (τ := τ) .tc main_v46) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v38)) (R (Proc.devRef (τ := τ) .tc main_v45)) :=
  ((Cert.Ssa.eqs_binary _ _ _ _ _ _ _).mp (eqs_drop _ 5 h)).1

theorem line_main_c_14 (h : Cert.Ssa.Eqs R (ops1 (F := F))) :
    R (Proc.devRef (τ := τ) .tc main_c_14) = (constantI S_ 32 1#32 : (⟨S_, .i32⟩ : BufTy).Contents (Elt F)) :=
  ((Cert.Ssa.eqs_nullary _ _ _).mp (eqs_drop _ 6 h)).1

theorem line_main_v47 (h : Cert.Ssa.Eqs R (ops1 (F := F))) :
    R (Proc.devRef (τ := τ) .tc main_v47) = (broadcastInDim S200000 ![] bcast_S_S200000 : (⟨S_, .i32⟩ : BufTy).Contents (Elt F) → (⟨S200000, .i32⟩ : BufTy).Contents (Elt F)) (R (Proc.devRef (τ := τ) .tc main_c_14)) :=
  ((Cert.Ssa.eqs_unary _ _ _ _ _).mp (eqs_drop _ 7 h)).1

theorem line_main_v48 (h : Cert.Ssa.Eqs R (ops1 (F := F))) :
    R (Proc.devRef (τ := τ) .tc main_v48) = (cmpi .eq : (⟨S200000, .i32⟩ : BufTy).Contents (Elt F) → (⟨S200000, .i32⟩ : BufTy).Contents (Elt F) → (⟨S200000, .i1⟩ : BufTy).Contents (Elt F)) (R (Proc.devRef (τ := τ) .tc main_arg1)) (R (Proc.devRef (τ := τ) .tc main_v47)) :=
  ((Cert.Ssa.eqs_binary _ _ _ _ _ _ _).mp (eqs_drop _ 8 h)).1

theorem line_main_v49 (h : Cert.Ssa.Eqs R (ops1 (F := F))) :
    R (Proc.devRef (τ := τ) .tc main_v49) = (broadcastInDim S200000x1 ![0] bcast_S200000_S200000x1_0 : (⟨S200000, .i1⟩ : BufTy).Contents (Elt F) → (⟨S200000x1, .i1⟩ : BufTy).Contents (Elt F)) (R (Proc.devRef (τ := τ) .tc main_v48)) :=
  ((Cert.Ssa.eqs_unary _ _ _ _ _).mp (eqs_drop _ 9 h)).1

theorem line_main_v50 (h : Cert.Ssa.Eqs R (ops1 (F := F))) :
    R (Proc.devRef (τ := τ) .tc main_v50) = ((extractStridedSlice S1x128x128 ![1, 0, 0] · slices_S4x128x128_S1x128x128_1_0_0) : (⟨S4x128x128, .f32⟩ : BufTy).Contents (Elt F) → (⟨S1x128x128, .f32⟩ : BufTy).Contents (Elt F)) (R (Proc.devRef (τ := τ) .tc main_arg3)) :=
  ((Cert.Ssa.eqs_unary _ _ _ _ _).mp (eqs_drop _ 10 h)).1

theorem line_main_v51 (h : Cert.Ssa.Eqs R (ops1 (F := F))) :
    R (Proc.devRef (τ := τ) .tc main_v51) = (shapeCast S128x128 (R (Proc.devRef (τ := τ) .tc main_v50) : (⟨S1x128x128, .f32⟩ : BufTy).Contents (Elt F)) shapeCasts_S1x128x128_S128x128 : (⟨S128x128, .f32⟩ : BufTy).Contents (Elt F)) :=
  ((Cert.Ssa.eqs_reshape _ _ _ _ _ _).mp (eqs_drop _ 11 h)).1

theorem line_main_v52 (h : Cert.Ssa.Eqs R (ops1 (F := F))) :
    R (Proc.devRef (τ := τ) .tc main_v52) = ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)) (R (Proc.devRef (τ := τ) .tc main_v37)) (R (Proc.devRef (τ := τ) .tc main_v51)) :=
  ((Cert.Ssa.eqs_binary _ _ _ _ _ _ _).mp (eqs_drop _ 12 h)).1

theorem line_main_cst_15 (h : Cert.Ssa.Eqs R (ops1 (F := F))) :
    R (Proc.devRef (τ := τ) .tc main_cst_15) = (constant S_ .f32 0x00000000#32 : (⟨S_, .f32⟩ : BufTy).Contents (Elt F)) :=
  ((Cert.Ssa.eqs_nullary _ _ _).mp (eqs_drop _ 13 h)).1

theorem line_main_call3_v0 (h : Cert.Ssa.Eqs R (ops1 (F := F))) :
    R (Proc.devRef (τ := τ) .tc main_call3_v0) = (id : (⟨S_, .f32⟩ : BufTy).Contents (Elt F) → (⟨S_, .f32⟩ : BufTy).Contents (Elt F)) (R (Proc.devRef (τ := τ) .tc main_cst_15)) :=
  ((Cert.Ssa.eqs_unary _ _ _ _ _).mp (eqs_drop _ 14 h)).1

theorem line_main_call3_v1 (h : Cert.Ssa.Eqs R (ops1 (F := F))) :
    R (Proc.devRef (τ := τ) .tc main_call3_v1) = (broadcastInDim S200000x128 ![0, 1] bcast_S200000x1_S200000x128_0_1 : (⟨S200000x1, .i1⟩ : BufTy).Contents (Elt F) → (⟨S200000x128, .i1⟩ : BufTy).Contents (Elt F)) (R (Proc.devRef (τ := τ) .tc main_v49)) :=
  ((Cert.Ssa.eqs_unary _ _ _ _ _).mp (eqs_drop _ 15 h)).1

theorem line_main_call3_v2 (h : Cert.Ssa.Eqs R (ops1 (F := F))) :
    R (Proc.devRef (τ := τ) .tc main_call3_v2) = (broadcastInDim S200000x128 ![] bcast_S_S200000x128 : (⟨S_, .f32⟩ : BufTy).Contents (Elt F) → (⟨S200000x128, .f32⟩ : BufTy).Contents (Elt F)) (R (Proc.devRef (τ := τ) .tc main_call3_v0)) :=
  ((Cert.Ssa.eqs_unary _ _ _ _ _).mp (eqs_drop _ 16 h)).1

theorem line_main_v53 (h : Cert.Ssa.Eqs R (ops1 (F := F))) :
    R (Proc.devRef (τ := τ) .tc main_v53) = (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)) (R (Proc.devRef (τ := τ) .tc main_call3_v1)) (R (Proc.devRef (τ := τ) .tc main_v52)) (R (Proc.devRef (τ := τ) .tc main_call3_v2)) :=
  ((Cert.Ssa.eqs_ternary _ _ _ _ _ _ _ _ _).mp (eqs_drop _ 17 h)).1

theorem line_main_v54 (h : Cert.Ssa.Eqs R (ops1 (F := F))) :
    R (Proc.devRef (τ := τ) .tc main_v54) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v46)) (R (Proc.devRef (τ := τ) .tc main_v53)) :=
  ((Cert.Ssa.eqs_binary _ _ _ _ _ _ _).mp (eqs_drop _ 18 h)).1

theorem line_main_c_16 (h : Cert.Ssa.Eqs R (ops1 (F := F))) :
    R (Proc.devRef (τ := τ) .tc main_c_16) = (constantI S_ 32 2#32 : (⟨S_, .i32⟩ : BufTy).Contents (Elt F)) :=
  ((Cert.Ssa.eqs_nullary _ _ _).mp (eqs_drop _ 19 h)).1

theorem line_main_v55 (h : Cert.Ssa.Eqs R (ops1 (F := F))) :
    R (Proc.devRef (τ := τ) .tc main_v55) = (broadcastInDim S200000 ![] bcast_S_S200000 : (⟨S_, .i32⟩ : BufTy).Contents (Elt F) → (⟨S200000, .i32⟩ : BufTy).Contents (Elt F)) (R (Proc.devRef (τ := τ) .tc main_c_16)) :=
  ((Cert.Ssa.eqs_unary _ _ _ _ _).mp (eqs_drop _ 20 h)).1

theorem line_main_v56 (h : Cert.Ssa.Eqs R (ops1 (F := F))) :
    R (Proc.devRef (τ := τ) .tc main_v56) = (cmpi .eq : (⟨S200000, .i32⟩ : BufTy).Contents (Elt F) → (⟨S200000, .i32⟩ : BufTy).Contents (Elt F) → (⟨S200000, .i1⟩ : BufTy).Contents (Elt F)) (R (Proc.devRef (τ := τ) .tc main_arg1)) (R (Proc.devRef (τ := τ) .tc main_v55)) :=
  ((Cert.Ssa.eqs_binary _ _ _ _ _ _ _).mp (eqs_drop _ 21 h)).1

theorem line_main_v57 (h : Cert.Ssa.Eqs R (ops1 (F := F))) :
    R (Proc.devRef (τ := τ) .tc main_v57) = (broadcastInDim S200000x1 ![0] bcast_S200000_S200000x1_0 : (⟨S200000, .i1⟩ : BufTy).Contents (Elt F) → (⟨S200000x1, .i1⟩ : BufTy).Contents (Elt F)) (R (Proc.devRef (τ := τ) .tc main_v56)) :=
  ((Cert.Ssa.eqs_unary _ _ _ _ _).mp (eqs_drop _ 22 h)).1

theorem line_main_v58 (h : Cert.Ssa.Eqs R (ops1 (F := F))) :
    R (Proc.devRef (τ := τ) .tc main_v58) = ((extractStridedSlice S1x128x128 ![2, 0, 0] · slices_S4x128x128_S1x128x128_2_0_0) : (⟨S4x128x128, .f32⟩ : BufTy).Contents (Elt F) → (⟨S1x128x128, .f32⟩ : BufTy).Contents (Elt F)) (R (Proc.devRef (τ := τ) .tc main_arg3)) :=
  ((Cert.Ssa.eqs_unary _ _ _ _ _).mp (eqs_drop _ 23 h)).1

theorem line_main_v59 (h : Cert.Ssa.Eqs R (ops1 (F := F))) :
    R (Proc.devRef (τ := τ) .tc main_v59) = (shapeCast S128x128 (R (Proc.devRef (τ := τ) .tc main_v58) : (⟨S1x128x128, .f32⟩ : BufTy).Contents (Elt F)) shapeCasts_S1x128x128_S128x128 : (⟨S128x128, .f32⟩ : BufTy).Contents (Elt F)) :=
  ((Cert.Ssa.eqs_reshape _ _ _ _ _ _).mp (eqs_drop _ 24 h)).1

theorem line_main_v60 (h : Cert.Ssa.Eqs R (ops1 (F := F))) :
    R (Proc.devRef (τ := τ) .tc main_v60) = ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)) (R (Proc.devRef (τ := τ) .tc main_v37)) (R (Proc.devRef (τ := τ) .tc main_v59)) :=
  ((Cert.Ssa.eqs_binary _ _ _ _ _ _ _).mp (eqs_drop _ 25 h)).1

theorem line_main_cst_17 (h : Cert.Ssa.Eqs R (ops1 (F := F))) :
    R (Proc.devRef (τ := τ) .tc main_cst_17) = (constant S_ .f32 0x00000000#32 : (⟨S_, .f32⟩ : BufTy).Contents (Elt F)) :=
  ((Cert.Ssa.eqs_nullary _ _ _).mp (eqs_drop _ 26 h)).1

theorem line_main_call4_v0 (h : Cert.Ssa.Eqs R (ops1 (F := F))) :
    R (Proc.devRef (τ := τ) .tc main_call4_v0) = (id : (⟨S_, .f32⟩ : BufTy).Contents (Elt F) → (⟨S_, .f32⟩ : BufTy).Contents (Elt F)) (R (Proc.devRef (τ := τ) .tc main_cst_17)) :=
  ((Cert.Ssa.eqs_unary _ _ _ _ _).mp (eqs_drop _ 27 h)).1

theorem line_main_call4_v1 (h : Cert.Ssa.Eqs R (ops1 (F := F))) :
    R (Proc.devRef (τ := τ) .tc main_call4_v1) = (broadcastInDim S200000x128 ![0, 1] bcast_S200000x1_S200000x128_0_1 : (⟨S200000x1, .i1⟩ : BufTy).Contents (Elt F) → (⟨S200000x128, .i1⟩ : BufTy).Contents (Elt F)) (R (Proc.devRef (τ := τ) .tc main_v57)) :=
  ((Cert.Ssa.eqs_unary _ _ _ _ _).mp (eqs_drop _ 28 h)).1

theorem line_main_call4_v2 (h : Cert.Ssa.Eqs R (ops1 (F := F))) :
    R (Proc.devRef (τ := τ) .tc main_call4_v2) = (broadcastInDim S200000x128 ![] bcast_S_S200000x128 : (⟨S_, .f32⟩ : BufTy).Contents (Elt F) → (⟨S200000x128, .f32⟩ : BufTy).Contents (Elt F)) (R (Proc.devRef (τ := τ) .tc main_call4_v0)) :=
  ((Cert.Ssa.eqs_unary _ _ _ _ _).mp (eqs_drop _ 29 h)).1

theorem line_main_v61 (h : Cert.Ssa.Eqs R (ops1 (F := F))) :
    R (Proc.devRef (τ := τ) .tc main_v61) = (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)) (R (Proc.devRef (τ := τ) .tc main_call4_v1)) (R (Proc.devRef (τ := τ) .tc main_v60)) (R (Proc.devRef (τ := τ) .tc main_call4_v2)) :=
  ((Cert.Ssa.eqs_ternary _ _ _ _ _ _ _ _ _).mp (eqs_drop _ 30 h)).1

theorem line_main_v62 (h : Cert.Ssa.Eqs R (ops1 (F := F))) :
    R (Proc.devRef (τ := τ) .tc main_v62) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v54)) (R (Proc.devRef (τ := τ) .tc main_v61)) :=
  ((Cert.Ssa.eqs_binary _ _ _ _ _ _ _).mp (eqs_drop _ 31 h)).1

theorem line_main_c_18 (h : Cert.Ssa.Eqs R (ops1 (F := F))) :
    R (Proc.devRef (τ := τ) .tc main_c_18) = (constantI S_ 32 3#32 : (⟨S_, .i32⟩ : BufTy).Contents (Elt F)) :=
  ((Cert.Ssa.eqs_nullary _ _ _).mp (eqs_drop _ 32 h)).1

theorem line_main_v63 (h : Cert.Ssa.Eqs R (ops1 (F := F))) :
    R (Proc.devRef (τ := τ) .tc main_v63) = (broadcastInDim S200000 ![] bcast_S_S200000 : (⟨S_, .i32⟩ : BufTy).Contents (Elt F) → (⟨S200000, .i32⟩ : BufTy).Contents (Elt F)) (R (Proc.devRef (τ := τ) .tc main_c_18)) :=
  ((Cert.Ssa.eqs_unary _ _ _ _ _).mp (eqs_drop _ 33 h)).1

theorem line_main_v64 (h : Cert.Ssa.Eqs R (ops1 (F := F))) :
    R (Proc.devRef (τ := τ) .tc main_v64) = (cmpi .eq : (⟨S200000, .i32⟩ : BufTy).Contents (Elt F) → (⟨S200000, .i32⟩ : BufTy).Contents (Elt F) → (⟨S200000, .i1⟩ : BufTy).Contents (Elt F)) (R (Proc.devRef (τ := τ) .tc main_arg1)) (R (Proc.devRef (τ := τ) .tc main_v63)) :=
  ((Cert.Ssa.eqs_binary _ _ _ _ _ _ _).mp (eqs_drop _ 34 h)).1

theorem line_main_v65 (h : Cert.Ssa.Eqs R (ops1 (F := F))) :
    R (Proc.devRef (τ := τ) .tc main_v65) = (broadcastInDim S200000x1 ![0] bcast_S200000_S200000x1_0 : (⟨S200000, .i1⟩ : BufTy).Contents (Elt F) → (⟨S200000x1, .i1⟩ : BufTy).Contents (Elt F)) (R (Proc.devRef (τ := τ) .tc main_v64)) :=
  ((Cert.Ssa.eqs_unary _ _ _ _ _).mp (eqs_drop _ 35 h)).1

theorem line_main_v66 (h : Cert.Ssa.Eqs R (ops1 (F := F))) :
    R (Proc.devRef (τ := τ) .tc main_v66) = ((extractStridedSlice S1x128x128 ![3, 0, 0] · slices_S4x128x128_S1x128x128_3_0_0) : (⟨S4x128x128, .f32⟩ : BufTy).Contents (Elt F) → (⟨S1x128x128, .f32⟩ : BufTy).Contents (Elt F)) (R (Proc.devRef (τ := τ) .tc main_arg3)) :=
  ((Cert.Ssa.eqs_unary _ _ _ _ _).mp (eqs_drop _ 36 h)).1

theorem line_main_v67 (h : Cert.Ssa.Eqs R (ops1 (F := F))) :
    R (Proc.devRef (τ := τ) .tc main_v67) = (shapeCast S128x128 (R (Proc.devRef (τ := τ) .tc main_v66) : (⟨S1x128x128, .f32⟩ : BufTy).Contents (Elt F)) shapeCasts_S1x128x128_S128x128 : (⟨S128x128, .f32⟩ : BufTy).Contents (Elt F)) :=
  ((Cert.Ssa.eqs_reshape _ _ _ _ _ _).mp (eqs_drop _ 37 h)).1

theorem line_main_v68 (h : Cert.Ssa.Eqs R (ops1 (F := F))) :
    R (Proc.devRef (τ := τ) .tc main_v68) = ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)) (R (Proc.devRef (τ := τ) .tc main_v37)) (R (Proc.devRef (τ := τ) .tc main_v67)) :=
  ((Cert.Ssa.eqs_binary _ _ _ _ _ _ _).mp (eqs_drop _ 38 h)).1

theorem line_main_cst_19 (h : Cert.Ssa.Eqs R (ops1 (F := F))) :
    R (Proc.devRef (τ := τ) .tc main_cst_19) = (constant S_ .f32 0x00000000#32 : (⟨S_, .f32⟩ : BufTy).Contents (Elt F)) :=
  ((Cert.Ssa.eqs_nullary _ _ _).mp (eqs_drop _ 39 h)).1

theorem line_main_call5_v0 (h : Cert.Ssa.Eqs R (ops1 (F := F))) :
    R (Proc.devRef (τ := τ) .tc main_call5_v0) = (id : (⟨S_, .f32⟩ : BufTy).Contents (Elt F) → (⟨S_, .f32⟩ : BufTy).Contents (Elt F)) (R (Proc.devRef (τ := τ) .tc main_cst_19)) :=
  ((Cert.Ssa.eqs_unary _ _ _ _ _).mp (eqs_drop _ 40 h)).1

theorem line_main_call5_v1 (h : Cert.Ssa.Eqs R (ops1 (F := F))) :
    R (Proc.devRef (τ := τ) .tc main_call5_v1) = (broadcastInDim S200000x128 ![0, 1] bcast_S200000x1_S200000x128_0_1 : (⟨S200000x1, .i1⟩ : BufTy).Contents (Elt F) → (⟨S200000x128, .i1⟩ : BufTy).Contents (Elt F)) (R (Proc.devRef (τ := τ) .tc main_v65)) :=
  ((Cert.Ssa.eqs_unary _ _ _ _ _).mp (eqs_drop _ 41 h)).1

theorem line_main_call5_v2 (h : Cert.Ssa.Eqs R (ops1 (F := F))) :
    R (Proc.devRef (τ := τ) .tc main_call5_v2) = (broadcastInDim S200000x128 ![] bcast_S_S200000x128 : (⟨S_, .f32⟩ : BufTy).Contents (Elt F) → (⟨S200000x128, .f32⟩ : BufTy).Contents (Elt F)) (R (Proc.devRef (τ := τ) .tc main_call5_v0)) :=
  ((Cert.Ssa.eqs_unary _ _ _ _ _).mp (eqs_drop _ 42 h)).1

theorem line_main_v69 (h : Cert.Ssa.Eqs R (ops1 (F := F))) :
    R (Proc.devRef (τ := τ) .tc main_v69) = (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)) (R (Proc.devRef (τ := τ) .tc main_call5_v1)) (R (Proc.devRef (τ := τ) .tc main_v68)) (R (Proc.devRef (τ := τ) .tc main_call5_v2)) :=
  ((Cert.Ssa.eqs_ternary _ _ _ _ _ _ _ _ _).mp (eqs_drop _ 43 h)).1

theorem line_main_v70 (h : Cert.Ssa.Eqs R (ops1 (F := F))) :
    R (Proc.devRef (τ := τ) .tc main_v70) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v62)) (R (Proc.devRef (τ := τ) .tc main_v69)) :=
  ((Cert.Ssa.eqs_binary _ _ _ _ _ _ _).mp (eqs_drop _ 44 h)).1

theorem line_main_v71 (h : Cert.Ssa.Eqs R (ops1 (F := F))) :
    R (Proc.devRef (τ := τ) .tc main_v71) = (mulf : (⟨S200000, .f32⟩ : BufTy).Contents (Elt F) → (⟨S200000, .f32⟩ : BufTy).Contents (Elt F) → (⟨S200000, .f32⟩ : BufTy).Contents (Elt F)) (R (Proc.devRef (τ := τ) .tc main_arg2)) (R (Proc.devRef (τ := τ) .tc main_v30)) :=
  ((Cert.Ssa.eqs_binary _ _ _ _ _ _ _).mp (eqs_drop _ 45 h)).1

theorem line_main_v72 (h : Cert.Ssa.Eqs R (ops1 (F := F))) :
    R (Proc.devRef (τ := τ) .tc main_v72) = (broadcastInDim S200000x1 ![0] bcast_S200000_S200000x1_0 : (⟨S200000, .f32⟩ : BufTy).Contents (Elt F) → (⟨S200000x1, .f32⟩ : BufTy).Contents (Elt F)) (R (Proc.devRef (τ := τ) .tc main_v71)) :=
  ((Cert.Ssa.eqs_unary _ _ _ _ _).mp (eqs_drop _ 46 h)).1

theorem line_main_v73 (h : Cert.Ssa.Eqs R (ops1 (F := F))) :
    R (Proc.devRef (τ := τ) .tc main_v73) = (broadcastInDim S200000x128 ![0, 1] bcast_S200000x1_S200000x128_0_1 : (⟨S200000x1, .f32⟩ : BufTy).Contents (Elt F) → (⟨S200000x128, .f32⟩ : BufTy).Contents (Elt F)) (R (Proc.devRef (τ := τ) .tc main_v72)) :=
  ((Cert.Ssa.eqs_unary _ _ _ _ _).mp (eqs_drop _ 47 h)).1

theorem line_main_v74 (h : Cert.Ssa.Eqs R (ops1 (F := F))) :
    R (Proc.devRef (τ := τ) .tc main_v74) = (mulf : (⟨S200000x128, .f32⟩ : BufTy).Contents (Elt F) → (⟨S200000x128, .f32⟩ : BufTy).Contents (Elt F) → (⟨S200000x128, .f32⟩ : BufTy).Contents (Elt F)) (R (Proc.devRef (τ := τ) .tc main_v70)) (R (Proc.devRef (τ := τ) .tc main_v73)) :=
  ((Cert.Ssa.eqs_binary _ _ _ _ _ _ _).mp (eqs_drop _ 48 h)).1

theorem line_main_cst_20 (h : Cert.Ssa.Eqs R (ops1 (F := F))) :
    R (Proc.devRef (τ := τ) .tc main_cst_20) = (constant S_ .f32 0x00000000#32 : (⟨S_, .f32⟩ : BufTy).Contents (Elt F)) :=
  ((Cert.Ssa.eqs_nullary _ _ _).mp (eqs_drop _ 49 h)).1

theorem line_main_v75 (h : Cert.Ssa.Eqs R (ops1 (F := F))) :
    R (Proc.devRef (τ := τ) .tc main_v75) = (broadcastInDim S200000x128 ![] bcast_S_S200000x128 : (⟨S_, .f32⟩ : BufTy).Contents (Elt F) → (⟨S200000x128, .f32⟩ : BufTy).Contents (Elt F)) (R (Proc.devRef (τ := τ) .tc main_cst_20)) :=
  ((Cert.Ssa.eqs_unary _ _ _ _ _).mp (eqs_drop _ 50 h)).1

theorem line_main_v76 (h : Cert.Ssa.Eqs R (ops1 (F := F))) :
    R (Proc.devRef (τ := τ) .tc main_v76) = (broadcastInDim S200000x1 ![0] bcast_S200000_S200000x1_0 : (⟨S200000, .i32⟩ : BufTy).Contents (Elt F) → (⟨S200000x1, .i32⟩ : BufTy).Contents (Elt F)) (R (Proc.devRef (τ := τ) .tc main_v3)) :=
  ((Cert.Ssa.eqs_unary _ _ _ _ _).mp (eqs_drop _ 51 h)).1

theorem line_main_v77 (h : Cert.Ssa.Eqs R (ops1 (F := F))) :
    R (Proc.devRef (τ := τ) .tc main_v77) = ((fun x i u => Host.scatterAdd scatter_S200000x128_S200000x1_S200000x128_1_0_0_1 x i u) : (⟨S200000x128, .f32⟩ : BufTy).Contents (Elt F) → (⟨S200000x1, .i32⟩ : BufTy).Contents (Elt F) → (⟨S200000x128, .f32⟩ : BufTy).Contents (Elt F) → (⟨S200000x128, .f32⟩ : BufTy).Contents (Elt F)) (R (Proc.devRef (τ := τ) .tc main_v75)) (R (Proc.devRef (τ := τ) .tc main_v76)) (R (Proc.devRef (τ := τ) .tc main_v74)) :=
  ((Cert.Ssa.eqs_ternary _ _ _ _ _ _ _ _ _).mp (eqs_drop _ 52 h)).1

theorem line_main_v78 (h : Cert.Ssa.Eqs R (ops1 (F := F))) :
    R (Proc.devRef (τ := τ) .tc main_v78) = (broadcastInDim S1x128 ![1] bcast_S128_S1x128_1 : (⟨S128, .f32⟩ : BufTy).Contents (Elt F) → (⟨S1x128, .f32⟩ : BufTy).Contents (Elt F)) (R (Proc.devRef (τ := τ) .tc main_arg4)) :=
  ((Cert.Ssa.eqs_unary _ _ _ _ _).mp (eqs_drop _ 53 h)).1

theorem line_main_v79 (h : Cert.Ssa.Eqs R (ops1 (F := F))) :
    R (Proc.devRef (τ := τ) .tc main_v79) = (broadcastInDim S200000x128 ![0, 1] bcast_S1x128_S200000x128_0_1 : (⟨S1x128, .f32⟩ : BufTy).Contents (Elt F) → (⟨S200000x128, .f32⟩ : BufTy).Contents (Elt F)) (R (Proc.devRef (τ := τ) .tc main_v78)) :=
  ((Cert.Ssa.eqs_unary _ _ _ _ _).mp (eqs_drop _ 54 h)).1

theorem line_main_v80 (h : Cert.Ssa.Eqs R (ops1 (F := F))) :
    R (Proc.devRef (τ := τ) .tc main_v80) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v77)) (R (Proc.devRef (τ := τ) .tc main_v79)) :=
  ((Cert.Ssa.eqs_binary _ _ _ _ _ _ _).mp (eqs_drop _ 55 h)).1

theorem line_main_cst_21 (h : Cert.Ssa.Eqs R (ops1 (F := F))) :
    R (Proc.devRef (τ := τ) .tc main_cst_21) = (constant S_ .f32 0x3C23D70A#32 : (⟨S_, .f32⟩ : BufTy).Contents (Elt F)) :=
  ((Cert.Ssa.eqs_nullary _ _ _).mp (eqs_drop _ 56 h)).1

theorem line_main_call6_cst (h : Cert.Ssa.Eqs R (ops1 (F := F))) :
    R (Proc.devRef (τ := τ) .tc main_call6_cst) = (constant S_ .f32 0x00000000#32 : (⟨S_, .f32⟩ : BufTy).Contents (Elt F)) :=
  ((Cert.Ssa.eqs_nullary _ _ _).mp (eqs_drop _ 57 h)).1

theorem line_main_call6_v0 (h : Cert.Ssa.Eqs R (ops1 (F := F))) :
    R (Proc.devRef (τ := τ) .tc main_call6_v0) = (broadcastInDim S200000x128 ![] bcast_S_S200000x128 : (⟨S_, .f32⟩ : BufTy).Contents (Elt F) → (⟨S200000x128, .f32⟩ : BufTy).Contents (Elt F)) (R (Proc.devRef (τ := τ) .tc main_call6_cst)) :=
  ((Cert.Ssa.eqs_unary _ _ _ _ _).mp (eqs_drop _ 58 h)).1

theorem line_main_call6_v1 (h : Cert.Ssa.Eqs R (ops1 (F := F))) :
    R (Proc.devRef (τ := τ) .tc main_call6_v1) = (cmpf .oge : (⟨S200000x128, .f32⟩ : BufTy).Contents (Elt F) → (⟨S200000x128, .f32⟩ : BufTy).Contents (Elt F) → (⟨S200000x128, .i1⟩ : BufTy).Contents (Elt F)) (R (Proc.devRef (τ := τ) .tc main_v80)) (R (Proc.devRef (τ := τ) .tc main_call6_v0)) :=
  ((Cert.Ssa.eqs_binary _ _ _ _ _ _ _).mp (eqs_drop _ 59 h)).1

theorem line_main_call6_v2 (h : Cert.Ssa.Eqs R (ops1 (F := F))) :
    R (Proc.devRef (τ := τ) .tc main_call6_v2) = (id : (⟨S_, .f32⟩ : BufTy).Contents (Elt F) → (⟨S_, .f32⟩ : BufTy).Contents (Elt F)) (R (Proc.devRef (τ := τ) .tc main_cst_21)) :=
  ((Cert.Ssa.eqs_unary _ _ _ _ _).mp (eqs_drop _ 60 h)).1

theorem line_main_call6_v3 (h : Cert.Ssa.Eqs R (ops1 (F := F))) :
    R (Proc.devRef (τ := τ) .tc main_call6_v3) = (broadcastInDim S200000x128 ![] bcast_S_S200000x128 : (⟨S_, .f32⟩ : BufTy).Contents (Elt F) → (⟨S200000x128, .f32⟩ : BufTy).Contents (Elt F)) (R (Proc.devRef (τ := τ) .tc main_call6_v2)) :=
  ((Cert.Ssa.eqs_unary _ _ _ _ _).mp (eqs_drop _ 61 h)).1

theorem line_main_call6_v4 (h : Cert.Ssa.Eqs R (ops1 (F := F))) :
    R (Proc.devRef (τ := τ) .tc main_call6_v4) = (mulf : (⟨S200000x128, .f32⟩ : BufTy).Contents (Elt F) → (⟨S200000x128, .f32⟩ : BufTy).Contents (Elt F) → (⟨S200000x128, .f32⟩ : BufTy).Contents (Elt F)) (R (Proc.devRef (τ := τ) .tc main_call6_v3)) (R (Proc.devRef (τ := τ) .tc main_v80)) :=
  ((Cert.Ssa.eqs_binary _ _ _ _ _ _ _).mp (eqs_drop _ 62 h)).1

theorem line_main_v81 (h : Cert.Ssa.Eqs R (ops1 (F := F))) :
    R (Proc.devRef (τ := τ) .tc main_v81) = (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)) (R (Proc.devRef (τ := τ) .tc main_call6_v1)) (R (Proc.devRef (τ := τ) .tc main_v80)) (R (Proc.devRef (τ := τ) .tc main_call6_v4)) :=
  ((Cert.Ssa.eqs_ternary _ _ _ _ _ _ _ _ _).mp (eqs_drop _ 63 h)).1

theorem line_main_cst_22 (h : Cert.Ssa.Eqs R (ops1 (F := F))) :
    R (Proc.devRef (τ := τ) .tc main_cst_22) = (constant S_ .f32 0x3F800000#32 : (⟨S_, .f32⟩ : BufTy).Contents (Elt F)) :=
  ((Cert.Ssa.eqs_nullary _ _ _).mp (eqs_drop _ 64 h)).1

theorem line_main_v82 (h : Cert.Ssa.Eqs R (ops1 (F := F))) :
    R (Proc.devRef (τ := τ) .tc main_v82) = (broadcastInDim S200000 ![] bcast_S_S200000 : (⟨S_, .f32⟩ : BufTy).Contents (Elt F) → (⟨S200000, .f32⟩ : BufTy).Contents (Elt F)) (R (Proc.devRef (τ := τ) .tc main_cst_22)) :=
  ((Cert.Ssa.eqs_unary _ _ _ _ _).mp (eqs_drop _ 65 h)).1

theorem line_main_cst_23 (h : Cert.Ssa.Eqs R (ops1 (F := F))) :
    R (Proc.devRef (τ := τ) .tc main_cst_23) = (constant S_ .f32 0x00000000#32 : (⟨S_, .f32⟩ : BufTy).Contents (Elt F)) :=
  ((Cert.Ssa.eqs_nullary _ _ _).mp (eqs_drop _ 66 h)).1

theorem line_main_v83 (h : Cert.Ssa.Eqs R (ops1 (F := F))) :
    R (Proc.devRef (τ := τ) .tc main_v83) = (broadcastInDim S200000 ![] bcast_S_S200000 : (⟨S_, .f32⟩ : BufTy).Contents (Elt F) → (⟨S200000, .f32⟩ : BufTy).Contents (Elt F)) (R (Proc.devRef (τ := τ) .tc main_cst_23)) :=
  ((Cert.Ssa.eqs_unary _ _ _ _ _).mp (eqs_drop _ 67 h)).1

theorem line_main_v84 (h : Cert.Ssa.Eqs R (ops1 (F := F))) :
    R (Proc.devRef (τ := τ) .tc main_v84) = (broadcastInDim S200000x1 ![0] bcast_S200000_S200000x1_0 : (⟨S200000, .i32⟩ : BufTy).Contents (Elt F) → (⟨S200000x1, .i32⟩ : BufTy).Contents (Elt F)) (R (Proc.devRef (τ := τ) .tc main_v3)) :=
  ((Cert.Ssa.eqs_unary _ _ _ _ _).mp (eqs_drop _ 68 h)).1

theorem line_main_v85 (h : Cert.Ssa.Eqs R (ops1 (F := F))) :
    R (Proc.devRef (τ := τ) .tc main_v85) = ((fun x i u => Host.scatterAdd scatter_S200000_S200000x1_S200000_n_0_0_1 x i u) : (⟨S200000, .f32⟩ : BufTy).Contents (Elt F) → (⟨S200000x1, .i32⟩ : BufTy).Contents (Elt F) → (⟨S200000, .f32⟩ : BufTy).Contents (Elt F) → (⟨S200000, .f32⟩ : BufTy).Contents (Elt F)) (R (Proc.devRef (τ := τ) .tc main_v83)) (R (Proc.devRef (τ := τ) .tc main_v84)) (R (Proc.devRef (τ := τ) .tc main_v82)) :=
  ((Cert.Ssa.eqs_ternary _ _ _ _ _ _ _ _ _).mp (eqs_drop _ 69 h)).1

theorem line_main_cst_24 (h : Cert.Ssa.Eqs R (ops1 (F := F))) :
    R (Proc.devRef (τ := τ) .tc main_cst_24) = (constant S_ .f32 0x00000000#32 : (⟨S_, .f32⟩ : BufTy).Contents (Elt F)) :=
  ((Cert.Ssa.eqs_nullary _ _ _).mp (eqs_drop _ 70 h)).1

theorem line_main_v86 (h : Cert.Ssa.Eqs R (ops1 (F := F))) :
    R (Proc.devRef (τ := τ) .tc main_v86) = (broadcastInDim S200000 ![] bcast_S_S200000 : (⟨S_, .f32⟩ : BufTy).Contents (Elt F) → (⟨S200000, .f32⟩ : BufTy).Contents (Elt F)) (R (Proc.devRef (τ := τ) .tc main_cst_24)) :=
  ((Cert.Ssa.eqs_unary _ _ _ _ _).mp (eqs_drop _ 71 h)).1

theorem line_main_v87 (h : Cert.Ssa.Eqs R (ops1 (F := F))) :
    R (Proc.devRef (τ := τ) .tc main_v87) = (cmpf .ogt : (⟨S200000, .f32⟩ : BufTy).Contents (Elt F) → (⟨S200000, .f32⟩ : BufTy).Contents (Elt F) → (⟨S200000, .i1⟩ : BufTy).Contents (Elt F)) (R (Proc.devRef (τ := τ) .tc main_v85)) (R (Proc.devRef (τ := τ) .tc main_v86)) :=
  ((Cert.Ssa.eqs_binary _ _ _ _ _ _ _).mp (eqs_drop _ 72 h)).1

theorem line_main_cst_25 (h : Cert.Ssa.Eqs R (ops1 (F := F))) :
    R (Proc.devRef (τ := τ) .tc main_cst_25) = (constant S_ .f32 0x00000000#32 : (⟨S_, .f32⟩ : BufTy).Contents (Elt F)) :=
  ((Cert.Ssa.eqs_nullary _ _ _).mp (eqs_drop _ 73 h)).1

theorem line_main_v88 (h : Cert.Ssa.Eqs R (ops1 (F := F))) :
    R (Proc.devRef (τ := τ) .tc main_v88) = (broadcastInDim S200000 ![] bcast_S_S200000 : (⟨S_, .f32⟩ : BufTy).Contents (Elt F) → (⟨S200000, .f32⟩ : BufTy).Contents (Elt F)) (R (Proc.devRef (τ := τ) .tc main_cst_25)) :=
  ((Cert.Ssa.eqs_unary _ _ _ _ _).mp (eqs_drop _ 74 h)).1

theorem line_main_v89 (h : Cert.Ssa.Eqs R (ops1 (F := F))) :
    R (Proc.devRef (τ := τ) .tc main_v89) = (cmpf .ogt : (⟨S200000, .f32⟩ : BufTy).Contents (Elt F) → (⟨S200000, .f32⟩ : BufTy).Contents (Elt F) → (⟨S200000, .i1⟩ : BufTy).Contents (Elt F)) (R (Proc.devRef (τ := τ) .tc main_v85)) (R (Proc.devRef (τ := τ) .tc main_v88)) :=
  ((Cert.Ssa.eqs_binary _ _ _ _ _ _ _).mp (eqs_drop _ 75 h)).1

theorem line_main_cst_26 (h : Cert.Ssa.Eqs R (ops1 (F := F))) :
    R (Proc.devRef (τ := τ) .tc main_cst_26) = (constant S_ .f32 0x3F800000#32 : (⟨S_, .f32⟩ : BufTy).Contents (Elt F)) :=
  ((Cert.Ssa.eqs_nullary _ _ _).mp (eqs_drop _ 76 h)).1

theorem line_main_call7_v0 (h : Cert.Ssa.Eqs R (ops1 (F := F))) :
    R (Proc.devRef (τ := τ) .tc main_call7_v0) = (id : (⟨S_, .f32⟩ : BufTy).Contents (Elt F) → (⟨S_, .f32⟩ : BufTy).Contents (Elt F)) (R (Proc.devRef (τ := τ) .tc main_cst_26)) :=
  ((Cert.Ssa.eqs_unary _ _ _ _ _).mp (eqs_drop _ 77 h)).1

theorem line_main_call7_v1 (h : Cert.Ssa.Eqs R (ops1 (F := F))) :
    R (Proc.devRef (τ := τ) .tc main_call7_v1) = (broadcastInDim S200000 ![] bcast_S_S200000 : (⟨S_, .f32⟩ : BufTy).Contents (Elt F) → (⟨S200000, .f32⟩ : BufTy).Contents (Elt F)) (R (Proc.devRef (τ := τ) .tc main_call7_v0)) :=
  ((Cert.Ssa.eqs_unary _ _ _ _ _).mp (eqs_drop _ 78 h)).1

theorem line_main_v90 (h : Cert.Ssa.Eqs R (ops1 (F := F))) :
    R (Proc.devRef (τ := τ) .tc main_v90) = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (R (Proc.devRef (τ := τ) .tc main_v89)) (R (Proc.devRef (τ := τ) .tc main_v85)) (R (Proc.devRef (τ := τ) .tc main_call7_v1)) :=
  ((Cert.Ssa.eqs_ternary _ _ _ _ _ _ _ _ _).mp (eqs_drop _ 79 h)).1

theorem line_main_v91 (h : Cert.Ssa.Eqs R (ops2 (F := F))) :
    R (Proc.devRef (τ := τ) .tc main_v91) = (Host.rsqrt : (⟨S200000, .f32⟩ : BufTy).Contents (Elt F) → (⟨S200000, .f32⟩ : BufTy).Contents (Elt F)) (R (Proc.devRef (τ := τ) .tc main_v90)) :=
  ((Cert.Ssa.eqs_unary _ _ _ _ _).mp (eqs_drop _ 0 h)).1

theorem line_main_cst_27 (h : Cert.Ssa.Eqs R (ops2 (F := F))) :
    R (Proc.devRef (τ := τ) .tc main_cst_27) = (constant S_ .f32 0x00000000#32 : (⟨S_, .f32⟩ : BufTy).Contents (Elt F)) :=
  ((Cert.Ssa.eqs_nullary _ _ _).mp (eqs_drop _ 1 h)).1

theorem line_main_call8_v0 (h : Cert.Ssa.Eqs R (ops2 (F := F))) :
    R (Proc.devRef (τ := τ) .tc main_call8_v0) = (id : (⟨S_, .f32⟩ : BufTy).Contents (Elt F) → (⟨S_, .f32⟩ : BufTy).Contents (Elt F)) (R (Proc.devRef (τ := τ) .tc main_cst_27)) :=
  ((Cert.Ssa.eqs_unary _ _ _ _ _).mp (eqs_drop _ 2 h)).1

theorem line_main_call8_v1 (h : Cert.Ssa.Eqs R (ops2 (F := F))) :
    R (Proc.devRef (τ := τ) .tc main_call8_v1) = (broadcastInDim S200000 ![] bcast_S_S200000 : (⟨S_, .f32⟩ : BufTy).Contents (Elt F) → (⟨S200000, .f32⟩ : BufTy).Contents (Elt F)) (R (Proc.devRef (τ := τ) .tc main_call8_v0)) :=
  ((Cert.Ssa.eqs_unary _ _ _ _ _).mp (eqs_drop _ 3 h)).1

theorem line_main_v92 (h : Cert.Ssa.Eqs R (ops2 (F := F))) :
    R (Proc.devRef (τ := τ) .tc main_v92) = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (R (Proc.devRef (τ := τ) .tc main_v87)) (R (Proc.devRef (τ := τ) .tc main_v91)) (R (Proc.devRef (τ := τ) .tc main_call8_v1)) :=
  ((Cert.Ssa.eqs_ternary _ _ _ _ _ _ _ _ _).mp (eqs_drop _ 4 h)).1

theorem line_main_c_28 (h : Cert.Ssa.Eqs R (ops2 (F := F))) :
    R (Proc.devRef (τ := τ) .tc main_c_28) = (constantI S_ 32 0#32 : (⟨S_, .i32⟩ : BufTy).Contents (Elt F)) :=
  ((Cert.Ssa.eqs_nullary _ _ _).mp (eqs_drop _ 5 h)).1

theorem line_main_v93 (h : Cert.Ssa.Eqs R (ops2 (F := F))) :
    R (Proc.devRef (τ := τ) .tc main_v93) = (broadcastInDim S200000 ![] bcast_S_S200000 : (⟨S_, .i32⟩ : BufTy).Contents (Elt F) → (⟨S200000, .i32⟩ : BufTy).Contents (Elt F)) (R (Proc.devRef (τ := τ) .tc main_c_28)) :=
  ((Cert.Ssa.eqs_unary _ _ _ _ _).mp (eqs_drop _ 6 h)).1

theorem line_main_v94 (h : Cert.Ssa.Eqs R (ops2 (F := F))) :
    R (Proc.devRef (τ := τ) .tc main_v94) = (cmpi .slt : (⟨S200000, .i32⟩ : BufTy).Contents (Elt F) → (⟨S200000, .i32⟩ : BufTy).Contents (Elt F) → (⟨S200000, .i1⟩ : BufTy).Contents (Elt F)) (R (Proc.devRef (τ := τ) .tc main_v1)) (R (Proc.devRef (τ := τ) .tc main_v93)) :=
  ((Cert.Ssa.eqs_binary _ _ _ _ _ _ _).mp (eqs_drop _ 7 h)).1

theorem line_main_c_29 (h : Cert.Ssa.Eqs R (ops2 (F := F))) :
    R (Proc.devRef (τ := τ) .tc main_c_29) = (constantI S_ 32 200000#32 : (⟨S_, .i32⟩ : BufTy).Contents (Elt F)) :=
  ((Cert.Ssa.eqs_nullary _ _ _).mp (eqs_drop _ 8 h)).1

theorem line_main_v95 (h : Cert.Ssa.Eqs R (ops2 (F := F))) :
    R (Proc.devRef (τ := τ) .tc main_v95) = (broadcastInDim S200000 ![] bcast_S_S200000 : (⟨S_, .i32⟩ : BufTy).Contents (Elt F) → (⟨S200000, .i32⟩ : BufTy).Contents (Elt F)) (R (Proc.devRef (τ := τ) .tc main_c_29)) :=
  ((Cert.Ssa.eqs_unary _ _ _ _ _).mp (eqs_drop _ 9 h)).1

theorem line_main_v96 (h : Cert.Ssa.Eqs R (ops2 (F := F))) :
    R (Proc.devRef (τ := τ) .tc main_v96) = (addi : (⟨S200000, .i32⟩ : BufTy).Contents (Elt F) → (⟨S200000, .i32⟩ : BufTy).Contents (Elt F) → (⟨S200000, .i32⟩ : BufTy).Contents (Elt F)) (R (Proc.devRef (τ := τ) .tc main_v1)) (R (Proc.devRef (τ := τ) .tc main_v95)) :=
  ((Cert.Ssa.eqs_binary _ _ _ _ _ _ _).mp (eqs_drop _ 10 h)).1

theorem line_main_v97 (h : Cert.Ssa.Eqs R (ops2 (F := F))) :
    R (Proc.devRef (τ := τ) .tc main_v97) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (R (Proc.devRef (τ := τ) .tc main_v94)) (R (Proc.devRef (τ := τ) .tc main_v96)) (R (Proc.devRef (τ := τ) .tc main_v1)) :=
  ((Cert.Ssa.eqs_ternary _ _ _ _ _ _ _ _ _).mp (eqs_drop _ 11 h)).1

theorem line_main_v98 (h : Cert.Ssa.Eqs R (ops2 (F := F))) :
    R (Proc.devRef (τ := τ) .tc main_v98) = (broadcastInDim S200000x1 ![0] bcast_S200000_S200000x1_0 : (⟨S200000, .i32⟩ : BufTy).Contents (Elt F) → (⟨S200000x1, .i32⟩ : BufTy).Contents (Elt F)) (R (Proc.devRef (τ := τ) .tc main_v97)) :=
  ((Cert.Ssa.eqs_unary _ _ _ _ _).mp (eqs_drop _ 12 h)).1

theorem line_main_v99 (h : Cert.Ssa.Eqs R (ops2 (F := F))) :
    R (Proc.devRef (τ := τ) .tc main_v99) = ((fun x i => Host.gather gather_S200000_S200000x1_S200000_n_0_n_n_0_1_1 x i) : (⟨S200000, .f32⟩ : BufTy).Contents (Elt F) → (⟨S200000x1, .i32⟩ : BufTy).Contents (Elt F) → (⟨S200000, .f32⟩ : BufTy).Contents (Elt F)) (R (Proc.devRef (τ := τ) .tc main_v92)) (R (Proc.devRef (τ := τ) .tc main_v98)) :=
  ((Cert.Ssa.eqs_binary _ _ _ _ _ _ _).mp (eqs_drop _ 13 h)).1

theorem line_main_c_30 (h : Cert.Ssa.Eqs R (ops2 (F := F))) :
    R (Proc.devRef (τ := τ) .tc main_c_30) = (constantI S_ 32 0#32 : (⟨S_, .i32⟩ : BufTy).Contents (Elt F)) :=
  ((Cert.Ssa.eqs_nullary _ _ _).mp (eqs_drop _ 14 h)).1

theorem line_main_v100 (h : Cert.Ssa.Eqs R (ops2 (F := F))) :
    R (Proc.devRef (τ := τ) .tc main_v100) = (broadcastInDim S200000 ![] bcast_S_S200000 : (⟨S_, .i32⟩ : BufTy).Contents (Elt F) → (⟨S200000, .i32⟩ : BufTy).Contents (Elt F)) (R (Proc.devRef (τ := τ) .tc main_c_30)) :=
  ((Cert.Ssa.eqs_unary _ _ _ _ _).mp (eqs_drop _ 15 h)).1

theorem line_main_v101 (h : Cert.Ssa.Eqs R (ops2 (F := F))) :
    R (Proc.devRef (τ := τ) .tc main_v101) = (cmpi .slt : (⟨S200000, .i32⟩ : BufTy).Contents (Elt F) → (⟨S200000, .i32⟩ : BufTy).Contents (Elt F) → (⟨S200000, .i1⟩ : BufTy).Contents (Elt F)) (R (Proc.devRef (τ := τ) .tc main_v3)) (R (Proc.devRef (τ := τ) .tc main_v100)) :=
  ((Cert.Ssa.eqs_binary _ _ _ _ _ _ _).mp (eqs_drop _ 16 h)).1

theorem line_main_c_31 (h : Cert.Ssa.Eqs R (ops2 (F := F))) :
    R (Proc.devRef (τ := τ) .tc main_c_31) = (constantI S_ 32 200000#32 : (⟨S_, .i32⟩ : BufTy).Contents (Elt F)) :=
  ((Cert.Ssa.eqs_nullary _ _ _).mp (eqs_drop _ 17 h)).1

theorem line_main_v102 (h : Cert.Ssa.Eqs R (ops2 (F := F))) :
    R (Proc.devRef (τ := τ) .tc main_v102) = (broadcastInDim S200000 ![] bcast_S_S200000 : (⟨S_, .i32⟩ : BufTy).Contents (Elt F) → (⟨S200000, .i32⟩ : BufTy).Contents (Elt F)) (R (Proc.devRef (τ := τ) .tc main_c_31)) :=
  ((Cert.Ssa.eqs_unary _ _ _ _ _).mp (eqs_drop _ 18 h)).1

theorem line_main_v103 (h : Cert.Ssa.Eqs R (ops2 (F := F))) :
    R (Proc.devRef (τ := τ) .tc main_v103) = (addi : (⟨S200000, .i32⟩ : BufTy).Contents (Elt F) → (⟨S200000, .i32⟩ : BufTy).Contents (Elt F) → (⟨S200000, .i32⟩ : BufTy).Contents (Elt F)) (R (Proc.devRef (τ := τ) .tc main_v3)) (R (Proc.devRef (τ := τ) .tc main_v102)) :=
  ((Cert.Ssa.eqs_binary _ _ _ _ _ _ _).mp (eqs_drop _ 19 h)).1

theorem line_main_v104 (h : Cert.Ssa.Eqs R (ops2 (F := F))) :
    R (Proc.devRef (τ := τ) .tc main_v104) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (R (Proc.devRef (τ := τ) .tc main_v101)) (R (Proc.devRef (τ := τ) .tc main_v103)) (R (Proc.devRef (τ := τ) .tc main_v3)) :=
  ((Cert.Ssa.eqs_ternary _ _ _ _ _ _ _ _ _).mp (eqs_drop _ 20 h)).1

theorem line_main_v105 (h : Cert.Ssa.Eqs R (ops2 (F := F))) :
    R (Proc.devRef (τ := τ) .tc main_v105) = (broadcastInDim S200000x1 ![0] bcast_S200000_S200000x1_0 : (⟨S200000, .i32⟩ : BufTy).Contents (Elt F) → (⟨S200000x1, .i32⟩ : BufTy).Contents (Elt F)) (R (Proc.devRef (τ := τ) .tc main_v104)) :=
  ((Cert.Ssa.eqs_unary _ _ _ _ _).mp (eqs_drop _ 21 h)).1

theorem line_main_v106 (h : Cert.Ssa.Eqs R (ops2 (F := F))) :
    R (Proc.devRef (τ := τ) .tc main_v106) = ((fun x i => Host.gather gather_S200000_S200000x1_S200000_n_0_n_n_0_1_1 x i) : (⟨S200000, .f32⟩ : BufTy).Contents (Elt F) → (⟨S200000x1, .i32⟩ : BufTy).Contents (Elt F) → (⟨S200000, .f32⟩ : BufTy).Contents (Elt F)) (R (Proc.devRef (τ := τ) .tc main_v92)) (R (Proc.devRef (τ := τ) .tc main_v105)) :=
  ((Cert.Ssa.eqs_binary _ _ _ _ _ _ _).mp (eqs_drop _ 22 h)).1

theorem line_main_v107 (h : Cert.Ssa.Eqs R (ops2 (F := F))) :
    R (Proc.devRef (τ := τ) .tc main_v107) = (mulf : (⟨S200000, .f32⟩ : BufTy).Contents (Elt F) → (⟨S200000, .f32⟩ : BufTy).Contents (Elt F) → (⟨S200000, .f32⟩ : BufTy).Contents (Elt F)) (R (Proc.devRef (τ := τ) .tc main_v99)) (R (Proc.devRef (τ := τ) .tc main_v106)) :=
  ((Cert.Ssa.eqs_binary _ _ _ _ _ _ _).mp (eqs_drop _ 23 h)).1

theorem line_main_c_32 (h : Cert.Ssa.Eqs R (ops2 (F := F))) :
    R (Proc.devRef (τ := τ) .tc main_c_32) = (constantI S_ 32 0#32 : (⟨S_, .i32⟩ : BufTy).Contents (Elt F)) :=
  ((Cert.Ssa.eqs_nullary _ _ _).mp (eqs_drop _ 24 h)).1

theorem line_main_v108 (h : Cert.Ssa.Eqs R (ops2 (F := F))) :
    R (Proc.devRef (τ := τ) .tc main_v108) = (broadcastInDim S200000 ![] bcast_S_S200000 : (⟨S_, .i32⟩ : BufTy).Contents (Elt F) → (⟨S200000, .i32⟩ : BufTy).Contents (Elt F)) (R (Proc.devRef (τ := τ) .tc main_c_32)) :=
  ((Cert.Ssa.eqs_unary _ _ _ _ _).mp (eqs_drop _ 25 h)).1

theorem line_main_v109 (h : Cert.Ssa.Eqs R (ops2 (F := F))) :
    R (Proc.devRef (τ := τ) .tc main_v109) = (cmpi .slt : (⟨S200000, .i32⟩ : BufTy).Contents (Elt F) → (⟨S200000, .i32⟩ : BufTy).Contents (Elt F) → (⟨S200000, .i1⟩ : BufTy).Contents (Elt F)) (R (Proc.devRef (τ := τ) .tc main_v1)) (R (Proc.devRef (τ := τ) .tc main_v108)) :=
  ((Cert.Ssa.eqs_binary _ _ _ _ _ _ _).mp (eqs_drop _ 26 h)).1

theorem line_main_c_33 (h : Cert.Ssa.Eqs R (ops2 (F := F))) :
    R (Proc.devRef (τ := τ) .tc main_c_33) = (constantI S_ 32 200000#32 : (⟨S_, .i32⟩ : BufTy).Contents (Elt F)) :=
  ((Cert.Ssa.eqs_nullary _ _ _).mp (eqs_drop _ 27 h)).1

theorem line_main_v110 (h : Cert.Ssa.Eqs R (ops2 (F := F))) :
    R (Proc.devRef (τ := τ) .tc main_v110) = (broadcastInDim S200000 ![] bcast_S_S200000 : (⟨S_, .i32⟩ : BufTy).Contents (Elt F) → (⟨S200000, .i32⟩ : BufTy).Contents (Elt F)) (R (Proc.devRef (τ := τ) .tc main_c_33)) :=
  ((Cert.Ssa.eqs_unary _ _ _ _ _).mp (eqs_drop _ 28 h)).1

theorem line_main_v111 (h : Cert.Ssa.Eqs R (ops2 (F := F))) :
    R (Proc.devRef (τ := τ) .tc main_v111) = (addi : (⟨S200000, .i32⟩ : BufTy).Contents (Elt F) → (⟨S200000, .i32⟩ : BufTy).Contents (Elt F) → (⟨S200000, .i32⟩ : BufTy).Contents (Elt F)) (R (Proc.devRef (τ := τ) .tc main_v1)) (R (Proc.devRef (τ := τ) .tc main_v110)) :=
  ((Cert.Ssa.eqs_binary _ _ _ _ _ _ _).mp (eqs_drop _ 29 h)).1

theorem line_main_v112 (h : Cert.Ssa.Eqs R (ops2 (F := F))) :
    R (Proc.devRef (τ := τ) .tc main_v112) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (R (Proc.devRef (τ := τ) .tc main_v109)) (R (Proc.devRef (τ := τ) .tc main_v111)) (R (Proc.devRef (τ := τ) .tc main_v1)) :=
  ((Cert.Ssa.eqs_ternary _ _ _ _ _ _ _ _ _).mp (eqs_drop _ 30 h)).1

theorem line_main_v113 (h : Cert.Ssa.Eqs R (ops2 (F := F))) :
    R (Proc.devRef (τ := τ) .tc main_v113) = (broadcastInDim S200000x1 ![0] bcast_S200000_S200000x1_0 : (⟨S200000, .i32⟩ : BufTy).Contents (Elt F) → (⟨S200000x1, .i32⟩ : BufTy).Contents (Elt F)) (R (Proc.devRef (τ := τ) .tc main_v112)) :=
  ((Cert.Ssa.eqs_unary _ _ _ _ _).mp (eqs_drop _ 31 h)).1

theorem line_main_v114 (h : Cert.Ssa.Eqs R (ops2 (F := F))) :
    R (Proc.devRef (τ := τ) .tc main_v114) = ((fun x i => Host.gather gather_S200000x128_S200000x1_S200000x128_1_0_n_n_0_1_1128 x i) : (⟨S200000x128, .f32⟩ : BufTy).Contents (Elt F) → (⟨S200000x1, .i32⟩ : BufTy).Contents (Elt F) → (⟨S200000x128, .f32⟩ : BufTy).Contents (Elt F)) (R (Proc.devRef (τ := τ) .tc main_v81)) (R (Proc.devRef (τ := τ) .tc main_v113)) :=
  ((Cert.Ssa.eqs_binary _ _ _ _ _ _ _).mp (eqs_drop _ 32 h)).1

theorem line_main_cst_34 (h : Cert.Ssa.Eqs R (ops2 (F := F))) :
    R (Proc.devRef (τ := τ) .tc main_cst_34) = (constant S_ .f32 0x00000000#32 : (⟨S_, .f32⟩ : BufTy).Contents (Elt F)) :=
  ((Cert.Ssa.eqs_nullary _ _ _).mp (eqs_drop _ 33 h)).1

theorem line_main_v115 (h : Cert.Ssa.Eqs R (ops2 (F := F))) :
    R (Proc.devRef (τ := τ) .tc main_v115) = (broadcastInDim S200000x128 ![] bcast_S_S200000x128 : (⟨S_, .f32⟩ : BufTy).Contents (Elt F) → (⟨S200000x128, .f32⟩ : BufTy).Contents (Elt F)) (R (Proc.devRef (τ := τ) .tc main_cst_34)) :=
  ((Cert.Ssa.eqs_unary _ _ _ _ _).mp (eqs_drop _ 34 h)).1

theorem line_main_c_35 (h : Cert.Ssa.Eqs R (ops2 (F := F))) :
    R (Proc.devRef (τ := τ) .tc main_c_35) = (constantI S_ 32 0#32 : (⟨S_, .i32⟩ : BufTy).Contents (Elt F)) :=
  ((Cert.Ssa.eqs_nullary _ _ _).mp (eqs_drop _ 35 h)).1

theorem line_main_v116 (h : Cert.Ssa.Eqs R (ops2 (F := F))) :
    R (Proc.devRef (τ := τ) .tc main_v116) = (broadcastInDim S200000 ![] bcast_S_S200000 : (⟨S_, .i32⟩ : BufTy).Contents (Elt F) → (⟨S200000, .i32⟩ : BufTy).Contents (Elt F)) (R (Proc.devRef (τ := τ) .tc main_c_35)) :=
  ((Cert.Ssa.eqs_unary _ _ _ _ _).mp (eqs_drop _ 36 h)).1

theorem line_main_v117 (h : Cert.Ssa.Eqs R (ops2 (F := F))) :
    R (Proc.devRef (τ := τ) .tc main_v117) = (cmpi .eq : (⟨S200000, .i32⟩ : BufTy).Contents (Elt F) → (⟨S200000, .i32⟩ : BufTy).Contents (Elt F) → (⟨S200000, .i1⟩ : BufTy).Contents (Elt F)) (R (Proc.devRef (τ := τ) .tc main_arg1)) (R (Proc.devRef (τ := τ) .tc main_v116)) :=
  ((Cert.Ssa.eqs_binary _ _ _ _ _ _ _).mp (eqs_drop _ 37 h)).1

theorem line_main_v118 (h : Cert.Ssa.Eqs R (ops2 (F := F))) :
    R (Proc.devRef (τ := τ) .tc main_v118) = (broadcastInDim S200000x1 ![0] bcast_S200000_S200000x1_0 : (⟨S200000, .i1⟩ : BufTy).Contents (Elt F) → (⟨S200000x1, .i1⟩ : BufTy).Contents (Elt F)) (R (Proc.devRef (τ := τ) .tc main_v117)) :=
  ((Cert.Ssa.eqs_unary _ _ _ _ _).mp (eqs_drop _ 38 h)).1

theorem line_main_v119 (h : Cert.Ssa.Eqs R (ops2 (F := F))) :
    R (Proc.devRef (τ := τ) .tc main_v119) = ((extractStridedSlice S1x128x128 ![0, 0, 0] · slices_S4x128x128_S1x128x128_0_0_0) : (⟨S4x128x128, .f32⟩ : BufTy).Contents (Elt F) → (⟨S1x128x128, .f32⟩ : BufTy).Contents (Elt F)) (R (Proc.devRef (τ := τ) .tc main_arg5)) :=
  ((Cert.Ssa.eqs_unary _ _ _ _ _).mp (eqs_drop _ 39 h)).1

theorem line_main_v120 (h : Cert.Ssa.Eqs R (ops2 (F := F))) :
    R (Proc.devRef (τ := τ) .tc main_v120) = (shapeCast S128x128 (R (Proc.devRef (τ := τ) .tc main_v119) : (⟨S1x128x128, .f32⟩ : BufTy).Contents (Elt F)) shapeCasts_S1x128x128_S128x128 : (⟨S128x128, .f32⟩ : BufTy).Contents (Elt F)) :=
  ((Cert.Ssa.eqs_reshape _ _ _ _ _ _).mp (eqs_drop _ 40 h)).1

theorem line_main_v121 (h : Cert.Ssa.Eqs R (ops2 (F := F))) :
    R (Proc.devRef (τ := τ) .tc main_v121) = ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)) (R (Proc.devRef (τ := τ) .tc main_v114)) (R (Proc.devRef (τ := τ) .tc main_v120)) :=
  ((Cert.Ssa.eqs_binary _ _ _ _ _ _ _).mp (eqs_drop _ 41 h)).1

theorem line_main_cst_36 (h : Cert.Ssa.Eqs R (ops2 (F := F))) :
    R (Proc.devRef (τ := τ) .tc main_cst_36) = (constant S_ .f32 0x00000000#32 : (⟨S_, .f32⟩ : BufTy).Contents (Elt F)) :=
  ((Cert.Ssa.eqs_nullary _ _ _).mp (eqs_drop _ 42 h)).1

theorem line_main_call9_v0 (h : Cert.Ssa.Eqs R (ops2 (F := F))) :
    R (Proc.devRef (τ := τ) .tc main_call9_v0) = (id : (⟨S_, .f32⟩ : BufTy).Contents (Elt F) → (⟨S_, .f32⟩ : BufTy).Contents (Elt F)) (R (Proc.devRef (τ := τ) .tc main_cst_36)) :=
  ((Cert.Ssa.eqs_unary _ _ _ _ _).mp (eqs_drop _ 43 h)).1

theorem line_main_call9_v1 (h : Cert.Ssa.Eqs R (ops2 (F := F))) :
    R (Proc.devRef (τ := τ) .tc main_call9_v1) = (broadcastInDim S200000x128 ![0, 1] bcast_S200000x1_S200000x128_0_1 : (⟨S200000x1, .i1⟩ : BufTy).Contents (Elt F) → (⟨S200000x128, .i1⟩ : BufTy).Contents (Elt F)) (R (Proc.devRef (τ := τ) .tc main_v118)) :=
  ((Cert.Ssa.eqs_unary _ _ _ _ _).mp (eqs_drop _ 44 h)).1

theorem line_main_call9_v2 (h : Cert.Ssa.Eqs R (ops2 (F := F))) :
    R (Proc.devRef (τ := τ) .tc main_call9_v2) = (broadcastInDim S200000x128 ![] bcast_S_S200000x128 : (⟨S_, .f32⟩ : BufTy).Contents (Elt F) → (⟨S200000x128, .f32⟩ : BufTy).Contents (Elt F)) (R (Proc.devRef (τ := τ) .tc main_call9_v0)) :=
  ((Cert.Ssa.eqs_unary _ _ _ _ _).mp (eqs_drop _ 45 h)).1

theorem line_main_v122 (h : Cert.Ssa.Eqs R (ops2 (F := F))) :
    R (Proc.devRef (τ := τ) .tc main_v122) = (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)) (R (Proc.devRef (τ := τ) .tc main_call9_v1)) (R (Proc.devRef (τ := τ) .tc main_v121)) (R (Proc.devRef (τ := τ) .tc main_call9_v2)) :=
  ((Cert.Ssa.eqs_ternary _ _ _ _ _ _ _ _ _).mp (eqs_drop _ 46 h)).1

theorem line_main_v123 (h : Cert.Ssa.Eqs R (ops2 (F := F))) :
    R (Proc.devRef (τ := τ) .tc main_v123) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v115)) (R (Proc.devRef (τ := τ) .tc main_v122)) :=
  ((Cert.Ssa.eqs_binary _ _ _ _ _ _ _).mp (eqs_drop _ 47 h)).1

theorem line_main_c_37 (h : Cert.Ssa.Eqs R (ops2 (F := F))) :
    R (Proc.devRef (τ := τ) .tc main_c_37) = (constantI S_ 32 1#32 : (⟨S_, .i32⟩ : BufTy).Contents (Elt F)) :=
  ((Cert.Ssa.eqs_nullary _ _ _).mp (eqs_drop _ 48 h)).1

theorem line_main_v124 (h : Cert.Ssa.Eqs R (ops2 (F := F))) :
    R (Proc.devRef (τ := τ) .tc main_v124) = (broadcastInDim S200000 ![] bcast_S_S200000 : (⟨S_, .i32⟩ : BufTy).Contents (Elt F) → (⟨S200000, .i32⟩ : BufTy).Contents (Elt F)) (R (Proc.devRef (τ := τ) .tc main_c_37)) :=
  ((Cert.Ssa.eqs_unary _ _ _ _ _).mp (eqs_drop _ 49 h)).1

theorem line_main_v125 (h : Cert.Ssa.Eqs R (ops2 (F := F))) :
    R (Proc.devRef (τ := τ) .tc main_v125) = (cmpi .eq : (⟨S200000, .i32⟩ : BufTy).Contents (Elt F) → (⟨S200000, .i32⟩ : BufTy).Contents (Elt F) → (⟨S200000, .i1⟩ : BufTy).Contents (Elt F)) (R (Proc.devRef (τ := τ) .tc main_arg1)) (R (Proc.devRef (τ := τ) .tc main_v124)) :=
  ((Cert.Ssa.eqs_binary _ _ _ _ _ _ _).mp (eqs_drop _ 50 h)).1

theorem line_main_v126 (h : Cert.Ssa.Eqs R (ops2 (F := F))) :
    R (Proc.devRef (τ := τ) .tc main_v126) = (broadcastInDim S200000x1 ![0] bcast_S200000_S200000x1_0 : (⟨S200000, .i1⟩ : BufTy).Contents (Elt F) → (⟨S200000x1, .i1⟩ : BufTy).Contents (Elt F)) (R (Proc.devRef (τ := τ) .tc main_v125)) :=
  ((Cert.Ssa.eqs_unary _ _ _ _ _).mp (eqs_drop _ 51 h)).1

theorem line_main_v127 (h : Cert.Ssa.Eqs R (ops2 (F := F))) :
    R (Proc.devRef (τ := τ) .tc main_v127) = ((extractStridedSlice S1x128x128 ![1, 0, 0] · slices_S4x128x128_S1x128x128_1_0_0) : (⟨S4x128x128, .f32⟩ : BufTy).Contents (Elt F) → (⟨S1x128x128, .f32⟩ : BufTy).Contents (Elt F)) (R (Proc.devRef (τ := τ) .tc main_arg5)) :=
  ((Cert.Ssa.eqs_unary _ _ _ _ _).mp (eqs_drop _ 52 h)).1

theorem line_main_v128 (h : Cert.Ssa.Eqs R (ops2 (F := F))) :
    R (Proc.devRef (τ := τ) .tc main_v128) = (shapeCast S128x128 (R (Proc.devRef (τ := τ) .tc main_v127) : (⟨S1x128x128, .f32⟩ : BufTy).Contents (Elt F)) shapeCasts_S1x128x128_S128x128 : (⟨S128x128, .f32⟩ : BufTy).Contents (Elt F)) :=
  ((Cert.Ssa.eqs_reshape _ _ _ _ _ _).mp (eqs_drop _ 53 h)).1

theorem line_main_v129 (h : Cert.Ssa.Eqs R (ops2 (F := F))) :
    R (Proc.devRef (τ := τ) .tc main_v129) = ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)) (R (Proc.devRef (τ := τ) .tc main_v114)) (R (Proc.devRef (τ := τ) .tc main_v128)) :=
  ((Cert.Ssa.eqs_binary _ _ _ _ _ _ _).mp (eqs_drop _ 54 h)).1

theorem line_main_cst_38 (h : Cert.Ssa.Eqs R (ops2 (F := F))) :
    R (Proc.devRef (τ := τ) .tc main_cst_38) = (constant S_ .f32 0x00000000#32 : (⟨S_, .f32⟩ : BufTy).Contents (Elt F)) :=
  ((Cert.Ssa.eqs_nullary _ _ _).mp (eqs_drop _ 55 h)).1

theorem line_main_call10_v0 (h : Cert.Ssa.Eqs R (ops2 (F := F))) :
    R (Proc.devRef (τ := τ) .tc main_call10_v0) = (id : (⟨S_, .f32⟩ : BufTy).Contents (Elt F) → (⟨S_, .f32⟩ : BufTy).Contents (Elt F)) (R (Proc.devRef (τ := τ) .tc main_cst_38)) :=
  ((Cert.Ssa.eqs_unary _ _ _ _ _).mp (eqs_drop _ 56 h)).1

theorem line_main_call10_v1 (h : Cert.Ssa.Eqs R (ops2 (F := F))) :
    R (Proc.devRef (τ := τ) .tc main_call10_v1) = (broadcastInDim S200000x128 ![0, 1] bcast_S200000x1_S200000x128_0_1 : (⟨S200000x1, .i1⟩ : BufTy).Contents (Elt F) → (⟨S200000x128, .i1⟩ : BufTy).Contents (Elt F)) (R (Proc.devRef (τ := τ) .tc main_v126)) :=
  ((Cert.Ssa.eqs_unary _ _ _ _ _).mp (eqs_drop _ 57 h)).1

theorem line_main_call10_v2 (h : Cert.Ssa.Eqs R (ops2 (F := F))) :
    R (Proc.devRef (τ := τ) .tc main_call10_v2) = (broadcastInDim S200000x128 ![] bcast_S_S200000x128 : (⟨S_, .f32⟩ : BufTy).Contents (Elt F) → (⟨S200000x128, .f32⟩ : BufTy).Contents (Elt F)) (R (Proc.devRef (τ := τ) .tc main_call10_v0)) :=
  ((Cert.Ssa.eqs_unary _ _ _ _ _).mp (eqs_drop _ 58 h)).1

theorem line_main_v130 (h : Cert.Ssa.Eqs R (ops2 (F := F))) :
    R (Proc.devRef (τ := τ) .tc main_v130) = (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)) (R (Proc.devRef (τ := τ) .tc main_call10_v1)) (R (Proc.devRef (τ := τ) .tc main_v129)) (R (Proc.devRef (τ := τ) .tc main_call10_v2)) :=
  ((Cert.Ssa.eqs_ternary _ _ _ _ _ _ _ _ _).mp (eqs_drop _ 59 h)).1

theorem line_main_v131 (h : Cert.Ssa.Eqs R (ops2 (F := F))) :
    R (Proc.devRef (τ := τ) .tc main_v131) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v123)) (R (Proc.devRef (τ := τ) .tc main_v130)) :=
  ((Cert.Ssa.eqs_binary _ _ _ _ _ _ _).mp (eqs_drop _ 60 h)).1

theorem line_main_c_39 (h : Cert.Ssa.Eqs R (ops2 (F := F))) :
    R (Proc.devRef (τ := τ) .tc main_c_39) = (constantI S_ 32 2#32 : (⟨S_, .i32⟩ : BufTy).Contents (Elt F)) :=
  ((Cert.Ssa.eqs_nullary _ _ _).mp (eqs_drop _ 61 h)).1

theorem line_main_v132 (h : Cert.Ssa.Eqs R (ops2 (F := F))) :
    R (Proc.devRef (τ := τ) .tc main_v132) = (broadcastInDim S200000 ![] bcast_S_S200000 : (⟨S_, .i32⟩ : BufTy).Contents (Elt F) → (⟨S200000, .i32⟩ : BufTy).Contents (Elt F)) (R (Proc.devRef (τ := τ) .tc main_c_39)) :=
  ((Cert.Ssa.eqs_unary _ _ _ _ _).mp (eqs_drop _ 62 h)).1

theorem line_main_v133 (h : Cert.Ssa.Eqs R (ops2 (F := F))) :
    R (Proc.devRef (τ := τ) .tc main_v133) = (cmpi .eq : (⟨S200000, .i32⟩ : BufTy).Contents (Elt F) → (⟨S200000, .i32⟩ : BufTy).Contents (Elt F) → (⟨S200000, .i1⟩ : BufTy).Contents (Elt F)) (R (Proc.devRef (τ := τ) .tc main_arg1)) (R (Proc.devRef (τ := τ) .tc main_v132)) :=
  ((Cert.Ssa.eqs_binary _ _ _ _ _ _ _).mp (eqs_drop _ 63 h)).1

theorem line_main_v134 (h : Cert.Ssa.Eqs R (ops2 (F := F))) :
    R (Proc.devRef (τ := τ) .tc main_v134) = (broadcastInDim S200000x1 ![0] bcast_S200000_S200000x1_0 : (⟨S200000, .i1⟩ : BufTy).Contents (Elt F) → (⟨S200000x1, .i1⟩ : BufTy).Contents (Elt F)) (R (Proc.devRef (τ := τ) .tc main_v133)) :=
  ((Cert.Ssa.eqs_unary _ _ _ _ _).mp (eqs_drop _ 64 h)).1

theorem line_main_v135 (h : Cert.Ssa.Eqs R (ops2 (F := F))) :
    R (Proc.devRef (τ := τ) .tc main_v135) = ((extractStridedSlice S1x128x128 ![2, 0, 0] · slices_S4x128x128_S1x128x128_2_0_0) : (⟨S4x128x128, .f32⟩ : BufTy).Contents (Elt F) → (⟨S1x128x128, .f32⟩ : BufTy).Contents (Elt F)) (R (Proc.devRef (τ := τ) .tc main_arg5)) :=
  ((Cert.Ssa.eqs_unary _ _ _ _ _).mp (eqs_drop _ 65 h)).1

theorem line_main_v136 (h : Cert.Ssa.Eqs R (ops2 (F := F))) :
    R (Proc.devRef (τ := τ) .tc main_v136) = (shapeCast S128x128 (R (Proc.devRef (τ := τ) .tc main_v135) : (⟨S1x128x128, .f32⟩ : BufTy).Contents (Elt F)) shapeCasts_S1x128x128_S128x128 : (⟨S128x128, .f32⟩ : BufTy).Contents (Elt F)) :=
  ((Cert.Ssa.eqs_reshape _ _ _ _ _ _).mp (eqs_drop _ 66 h)).1

theorem line_main_v137 (h : Cert.Ssa.Eqs R (ops2 (F := F))) :
    R (Proc.devRef (τ := τ) .tc main_v137) = ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)) (R (Proc.devRef (τ := τ) .tc main_v114)) (R (Proc.devRef (τ := τ) .tc main_v136)) :=
  ((Cert.Ssa.eqs_binary _ _ _ _ _ _ _).mp (eqs_drop _ 67 h)).1

theorem line_main_cst_40 (h : Cert.Ssa.Eqs R (ops3 (F := F))) :
    R (Proc.devRef (τ := τ) .tc main_cst_40) = (constant S_ .f32 0x00000000#32 : (⟨S_, .f32⟩ : BufTy).Contents (Elt F)) :=
  ((Cert.Ssa.eqs_nullary _ _ _).mp (eqs_drop _ 0 h)).1

theorem line_main_call11_v0 (h : Cert.Ssa.Eqs R (ops3 (F := F))) :
    R (Proc.devRef (τ := τ) .tc main_call11_v0) = (id : (⟨S_, .f32⟩ : BufTy).Contents (Elt F) → (⟨S_, .f32⟩ : BufTy).Contents (Elt F)) (R (Proc.devRef (τ := τ) .tc main_cst_40)) :=
  ((Cert.Ssa.eqs_unary _ _ _ _ _).mp (eqs_drop _ 1 h)).1

theorem line_main_call11_v1 (h : Cert.Ssa.Eqs R (ops3 (F := F))) :
    R (Proc.devRef (τ := τ) .tc main_call11_v1) = (broadcastInDim S200000x128 ![0, 1] bcast_S200000x1_S200000x128_0_1 : (⟨S200000x1, .i1⟩ : BufTy).Contents (Elt F) → (⟨S200000x128, .i1⟩ : BufTy).Contents (Elt F)) (R (Proc.devRef (τ := τ) .tc main_v134)) :=
  ((Cert.Ssa.eqs_unary _ _ _ _ _).mp (eqs_drop _ 2 h)).1

theorem line_main_call11_v2 (h : Cert.Ssa.Eqs R (ops3 (F := F))) :
    R (Proc.devRef (τ := τ) .tc main_call11_v2) = (broadcastInDim S200000x128 ![] bcast_S_S200000x128 : (⟨S_, .f32⟩ : BufTy).Contents (Elt F) → (⟨S200000x128, .f32⟩ : BufTy).Contents (Elt F)) (R (Proc.devRef (τ := τ) .tc main_call11_v0)) :=
  ((Cert.Ssa.eqs_unary _ _ _ _ _).mp (eqs_drop _ 3 h)).1

theorem line_main_v138 (h : Cert.Ssa.Eqs R (ops3 (F := F))) :
    R (Proc.devRef (τ := τ) .tc main_v138) = (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)) (R (Proc.devRef (τ := τ) .tc main_call11_v1)) (R (Proc.devRef (τ := τ) .tc main_v137)) (R (Proc.devRef (τ := τ) .tc main_call11_v2)) :=
  ((Cert.Ssa.eqs_ternary _ _ _ _ _ _ _ _ _).mp (eqs_drop _ 4 h)).1

theorem line_main_v139 (h : Cert.Ssa.Eqs R (ops3 (F := F))) :
    R (Proc.devRef (τ := τ) .tc main_v139) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v131)) (R (Proc.devRef (τ := τ) .tc main_v138)) :=
  ((Cert.Ssa.eqs_binary _ _ _ _ _ _ _).mp (eqs_drop _ 5 h)).1

theorem line_main_c_41 (h : Cert.Ssa.Eqs R (ops3 (F := F))) :
    R (Proc.devRef (τ := τ) .tc main_c_41) = (constantI S_ 32 3#32 : (⟨S_, .i32⟩ : BufTy).Contents (Elt F)) :=
  ((Cert.Ssa.eqs_nullary _ _ _).mp (eqs_drop _ 6 h)).1

theorem line_main_v140 (h : Cert.Ssa.Eqs R (ops3 (F := F))) :
    R (Proc.devRef (τ := τ) .tc main_v140) = (broadcastInDim S200000 ![] bcast_S_S200000 : (⟨S_, .i32⟩ : BufTy).Contents (Elt F) → (⟨S200000, .i32⟩ : BufTy).Contents (Elt F)) (R (Proc.devRef (τ := τ) .tc main_c_41)) :=
  ((Cert.Ssa.eqs_unary _ _ _ _ _).mp (eqs_drop _ 7 h)).1

theorem line_main_v141 (h : Cert.Ssa.Eqs R (ops3 (F := F))) :
    R (Proc.devRef (τ := τ) .tc main_v141) = (cmpi .eq : (⟨S200000, .i32⟩ : BufTy).Contents (Elt F) → (⟨S200000, .i32⟩ : BufTy).Contents (Elt F) → (⟨S200000, .i1⟩ : BufTy).Contents (Elt F)) (R (Proc.devRef (τ := τ) .tc main_arg1)) (R (Proc.devRef (τ := τ) .tc main_v140)) :=
  ((Cert.Ssa.eqs_binary _ _ _ _ _ _ _).mp (eqs_drop _ 8 h)).1

theorem line_main_v142 (h : Cert.Ssa.Eqs R (ops3 (F := F))) :
    R (Proc.devRef (τ := τ) .tc main_v142) = (broadcastInDim S200000x1 ![0] bcast_S200000_S200000x1_0 : (⟨S200000, .i1⟩ : BufTy).Contents (Elt F) → (⟨S200000x1, .i1⟩ : BufTy).Contents (Elt F)) (R (Proc.devRef (τ := τ) .tc main_v141)) :=
  ((Cert.Ssa.eqs_unary _ _ _ _ _).mp (eqs_drop _ 9 h)).1

theorem line_main_v143 (h : Cert.Ssa.Eqs R (ops3 (F := F))) :
    R (Proc.devRef (τ := τ) .tc main_v143) = ((extractStridedSlice S1x128x128 ![3, 0, 0] · slices_S4x128x128_S1x128x128_3_0_0) : (⟨S4x128x128, .f32⟩ : BufTy).Contents (Elt F) → (⟨S1x128x128, .f32⟩ : BufTy).Contents (Elt F)) (R (Proc.devRef (τ := τ) .tc main_arg5)) :=
  ((Cert.Ssa.eqs_unary _ _ _ _ _).mp (eqs_drop _ 10 h)).1

theorem line_main_v144 (h : Cert.Ssa.Eqs R (ops3 (F := F))) :
    R (Proc.devRef (τ := τ) .tc main_v144) = (shapeCast S128x128 (R (Proc.devRef (τ := τ) .tc main_v143) : (⟨S1x128x128, .f32⟩ : BufTy).Contents (Elt F)) shapeCasts_S1x128x128_S128x128 : (⟨S128x128, .f32⟩ : BufTy).Contents (Elt F)) :=
  ((Cert.Ssa.eqs_reshape _ _ _ _ _ _).mp (eqs_drop _ 11 h)).1

theorem line_main_v145 (h : Cert.Ssa.Eqs R (ops3 (F := F))) :
    R (Proc.devRef (τ := τ) .tc main_v145) = ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)) (R (Proc.devRef (τ := τ) .tc main_v114)) (R (Proc.devRef (τ := τ) .tc main_v144)) :=
  ((Cert.Ssa.eqs_binary _ _ _ _ _ _ _).mp (eqs_drop _ 12 h)).1

theorem line_main_cst_42 (h : Cert.Ssa.Eqs R (ops3 (F := F))) :
    R (Proc.devRef (τ := τ) .tc main_cst_42) = (constant S_ .f32 0x00000000#32 : (⟨S_, .f32⟩ : BufTy).Contents (Elt F)) :=
  ((Cert.Ssa.eqs_nullary _ _ _).mp (eqs_drop _ 13 h)).1

theorem line_main_call12_v0 (h : Cert.Ssa.Eqs R (ops3 (F := F))) :
    R (Proc.devRef (τ := τ) .tc main_call12_v0) = (id : (⟨S_, .f32⟩ : BufTy).Contents (Elt F) → (⟨S_, .f32⟩ : BufTy).Contents (Elt F)) (R (Proc.devRef (τ := τ) .tc main_cst_42)) :=
  ((Cert.Ssa.eqs_unary _ _ _ _ _).mp (eqs_drop _ 14 h)).1

theorem line_main_call12_v1 (h : Cert.Ssa.Eqs R (ops3 (F := F))) :
    R (Proc.devRef (τ := τ) .tc main_call12_v1) = (broadcastInDim S200000x128 ![0, 1] bcast_S200000x1_S200000x128_0_1 : (⟨S200000x1, .i1⟩ : BufTy).Contents (Elt F) → (⟨S200000x128, .i1⟩ : BufTy).Contents (Elt F)) (R (Proc.devRef (τ := τ) .tc main_v142)) :=
  ((Cert.Ssa.eqs_unary _ _ _ _ _).mp (eqs_drop _ 15 h)).1

theorem line_main_call12_v2 (h : Cert.Ssa.Eqs R (ops3 (F := F))) :
    R (Proc.devRef (τ := τ) .tc main_call12_v2) = (broadcastInDim S200000x128 ![] bcast_S_S200000x128 : (⟨S_, .f32⟩ : BufTy).Contents (Elt F) → (⟨S200000x128, .f32⟩ : BufTy).Contents (Elt F)) (R (Proc.devRef (τ := τ) .tc main_call12_v0)) :=
  ((Cert.Ssa.eqs_unary _ _ _ _ _).mp (eqs_drop _ 16 h)).1

theorem line_main_v146 (h : Cert.Ssa.Eqs R (ops3 (F := F))) :
    R (Proc.devRef (τ := τ) .tc main_v146) = (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)) (R (Proc.devRef (τ := τ) .tc main_call12_v1)) (R (Proc.devRef (τ := τ) .tc main_v145)) (R (Proc.devRef (τ := τ) .tc main_call12_v2)) :=
  ((Cert.Ssa.eqs_ternary _ _ _ _ _ _ _ _ _).mp (eqs_drop _ 17 h)).1

theorem line_main_v147 (h : Cert.Ssa.Eqs R (ops3 (F := F))) :
    R (Proc.devRef (τ := τ) .tc main_v147) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v139)) (R (Proc.devRef (τ := τ) .tc main_v146)) :=
  ((Cert.Ssa.eqs_binary _ _ _ _ _ _ _).mp (eqs_drop _ 18 h)).1

theorem line_main_v148 (h : Cert.Ssa.Eqs R (ops3 (F := F))) :
    R (Proc.devRef (τ := τ) .tc main_v148) = (mulf : (⟨S200000, .f32⟩ : BufTy).Contents (Elt F) → (⟨S200000, .f32⟩ : BufTy).Contents (Elt F) → (⟨S200000, .f32⟩ : BufTy).Contents (Elt F)) (R (Proc.devRef (τ := τ) .tc main_arg2)) (R (Proc.devRef (τ := τ) .tc main_v107)) :=
  ((Cert.Ssa.eqs_binary _ _ _ _ _ _ _).mp (eqs_drop _ 19 h)).1

theorem line_main_v149 (h : Cert.Ssa.Eqs R (ops3 (F := F))) :
    R (Proc.devRef (τ := τ) .tc main_v149) = (broadcastInDim S200000x1 ![0] bcast_S200000_S200000x1_0 : (⟨S200000, .f32⟩ : BufTy).Contents (Elt F) → (⟨S200000x1, .f32⟩ : BufTy).Contents (Elt F)) (R (Proc.devRef (τ := τ) .tc main_v148)) :=
  ((Cert.Ssa.eqs_unary _ _ _ _ _).mp (eqs_drop _ 20 h)).1

theorem line_main_v150 (h : Cert.Ssa.Eqs R (ops3 (F := F))) :
    R (Proc.devRef (τ := τ) .tc main_v150) = (broadcastInDim S200000x128 ![0, 1] bcast_S200000x1_S200000x128_0_1 : (⟨S200000x1, .f32⟩ : BufTy).Contents (Elt F) → (⟨S200000x128, .f32⟩ : BufTy).Contents (Elt F)) (R (Proc.devRef (τ := τ) .tc main_v149)) :=
  ((Cert.Ssa.eqs_unary _ _ _ _ _).mp (eqs_drop _ 21 h)).1

theorem line_main_v151 (h : Cert.Ssa.Eqs R (ops3 (F := F))) :
    R (Proc.devRef (τ := τ) .tc main_v151) = (mulf : (⟨S200000x128, .f32⟩ : BufTy).Contents (Elt F) → (⟨S200000x128, .f32⟩ : BufTy).Contents (Elt F) → (⟨S200000x128, .f32⟩ : BufTy).Contents (Elt F)) (R (Proc.devRef (τ := τ) .tc main_v147)) (R (Proc.devRef (τ := τ) .tc main_v150)) :=
  ((Cert.Ssa.eqs_binary _ _ _ _ _ _ _).mp (eqs_drop _ 22 h)).1

theorem line_main_cst_43 (h : Cert.Ssa.Eqs R (ops3 (F := F))) :
    R (Proc.devRef (τ := τ) .tc main_cst_43) = (constant S_ .f32 0x00000000#32 : (⟨S_, .f32⟩ : BufTy).Contents (Elt F)) :=
  ((Cert.Ssa.eqs_nullary _ _ _).mp (eqs_drop _ 23 h)).1

theorem line_main_v152 (h : Cert.Ssa.Eqs R (ops3 (F := F))) :
    R (Proc.devRef (τ := τ) .tc main_v152) = (broadcastInDim S200000x128 ![] bcast_S_S200000x128 : (⟨S_, .f32⟩ : BufTy).Contents (Elt F) → (⟨S200000x128, .f32⟩ : BufTy).Contents (Elt F)) (R (Proc.devRef (τ := τ) .tc main_cst_43)) :=
  ((Cert.Ssa.eqs_unary _ _ _ _ _).mp (eqs_drop _ 24 h)).1

theorem line_main_v153 (h : Cert.Ssa.Eqs R (ops3 (F := F))) :
    R (Proc.devRef (τ := τ) .tc main_v153) = (broadcastInDim S200000x1 ![0] bcast_S200000_S200000x1_0 : (⟨S200000, .i32⟩ : BufTy).Contents (Elt F) → (⟨S200000x1, .i32⟩ : BufTy).Contents (Elt F)) (R (Proc.devRef (τ := τ) .tc main_v3)) :=
  ((Cert.Ssa.eqs_unary _ _ _ _ _).mp (eqs_drop _ 25 h)).1

theorem line_main_v154 (h : Cert.Ssa.Eqs R (ops3 (F := F))) :
    R (Proc.devRef (τ := τ) .tc main_v154) = ((fun x i u => Host.scatterAdd scatter_S200000x128_S200000x1_S200000x128_1_0_0_1 x i u) : (⟨S200000x128, .f32⟩ : BufTy).Contents (Elt F) → (⟨S200000x1, .i32⟩ : BufTy).Contents (Elt F) → (⟨S200000x128, .f32⟩ : BufTy).Contents (Elt F) → (⟨S200000x128, .f32⟩ : BufTy).Contents (Elt F)) (R (Proc.devRef (τ := τ) .tc main_v152)) (R (Proc.devRef (τ := τ) .tc main_v153)) (R (Proc.devRef (τ := τ) .tc main_v151)) :=
  ((Cert.Ssa.eqs_ternary _ _ _ _ _ _ _ _ _).mp (eqs_drop _ 26 h)).1

theorem line_main_v155 (h : Cert.Ssa.Eqs R (ops3 (F := F))) :
    R (Proc.devRef (τ := τ) .tc main_v155) = (broadcastInDim S1x128 ![1] bcast_S128_S1x128_1 : (⟨S128, .f32⟩ : BufTy).Contents (Elt F) → (⟨S1x128, .f32⟩ : BufTy).Contents (Elt F)) (R (Proc.devRef (τ := τ) .tc main_arg6)) :=
  ((Cert.Ssa.eqs_unary _ _ _ _ _).mp (eqs_drop _ 27 h)).1

theorem line_main_v156 (h : Cert.Ssa.Eqs R (ops3 (F := F))) :
    R (Proc.devRef (τ := τ) .tc main_v156) = (broadcastInDim S200000x128 ![0, 1] bcast_S1x128_S200000x128_0_1 : (⟨S1x128, .f32⟩ : BufTy).Contents (Elt F) → (⟨S200000x128, .f32⟩ : BufTy).Contents (Elt F)) (R (Proc.devRef (τ := τ) .tc main_v155)) :=
  ((Cert.Ssa.eqs_unary _ _ _ _ _).mp (eqs_drop _ 28 h)).1

theorem line_main_v157 (h : Cert.Ssa.Eqs R (ops3 (F := F))) :
    R (Proc.devRef (τ := τ) .tc main_v157) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v154)) (R (Proc.devRef (τ := τ) .tc main_v156)) :=
  ((Cert.Ssa.eqs_binary _ _ _ _ _ _ _).mp (eqs_drop _ 29 h)).1

theorem line_main_cst_44 (h : Cert.Ssa.Eqs R (ops3 (F := F))) :
    R (Proc.devRef (τ := τ) .tc main_cst_44) = (constant S_ .f32 0x3C23D70A#32 : (⟨S_, .f32⟩ : BufTy).Contents (Elt F)) :=
  ((Cert.Ssa.eqs_nullary _ _ _).mp (eqs_drop _ 30 h)).1

theorem line_main_call13_cst (h : Cert.Ssa.Eqs R (ops3 (F := F))) :
    R (Proc.devRef (τ := τ) .tc main_call13_cst) = (constant S_ .f32 0x00000000#32 : (⟨S_, .f32⟩ : BufTy).Contents (Elt F)) :=
  ((Cert.Ssa.eqs_nullary _ _ _).mp (eqs_drop _ 31 h)).1

theorem line_main_call13_v0 (h : Cert.Ssa.Eqs R (ops3 (F := F))) :
    R (Proc.devRef (τ := τ) .tc main_call13_v0) = (broadcastInDim S200000x128 ![] bcast_S_S200000x128 : (⟨S_, .f32⟩ : BufTy).Contents (Elt F) → (⟨S200000x128, .f32⟩ : BufTy).Contents (Elt F)) (R (Proc.devRef (τ := τ) .tc main_call13_cst)) :=
  ((Cert.Ssa.eqs_unary _ _ _ _ _).mp (eqs_drop _ 32 h)).1

theorem line_main_call13_v1 (h : Cert.Ssa.Eqs R (ops3 (F := F))) :
    R (Proc.devRef (τ := τ) .tc main_call13_v1) = (cmpf .oge : (⟨S200000x128, .f32⟩ : BufTy).Contents (Elt F) → (⟨S200000x128, .f32⟩ : BufTy).Contents (Elt F) → (⟨S200000x128, .i1⟩ : BufTy).Contents (Elt F)) (R (Proc.devRef (τ := τ) .tc main_v157)) (R (Proc.devRef (τ := τ) .tc main_call13_v0)) :=
  ((Cert.Ssa.eqs_binary _ _ _ _ _ _ _).mp (eqs_drop _ 33 h)).1

theorem line_main_call13_v2 (h : Cert.Ssa.Eqs R (ops3 (F := F))) :
    R (Proc.devRef (τ := τ) .tc main_call13_v2) = (id : (⟨S_, .f32⟩ : BufTy).Contents (Elt F) → (⟨S_, .f32⟩ : BufTy).Contents (Elt F)) (R (Proc.devRef (τ := τ) .tc main_cst_44)) :=
  ((Cert.Ssa.eqs_unary _ _ _ _ _).mp (eqs_drop _ 34 h)).1

theorem line_main_call13_v3 (h : Cert.Ssa.Eqs R (ops3 (F := F))) :
    R (Proc.devRef (τ := τ) .tc main_call13_v3) = (broadcastInDim S200000x128 ![] bcast_S_S200000x128 : (⟨S_, .f32⟩ : BufTy).Contents (Elt F) → (⟨S200000x128, .f32⟩ : BufTy).Contents (Elt F)) (R (Proc.devRef (τ := τ) .tc main_call13_v2)) :=
  ((Cert.Ssa.eqs_unary _ _ _ _ _).mp (eqs_drop _ 35 h)).1

theorem line_main_call13_v4 (h : Cert.Ssa.Eqs R (ops3 (F := F))) :
    R (Proc.devRef (τ := τ) .tc main_call13_v4) = (mulf : (⟨S200000x128, .f32⟩ : BufTy).Contents (Elt F) → (⟨S200000x128, .f32⟩ : BufTy).Contents (Elt F) → (⟨S200000x128, .f32⟩ : BufTy).Contents (Elt F)) (R (Proc.devRef (τ := τ) .tc main_call13_v3)) (R (Proc.devRef (τ := τ) .tc main_v157)) :=
  ((Cert.Ssa.eqs_binary _ _ _ _ _ _ _).mp (eqs_drop _ 36 h)).1

theorem line_main_v158 (h : Cert.Ssa.Eqs R (ops3 (F := F))) :
    R (Proc.devRef (τ := τ) .tc main_v158) = (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)) (R (Proc.devRef (τ := τ) .tc main_call13_v1)) (R (Proc.devRef (τ := τ) .tc main_v157)) (R (Proc.devRef (τ := τ) .tc main_call13_v4)) :=
  ((Cert.Ssa.eqs_ternary _ _ _ _ _ _ _ _ _).mp (eqs_drop _ 37 h)).1

theorem line_main_cst_45 (h : Cert.Ssa.Eqs R (ops3 (F := F))) :
    R (Proc.devRef (τ := τ) .tc main_cst_45) = (constant S_ .f32 0x3F800000#32 : (⟨S_, .f32⟩ : BufTy).Contents (Elt F)) :=
  ((Cert.Ssa.eqs_nullary _ _ _).mp (eqs_drop _ 38 h)).1

theorem line_main_v159 (h : Cert.Ssa.Eqs R (ops3 (F := F))) :
    R (Proc.devRef (τ := τ) .tc main_v159) = (broadcastInDim S200000 ![] bcast_S_S200000 : (⟨S_, .f32⟩ : BufTy).Contents (Elt F) → (⟨S200000, .f32⟩ : BufTy).Contents (Elt F)) (R (Proc.devRef (τ := τ) .tc main_cst_45)) :=
  ((Cert.Ssa.eqs_unary _ _ _ _ _).mp (eqs_drop _ 39 h)).1

theorem line_main_cst_46 (h : Cert.Ssa.Eqs R (ops3 (F := F))) :
    R (Proc.devRef (τ := τ) .tc main_cst_46) = (constant S_ .f32 0x00000000#32 : (⟨S_, .f32⟩ : BufTy).Contents (Elt F)) :=
  ((Cert.Ssa.eqs_nullary _ _ _).mp (eqs_drop _ 40 h)).1

theorem line_main_v160 (h : Cert.Ssa.Eqs R (ops3 (F := F))) :
    R (Proc.devRef (τ := τ) .tc main_v160) = (broadcastInDim S200000 ![] bcast_S_S200000 : (⟨S_, .f32⟩ : BufTy).Contents (Elt F) → (⟨S200000, .f32⟩ : BufTy).Contents (Elt F)) (R (Proc.devRef (τ := τ) .tc main_cst_46)) :=
  ((Cert.Ssa.eqs_unary _ _ _ _ _).mp (eqs_drop _ 41 h)).1

theorem line_main_v161 (h : Cert.Ssa.Eqs R (ops3 (F := F))) :
    R (Proc.devRef (τ := τ) .tc main_v161) = (broadcastInDim S200000x1 ![0] bcast_S200000_S200000x1_0 : (⟨S200000, .i32⟩ : BufTy).Contents (Elt F) → (⟨S200000x1, .i32⟩ : BufTy).Contents (Elt F)) (R (Proc.devRef (τ := τ) .tc main_v3)) :=
  ((Cert.Ssa.eqs_unary _ _ _ _ _).mp (eqs_drop _ 42 h)).1

theorem line_main_v162 (h : Cert.Ssa.Eqs R (ops3 (F := F))) :
    R (Proc.devRef (τ := τ) .tc main_v162) = ((fun x i u => Host.scatterAdd scatter_S200000_S200000x1_S200000_n_0_0_1 x i u) : (⟨S200000, .f32⟩ : BufTy).Contents (Elt F) → (⟨S200000x1, .i32⟩ : BufTy).Contents (Elt F) → (⟨S200000, .f32⟩ : BufTy).Contents (Elt F) → (⟨S200000, .f32⟩ : BufTy).Contents (Elt F)) (R (Proc.devRef (τ := τ) .tc main_v160)) (R (Proc.devRef (τ := τ) .tc main_v161)) (R (Proc.devRef (τ := τ) .tc main_v159)) :=
  ((Cert.Ssa.eqs_ternary _ _ _ _ _ _ _ _ _).mp (eqs_drop _ 43 h)).1

theorem line_main_cst_47 (h : Cert.Ssa.Eqs R (ops3 (F := F))) :
    R (Proc.devRef (τ := τ) .tc main_cst_47) = (constant S_ .f32 0x00000000#32 : (⟨S_, .f32⟩ : BufTy).Contents (Elt F)) :=
  ((Cert.Ssa.eqs_nullary _ _ _).mp (eqs_drop _ 44 h)).1

theorem line_main_v163 (h : Cert.Ssa.Eqs R (ops3 (F := F))) :
    R (Proc.devRef (τ := τ) .tc main_v163) = (broadcastInDim S200000 ![] bcast_S_S200000 : (⟨S_, .f32⟩ : BufTy).Contents (Elt F) → (⟨S200000, .f32⟩ : BufTy).Contents (Elt F)) (R (Proc.devRef (τ := τ) .tc main_cst_47)) :=
  ((Cert.Ssa.eqs_unary _ _ _ _ _).mp (eqs_drop _ 45 h)).1

theorem line_main_v164 (h : Cert.Ssa.Eqs R (ops3 (F := F))) :
    R (Proc.devRef (τ := τ) .tc main_v164) = (cmpf .ogt : (⟨S200000, .f32⟩ : BufTy).Contents (Elt F) → (⟨S200000, .f32⟩ : BufTy).Contents (Elt F) → (⟨S200000, .i1⟩ : BufTy).Contents (Elt F)) (R (Proc.devRef (τ := τ) .tc main_v162)) (R (Proc.devRef (τ := τ) .tc main_v163)) :=
  ((Cert.Ssa.eqs_binary _ _ _ _ _ _ _).mp (eqs_drop _ 46 h)).1

theorem line_main_cst_48 (h : Cert.Ssa.Eqs R (ops3 (F := F))) :
    R (Proc.devRef (τ := τ) .tc main_cst_48) = (constant S_ .f32 0x00000000#32 : (⟨S_, .f32⟩ : BufTy).Contents (Elt F)) :=
  ((Cert.Ssa.eqs_nullary _ _ _).mp (eqs_drop _ 47 h)).1

theorem line_main_v165 (h : Cert.Ssa.Eqs R (ops3 (F := F))) :
    R (Proc.devRef (τ := τ) .tc main_v165) = (broadcastInDim S200000 ![] bcast_S_S200000 : (⟨S_, .f32⟩ : BufTy).Contents (Elt F) → (⟨S200000, .f32⟩ : BufTy).Contents (Elt F)) (R (Proc.devRef (τ := τ) .tc main_cst_48)) :=
  ((Cert.Ssa.eqs_unary _ _ _ _ _).mp (eqs_drop _ 48 h)).1

theorem line_main_v166 (h : Cert.Ssa.Eqs R (ops3 (F := F))) :
    R (Proc.devRef (τ := τ) .tc main_v166) = (cmpf .ogt : (⟨S200000, .f32⟩ : BufTy).Contents (Elt F) → (⟨S200000, .f32⟩ : BufTy).Contents (Elt F) → (⟨S200000, .i1⟩ : BufTy).Contents (Elt F)) (R (Proc.devRef (τ := τ) .tc main_v162)) (R (Proc.devRef (τ := τ) .tc main_v165)) :=
  ((Cert.Ssa.eqs_binary _ _ _ _ _ _ _).mp (eqs_drop _ 49 h)).1

theorem line_main_cst_49 (h : Cert.Ssa.Eqs R (ops3 (F := F))) :
    R (Proc.devRef (τ := τ) .tc main_cst_49) = (constant S_ .f32 0x3F800000#32 : (⟨S_, .f32⟩ : BufTy).Contents (Elt F)) :=
  ((Cert.Ssa.eqs_nullary _ _ _).mp (eqs_drop _ 50 h)).1

theorem line_main_call14_v0 (h : Cert.Ssa.Eqs R (ops3 (F := F))) :
    R (Proc.devRef (τ := τ) .tc main_call14_v0) = (id : (⟨S_, .f32⟩ : BufTy).Contents (Elt F) → (⟨S_, .f32⟩ : BufTy).Contents (Elt F)) (R (Proc.devRef (τ := τ) .tc main_cst_49)) :=
  ((Cert.Ssa.eqs_unary _ _ _ _ _).mp (eqs_drop _ 51 h)).1

theorem line_main_call14_v1 (h : Cert.Ssa.Eqs R (ops3 (F := F))) :
    R (Proc.devRef (τ := τ) .tc main_call14_v1) = (broadcastInDim S200000 ![] bcast_S_S200000 : (⟨S_, .f32⟩ : BufTy).Contents (Elt F) → (⟨S200000, .f32⟩ : BufTy).Contents (Elt F)) (R (Proc.devRef (τ := τ) .tc main_call14_v0)) :=
  ((Cert.Ssa.eqs_unary _ _ _ _ _).mp (eqs_drop _ 52 h)).1

theorem line_main_v167 (h : Cert.Ssa.Eqs R (ops3 (F := F))) :
    R (Proc.devRef (τ := τ) .tc main_v167) = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (R (Proc.devRef (τ := τ) .tc main_v166)) (R (Proc.devRef (τ := τ) .tc main_v162)) (R (Proc.devRef (τ := τ) .tc main_call14_v1)) :=
  ((Cert.Ssa.eqs_ternary _ _ _ _ _ _ _ _ _).mp (eqs_drop _ 53 h)).1

theorem line_main_v168 (h : Cert.Ssa.Eqs R (ops3 (F := F))) :
    R (Proc.devRef (τ := τ) .tc main_v168) = (Host.rsqrt : (⟨S200000, .f32⟩ : BufTy).Contents (Elt F) → (⟨S200000, .f32⟩ : BufTy).Contents (Elt F)) (R (Proc.devRef (τ := τ) .tc main_v167)) :=
  ((Cert.Ssa.eqs_unary _ _ _ _ _).mp (eqs_drop _ 54 h)).1

theorem line_main_cst_50 (h : Cert.Ssa.Eqs R (ops3 (F := F))) :
    R (Proc.devRef (τ := τ) .tc main_cst_50) = (constant S_ .f32 0x00000000#32 : (⟨S_, .f32⟩ : BufTy).Contents (Elt F)) :=
  ((Cert.Ssa.eqs_nullary _ _ _).mp (eqs_drop _ 55 h)).1

theorem line_main_call15_v0 (h : Cert.Ssa.Eqs R (ops3 (F := F))) :
    R (Proc.devRef (τ := τ) .tc main_call15_v0) = (id : (⟨S_, .f32⟩ : BufTy).Contents (Elt F) → (⟨S_, .f32⟩ : BufTy).Contents (Elt F)) (R (Proc.devRef (τ := τ) .tc main_cst_50)) :=
  ((Cert.Ssa.eqs_unary _ _ _ _ _).mp (eqs_drop _ 56 h)).1

theorem line_main_call15_v1 (h : Cert.Ssa.Eqs R (ops3 (F := F))) :
    R (Proc.devRef (τ := τ) .tc main_call15_v1) = (broadcastInDim S200000 ![] bcast_S_S200000 : (⟨S_, .f32⟩ : BufTy).Contents (Elt F) → (⟨S200000, .f32⟩ : BufTy).Contents (Elt F)) (R (Proc.devRef (τ := τ) .tc main_call15_v0)) :=
  ((Cert.Ssa.eqs_unary _ _ _ _ _).mp (eqs_drop _ 57 h)).1

theorem line_main_v169 (h : Cert.Ssa.Eqs R (ops3 (F := F))) :
    R (Proc.devRef (τ := τ) .tc main_v169) = (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)) (R (Proc.devRef (τ := τ) .tc main_v164)) (R (Proc.devRef (τ := τ) .tc main_v168)) (R (Proc.devRef (τ := τ) .tc main_call15_v1)) :=
  ((Cert.Ssa.eqs_ternary _ _ _ _ _ _ _ _ _).mp (eqs_drop _ 58 h)).1

theorem line_main_c_51 (h : Cert.Ssa.Eqs R (ops3 (F := F))) :
    R (Proc.devRef (τ := τ) .tc main_c_51) = (constantI S_ 32 0#32 : (⟨S_, .i32⟩ : BufTy).Contents (Elt F)) :=
  ((Cert.Ssa.eqs_nullary _ _ _).mp (eqs_drop _ 59 h)).1

theorem line_main_v170 (h : Cert.Ssa.Eqs R (ops3 (F := F))) :
    R (Proc.devRef (τ := τ) .tc main_v170) = (broadcastInDim S200000 ![] bcast_S_S200000 : (⟨S_, .i32⟩ : BufTy).Contents (Elt F) → (⟨S200000, .i32⟩ : BufTy).Contents (Elt F)) (R (Proc.devRef (τ := τ) .tc main_c_51)) :=
  ((Cert.Ssa.eqs_unary _ _ _ _ _).mp (eqs_drop _ 60 h)).1

theorem line_main_v171 (h : Cert.Ssa.Eqs R (ops3 (F := F))) :
    R (Proc.devRef (τ := τ) .tc main_v171) = (cmpi .slt : (⟨S200000, .i32⟩ : BufTy).Contents (Elt F) → (⟨S200000, .i32⟩ : BufTy).Contents (Elt F) → (⟨S200000, .i1⟩ : BufTy).Contents (Elt F)) (R (Proc.devRef (τ := τ) .tc main_v1)) (R (Proc.devRef (τ := τ) .tc main_v170)) :=
  ((Cert.Ssa.eqs_binary _ _ _ _ _ _ _).mp (eqs_drop _ 61 h)).1

theorem line_main_c_52 (h : Cert.Ssa.Eqs R (ops3 (F := F))) :
    R (Proc.devRef (τ := τ) .tc main_c_52) = (constantI S_ 32 200000#32 : (⟨S_, .i32⟩ : BufTy).Contents (Elt F)) :=
  ((Cert.Ssa.eqs_nullary _ _ _).mp (eqs_drop _ 62 h)).1

theorem line_main_v172 (h : Cert.Ssa.Eqs R (ops3 (F := F))) :
    R (Proc.devRef (τ := τ) .tc main_v172) = (broadcastInDim S200000 ![] bcast_S_S200000 : (⟨S_, .i32⟩ : BufTy).Contents (Elt F) → (⟨S200000, .i32⟩ : BufTy).Contents (Elt F)) (R (Proc.devRef (τ := τ) .tc main_c_52)) :=
  ((Cert.Ssa.eqs_unary _ _ _ _ _).mp (eqs_drop _ 63 h)).1

theorem line_main_v173 (h : Cert.Ssa.Eqs R (ops3 (F := F))) :
    R (Proc.devRef (τ := τ) .tc main_v173) = (addi : (⟨S200000, .i32⟩ : BufTy).Contents (Elt F) → (⟨S200000, .i32⟩ : BufTy).Contents (Elt F) → (⟨S200000, .i32⟩ : BufTy).Contents (Elt F)) (R (Proc.devRef (τ := τ) .tc main_v1)) (R (Proc.devRef (τ := τ) .tc main_v172)) :=
  ((Cert.Ssa.eqs_binary _ _ _ _ _ _ _).mp (eqs_drop _ 64 h)).1

theorem line_main_v174 (h : Cert.Ssa.Eqs R (ops3 (F := F))) :
    R (Proc.devRef (τ := τ) .tc main_v174) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (R (Proc.devRef (τ := τ) .tc main_v171)) (R (Proc.devRef (τ := τ) .tc main_v173)) (R (Proc.devRef (τ := τ) .tc main_v1)) :=
  ((Cert.Ssa.eqs_ternary _ _ _ _ _ _ _ _ _).mp (eqs_drop _ 65 h)).1

theorem line_main_v175 (h : Cert.Ssa.Eqs R (ops3 (F := F))) :
    R (Proc.devRef (τ := τ) .tc main_v175) = (broadcastInDim S200000x1 ![0] bcast_S200000_S200000x1_0 : (⟨S200000, .i32⟩ : BufTy).Contents (Elt F) → (⟨S200000x1, .i32⟩ : BufTy).Contents (Elt F)) (R (Proc.devRef (τ := τ) .tc main_v174)) :=
  ((Cert.Ssa.eqs_unary _ _ _ _ _).mp (eqs_drop _ 66 h)).1

theorem line_main_v176 (h : Cert.Ssa.Eqs R (ops3 (F := F))) :
    R (Proc.devRef (τ := τ) .tc main_v176) = ((fun x i => Host.gather gather_S200000_S200000x1_S200000_n_0_n_n_0_1_1 x i) : (⟨S200000, .f32⟩ : BufTy).Contents (Elt F) → (⟨S200000x1, .i32⟩ : BufTy).Contents (Elt F) → (⟨S200000, .f32⟩ : BufTy).Contents (Elt F)) (R (Proc.devRef (τ := τ) .tc main_v169)) (R (Proc.devRef (τ := τ) .tc main_v175)) :=
  ((Cert.Ssa.eqs_binary _ _ _ _ _ _ _).mp (eqs_drop _ 67 h)).1

theorem line_main_c_53 (h : Cert.Ssa.Eqs R (ops3 (F := F))) :
    R (Proc.devRef (τ := τ) .tc main_c_53) = (constantI S_ 32 0#32 : (⟨S_, .i32⟩ : BufTy).Contents (Elt F)) :=
  ((Cert.Ssa.eqs_nullary _ _ _).mp (eqs_drop _ 68 h)).1

theorem line_main_v177 (h : Cert.Ssa.Eqs R (ops3 (F := F))) :
    R (Proc.devRef (τ := τ) .tc main_v177) = (broadcastInDim S200000 ![] bcast_S_S200000 : (⟨S_, .i32⟩ : BufTy).Contents (Elt F) → (⟨S200000, .i32⟩ : BufTy).Contents (Elt F)) (R (Proc.devRef (τ := τ) .tc main_c_53)) :=
  ((Cert.Ssa.eqs_unary _ _ _ _ _).mp (eqs_drop _ 69 h)).1

theorem line_main_v178 (h : Cert.Ssa.Eqs R (ops3 (F := F))) :
    R (Proc.devRef (τ := τ) .tc main_v178) = (cmpi .slt : (⟨S200000, .i32⟩ : BufTy).Contents (Elt F) → (⟨S200000, .i32⟩ : BufTy).Contents (Elt F) → (⟨S200000, .i1⟩ : BufTy).Contents (Elt F)) (R (Proc.devRef (τ := τ) .tc main_v3)) (R (Proc.devRef (τ := τ) .tc main_v177)) :=
  ((Cert.Ssa.eqs_binary _ _ _ _ _ _ _).mp (eqs_drop _ 70 h)).1

theorem line_main_c_54 (h : Cert.Ssa.Eqs R (ops3 (F := F))) :
    R (Proc.devRef (τ := τ) .tc main_c_54) = (constantI S_ 32 200000#32 : (⟨S_, .i32⟩ : BufTy).Contents (Elt F)) :=
  ((Cert.Ssa.eqs_nullary _ _ _).mp (eqs_drop _ 71 h)).1

theorem line_main_v179 (h : Cert.Ssa.Eqs R (ops3 (F := F))) :
    R (Proc.devRef (τ := τ) .tc main_v179) = (broadcastInDim S200000 ![] bcast_S_S200000 : (⟨S_, .i32⟩ : BufTy).Contents (Elt F) → (⟨S200000, .i32⟩ : BufTy).Contents (Elt F)) (R (Proc.devRef (τ := τ) .tc main_c_54)) :=
  ((Cert.Ssa.eqs_unary _ _ _ _ _).mp (eqs_drop _ 72 h)).1

theorem line_main_v180 (h : Cert.Ssa.Eqs R (ops3 (F := F))) :
    R (Proc.devRef (τ := τ) .tc main_v180) = (addi : (⟨S200000, .i32⟩ : BufTy).Contents (Elt F) → (⟨S200000, .i32⟩ : BufTy).Contents (Elt F) → (⟨S200000, .i32⟩ : BufTy).Contents (Elt F)) (R (Proc.devRef (τ := τ) .tc main_v3)) (R (Proc.devRef (τ := τ) .tc main_v179)) :=
  ((Cert.Ssa.eqs_binary _ _ _ _ _ _ _).mp (eqs_drop _ 73 h)).1

theorem line_main_v181 (h : Cert.Ssa.Eqs R (ops3 (F := F))) :
    R (Proc.devRef (τ := τ) .tc main_v181) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (R (Proc.devRef (τ := τ) .tc main_v178)) (R (Proc.devRef (τ := τ) .tc main_v180)) (R (Proc.devRef (τ := τ) .tc main_v3)) :=
  ((Cert.Ssa.eqs_ternary _ _ _ _ _ _ _ _ _).mp (eqs_drop _ 74 h)).1

theorem line_main_v182 (h : Cert.Ssa.Eqs R (ops3 (F := F))) :
    R (Proc.devRef (τ := τ) .tc main_v182) = (broadcastInDim S200000x1 ![0] bcast_S200000_S200000x1_0 : (⟨S200000, .i32⟩ : BufTy).Contents (Elt F) → (⟨S200000x1, .i32⟩ : BufTy).Contents (Elt F)) (R (Proc.devRef (τ := τ) .tc main_v181)) :=
  ((Cert.Ssa.eqs_unary _ _ _ _ _).mp (eqs_drop _ 75 h)).1

theorem line_main_v183 (h : Cert.Ssa.Eqs R (ops4 (F := F))) :
    R (Proc.devRef (τ := τ) .tc main_v183) = ((fun x i => Host.gather gather_S200000_S200000x1_S200000_n_0_n_n_0_1_1 x i) : (⟨S200000, .f32⟩ : BufTy).Contents (Elt F) → (⟨S200000x1, .i32⟩ : BufTy).Contents (Elt F) → (⟨S200000, .f32⟩ : BufTy).Contents (Elt F)) (R (Proc.devRef (τ := τ) .tc main_v169)) (R (Proc.devRef (τ := τ) .tc main_v182)) :=
  ((Cert.Ssa.eqs_binary _ _ _ _ _ _ _).mp (eqs_drop _ 0 h)).1

theorem line_main_v184 (h : Cert.Ssa.Eqs R (ops4 (F := F))) :
    R (Proc.devRef (τ := τ) .tc main_v184) = (mulf : (⟨S200000, .f32⟩ : BufTy).Contents (Elt F) → (⟨S200000, .f32⟩ : BufTy).Contents (Elt F) → (⟨S200000, .f32⟩ : BufTy).Contents (Elt F)) (R (Proc.devRef (τ := τ) .tc main_v176)) (R (Proc.devRef (τ := τ) .tc main_v183)) :=
  ((Cert.Ssa.eqs_binary _ _ _ _ _ _ _).mp (eqs_drop _ 1 h)).1

theorem line_main_c_55 (h : Cert.Ssa.Eqs R (ops4 (F := F))) :
    R (Proc.devRef (τ := τ) .tc main_c_55) = (constantI S_ 32 0#32 : (⟨S_, .i32⟩ : BufTy).Contents (Elt F)) :=
  ((Cert.Ssa.eqs_nullary _ _ _).mp (eqs_drop _ 2 h)).1

theorem line_main_v185 (h : Cert.Ssa.Eqs R (ops4 (F := F))) :
    R (Proc.devRef (τ := τ) .tc main_v185) = (broadcastInDim S200000 ![] bcast_S_S200000 : (⟨S_, .i32⟩ : BufTy).Contents (Elt F) → (⟨S200000, .i32⟩ : BufTy).Contents (Elt F)) (R (Proc.devRef (τ := τ) .tc main_c_55)) :=
  ((Cert.Ssa.eqs_unary _ _ _ _ _).mp (eqs_drop _ 3 h)).1

theorem line_main_v186 (h : Cert.Ssa.Eqs R (ops4 (F := F))) :
    R (Proc.devRef (τ := τ) .tc main_v186) = (cmpi .slt : (⟨S200000, .i32⟩ : BufTy).Contents (Elt F) → (⟨S200000, .i32⟩ : BufTy).Contents (Elt F) → (⟨S200000, .i1⟩ : BufTy).Contents (Elt F)) (R (Proc.devRef (τ := τ) .tc main_v1)) (R (Proc.devRef (τ := τ) .tc main_v185)) :=
  ((Cert.Ssa.eqs_binary _ _ _ _ _ _ _).mp (eqs_drop _ 4 h)).1

theorem line_main_c_56 (h : Cert.Ssa.Eqs R (ops4 (F := F))) :
    R (Proc.devRef (τ := τ) .tc main_c_56) = (constantI S_ 32 200000#32 : (⟨S_, .i32⟩ : BufTy).Contents (Elt F)) :=
  ((Cert.Ssa.eqs_nullary _ _ _).mp (eqs_drop _ 5 h)).1

theorem line_main_v187 (h : Cert.Ssa.Eqs R (ops4 (F := F))) :
    R (Proc.devRef (τ := τ) .tc main_v187) = (broadcastInDim S200000 ![] bcast_S_S200000 : (⟨S_, .i32⟩ : BufTy).Contents (Elt F) → (⟨S200000, .i32⟩ : BufTy).Contents (Elt F)) (R (Proc.devRef (τ := τ) .tc main_c_56)) :=
  ((Cert.Ssa.eqs_unary _ _ _ _ _).mp (eqs_drop _ 6 h)).1

theorem line_main_v188 (h : Cert.Ssa.Eqs R (ops4 (F := F))) :
    R (Proc.devRef (τ := τ) .tc main_v188) = (addi : (⟨S200000, .i32⟩ : BufTy).Contents (Elt F) → (⟨S200000, .i32⟩ : BufTy).Contents (Elt F) → (⟨S200000, .i32⟩ : BufTy).Contents (Elt F)) (R (Proc.devRef (τ := τ) .tc main_v1)) (R (Proc.devRef (τ := τ) .tc main_v187)) :=
  ((Cert.Ssa.eqs_binary _ _ _ _ _ _ _).mp (eqs_drop _ 7 h)).1

theorem line_main_v189 (h : Cert.Ssa.Eqs R (ops4 (F := F))) :
    R (Proc.devRef (τ := τ) .tc main_v189) = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (R (Proc.devRef (τ := τ) .tc main_v186)) (R (Proc.devRef (τ := τ) .tc main_v188)) (R (Proc.devRef (τ := τ) .tc main_v1)) :=
  ((Cert.Ssa.eqs_ternary _ _ _ _ _ _ _ _ _).mp (eqs_drop _ 8 h)).1

theorem line_main_v190 (h : Cert.Ssa.Eqs R (ops4 (F := F))) :
    R (Proc.devRef (τ := τ) .tc main_v190) = (broadcastInDim S200000x1 ![0] bcast_S200000_S200000x1_0 : (⟨S200000, .i32⟩ : BufTy).Contents (Elt F) → (⟨S200000x1, .i32⟩ : BufTy).Contents (Elt F)) (R (Proc.devRef (τ := τ) .tc main_v189)) :=
  ((Cert.Ssa.eqs_unary _ _ _ _ _).mp (eqs_drop _ 9 h)).1

theorem line_main_v191 (h : Cert.Ssa.Eqs R (ops4 (F := F))) :
    R (Proc.devRef (τ := τ) .tc main_v191) = ((fun x i => Host.gather gather_S200000x128_S200000x1_S200000x128_1_0_n_n_0_1_1128 x i) : (⟨S200000x128, .f32⟩ : BufTy).Contents (Elt F) → (⟨S200000x1, .i32⟩ : BufTy).Contents (Elt F) → (⟨S200000x128, .f32⟩ : BufTy).Contents (Elt F)) (R (Proc.devRef (τ := τ) .tc main_v158)) (R (Proc.devRef (τ := τ) .tc main_v190)) :=
  ((Cert.Ssa.eqs_binary _ _ _ _ _ _ _).mp (eqs_drop _ 10 h)).1

theorem line_main_cst_57 (h : Cert.Ssa.Eqs R (ops4 (F := F))) :
    R (Proc.devRef (τ := τ) .tc main_cst_57) = (constant S_ .f32 0x00000000#32 : (⟨S_, .f32⟩ : BufTy).Contents (Elt F)) :=
  ((Cert.Ssa.eqs_nullary _ _ _).mp (eqs_drop _ 11 h)).1

theorem line_main_v192 (h : Cert.Ssa.Eqs R (ops4 (F := F))) :
    R (Proc.devRef (τ := τ) .tc main_v192) = (broadcastInDim S200000x128 ![] bcast_S_S200000x128 : (⟨S_, .f32⟩ : BufTy).Contents (Elt F) → (⟨S200000x128, .f32⟩ : BufTy).Contents (Elt F)) (R (Proc.devRef (τ := τ) .tc main_cst_57)) :=
  ((Cert.Ssa.eqs_unary _ _ _ _ _).mp (eqs_drop _ 12 h)).1

theorem line_main_c_58 (h : Cert.Ssa.Eqs R (ops4 (F := F))) :
    R (Proc.devRef (τ := τ) .tc main_c_58) = (constantI S_ 32 0#32 : (⟨S_, .i32⟩ : BufTy).Contents (Elt F)) :=
  ((Cert.Ssa.eqs_nullary _ _ _).mp (eqs_drop _ 13 h)).1

theorem line_main_v193 (h : Cert.Ssa.Eqs R (ops4 (F := F))) :
    R (Proc.devRef (τ := τ) .tc main_v193) = (broadcastInDim S200000 ![] bcast_S_S200000 : (⟨S_, .i32⟩ : BufTy).Contents (Elt F) → (⟨S200000, .i32⟩ : BufTy).Contents (Elt F)) (R (Proc.devRef (τ := τ) .tc main_c_58)) :=
  ((Cert.Ssa.eqs_unary _ _ _ _ _).mp (eqs_drop _ 14 h)).1

theorem line_main_v194 (h : Cert.Ssa.Eqs R (ops4 (F := F))) :
    R (Proc.devRef (τ := τ) .tc main_v194) = (cmpi .eq : (⟨S200000, .i32⟩ : BufTy).Contents (Elt F) → (⟨S200000, .i32⟩ : BufTy).Contents (Elt F) → (⟨S200000, .i1⟩ : BufTy).Contents (Elt F)) (R (Proc.devRef (τ := τ) .tc main_arg1)) (R (Proc.devRef (τ := τ) .tc main_v193)) :=
  ((Cert.Ssa.eqs_binary _ _ _ _ _ _ _).mp (eqs_drop _ 15 h)).1

theorem line_main_v195 (h : Cert.Ssa.Eqs R (ops4 (F := F))) :
    R (Proc.devRef (τ := τ) .tc main_v195) = (broadcastInDim S200000x1 ![0] bcast_S200000_S200000x1_0 : (⟨S200000, .i1⟩ : BufTy).Contents (Elt F) → (⟨S200000x1, .i1⟩ : BufTy).Contents (Elt F)) (R (Proc.devRef (τ := τ) .tc main_v194)) :=
  ((Cert.Ssa.eqs_unary _ _ _ _ _).mp (eqs_drop _ 16 h)).1

theorem line_main_v196 (h : Cert.Ssa.Eqs R (ops4 (F := F))) :
    R (Proc.devRef (τ := τ) .tc main_v196) = ((extractStridedSlice S1x128x128 ![0, 0, 0] · slices_S4x128x128_S1x128x128_0_0_0) : (⟨S4x128x128, .f32⟩ : BufTy).Contents (Elt F) → (⟨S1x128x128, .f32⟩ : BufTy).Contents (Elt F)) (R (Proc.devRef (τ := τ) .tc main_arg7)) :=
  ((Cert.Ssa.eqs_unary _ _ _ _ _).mp (eqs_drop _ 17 h)).1

theorem line_main_v197 (h : Cert.Ssa.Eqs R (ops4 (F := F))) :
    R (Proc.devRef (τ := τ) .tc main_v197) = (shapeCast S128x128 (R (Proc.devRef (τ := τ) .tc main_v196) : (⟨S1x128x128, .f32⟩ : BufTy).Contents (Elt F)) shapeCasts_S1x128x128_S128x128 : (⟨S128x128, .f32⟩ : BufTy).Contents (Elt F)) :=
  ((Cert.Ssa.eqs_reshape _ _ _ _ _ _).mp (eqs_drop _ 18 h)).1

theorem line_main_v198 (h : Cert.Ssa.Eqs R (ops4 (F := F))) :
    R (Proc.devRef (τ := τ) .tc main_v198) = ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)) (R (Proc.devRef (τ := τ) .tc main_v191)) (R (Proc.devRef (τ := τ) .tc main_v197)) :=
  ((Cert.Ssa.eqs_binary _ _ _ _ _ _ _).mp (eqs_drop _ 19 h)).1

theorem line_main_cst_59 (h : Cert.Ssa.Eqs R (ops4 (F := F))) :
    R (Proc.devRef (τ := τ) .tc main_cst_59) = (constant S_ .f32 0x00000000#32 : (⟨S_, .f32⟩ : BufTy).Contents (Elt F)) :=
  ((Cert.Ssa.eqs_nullary _ _ _).mp (eqs_drop _ 20 h)).1

theorem line_main_call16_v0 (h : Cert.Ssa.Eqs R (ops4 (F := F))) :
    R (Proc.devRef (τ := τ) .tc main_call16_v0) = (id : (⟨S_, .f32⟩ : BufTy).Contents (Elt F) → (⟨S_, .f32⟩ : BufTy).Contents (Elt F)) (R (Proc.devRef (τ := τ) .tc main_cst_59)) :=
  ((Cert.Ssa.eqs_unary _ _ _ _ _).mp (eqs_drop _ 21 h)).1

theorem line_main_call16_v1 (h : Cert.Ssa.Eqs R (ops4 (F := F))) :
    R (Proc.devRef (τ := τ) .tc main_call16_v1) = (broadcastInDim S200000x128 ![0, 1] bcast_S200000x1_S200000x128_0_1 : (⟨S200000x1, .i1⟩ : BufTy).Contents (Elt F) → (⟨S200000x128, .i1⟩ : BufTy).Contents (Elt F)) (R (Proc.devRef (τ := τ) .tc main_v195)) :=
  ((Cert.Ssa.eqs_unary _ _ _ _ _).mp (eqs_drop _ 22 h)).1

theorem line_main_call16_v2 (h : Cert.Ssa.Eqs R (ops4 (F := F))) :
    R (Proc.devRef (τ := τ) .tc main_call16_v2) = (broadcastInDim S200000x128 ![] bcast_S_S200000x128 : (⟨S_, .f32⟩ : BufTy).Contents (Elt F) → (⟨S200000x128, .f32⟩ : BufTy).Contents (Elt F)) (R (Proc.devRef (τ := τ) .tc main_call16_v0)) :=
  ((Cert.Ssa.eqs_unary _ _ _ _ _).mp (eqs_drop _ 23 h)).1

theorem line_main_v199 (h : Cert.Ssa.Eqs R (ops4 (F := F))) :
    R (Proc.devRef (τ := τ) .tc main_v199) = (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)) (R (Proc.devRef (τ := τ) .tc main_call16_v1)) (R (Proc.devRef (τ := τ) .tc main_v198)) (R (Proc.devRef (τ := τ) .tc main_call16_v2)) :=
  ((Cert.Ssa.eqs_ternary _ _ _ _ _ _ _ _ _).mp (eqs_drop _ 24 h)).1

theorem line_main_v200 (h : Cert.Ssa.Eqs R (ops4 (F := F))) :
    R (Proc.devRef (τ := τ) .tc main_v200) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v192)) (R (Proc.devRef (τ := τ) .tc main_v199)) :=
  ((Cert.Ssa.eqs_binary _ _ _ _ _ _ _).mp (eqs_drop _ 25 h)).1

theorem line_main_c_60 (h : Cert.Ssa.Eqs R (ops4 (F := F))) :
    R (Proc.devRef (τ := τ) .tc main_c_60) = (constantI S_ 32 1#32 : (⟨S_, .i32⟩ : BufTy).Contents (Elt F)) :=
  ((Cert.Ssa.eqs_nullary _ _ _).mp (eqs_drop _ 26 h)).1

theorem line_main_v201 (h : Cert.Ssa.Eqs R (ops4 (F := F))) :
    R (Proc.devRef (τ := τ) .tc main_v201) = (broadcastInDim S200000 ![] bcast_S_S200000 : (⟨S_, .i32⟩ : BufTy).Contents (Elt F) → (⟨S200000, .i32⟩ : BufTy).Contents (Elt F)) (R (Proc.devRef (τ := τ) .tc main_c_60)) :=
  ((Cert.Ssa.eqs_unary _ _ _ _ _).mp (eqs_drop _ 27 h)).1

theorem line_main_v202 (h : Cert.Ssa.Eqs R (ops4 (F := F))) :
    R (Proc.devRef (τ := τ) .tc main_v202) = (cmpi .eq : (⟨S200000, .i32⟩ : BufTy).Contents (Elt F) → (⟨S200000, .i32⟩ : BufTy).Contents (Elt F) → (⟨S200000, .i1⟩ : BufTy).Contents (Elt F)) (R (Proc.devRef (τ := τ) .tc main_arg1)) (R (Proc.devRef (τ := τ) .tc main_v201)) :=
  ((Cert.Ssa.eqs_binary _ _ _ _ _ _ _).mp (eqs_drop _ 28 h)).1

theorem line_main_v203 (h : Cert.Ssa.Eqs R (ops4 (F := F))) :
    R (Proc.devRef (τ := τ) .tc main_v203) = (broadcastInDim S200000x1 ![0] bcast_S200000_S200000x1_0 : (⟨S200000, .i1⟩ : BufTy).Contents (Elt F) → (⟨S200000x1, .i1⟩ : BufTy).Contents (Elt F)) (R (Proc.devRef (τ := τ) .tc main_v202)) :=
  ((Cert.Ssa.eqs_unary _ _ _ _ _).mp (eqs_drop _ 29 h)).1

theorem line_main_v204 (h : Cert.Ssa.Eqs R (ops4 (F := F))) :
    R (Proc.devRef (τ := τ) .tc main_v204) = ((extractStridedSlice S1x128x128 ![1, 0, 0] · slices_S4x128x128_S1x128x128_1_0_0) : (⟨S4x128x128, .f32⟩ : BufTy).Contents (Elt F) → (⟨S1x128x128, .f32⟩ : BufTy).Contents (Elt F)) (R (Proc.devRef (τ := τ) .tc main_arg7)) :=
  ((Cert.Ssa.eqs_unary _ _ _ _ _).mp (eqs_drop _ 30 h)).1

theorem line_main_v205 (h : Cert.Ssa.Eqs R (ops4 (F := F))) :
    R (Proc.devRef (τ := τ) .tc main_v205) = (shapeCast S128x128 (R (Proc.devRef (τ := τ) .tc main_v204) : (⟨S1x128x128, .f32⟩ : BufTy).Contents (Elt F)) shapeCasts_S1x128x128_S128x128 : (⟨S128x128, .f32⟩ : BufTy).Contents (Elt F)) :=
  ((Cert.Ssa.eqs_reshape _ _ _ _ _ _).mp (eqs_drop _ 31 h)).1

theorem line_main_v206 (h : Cert.Ssa.Eqs R (ops4 (F := F))) :
    R (Proc.devRef (τ := τ) .tc main_v206) = ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)) (R (Proc.devRef (τ := τ) .tc main_v191)) (R (Proc.devRef (τ := τ) .tc main_v205)) :=
  ((Cert.Ssa.eqs_binary _ _ _ _ _ _ _).mp (eqs_drop _ 32 h)).1

theorem line_main_cst_61 (h : Cert.Ssa.Eqs R (ops4 (F := F))) :
    R (Proc.devRef (τ := τ) .tc main_cst_61) = (constant S_ .f32 0x00000000#32 : (⟨S_, .f32⟩ : BufTy).Contents (Elt F)) :=
  ((Cert.Ssa.eqs_nullary _ _ _).mp (eqs_drop _ 33 h)).1

theorem line_main_call17_v0 (h : Cert.Ssa.Eqs R (ops4 (F := F))) :
    R (Proc.devRef (τ := τ) .tc main_call17_v0) = (id : (⟨S_, .f32⟩ : BufTy).Contents (Elt F) → (⟨S_, .f32⟩ : BufTy).Contents (Elt F)) (R (Proc.devRef (τ := τ) .tc main_cst_61)) :=
  ((Cert.Ssa.eqs_unary _ _ _ _ _).mp (eqs_drop _ 34 h)).1

theorem line_main_call17_v1 (h : Cert.Ssa.Eqs R (ops4 (F := F))) :
    R (Proc.devRef (τ := τ) .tc main_call17_v1) = (broadcastInDim S200000x128 ![0, 1] bcast_S200000x1_S200000x128_0_1 : (⟨S200000x1, .i1⟩ : BufTy).Contents (Elt F) → (⟨S200000x128, .i1⟩ : BufTy).Contents (Elt F)) (R (Proc.devRef (τ := τ) .tc main_v203)) :=
  ((Cert.Ssa.eqs_unary _ _ _ _ _).mp (eqs_drop _ 35 h)).1

theorem line_main_call17_v2 (h : Cert.Ssa.Eqs R (ops4 (F := F))) :
    R (Proc.devRef (τ := τ) .tc main_call17_v2) = (broadcastInDim S200000x128 ![] bcast_S_S200000x128 : (⟨S_, .f32⟩ : BufTy).Contents (Elt F) → (⟨S200000x128, .f32⟩ : BufTy).Contents (Elt F)) (R (Proc.devRef (τ := τ) .tc main_call17_v0)) :=
  ((Cert.Ssa.eqs_unary _ _ _ _ _).mp (eqs_drop _ 36 h)).1

theorem line_main_v207 (h : Cert.Ssa.Eqs R (ops4 (F := F))) :
    R (Proc.devRef (τ := τ) .tc main_v207) = (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)) (R (Proc.devRef (τ := τ) .tc main_call17_v1)) (R (Proc.devRef (τ := τ) .tc main_v206)) (R (Proc.devRef (τ := τ) .tc main_call17_v2)) :=
  ((Cert.Ssa.eqs_ternary _ _ _ _ _ _ _ _ _).mp (eqs_drop _ 37 h)).1

theorem line_main_v208 (h : Cert.Ssa.Eqs R (ops4 (F := F))) :
    R (Proc.devRef (τ := τ) .tc main_v208) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v200)) (R (Proc.devRef (τ := τ) .tc main_v207)) :=
  ((Cert.Ssa.eqs_binary _ _ _ _ _ _ _).mp (eqs_drop _ 38 h)).1

theorem line_main_c_62 (h : Cert.Ssa.Eqs R (ops4 (F := F))) :
    R (Proc.devRef (τ := τ) .tc main_c_62) = (constantI S_ 32 2#32 : (⟨S_, .i32⟩ : BufTy).Contents (Elt F)) :=
  ((Cert.Ssa.eqs_nullary _ _ _).mp (eqs_drop _ 39 h)).1

theorem line_main_v209 (h : Cert.Ssa.Eqs R (ops4 (F := F))) :
    R (Proc.devRef (τ := τ) .tc main_v209) = (broadcastInDim S200000 ![] bcast_S_S200000 : (⟨S_, .i32⟩ : BufTy).Contents (Elt F) → (⟨S200000, .i32⟩ : BufTy).Contents (Elt F)) (R (Proc.devRef (τ := τ) .tc main_c_62)) :=
  ((Cert.Ssa.eqs_unary _ _ _ _ _).mp (eqs_drop _ 40 h)).1

theorem line_main_v210 (h : Cert.Ssa.Eqs R (ops4 (F := F))) :
    R (Proc.devRef (τ := τ) .tc main_v210) = (cmpi .eq : (⟨S200000, .i32⟩ : BufTy).Contents (Elt F) → (⟨S200000, .i32⟩ : BufTy).Contents (Elt F) → (⟨S200000, .i1⟩ : BufTy).Contents (Elt F)) (R (Proc.devRef (τ := τ) .tc main_arg1)) (R (Proc.devRef (τ := τ) .tc main_v209)) :=
  ((Cert.Ssa.eqs_binary _ _ _ _ _ _ _).mp (eqs_drop _ 41 h)).1

theorem line_main_v211 (h : Cert.Ssa.Eqs R (ops4 (F := F))) :
    R (Proc.devRef (τ := τ) .tc main_v211) = (broadcastInDim S200000x1 ![0] bcast_S200000_S200000x1_0 : (⟨S200000, .i1⟩ : BufTy).Contents (Elt F) → (⟨S200000x1, .i1⟩ : BufTy).Contents (Elt F)) (R (Proc.devRef (τ := τ) .tc main_v210)) :=
  ((Cert.Ssa.eqs_unary _ _ _ _ _).mp (eqs_drop _ 42 h)).1

theorem line_main_v212 (h : Cert.Ssa.Eqs R (ops4 (F := F))) :
    R (Proc.devRef (τ := τ) .tc main_v212) = ((extractStridedSlice S1x128x128 ![2, 0, 0] · slices_S4x128x128_S1x128x128_2_0_0) : (⟨S4x128x128, .f32⟩ : BufTy).Contents (Elt F) → (⟨S1x128x128, .f32⟩ : BufTy).Contents (Elt F)) (R (Proc.devRef (τ := τ) .tc main_arg7)) :=
  ((Cert.Ssa.eqs_unary _ _ _ _ _).mp (eqs_drop _ 43 h)).1

theorem line_main_v213 (h : Cert.Ssa.Eqs R (ops4 (F := F))) :
    R (Proc.devRef (τ := τ) .tc main_v213) = (shapeCast S128x128 (R (Proc.devRef (τ := τ) .tc main_v212) : (⟨S1x128x128, .f32⟩ : BufTy).Contents (Elt F)) shapeCasts_S1x128x128_S128x128 : (⟨S128x128, .f32⟩ : BufTy).Contents (Elt F)) :=
  ((Cert.Ssa.eqs_reshape _ _ _ _ _ _).mp (eqs_drop _ 44 h)).1

theorem line_main_v214 (h : Cert.Ssa.Eqs R (ops4 (F := F))) :
    R (Proc.devRef (τ := τ) .tc main_v214) = ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)) (R (Proc.devRef (τ := τ) .tc main_v191)) (R (Proc.devRef (τ := τ) .tc main_v213)) :=
  ((Cert.Ssa.eqs_binary _ _ _ _ _ _ _).mp (eqs_drop _ 45 h)).1

theorem line_main_cst_63 (h : Cert.Ssa.Eqs R (ops4 (F := F))) :
    R (Proc.devRef (τ := τ) .tc main_cst_63) = (constant S_ .f32 0x00000000#32 : (⟨S_, .f32⟩ : BufTy).Contents (Elt F)) :=
  ((Cert.Ssa.eqs_nullary _ _ _).mp (eqs_drop _ 46 h)).1

theorem line_main_call18_v0 (h : Cert.Ssa.Eqs R (ops4 (F := F))) :
    R (Proc.devRef (τ := τ) .tc main_call18_v0) = (id : (⟨S_, .f32⟩ : BufTy).Contents (Elt F) → (⟨S_, .f32⟩ : BufTy).Contents (Elt F)) (R (Proc.devRef (τ := τ) .tc main_cst_63)) :=
  ((Cert.Ssa.eqs_unary _ _ _ _ _).mp (eqs_drop _ 47 h)).1

theorem line_main_call18_v1 (h : Cert.Ssa.Eqs R (ops4 (F := F))) :
    R (Proc.devRef (τ := τ) .tc main_call18_v1) = (broadcastInDim S200000x128 ![0, 1] bcast_S200000x1_S200000x128_0_1 : (⟨S200000x1, .i1⟩ : BufTy).Contents (Elt F) → (⟨S200000x128, .i1⟩ : BufTy).Contents (Elt F)) (R (Proc.devRef (τ := τ) .tc main_v211)) :=
  ((Cert.Ssa.eqs_unary _ _ _ _ _).mp (eqs_drop _ 48 h)).1

theorem line_main_call18_v2 (h : Cert.Ssa.Eqs R (ops4 (F := F))) :
    R (Proc.devRef (τ := τ) .tc main_call18_v2) = (broadcastInDim S200000x128 ![] bcast_S_S200000x128 : (⟨S_, .f32⟩ : BufTy).Contents (Elt F) → (⟨S200000x128, .f32⟩ : BufTy).Contents (Elt F)) (R (Proc.devRef (τ := τ) .tc main_call18_v0)) :=
  ((Cert.Ssa.eqs_unary _ _ _ _ _).mp (eqs_drop _ 49 h)).1

theorem line_main_v215 (h : Cert.Ssa.Eqs R (ops4 (F := F))) :
    R (Proc.devRef (τ := τ) .tc main_v215) = (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)) (R (Proc.devRef (τ := τ) .tc main_call18_v1)) (R (Proc.devRef (τ := τ) .tc main_v214)) (R (Proc.devRef (τ := τ) .tc main_call18_v2)) :=
  ((Cert.Ssa.eqs_ternary _ _ _ _ _ _ _ _ _).mp (eqs_drop _ 50 h)).1

theorem line_main_v216 (h : Cert.Ssa.Eqs R (ops4 (F := F))) :
    R (Proc.devRef (τ := τ) .tc main_v216) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v208)) (R (Proc.devRef (τ := τ) .tc main_v215)) :=
  ((Cert.Ssa.eqs_binary _ _ _ _ _ _ _).mp (eqs_drop _ 51 h)).1

theorem line_main_c_64 (h : Cert.Ssa.Eqs R (ops4 (F := F))) :
    R (Proc.devRef (τ := τ) .tc main_c_64) = (constantI S_ 32 3#32 : (⟨S_, .i32⟩ : BufTy).Contents (Elt F)) :=
  ((Cert.Ssa.eqs_nullary _ _ _).mp (eqs_drop _ 52 h)).1

theorem line_main_v217 (h : Cert.Ssa.Eqs R (ops4 (F := F))) :
    R (Proc.devRef (τ := τ) .tc main_v217) = (broadcastInDim S200000 ![] bcast_S_S200000 : (⟨S_, .i32⟩ : BufTy).Contents (Elt F) → (⟨S200000, .i32⟩ : BufTy).Contents (Elt F)) (R (Proc.devRef (τ := τ) .tc main_c_64)) :=
  ((Cert.Ssa.eqs_unary _ _ _ _ _).mp (eqs_drop _ 53 h)).1

theorem line_main_v218 (h : Cert.Ssa.Eqs R (ops4 (F := F))) :
    R (Proc.devRef (τ := τ) .tc main_v218) = (cmpi .eq : (⟨S200000, .i32⟩ : BufTy).Contents (Elt F) → (⟨S200000, .i32⟩ : BufTy).Contents (Elt F) → (⟨S200000, .i1⟩ : BufTy).Contents (Elt F)) (R (Proc.devRef (τ := τ) .tc main_arg1)) (R (Proc.devRef (τ := τ) .tc main_v217)) :=
  ((Cert.Ssa.eqs_binary _ _ _ _ _ _ _).mp (eqs_drop _ 54 h)).1

theorem line_main_v219 (h : Cert.Ssa.Eqs R (ops4 (F := F))) :
    R (Proc.devRef (τ := τ) .tc main_v219) = (broadcastInDim S200000x1 ![0] bcast_S200000_S200000x1_0 : (⟨S200000, .i1⟩ : BufTy).Contents (Elt F) → (⟨S200000x1, .i1⟩ : BufTy).Contents (Elt F)) (R (Proc.devRef (τ := τ) .tc main_v218)) :=
  ((Cert.Ssa.eqs_unary _ _ _ _ _).mp (eqs_drop _ 55 h)).1

theorem line_main_v220 (h : Cert.Ssa.Eqs R (ops4 (F := F))) :
    R (Proc.devRef (τ := τ) .tc main_v220) = ((extractStridedSlice S1x128x128 ![3, 0, 0] · slices_S4x128x128_S1x128x128_3_0_0) : (⟨S4x128x128, .f32⟩ : BufTy).Contents (Elt F) → (⟨S1x128x128, .f32⟩ : BufTy).Contents (Elt F)) (R (Proc.devRef (τ := τ) .tc main_arg7)) :=
  ((Cert.Ssa.eqs_unary _ _ _ _ _).mp (eqs_drop _ 56 h)).1

theorem line_main_v221 (h : Cert.Ssa.Eqs R (ops4 (F := F))) :
    R (Proc.devRef (τ := τ) .tc main_v221) = (shapeCast S128x128 (R (Proc.devRef (τ := τ) .tc main_v220) : (⟨S1x128x128, .f32⟩ : BufTy).Contents (Elt F)) shapeCasts_S1x128x128_S128x128 : (⟨S128x128, .f32⟩ : BufTy).Contents (Elt F)) :=
  ((Cert.Ssa.eqs_reshape _ _ _ _ _ _).mp (eqs_drop _ 57 h)).1

theorem line_main_v222 (h : Cert.Ssa.Eqs R (ops4 (F := F))) :
    R (Proc.devRef (τ := τ) .tc main_v222) = ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)) (R (Proc.devRef (τ := τ) .tc main_v191)) (R (Proc.devRef (τ := τ) .tc main_v221)) :=
  ((Cert.Ssa.eqs_binary _ _ _ _ _ _ _).mp (eqs_drop _ 58 h)).1

theorem line_main_cst_65 (h : Cert.Ssa.Eqs R (ops4 (F := F))) :
    R (Proc.devRef (τ := τ) .tc main_cst_65) = (constant S_ .f32 0x00000000#32 : (⟨S_, .f32⟩ : BufTy).Contents (Elt F)) :=
  ((Cert.Ssa.eqs_nullary _ _ _).mp (eqs_drop _ 59 h)).1

theorem line_main_call19_v0 (h : Cert.Ssa.Eqs R (ops4 (F := F))) :
    R (Proc.devRef (τ := τ) .tc main_call19_v0) = (id : (⟨S_, .f32⟩ : BufTy).Contents (Elt F) → (⟨S_, .f32⟩ : BufTy).Contents (Elt F)) (R (Proc.devRef (τ := τ) .tc main_cst_65)) :=
  ((Cert.Ssa.eqs_unary _ _ _ _ _).mp (eqs_drop _ 60 h)).1

theorem line_main_call19_v1 (h : Cert.Ssa.Eqs R (ops4 (F := F))) :
    R (Proc.devRef (τ := τ) .tc main_call19_v1) = (broadcastInDim S200000x128 ![0, 1] bcast_S200000x1_S200000x128_0_1 : (⟨S200000x1, .i1⟩ : BufTy).Contents (Elt F) → (⟨S200000x128, .i1⟩ : BufTy).Contents (Elt F)) (R (Proc.devRef (τ := τ) .tc main_v219)) :=
  ((Cert.Ssa.eqs_unary _ _ _ _ _).mp (eqs_drop _ 61 h)).1

theorem line_main_call19_v2 (h : Cert.Ssa.Eqs R (ops4 (F := F))) :
    R (Proc.devRef (τ := τ) .tc main_call19_v2) = (broadcastInDim S200000x128 ![] bcast_S_S200000x128 : (⟨S_, .f32⟩ : BufTy).Contents (Elt F) → (⟨S200000x128, .f32⟩ : BufTy).Contents (Elt F)) (R (Proc.devRef (τ := τ) .tc main_call19_v0)) :=
  ((Cert.Ssa.eqs_unary _ _ _ _ _).mp (eqs_drop _ 62 h)).1

theorem line_main_v223 (h : Cert.Ssa.Eqs R (ops4 (F := F))) :
    R (Proc.devRef (τ := τ) .tc main_v223) = (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)) (R (Proc.devRef (τ := τ) .tc main_call19_v1)) (R (Proc.devRef (τ := τ) .tc main_v222)) (R (Proc.devRef (τ := τ) .tc main_call19_v2)) :=
  ((Cert.Ssa.eqs_ternary _ _ _ _ _ _ _ _ _).mp (eqs_drop _ 63 h)).1

theorem line_main_v224 (h : Cert.Ssa.Eqs R (ops4 (F := F))) :
    R (Proc.devRef (τ := τ) .tc main_v224) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v216)) (R (Proc.devRef (τ := τ) .tc main_v223)) :=
  ((Cert.Ssa.eqs_binary _ _ _ _ _ _ _).mp (eqs_drop _ 64 h)).1

theorem line_main_v225 (h : Cert.Ssa.Eqs R (ops4 (F := F))) :
    R (Proc.devRef (τ := τ) .tc main_v225) = (mulf : (⟨S200000, .f32⟩ : BufTy).Contents (Elt F) → (⟨S200000, .f32⟩ : BufTy).Contents (Elt F) → (⟨S200000, .f32⟩ : BufTy).Contents (Elt F)) (R (Proc.devRef (τ := τ) .tc main_arg2)) (R (Proc.devRef (τ := τ) .tc main_v184)) :=
  ((Cert.Ssa.eqs_binary _ _ _ _ _ _ _).mp (eqs_drop _ 65 h)).1

theorem line_main_v226 (h : Cert.Ssa.Eqs R (ops4 (F := F))) :
    R (Proc.devRef (τ := τ) .tc main_v226) = (broadcastInDim S200000x1 ![0] bcast_S200000_S200000x1_0 : (⟨S200000, .f32⟩ : BufTy).Contents (Elt F) → (⟨S200000x1, .f32⟩ : BufTy).Contents (Elt F)) (R (Proc.devRef (τ := τ) .tc main_v225)) :=
  ((Cert.Ssa.eqs_unary _ _ _ _ _).mp (eqs_drop _ 66 h)).1

theorem line_main_v227 (h : Cert.Ssa.Eqs R (ops4 (F := F))) :
    R (Proc.devRef (τ := τ) .tc main_v227) = (broadcastInDim S200000x128 ![0, 1] bcast_S200000x1_S200000x128_0_1 : (⟨S200000x1, .f32⟩ : BufTy).Contents (Elt F) → (⟨S200000x128, .f32⟩ : BufTy).Contents (Elt F)) (R (Proc.devRef (τ := τ) .tc main_v226)) :=
  ((Cert.Ssa.eqs_unary _ _ _ _ _).mp (eqs_drop _ 67 h)).1

theorem line_main_v228 (h : Cert.Ssa.Eqs R (ops4 (F := F))) :
    R (Proc.devRef (τ := τ) .tc main_v228) = (mulf : (⟨S200000x128, .f32⟩ : BufTy).Contents (Elt F) → (⟨S200000x128, .f32⟩ : BufTy).Contents (Elt F) → (⟨S200000x128, .f32⟩ : BufTy).Contents (Elt F)) (R (Proc.devRef (τ := τ) .tc main_v224)) (R (Proc.devRef (τ := τ) .tc main_v227)) :=
  ((Cert.Ssa.eqs_binary _ _ _ _ _ _ _).mp (eqs_drop _ 68 h)).1

theorem line_main_cst_66 (h : Cert.Ssa.Eqs R (ops4 (F := F))) :
    R (Proc.devRef (τ := τ) .tc main_cst_66) = (constant S_ .f32 0x00000000#32 : (⟨S_, .f32⟩ : BufTy).Contents (Elt F)) :=
  ((Cert.Ssa.eqs_nullary _ _ _).mp (eqs_drop _ 69 h)).1

theorem line_main_v229 (h : Cert.Ssa.Eqs R (ops4 (F := F))) :
    R (Proc.devRef (τ := τ) .tc main_v229) = (broadcastInDim S200000x128 ![] bcast_S_S200000x128 : (⟨S_, .f32⟩ : BufTy).Contents (Elt F) → (⟨S200000x128, .f32⟩ : BufTy).Contents (Elt F)) (R (Proc.devRef (τ := τ) .tc main_cst_66)) :=
  ((Cert.Ssa.eqs_unary _ _ _ _ _).mp (eqs_drop _ 70 h)).1

theorem line_main_v230 (h : Cert.Ssa.Eqs R (ops4 (F := F))) :
    R (Proc.devRef (τ := τ) .tc main_v230) = (broadcastInDim S200000x1 ![0] bcast_S200000_S200000x1_0 : (⟨S200000, .i32⟩ : BufTy).Contents (Elt F) → (⟨S200000x1, .i32⟩ : BufTy).Contents (Elt F)) (R (Proc.devRef (τ := τ) .tc main_v3)) :=
  ((Cert.Ssa.eqs_unary _ _ _ _ _).mp (eqs_drop _ 71 h)).1

theorem line_main_v231 (h : Cert.Ssa.Eqs R (ops5 (F := F))) :
    R (Proc.devRef (τ := τ) .tc main_v231) = ((fun x i u => Host.scatterAdd scatter_S200000x128_S200000x1_S200000x128_1_0_0_1 x i u) : (⟨S200000x128, .f32⟩ : BufTy).Contents (Elt F) → (⟨S200000x1, .i32⟩ : BufTy).Contents (Elt F) → (⟨S200000x128, .f32⟩ : BufTy).Contents (Elt F) → (⟨S200000x128, .f32⟩ : BufTy).Contents (Elt F)) (R (Proc.devRef (τ := τ) .tc main_v229)) (R (Proc.devRef (τ := τ) .tc main_v230)) (R (Proc.devRef (τ := τ) .tc main_v228)) :=
  ((Cert.Ssa.eqs_ternary _ _ _ _ _ _ _ _ _).mp (eqs_drop _ 0 h)).1

theorem line_main_v232 (h : Cert.Ssa.Eqs R (ops5 (F := F))) :
    R (Proc.devRef (τ := τ) .tc main_v232) = (broadcastInDim S1x128 ![1] bcast_S128_S1x128_1 : (⟨S128, .f32⟩ : BufTy).Contents (Elt F) → (⟨S1x128, .f32⟩ : BufTy).Contents (Elt F)) (R (Proc.devRef (τ := τ) .tc main_arg8)) :=
  ((Cert.Ssa.eqs_unary _ _ _ _ _).mp (eqs_drop _ 1 h)).1

theorem line_main_v233 (h : Cert.Ssa.Eqs R (ops5 (F := F))) :
    R (Proc.devRef (τ := τ) .tc main_v233) = (broadcastInDim S200000x128 ![0, 1] bcast_S1x128_S200000x128_0_1 : (⟨S1x128, .f32⟩ : BufTy).Contents (Elt F) → (⟨S200000x128, .f32⟩ : BufTy).Contents (Elt F)) (R (Proc.devRef (τ := τ) .tc main_v232)) :=
  ((Cert.Ssa.eqs_unary _ _ _ _ _).mp (eqs_drop _ 2 h)).1

theorem line_main_v234 (h : Cert.Ssa.Eqs R (ops5 (F := F))) :
    R (Proc.devRef (τ := τ) .tc main_v234) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v231)) (R (Proc.devRef (τ := τ) .tc main_v233)) :=
  ((Cert.Ssa.eqs_binary _ _ _ _ _ _ _).mp (eqs_drop _ 3 h)).1

theorem line_main_cst_67 (h : Cert.Ssa.Eqs R (ops5 (F := F))) :
    R (Proc.devRef (τ := τ) .tc main_cst_67) = (constant S_ .f32 0x3C23D70A#32 : (⟨S_, .f32⟩ : BufTy).Contents (Elt F)) :=
  ((Cert.Ssa.eqs_nullary _ _ _).mp (eqs_drop _ 4 h)).1

theorem line_main_call20_cst (h : Cert.Ssa.Eqs R (ops5 (F := F))) :
    R (Proc.devRef (τ := τ) .tc main_call20_cst) = (constant S_ .f32 0x00000000#32 : (⟨S_, .f32⟩ : BufTy).Contents (Elt F)) :=
  ((Cert.Ssa.eqs_nullary _ _ _).mp (eqs_drop _ 5 h)).1

theorem line_main_call20_v0 (h : Cert.Ssa.Eqs R (ops5 (F := F))) :
    R (Proc.devRef (τ := τ) .tc main_call20_v0) = (broadcastInDim S200000x128 ![] bcast_S_S200000x128 : (⟨S_, .f32⟩ : BufTy).Contents (Elt F) → (⟨S200000x128, .f32⟩ : BufTy).Contents (Elt F)) (R (Proc.devRef (τ := τ) .tc main_call20_cst)) :=
  ((Cert.Ssa.eqs_unary _ _ _ _ _).mp (eqs_drop _ 6 h)).1

theorem line_main_call20_v1 (h : Cert.Ssa.Eqs R (ops5 (F := F))) :
    R (Proc.devRef (τ := τ) .tc main_call20_v1) = (cmpf .oge : (⟨S200000x128, .f32⟩ : BufTy).Contents (Elt F) → (⟨S200000x128, .f32⟩ : BufTy).Contents (Elt F) → (⟨S200000x128, .i1⟩ : BufTy).Contents (Elt F)) (R (Proc.devRef (τ := τ) .tc main_v234)) (R (Proc.devRef (τ := τ) .tc main_call20_v0)) :=
  ((Cert.Ssa.eqs_binary _ _ _ _ _ _ _).mp (eqs_drop _ 7 h)).1

theorem line_main_call20_v2 (h : Cert.Ssa.Eqs R (ops5 (F := F))) :
    R (Proc.devRef (τ := τ) .tc main_call20_v2) = (id : (⟨S_, .f32⟩ : BufTy).Contents (Elt F) → (⟨S_, .f32⟩ : BufTy).Contents (Elt F)) (R (Proc.devRef (τ := τ) .tc main_cst_67)) :=
  ((Cert.Ssa.eqs_unary _ _ _ _ _).mp (eqs_drop _ 8 h)).1

theorem line_main_call20_v3 (h : Cert.Ssa.Eqs R (ops5 (F := F))) :
    R (Proc.devRef (τ := τ) .tc main_call20_v3) = (broadcastInDim S200000x128 ![] bcast_S_S200000x128 : (⟨S_, .f32⟩ : BufTy).Contents (Elt F) → (⟨S200000x128, .f32⟩ : BufTy).Contents (Elt F)) (R (Proc.devRef (τ := τ) .tc main_call20_v2)) :=
  ((Cert.Ssa.eqs_unary _ _ _ _ _).mp (eqs_drop _ 9 h)).1

theorem line_main_call20_v4 (h : Cert.Ssa.Eqs R (ops5 (F := F))) :
    R (Proc.devRef (τ := τ) .tc main_call20_v4) = (mulf : (⟨S200000x128, .f32⟩ : BufTy).Contents (Elt F) → (⟨S200000x128, .f32⟩ : BufTy).Contents (Elt F) → (⟨S200000x128, .f32⟩ : BufTy).Contents (Elt F)) (R (Proc.devRef (τ := τ) .tc main_call20_v3)) (R (Proc.devRef (τ := τ) .tc main_v234)) :=
  ((Cert.Ssa.eqs_binary _ _ _ _ _ _ _).mp (eqs_drop _ 10 h)).1

theorem line_main_v235 (h : Cert.Ssa.Eqs R (ops5 (F := F))) :
    R (Proc.devRef (τ := τ) .tc main_v235) = (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)) (R (Proc.devRef (τ := τ) .tc main_call20_v1)) (R (Proc.devRef (τ := τ) .tc main_v234)) (R (Proc.devRef (τ := τ) .tc main_call20_v4)) :=
  ((Cert.Ssa.eqs_ternary _ _ _ _ _ _ _ _ _).mp (eqs_drop _ 11 h)).1

theorem line_main_v236 (h : Cert.Ssa.Eqs R (ops5 (F := F))) :
    R (Proc.devRef (τ := τ) .tc main_v236) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v4)) (R (Proc.devRef (τ := τ) .tc main_v81)) :=
  ((Cert.Ssa.eqs_binary _ _ _ _ _ _ _).mp (eqs_drop _ 12 h)).1

theorem line_main_v237 (h : Cert.Ssa.Eqs R (ops5 (F := F))) :
    R (Proc.devRef (τ := τ) .tc main_v237) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v236)) (R (Proc.devRef (τ := τ) .tc main_v158)) :=
  ((Cert.Ssa.eqs_binary _ _ _ _ _ _ _).mp (eqs_drop _ 13 h)).1

theorem line_main_v238 (h : Cert.Ssa.Eqs R (ops5 (F := F))) :
    R (Proc.devRef (τ := τ) .tc main_v238) = (addf : (⟨S200000x128, .f32⟩ : BufTy).Contents (Elt F) → (⟨S200000x128, .f32⟩ : BufTy).Contents (Elt F) → (⟨S200000x128, .f32⟩ : BufTy).Contents (Elt F)) (R (Proc.devRef (τ := τ) .tc main_v237)) (R (Proc.devRef (τ := τ) .tc main_v235)) :=
  ((Cert.Ssa.eqs_binary _ _ _ _ _ _ _).mp (eqs_drop _ 14 h)).1

theorem line_main_cst_68 (h : Cert.Ssa.Eqs R (ops5 (F := F))) :
    R (Proc.devRef (τ := τ) .tc main_cst_68) = (constant S_ .f32 0x40800000#32 : (⟨S_, .f32⟩ : BufTy).Contents (Elt F)) :=
  ((Cert.Ssa.eqs_nullary _ _ _).mp (eqs_drop _ 15 h)).1

theorem line_main_v239 (h : Cert.Ssa.Eqs R (ops5 (F := F))) :
    R (Proc.devRef (τ := τ) .tc main_v239) = (broadcastInDim S200000x128 ![] bcast_S_S200000x128 : (⟨S_, .f32⟩ : BufTy).Contents (Elt F) → (⟨S200000x128, .f32⟩ : BufTy).Contents (Elt F)) (R (Proc.devRef (τ := τ) .tc main_cst_68)) :=
  ((Cert.Ssa.eqs_unary _ _ _ _ _).mp (eqs_drop _ 16 h)).1

theorem line_main_v240 (h : Cert.Ssa.Eqs R (ops5 (F := F))) :
    R (Proc.devRef (τ := τ) .tc main_v240) = (Host.divf : (⟨S200000x128, .f32⟩ : BufTy).Contents (Elt F) → (⟨S200000x128, .f32⟩ : BufTy).Contents (Elt F) → (⟨S200000x128, .f32⟩ : BufTy).Contents (Elt F)) (R (Proc.devRef (τ := τ) .tc main_v238)) (R (Proc.devRef (τ := τ) .tc main_v239)) :=
  ((Cert.Ssa.eqs_binary _ _ _ _ _ _ _).mp (eqs_drop _ 17 h)).1

end Cert.ReferenceIdeal.Hand

end
-- ==== Proof.RefValue.lean ====
/-
  THE REFERENCE PROGRAM'S RESULT, STAGE BY STAGE. For contents R of the buffers that are a fixed point of every
  operation of the line, the buffers on the way to the result hold the named stages of the three graph-convolution
  layers: the edge list's rows, the degree factor, the edge scale, the gathered rows, the masked products and their sum,
  the sum by target node plus the bias, the rectifier, and finally the mean of the starting table and the three
  layers' outputs. Each stage is its own buffers' lines substituted into one another down to the stages before it.
  What the line leaves is such a fixed point and leaves the arguments as found, which gives the result as a function
  of the arguments.
-/
import proofs.«120788_j77403900608956_2_alg».proof.Proof.RefLines
import proofs.«120788_j77403900608956_2_alg».proof.Proof.RefStage

noncomputable section

namespace Cert.ReferenceIdeal.Hand

open Cert.ReferenceIdeal Cert.ReferenceIdeal.Gen Idealize.ShloMosaic Idealize.ShloMosaic.TcCoe Idealize.SL.Sem Idealize.ShloMosaic.StableHlo

section Stages

variable {R : Valuation τ sig (Elt Ideal)}
  (h0 : Cert.Ssa.Eqs R (ops0 (F := Ideal))) (h1 : Cert.Ssa.Eqs R (ops1 (F := Ideal))) (h2 : Cert.Ssa.Eqs R (ops2 (F := Ideal)))
  (h3 : Cert.Ssa.Eqs R (ops3 (F := Ideal))) (h4 : Cert.Ssa.Eqs R (ops4 (F := Ideal))) (h5 : Cert.Ssa.Eqs R (ops5 (F := Ideal)))
include h0 h1 h2 h3 h4 h5

theorem st_row :
    R (Proc.devRef (τ := τ) .tc main_v1) = Stage.row (R (Proc.devRef (τ := τ) .tc main_arg0)) := by
  rw [line_main_v1 h0, line_main_v0 h0]
  rfl

theorem st_col :
    R (Proc.devRef (τ := τ) .tc main_v3) = Stage.col (R (Proc.devRef (τ := τ) .tc main_arg0)) := by
  rw [line_main_v3 h0, line_main_v2 h0]
  rfl

theorem st_x0 :
    R (Proc.devRef (τ := τ) .tc main_v4) = Stage.x0 := by
  rw [line_main_v4 h0, line_main_cst h0]
  rfl

theorem st_deg_1 :
    R (Proc.devRef (τ := τ) .tc main_v8) = Stage.deg (R (Proc.devRef (τ := τ) .tc main_arg0)) := by
  rw [line_main_v8 h0, line_main_v7 h0, line_main_v6 h0, line_main_cst_1 h0]
  rw [line_main_v5 h0, line_main_cst_0 h0, st_col h0 h1 h2 h3 h4 h5]
  rfl

theorem st_dinv_1 :
    R (Proc.devRef (τ := τ) .tc main_v15) = Stage.dinv (R (Proc.devRef (τ := τ) .tc main_arg0)) := by
  rw [line_main_v15 h0, line_main_call1_v1 h0, line_main_call1_v0 h0, line_main_cst_5 h0]
  rw [line_main_v14 h0, line_main_v13 h0, line_main_call0_v1 h0, line_main_call0_v0 h0]
  rw [line_main_cst_4 h0, line_main_v12 h0, line_main_v11 h0, line_main_cst_3 h0]
  rw [line_main_v10 h0, line_main_v9 h0, line_main_cst_2 h0, st_deg_1 h0 h1 h2 h3 h4 h5]
  rfl

theorem st_norm_1 :
    R (Proc.devRef (τ := τ) .tc main_v30) = Stage.norm (R (Proc.devRef (τ := τ) .tc main_arg0)) := by
  rw [line_main_v30 h0, line_main_v29 h0, line_main_v28 h0, line_main_v27 h0]
  rw [line_main_v26 h0, line_main_v25 h0, line_main_c_8 h0, line_main_v24 h0]
  rw [line_main_v23 h0, line_main_c_7 h0, line_main_v22 h0, line_main_v21 h0]
  rw [line_main_v20 h0, line_main_v19 h0, line_main_v18 h0, line_main_c_6 h0]
  rw [line_main_v17 h0, line_main_v16 h0, line_main_c h0, st_dinv_1 h0 h1 h2 h3 h4 h5]
  rw [st_col h0 h1 h2 h3 h4 h5, st_row h0 h1 h2 h3 h4 h5]
  rfl

theorem st_scale_1 :
    R (Proc.devRef (τ := τ) .tc main_v71) = Stage.scale (R (Proc.devRef (τ := τ) .tc main_arg0)) (R (Proc.devRef (τ := τ) .tc main_arg2)) := by
  rw [line_main_v71 h1, st_norm_1 h0 h1 h2 h3 h4 h5]
  rfl

theorem st_xr_1 :
    R (Proc.devRef (τ := τ) .tc main_v37) = Stage.xr (R (Proc.devRef (τ := τ) .tc main_v4)) (R (Proc.devRef (τ := τ) .tc main_arg0)) := by
  rw [line_main_v37 h0, line_main_v36 h0, line_main_v35 h0, line_main_v34 h0]
  rw [line_main_v33 h0, line_main_c_10 h0, line_main_v32 h0, line_main_v31 h0]
  rw [line_main_c_9 h0, st_row h0 h1 h2 h3 h4 h5]
  rfl

theorem st_sel0_1 :
    R (Proc.devRef (τ := τ) .tc main_v45) = Stage.sel (Stage.isRel (R (Proc.devRef (τ := τ) .tc main_arg1)) 0#32) (Stage.prod (R (Proc.devRef (τ := τ) .tc main_v37)) (Stage.relW0 (R (Proc.devRef (τ := τ) .tc main_arg3)))) := by
  rw [line_main_v45 h1, line_main_call2_v2 h1, line_main_call2_v1 h1, line_main_call2_v0 h1]
  rw [line_main_cst_13 h1, line_main_v44 h0, line_main_v43 h0, line_main_v42 h0]
  rw [line_main_v41 h0, line_main_v40 h0, line_main_v39 h0, line_main_c_12 h0]
  rfl

theorem st_sel1_1 :
    R (Proc.devRef (τ := τ) .tc main_v53) = Stage.sel (Stage.isRel (R (Proc.devRef (τ := τ) .tc main_arg1)) 1#32) (Stage.prod (R (Proc.devRef (τ := τ) .tc main_v37)) (Stage.relW1 (R (Proc.devRef (τ := τ) .tc main_arg3)))) := by
  rw [line_main_v53 h1, line_main_call3_v2 h1, line_main_call3_v1 h1, line_main_call3_v0 h1]
  rw [line_main_cst_15 h1, line_main_v52 h1, line_main_v51 h1, line_main_v50 h1]
  rw [line_main_v49 h1, line_main_v48 h1, line_main_v47 h1, line_main_c_14 h1]
  rfl

theorem st_sel2_1 :
    R (Proc.devRef (τ := τ) .tc main_v61) = Stage.sel (Stage.isRel (R (Proc.devRef (τ := τ) .tc main_arg1)) 2#32) (Stage.prod (R (Proc.devRef (τ := τ) .tc main_v37)) (Stage.relW2 (R (Proc.devRef (τ := τ) .tc main_arg3)))) := by
  rw [line_main_v61 h1, line_main_call4_v2 h1, line_main_call4_v1 h1, line_main_call4_v0 h1]
  rw [line_main_cst_17 h1, line_main_v60 h1, line_main_v59 h1, line_main_v58 h1]
  rw [line_main_v57 h1, line_main_v56 h1, line_main_v55 h1, line_main_c_16 h1]
  rfl

theorem st_sel3_1 :
    R (Proc.devRef (τ := τ) .tc main_v69) = Stage.sel (Stage.isRel (R (Proc.devRef (τ := τ) .tc main_arg1)) 3#32) (Stage.prod (R (Proc.devRef (τ := τ) .tc main_v37)) (Stage.relW3 (R (Proc.devRef (τ := τ) .tc main_arg3)))) := by
  rw [line_main_v69 h1, line_main_call5_v2 h1, line_main_call5_v1 h1, line_main_call5_v0 h1]
  rw [line_main_cst_19 h1, line_main_v68 h1, line_main_v67 h1, line_main_v66 h1]
  rw [line_main_v65 h1, line_main_v64 h1, line_main_v63 h1, line_main_c_18 h1]
  rfl

theorem st_msg_1 :
    R (Proc.devRef (τ := τ) .tc main_v70) = Stage.msg (R (Proc.devRef (τ := τ) .tc main_v4)) (R (Proc.devRef (τ := τ) .tc main_arg0)) (R (Proc.devRef (τ := τ) .tc main_arg1)) (R (Proc.devRef (τ := τ) .tc main_arg3)) := by
  rw [line_main_v70 h1, st_sel3_1 h0 h1 h2 h3 h4 h5, line_main_v62 h1, st_sel2_1 h0 h1 h2 h3 h4 h5]
  rw [line_main_v54 h1, st_sel1_1 h0 h1 h2 h3 h4 h5, line_main_v46 h1, st_sel0_1 h0 h1 h2 h3 h4 h5]
  rw [line_main_v38 h0, line_main_cst_11 h0, st_xr_1 h0 h1 h2 h3 h4 h5]
  rfl

theorem st_pre_1 :
    R (Proc.devRef (τ := τ) .tc main_v80) = Stage.pre (R (Proc.devRef (τ := τ) .tc main_v4)) (R (Proc.devRef (τ := τ) .tc main_arg0)) (R (Proc.devRef (τ := τ) .tc main_arg1)) (R (Proc.devRef (τ := τ) .tc main_arg2)) (R (Proc.devRef (τ := τ) .tc main_arg3)) (R (Proc.devRef (τ := τ) .tc main_arg4)) := by
  rw [line_main_v80 h1, line_main_v79 h1, line_main_v78 h1, line_main_v77 h1]
  rw [line_main_v76 h1, line_main_v75 h1, line_main_cst_20 h1, line_main_v74 h1]
  rw [line_main_v73 h1, line_main_v72 h1, st_scale_1 h0 h1 h2 h3 h4 h5, st_msg_1 h0 h1 h2 h3 h4 h5]
  rw [st_col h0 h1 h2 h3 h4 h5]
  rfl

theorem st_layer_1 :
    R (Proc.devRef (τ := τ) .tc main_v81) = Stage.layer (R (Proc.devRef (τ := τ) .tc main_v4)) (R (Proc.devRef (τ := τ) .tc main_arg0)) (R (Proc.devRef (τ := τ) .tc main_arg1)) (R (Proc.devRef (τ := τ) .tc main_arg2)) (R (Proc.devRef (τ := τ) .tc main_arg3)) (R (Proc.devRef (τ := τ) .tc main_arg4)) := by
  rw [line_main_v81 h1, line_main_call6_v4 h1, line_main_call6_v3 h1, line_main_call6_v2 h1]
  rw [line_main_call6_v1 h1, line_main_call6_v0 h1, line_main_call6_cst h1, line_main_cst_21 h1]
  rw [st_pre_1 h0 h1 h2 h3 h4 h5]
  rfl

theorem st_deg_2 :
    R (Proc.devRef (τ := τ) .tc main_v85) = Stage.deg (R (Proc.devRef (τ := τ) .tc main_arg0)) := by
  rw [line_main_v85 h1, line_main_v84 h1, line_main_v83 h1, line_main_cst_23 h1]
  rw [line_main_v82 h1, line_main_cst_22 h1, st_col h0 h1 h2 h3 h4 h5]
  rfl

theorem st_dinv_2 :
    R (Proc.devRef (τ := τ) .tc main_v92) = Stage.dinv (R (Proc.devRef (τ := τ) .tc main_arg0)) := by
  rw [line_main_v92 h2, line_main_call8_v1 h2, line_main_call8_v0 h2, line_main_cst_27 h2]
  rw [line_main_v91 h2, line_main_v90 h1, line_main_call7_v1 h1, line_main_call7_v0 h1]
  rw [line_main_cst_26 h1, line_main_v89 h1, line_main_v88 h1, line_main_cst_25 h1]
  rw [line_main_v87 h1, line_main_v86 h1, line_main_cst_24 h1, st_deg_2 h0 h1 h2 h3 h4 h5]
  rfl

theorem st_norm_2 :
    R (Proc.devRef (τ := τ) .tc main_v107) = Stage.norm (R (Proc.devRef (τ := τ) .tc main_arg0)) := by
  rw [line_main_v107 h2, line_main_v106 h2, line_main_v105 h2, line_main_v104 h2]
  rw [line_main_v103 h2, line_main_v102 h2, line_main_c_31 h2, line_main_v101 h2]
  rw [line_main_v100 h2, line_main_c_30 h2, line_main_v99 h2, line_main_v98 h2]
  rw [line_main_v97 h2, line_main_v96 h2, line_main_v95 h2, line_main_c_29 h2]
  rw [line_main_v94 h2, line_main_v93 h2, line_main_c_28 h2, st_dinv_2 h0 h1 h2 h3 h4 h5]
  rw [st_col h0 h1 h2 h3 h4 h5, st_row h0 h1 h2 h3 h4 h5]
  rfl

theorem st_scale_2 :
    R (Proc.devRef (τ := τ) .tc main_v148) = Stage.scale (R (Proc.devRef (τ := τ) .tc main_arg0)) (R (Proc.devRef (τ := τ) .tc main_arg2)) := by
  rw [line_main_v148 h3, st_norm_2 h0 h1 h2 h3 h4 h5]
  rfl

theorem st_xr_2 :
    R (Proc.devRef (τ := τ) .tc main_v114) = Stage.xr (R (Proc.devRef (τ := τ) .tc main_v81)) (R (Proc.devRef (τ := τ) .tc main_arg0)) := by
  rw [line_main_v114 h2, line_main_v113 h2, line_main_v112 h2, line_main_v111 h2]
  rw [line_main_v110 h2, line_main_c_33 h2, line_main_v109 h2, line_main_v108 h2]
  rw [line_main_c_32 h2, st_row h0 h1 h2 h3 h4 h5]
  rfl

theorem st_sel0_2 :
    R (Proc.devRef (τ := τ) .tc main_v122) = Stage.sel (Stage.isRel (R (Proc.devRef (τ := τ) .tc main_arg1)) 0#32) (Stage.prod (R (Proc.devRef (τ := τ) .tc main_v114)) (Stage.relW0 (R (Proc.devRef (τ := τ) .tc main_arg5)))) := by
  rw [line_main_v122 h2, line_main_call9_v2 h2, line_main_call9_v1 h2, line_main_call9_v0 h2]
  rw [line_main_cst_36 h2, line_main_v121 h2, line_main_v120 h2, line_main_v119 h2]
  rw [line_main_v118 h2, line_main_v117 h2, line_main_v116 h2, line_main_c_35 h2]
  rfl

theorem st_sel1_2 :
    R (Proc.devRef (τ := τ) .tc main_v130) = Stage.sel (Stage.isRel (R (Proc.devRef (τ := τ) .tc main_arg1)) 1#32) (Stage.prod (R (Proc.devRef (τ := τ) .tc main_v114)) (Stage.relW1 (R (Proc.devRef (τ := τ) .tc main_arg5)))) := by
  rw [line_main_v130 h2, line_main_call10_v2 h2, line_main_call10_v1 h2, line_main_call10_v0 h2]
  rw [line_main_cst_38 h2, line_main_v129 h2, line_main_v128 h2, line_main_v127 h2]
  rw [line_main_v126 h2, line_main_v125 h2, line_main_v124 h2, line_main_c_37 h2]
  rfl

theorem st_sel2_2 :
    R (Proc.devRef (τ := τ) .tc main_v138) = Stage.sel (Stage.isRel (R (Proc.devRef (τ := τ) .tc main_arg1)) 2#32) (Stage.prod (R (Proc.devRef (τ := τ) .tc main_v114)) (Stage.relW2 (R (Proc.devRef (τ := τ) .tc main_arg5)))) := by
  rw [line_main_v138 h3, line_main_call11_v2 h3, line_main_call11_v1 h3, line_main_call11_v0 h3]
  rw [line_main_cst_40 h3, line_main_v137 h2, line_main_v136 h2, line_main_v135 h2]
  rw [line_main_v134 h2, line_main_v133 h2, line_main_v132 h2, line_main_c_39 h2]
  rfl

theorem st_sel3_2 :
    R (Proc.devRef (τ := τ) .tc main_v146) = Stage.sel (Stage.isRel (R (Proc.devRef (τ := τ) .tc main_arg1)) 3#32) (Stage.prod (R (Proc.devRef (τ := τ) .tc main_v114)) (Stage.relW3 (R (Proc.devRef (τ := τ) .tc main_arg5)))) := by
  rw [line_main_v146 h3, line_main_call12_v2 h3, line_main_call12_v1 h3, line_main_call12_v0 h3]
  rw [line_main_cst_42 h3, line_main_v145 h3, line_main_v144 h3, line_main_v143 h3]
  rw [line_main_v142 h3, line_main_v141 h3, line_main_v140 h3, line_main_c_41 h3]
  rfl

theorem st_msg_2 :
    R (Proc.devRef (τ := τ) .tc main_v147) = Stage.msg (R (Proc.devRef (τ := τ) .tc main_v81)) (R (Proc.devRef (τ := τ) .tc main_arg0)) (R (Proc.devRef (τ := τ) .tc main_arg1)) (R (Proc.devRef (τ := τ) .tc main_arg5)) := by
  rw [line_main_v147 h3, st_sel3_2 h0 h1 h2 h3 h4 h5, line_main_v139 h3, st_sel2_2 h0 h1 h2 h3 h4 h5]
  rw [line_main_v131 h2, st_sel1_2 h0 h1 h2 h3 h4 h5, line_main_v123 h2, st_sel0_2 h0 h1 h2 h3 h4 h5]
  rw [line_main_v115 h2, line_main_cst_34 h2, st_xr_2 h0 h1 h2 h3 h4 h5]
  rfl

theorem st_pre_2 :
    R (Proc.devRef (τ := τ) .tc main_v157) = Stage.pre (R (Proc.devRef (τ := τ) .tc main_v81)) (R (Proc.devRef (τ := τ) .tc main_arg0)) (R (Proc.devRef (τ := τ) .tc main_arg1)) (R (Proc.devRef (τ := τ) .tc main_arg2)) (R (Proc.devRef (τ := τ) .tc main_arg5)) (R (Proc.devRef (τ := τ) .tc main_arg6)) := by
  rw [line_main_v157 h3, line_main_v156 h3, line_main_v155 h3, line_main_v154 h3]
  rw [line_main_v153 h3, line_main_v152 h3, line_main_cst_43 h3, line_main_v151 h3]
  rw [line_main_v150 h3, line_main_v149 h3, st_scale_2 h0 h1 h2 h3 h4 h5, st_msg_2 h0 h1 h2 h3 h4 h5]
  rw [st_col h0 h1 h2 h3 h4 h5]
  rfl

theorem st_layer_2 :
    R (Proc.devRef (τ := τ) .tc main_v158) = Stage.layer (R (Proc.devRef (τ := τ) .tc main_v81)) (R (Proc.devRef (τ := τ) .tc main_arg0)) (R (Proc.devRef (τ := τ) .tc main_arg1)) (R (Proc.devRef (τ := τ) .tc main_arg2)) (R (Proc.devRef (τ := τ) .tc main_arg5)) (R (Proc.devRef (τ := τ) .tc main_arg6)) := by
  rw [line_main_v158 h3, line_main_call13_v4 h3, line_main_call13_v3 h3, line_main_call13_v2 h3]
  rw [line_main_call13_v1 h3, line_main_call13_v0 h3, line_main_call13_cst h3, line_main_cst_44 h3]
  rw [st_pre_2 h0 h1 h2 h3 h4 h5]
  rfl

theorem st_deg_3 :
    R (Proc.devRef (τ := τ) .tc main_v162) = Stage.deg (R (Proc.devRef (τ := τ) .tc main_arg0)) := by
  rw [line_main_v162 h3, line_main_v161 h3, line_main_v160 h3, line_main_cst_46 h3]
  rw [line_main_v159 h3, line_main_cst_45 h3, st_col h0 h1 h2 h3 h4 h5]
  rfl

theorem st_dinv_3 :
    R (Proc.devRef (τ := τ) .tc main_v169) = Stage.dinv (R (Proc.devRef (τ := τ) .tc main_arg0)) := by
  rw [line_main_v169 h3, line_main_call15_v1 h3, line_main_call15_v0 h3, line_main_cst_50 h3]
  rw [line_main_v168 h3, line_main_v167 h3, line_main_call14_v1 h3, line_main_call14_v0 h3]
  rw [line_main_cst_49 h3, line_main_v166 h3, line_main_v165 h3, line_main_cst_48 h3]
  rw [line_main_v164 h3, line_main_v163 h3, line_main_cst_47 h3, st_deg_3 h0 h1 h2 h3 h4 h5]
  rfl

theorem st_norm_3 :
    R (Proc.devRef (τ := τ) .tc main_v184) = Stage.norm (R (Proc.devRef (τ := τ) .tc main_arg0)) := by
  rw [line_main_v184 h4, line_main_v183 h4, line_main_v182 h3, line_main_v181 h3]
  rw [line_main_v180 h3, line_main_v179 h3, line_main_c_54 h3, line_main_v178 h3]
  rw [line_main_v177 h3, line_main_c_53 h3, line_main_v176 h3, line_main_v175 h3]
  rw [line_main_v174 h3, line_main_v173 h3, line_main_v172 h3, line_main_c_52 h3]
  rw [line_main_v171 h3, line_main_v170 h3, line_main_c_51 h3, st_dinv_3 h0 h1 h2 h3 h4 h5]
  rw [st_col h0 h1 h2 h3 h4 h5, st_row h0 h1 h2 h3 h4 h5]
  rfl

theorem st_scale_3 :
    R (Proc.devRef (τ := τ) .tc main_v225) = Stage.scale (R (Proc.devRef (τ := τ) .tc main_arg0)) (R (Proc.devRef (τ := τ) .tc main_arg2)) := by
  rw [line_main_v225 h4, st_norm_3 h0 h1 h2 h3 h4 h5]
  rfl

theorem st_xr_3 :
    R (Proc.devRef (τ := τ) .tc main_v191) = Stage.xr (R (Proc.devRef (τ := τ) .tc main_v158)) (R (Proc.devRef (τ := τ) .tc main_arg0)) := by
  rw [line_main_v191 h4, line_main_v190 h4, line_main_v189 h4, line_main_v188 h4]
  rw [line_main_v187 h4, line_main_c_56 h4, line_main_v186 h4, line_main_v185 h4]
  rw [line_main_c_55 h4, st_row h0 h1 h2 h3 h4 h5]
  rfl

theorem st_sel0_3 :
    R (Proc.devRef (τ := τ) .tc main_v199) = Stage.sel (Stage.isRel (R (Proc.devRef (τ := τ) .tc main_arg1)) 0#32) (Stage.prod (R (Proc.devRef (τ := τ) .tc main_v191)) (Stage.relW0 (R (Proc.devRef (τ := τ) .tc main_arg7)))) := by
  rw [line_main_v199 h4, line_main_call16_v2 h4, line_main_call16_v1 h4, line_main_call16_v0 h4]
  rw [line_main_cst_59 h4, line_main_v198 h4, line_main_v197 h4, line_main_v196 h4]
  rw [line_main_v195 h4, line_main_v194 h4, line_main_v193 h4, line_main_c_58 h4]
  rfl

theorem st_sel1_3 :
    R (Proc.devRef (τ := τ) .tc main_v207) = Stage.sel (Stage.isRel (R (Proc.devRef (τ := τ) .tc main_arg1)) 1#32) (Stage.prod (R (Proc.devRef (τ := τ) .tc main_v191)) (Stage.relW1 (R (Proc.devRef (τ := τ) .tc main_arg7)))) := by
  rw [line_main_v207 h4, line_main_call17_v2 h4, line_main_call17_v1 h4, line_main_call17_v0 h4]
  rw [line_main_cst_61 h4, line_main_v206 h4, line_main_v205 h4, line_main_v204 h4]
  rw [line_main_v203 h4, line_main_v202 h4, line_main_v201 h4, line_main_c_60 h4]
  rfl

theorem st_sel2_3 :
    R (Proc.devRef (τ := τ) .tc main_v215) = Stage.sel (Stage.isRel (R (Proc.devRef (τ := τ) .tc main_arg1)) 2#32) (Stage.prod (R (Proc.devRef (τ := τ) .tc main_v191)) (Stage.relW2 (R (Proc.devRef (τ := τ) .tc main_arg7)))) := by
  rw [line_main_v215 h4, line_main_call18_v2 h4, line_main_call18_v1 h4, line_main_call18_v0 h4]
  rw [line_main_cst_63 h4, line_main_v214 h4, line_main_v213 h4, line_main_v212 h4]
  rw [line_main_v211 h4, line_main_v210 h4, line_main_v209 h4, line_main_c_62 h4]
  rfl

theorem st_sel3_3 :
    R (Proc.devRef (τ := τ) .tc main_v223) = Stage.sel (Stage.isRel (R (Proc.devRef (τ := τ) .tc main_arg1)) 3#32) (Stage.prod (R (Proc.devRef (τ := τ) .tc main_v191)) (Stage.relW3 (R (Proc.devRef (τ := τ) .tc main_arg7)))) := by
  rw [line_main_v223 h4, line_main_call19_v2 h4, line_main_call19_v1 h4, line_main_call19_v0 h4]
  rw [line_main_cst_65 h4, line_main_v222 h4, line_main_v221 h4, line_main_v220 h4]
  rw [line_main_v219 h4, line_main_v218 h4, line_main_v217 h4, line_main_c_64 h4]
  rfl

theorem st_msg_3 :
    R (Proc.devRef (τ := τ) .tc main_v224) = Stage.msg (R (Proc.devRef (τ := τ) .tc main_v158)) (R (Proc.devRef (τ := τ) .tc main_arg0)) (R (Proc.devRef (τ := τ) .tc main_arg1)) (R (Proc.devRef (τ := τ) .tc main_arg7)) := by
  rw [line_main_v224 h4, st_sel3_3 h0 h1 h2 h3 h4 h5, line_main_v216 h4, st_sel2_3 h0 h1 h2 h3 h4 h5]
  rw [line_main_v208 h4, st_sel1_3 h0 h1 h2 h3 h4 h5, line_main_v200 h4, st_sel0_3 h0 h1 h2 h3 h4 h5]
  rw [line_main_v192 h4, line_main_cst_57 h4, st_xr_3 h0 h1 h2 h3 h4 h5]
  rfl

theorem st_pre_3 :
    R (Proc.devRef (τ := τ) .tc main_v234) = Stage.pre (R (Proc.devRef (τ := τ) .tc main_v158)) (R (Proc.devRef (τ := τ) .tc main_arg0)) (R (Proc.devRef (τ := τ) .tc main_arg1)) (R (Proc.devRef (τ := τ) .tc main_arg2)) (R (Proc.devRef (τ := τ) .tc main_arg7)) (R (Proc.devRef (τ := τ) .tc main_arg8)) := by
  rw [line_main_v234 h5, line_main_v233 h5, line_main_v232 h5, line_main_v231 h5]
  rw [line_main_v230 h4, line_main_v229 h4, line_main_cst_66 h4, line_main_v228 h4]
  rw [line_main_v227 h4, line_main_v226 h4, st_scale_3 h0 h1 h2 h3 h4 h5, st_msg_3 h0 h1 h2 h3 h4 h5]
  rw [st_col h0 h1 h2 h3 h4 h5]
  rfl

theorem st_layer_3 :
    R (Proc.devRef (τ := τ) .tc main_v235) = Stage.layer (R (Proc.devRef (τ := τ) .tc main_v158)) (R (Proc.devRef (τ := τ) .tc main_arg0)) (R (Proc.devRef (τ := τ) .tc main_arg1)) (R (Proc.devRef (τ := τ) .tc main_arg2)) (R (Proc.devRef (τ := τ) .tc main_arg7)) (R (Proc.devRef (τ := τ) .tc main_arg8)) := by
  rw [line_main_v235 h5, line_main_call20_v4 h5, line_main_call20_v3 h5, line_main_call20_v2 h5]
  rw [line_main_call20_v1 h5, line_main_call20_v0 h5, line_main_call20_cst h5, line_main_cst_67 h5]
  rw [st_pre_3 h0 h1 h2 h3 h4 h5]
  rfl

/-- The result buffer of a fixed point, as a function of the fixed point's argument buffers. -/
theorem value_R :
    R (Proc.devRef (τ := τ) .tc main_v240)
      = Stage.out
        (Stage.layer (Stage.x0) (R (Proc.devRef (τ := τ) .tc main_arg0)) (R (Proc.devRef (τ := τ) .tc main_arg1)) (R (Proc.devRef (τ := τ) .tc main_arg2)) (R (Proc.devRef (τ := τ) .tc main_arg3)) (R (Proc.devRef (τ := τ) .tc main_arg4)))
        (Stage.layer (Stage.layer (Stage.x0) (R (Proc.devRef (τ := τ) .tc main_arg0)) (R (Proc.devRef (τ := τ) .tc main_arg1)) (R (Proc.devRef (τ := τ) .tc main_arg2)) (R (Proc.devRef (τ := τ) .tc main_arg3)) (R (Proc.devRef (τ := τ) .tc main_arg4))) (R (Proc.devRef (τ := τ) .tc main_arg0)) (R (Proc.devRef (τ := τ) .tc main_arg1)) (R (Proc.devRef (τ := τ) .tc main_arg2)) (R (Proc.devRef (τ := τ) .tc main_arg5)) (R (Proc.devRef (τ := τ) .tc main_arg6)))
        (Stage.layer (Stage.layer (Stage.layer (Stage.x0) (R (Proc.devRef (τ := τ) .tc main_arg0)) (R (Proc.devRef (τ := τ) .tc main_arg1)) (R (Proc.devRef (τ := τ) .tc main_arg2)) (R (Proc.devRef (τ := τ) .tc main_arg3)) (R (Proc.devRef (τ := τ) .tc main_arg4))) (R (Proc.devRef (τ := τ) .tc main_arg0)) (R (Proc.devRef (τ := τ) .tc main_arg1)) (R (Proc.devRef (τ := τ) .tc main_arg2)) (R (Proc.devRef (τ := τ) .tc main_arg5)) (R (Proc.devRef (τ := τ) .tc main_arg6))) (R (Proc.devRef (τ := τ) .tc main_arg0)) (R (Proc.devRef (τ := τ) .tc main_arg1)) (R (Proc.devRef (τ := τ) .tc main_arg2)) (R (Proc.devRef (τ := τ) .tc main_arg7)) (R (Proc.devRef (τ := τ) .tc main_arg8))) := by
  rw [line_main_v240 h5, line_main_v239 h5, line_main_cst_68 h5, line_main_v238 h5]
  rw [line_main_v237 h5, line_main_v236 h5, st_layer_3 h0 h1 h2 h3 h4 h5, st_layer_2 h0 h1 h2 h3 h4 h5]
  rw [st_layer_1 h0 h1 h2 h3 h4 h5, st_x0 h0 h1 h2 h3 h4 h5]
  rfl

end Stages

/-- What the reference program's line leaves in its result buffer, as a function of the arguments: the mean of the
    starting table and the three layers' outputs, each layer applied to the one before. -/
theorem value (V : Valuation τ sig (Elt Ideal)) :
    after (ops (F := Ideal)) V (Proc.devRef (τ := τ) .tc main_v240)
      = Stage.out
        (Stage.layer (Stage.x0) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)))
        (Stage.layer (Stage.layer (Stage.x0) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4))) (V (Proc.devRef (τ := τ) .tc main_arg0)) (V (Proc.devRef (τ := τ) .tc main_arg1)) (V (Proc.devRef (τ := τ) .tc main_arg2)) (V (Proc.devRef (τ := τ) .tc main_arg5)) (V (Proc.devRef (τ := τ) .tc main_arg6)))
        (Stage.layer (Stage.layer (Stage.layer (Stage.x0) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4))) (V (Proc.devRef (τ := τ) .tc main_arg0)) (V (Proc.devRef (τ := τ) .tc main_arg1)) (V (Proc.devRef (τ := τ) .tc main_arg2)) (V (Proc.devRef (τ := τ) .tc main_arg5)) (V (Proc.devRef (τ := τ) .tc main_arg6))) (V (Proc.devRef (τ := τ) .tc main_arg0)) (V (Proc.devRef (τ := τ) .tc main_arg1)) (V (Proc.devRef (τ := τ) .tc main_arg2)) (V (Proc.devRef (τ := τ) .tc main_arg7)) (V (Proc.devRef (τ := τ) .tc main_arg8))) := by
  have h := value_R (eqsW0 V) (eqsW1 V) (eqsW2 V) (eqsW3 V) (eqsW4 V) (eqsW5 V)
  rw [kept V main_arg0 (by decide), kept V main_arg1 (by decide), kept V main_arg2 (by decide), kept V main_arg3 (by decide), kept V main_arg4 (by decide), kept V main_arg5 (by decide), kept V main_arg6 (by decide), kept V main_arg7 (by decide), kept V main_arg8 (by decide)] at h
  exact h

end Cert.ReferenceIdeal.Hand

end
-- ==== Proof.lean ====
/-
  A three-layer relation-indexed graph convolution on 200000 edges (one node per edge), 128 features and 4 relations:
  an edge-tiled kernel program against its plain array reference, equal as extended reals.

  One layer sends along every edge the source node's feature row times the matrix of the edge's relation, scaled by
  the edge's attribute and its symmetric degree factor, sums the messages by target node, adds a bias and applies the
  leaky rectifier; the result is the mean of the all-ones starting table and the three layers' outputs.
  The reference forms, per relation, the product of every gathered row with that relation's matrix, keeps it on the
  edges of the relation, adds the four and scales once. The kernel program pads the edge arrays to 49 tiles of 4096
  rows, lays the edge's scale into the column of the edge's relation of a four-column weight table (zero elsewhere,
  zero on the padded rows), and a tiled region accumulates, per tile, the four products each times its weight column.
  At the ideal values a zero weight annihilates its product and the surviving term is the reference's (Law.lean); the
  padded rows add zero to node 0. No law used needs a finite entry, so the precondition is never opened.

  The five conjuncts: the two kernel programs' frames are the region-by-region frame certificates; the reference's
  frame and run are its straight line of host operations run once (RefRun.lean); nothing was rewritten by the
  idealization; and the value claim joins the kernel's result (KerRun.lean, KerValue.lean) and the reference's
  (RefValue.lean) through the layer law.
-/
import proofs.«120788_j77403900608956_2_alg».proof.Defs
import proofs.«120788_j77403900608956_2_alg».proof.Proof.Gen.Kernel
import proofs.«120788_j77403900608956_2_alg».proof.Proof.Gen.Kernel.Frame
import proofs.«120788_j77403900608956_2_alg».proof.Proof.Gen.KernelIdeal
import proofs.«120788_j77403900608956_2_alg».proof.Proof.Gen.KernelIdeal.Frame
import proofs.«120788_j77403900608956_2_alg».proof.Proof.Gen.ReferenceIdeal
import proofs.«120788_j77403900608956_2_alg».proof.Proof.Gen.Pre_finite_inputs
import proofs.«120788_j77403900608956_2_alg».proof.Proof.KerRun
import proofs.«120788_j77403900608956_2_alg».proof.Proof.RefRun
import proofs.«120788_j77403900608956_2_alg».proof.Proof.RefSsa
import proofs.«120788_j77403900608956_2_alg».proof.Proof.Law
import proofs.«120788_j77403900608956_2_alg».proof.Proof.KerValue
import proofs.«120788_j77403900608956_2_alg».proof.Proof.RefValue
import Idealize.ShloMosaic.Adequacy
import Idealize.ShloMosaic.Init

noncomputable section

namespace Cert.Proof

open Idealize.ShloMosaic Idealize.SL.Sem Idealize.ShloMosaic.StableHlo

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs; no line of it writes an argument's buffer, so each argument ends as launched. -/
theorem frame_referenceIdeal : Cert.frame_ReferenceIdeal := fun m ρ _ =>
  (θ_run Cert.ReferenceIdeal.defs _ _).mono (fun _ h c => ⟨(h c _).trans (Cert.ReferenceIdeal.Hand.kept _ Cert.ReferenceIdeal.main_arg0 (by decide)),
      (h c _).trans (Cert.ReferenceIdeal.Hand.kept _ Cert.ReferenceIdeal.main_arg1 (by decide)),
      (h c _).trans (Cert.ReferenceIdeal.Hand.kept _ Cert.ReferenceIdeal.main_arg2 (by decide)),
      (h c _).trans (Cert.ReferenceIdeal.Hand.kept _ Cert.ReferenceIdeal.main_arg3 (by decide)),
      (h c _).trans (Cert.ReferenceIdeal.Hand.kept _ Cert.ReferenceIdeal.main_arg4 (by decide)),
      (h c _).trans (Cert.ReferenceIdeal.Hand.kept _ Cert.ReferenceIdeal.main_arg5 (by decide)),
      (h c _).trans (Cert.ReferenceIdeal.Hand.kept _ Cert.ReferenceIdeal.main_arg6 (by decide)),
      (h c _).trans (Cert.ReferenceIdeal.Hand.kept _ Cert.ReferenceIdeal.main_arg7 (by decide)),
      (h c _).trans (Cert.ReferenceIdeal.Hand.kept _ Cert.ReferenceIdeal.main_arg8 (by decide))⟩)
    (Cert.ReferenceIdeal.Hand.run (F := Ideal) m ρ)

/-- The idealization rewrote nothing. -/
theorem preserves : Cert.preserves_Kernel_KernelIdeal := trivial

/-- From memories agreeing on the nine arguments both programs run; the kernel ends with its result buffer at the
    mean of the starting table and its three layers' outputs, the reference with its result at the same expression of
    its own layers, and layer by layer the two are one function of the arguments (Law.lean). -/
theorem algebraic : Cert.algebraic_KernelIdeal_ReferenceIdeal := by
  intro m ρ m' ρ' _ hagree
  refine ⟨fun c => Cert.KernelIdeal.Gen.W25 (F := Ideal) m ρ c (Proc.devRef .tc Cert.KernelIdeal.main_v102), Cert.KernelIdeal.Hand.run m ρ, ?_⟩
  refine (θ_run Cert.ReferenceIdeal.defs _ _).mono (fun r h c => ⟨(h c Cert.ReferenceIdeal.main_v240).trans ?_, (h c _).trans (Cert.ReferenceIdeal.Hand.kept _ Cert.ReferenceIdeal.main_arg0 (by decide)),
      (h c _).trans (Cert.ReferenceIdeal.Hand.kept _ Cert.ReferenceIdeal.main_arg1 (by decide)),
      (h c _).trans (Cert.ReferenceIdeal.Hand.kept _ Cert.ReferenceIdeal.main_arg2 (by decide)),
      (h c _).trans (Cert.ReferenceIdeal.Hand.kept _ Cert.ReferenceIdeal.main_arg3 (by decide)),
      (h c _).trans (Cert.ReferenceIdeal.Hand.kept _ Cert.ReferenceIdeal.main_arg4 (by decide)),
      (h c _).trans (Cert.ReferenceIdeal.Hand.kept _ Cert.ReferenceIdeal.main_arg5 (by decide)),
      (h c _).trans (Cert.ReferenceIdeal.Hand.kept _ Cert.ReferenceIdeal.main_arg6 (by decide)),
      (h c _).trans (Cert.ReferenceIdeal.Hand.kept _ Cert.ReferenceIdeal.main_arg7 (by decide)),
      (h c _).trans (Cert.ReferenceIdeal.Hand.kept _ Cert.ReferenceIdeal.main_arg8 (by decide))⟩)
    (Cert.ReferenceIdeal.Hand.run (F := Ideal) m' ρ')
  obtain ⟨h0, h1, h2, h3, h4, h5, h6, h7, h8⟩ := hagree c
  refine (Cert.ReferenceIdeal.Hand.value _).trans ?_
  refine Eq.trans ?_ (Cert.KernelIdeal.Hand.value m ρ c).symm
  rw [Cert.Law.result_eq, ← h0, ← h1, ← h2, ← h3, ← h4, ← h5, ← h6, ← h7, ← h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
